-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S256x4096 .f32 .bf16
  ∧ IdealRules.truncf_extf.Statement Cert.KernelIdeal.S256x4096 .f32 .bf16
  ∧ IdealRules.truncf_extf.Statement Cert.KernelIdeal.S256x4096 .f32 .bf16
  ∧ IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S2x4096 : Shape := ⟨2, ![2, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg4 : FVec F S2x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S2x4096 .f32 := Host.absf main_arg4
  let main_cst_6 : FVec F S_ .f32 := constant S_ .f32 0x7F800000#32
  let main_v20 : FVec F S2x4096 .f32 := broadcastInDim S2x4096 ![] bcast_S_S2x4096 main_cst_6
  let main_v21 : IVec S2x4096 1 := cmpf .olt main_v19 main_v20
  let main_c_7 : IVec S_ 1 := constantI S_ 1 1#1
  let main_v22 : IVec S_ 1 := (fun x v => Host.reduce IntOp.andi x v reducesTo_S2x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x4096 .f32) (main_arg3 : FVec F S4096x4096 .f32) (main_arg4 : FVec F S2x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S2x4096 : Shape := ⟨2, ![2, 4096]⟩
abbrev S_ : Shape := ⟨0, ![]⟩
abbrev S1024x4096 : Shape := ⟨2, ![1024, 4096]⟩
abbrev S8192x1024 : Shape := ⟨2, ![8192, 1024]⟩
abbrev S256x4096 : Shape := ⟨2, ![256, 4096]⟩
abbrev S256x1024 : Shape := ⟨2, ![256, 1024]⟩
abbrev S2048x4096 : Shape := ⟨2, ![2048, 4096]⟩
abbrev S8192x2048 : Shape := ⟨2, ![8192, 2048]⟩
abbrev S256x2048 : Shape := ⟨2, ![256, 2048]⟩
abbrev S8192x2 : Shape := ⟨2, ![8192, 2]⟩
abbrev S256x2 : Shape := ⟨2, ![256, 2]⟩

abbrev nBuf : Space → Nat
  | .hbm => 61
  | .vmem => 45
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S2x4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .bf16⟩
  | .hbm, ⟨32, _⟩ => ⟨S_, .f32⟩
  | .hbm, ⟨33, _⟩ => ⟨S2x4096, .f32⟩
  | .hbm, ⟨34, _⟩ => ⟨S2x4096, .i1⟩
  | .hbm, ⟨35, _⟩ => ⟨S_, .f32⟩
  | .hbm, ⟨36, _⟩ => ⟨S_, .f32⟩
  | .hbm, ⟨37, _⟩ => ⟨S2x4096, .f32⟩
  | .hbm, ⟨38, _⟩ => ⟨S2x4096, .f32⟩
  | .hbm, ⟨39, _⟩ => ⟨S2x4096, .f32⟩
  | .hbm, ⟨40, _⟩ => ⟨S2x4096, .bf16⟩
  | .hbm, ⟨41, _⟩ => ⟨S1024x4096, .bf16⟩
  | .hbm, ⟨42, _⟩ => ⟨S8192x1024, .bf16⟩
  | .hbm, ⟨43, _⟩ => ⟨S1024x4096, .bf16⟩
  | .hbm, ⟨44, _⟩ => ⟨S8192x1024, .bf16⟩
  | .hbm, ⟨45, _⟩ => ⟨S1024x4096, .bf16⟩
  | .hbm, ⟨46, _⟩ => ⟨S8192x1024, .bf16⟩
  | .hbm, ⟨47, _⟩ => ⟨S1024x4096, .bf16⟩
  | .hbm, ⟨48, _⟩ => ⟨S8192x1024, .bf16⟩
  | .hbm, ⟨49, _⟩ => ⟨S8192x4096, .bf16⟩
  | .hbm, ⟨50, _⟩ => ⟨S2048x4096, .bf16⟩
  | .hbm, ⟨51, _⟩ => ⟨S8192x2048, .bf16⟩
  | .hbm, ⟨52, _⟩ => ⟨S2048x4096, .bf16⟩
  | .hbm, ⟨53, _⟩ => ⟨S8192x2048, .bf16⟩
  | .hbm, ⟨54, _⟩ => ⟨S8192x4096, .bf16⟩
  | .hbm, ⟨55, _⟩ => ⟨S2048x4096, .bf16⟩
  | .hbm, ⟨56, _⟩ => ⟨S8192x2048, .bf16⟩
  | .hbm, ⟨57, _⟩ => ⟨S2048x4096, .bf16⟩
  | .hbm, ⟨58, _⟩ => ⟨S8192x2048, .bf16⟩
  | .hbm, ⟨59, _⟩ => ⟨S8192x4096, .bf16⟩
  | .hbm, ⟨60, _⟩ => ⟨S8192x2, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S256x1024, .bf16⟩
  | .local _ .vmem, ⟨4, _⟩ => ⟨S256x1024, .bf16⟩
  | .local _ .vmem, ⟨5, _⟩ => ⟨S256x4096, .f32⟩
  | .local _ .vmem, ⟨6, _⟩ => ⟨S256x4096, .f32⟩
  | .local _ .vmem, ⟨7, _⟩ => ⟨S1024x4096, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .f32⟩
  | .local _ .vmem, ⟨11, _⟩ => ⟨S256x4096, .f32⟩
  | .local _ .vmem, ⟨12, _⟩ => ⟨S1024x4096, .bf16⟩
  | .local _ .vmem, ⟨13, _⟩ => ⟨S256x1024, .bf16⟩
  | .local _ .vmem, ⟨14, _⟩ => ⟨S256x1024, .bf16⟩
  | .local _ .vmem, ⟨15, _⟩ => ⟨S256x4096, .f32⟩
  | .local _ .vmem, ⟨16, _⟩ => ⟨S256x4096, .f32⟩
  | .local _ .vmem, ⟨17, _⟩ => ⟨S1024x4096, .bf16⟩
  | .local _ .vmem, ⟨18, _⟩ => ⟨S256x1024, .bf16⟩
  | .local _ .vmem, ⟨19, _⟩ => ⟨S256x1024, .bf16⟩
  | .local _ .vmem, ⟨20, _⟩ => ⟨S256x4096, .bf16⟩
  | .local _ .vmem, ⟨21, _⟩ => ⟨S256x4096, .bf16⟩
  | .local _ .vmem, ⟨22, _⟩ => ⟨S2048x4096, .bf16⟩
  | .local _ .vmem, ⟨23, _⟩ => ⟨S256x2048, .bf16⟩
  | .local _ .vmem, ⟨24, _⟩ => ⟨S256x2048, .bf16⟩
  | .local _ .vmem, ⟨25, _⟩ => ⟨S256x4096, .bf16⟩
  | .local _ .vmem, ⟨26, _⟩ => ⟨S256x4096, .bf16⟩
  | .local _ .vmem, ⟨27, _⟩ => ⟨S2048x4096, .bf16⟩
  | .local _ .vmem, ⟨28, _⟩ => ⟨S256x2048, .bf16⟩
  | .local _ .vmem, ⟨29, _⟩ => ⟨S256x2048, .bf16⟩
  | .local _ .vmem, ⟨30, _⟩ => ⟨S256x4096, .bf16⟩
  | .local _ .vmem, ⟨31, _⟩ => ⟨S256x4096, .bf16⟩
  | .local _ .vmem, ⟨32, _⟩ => ⟨S2048x4096, .bf16⟩
  | .local _ .vmem, ⟨33, _⟩ => ⟨S256x2048, .bf16⟩
  | .local _ .vmem, ⟨34, _⟩ => ⟨S256x2048, .bf16⟩
  | .local _ .vmem, ⟨35, _⟩ => ⟨S256x4096, .bf16⟩
  | .local _ .vmem, ⟨36, _⟩ => ⟨S256x4096, .bf16⟩
  | .local _ .vmem, ⟨37, _⟩ => ⟨S2048x4096, .bf16⟩
  | .local _ .vmem, ⟨38, _⟩ => ⟨S256x2048, .bf16⟩
  | .local _ .vmem, ⟨39, _⟩ => ⟨S256x2048, .bf16⟩
  | .local _ .vmem, ⟨40, _⟩ => ⟨S256x4096, .bf16⟩
  | .local _ .vmem, ⟨41, _⟩ => ⟨S256x4096, .bf16⟩
  | .local _ .vmem, ⟨42, _⟩ => ⟨S2x4096, .bf16⟩
  | .local _ .vmem, ⟨43, _⟩ => ⟨S256x2, .f32⟩
  | .local _ .vmem, ⟨44, _⟩ => ⟨S256x2, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_cst_5 : Ref sig .tc := ⟨.hbm, 23, rfl⟩
abbrev main_v8 : Ref sig .tc := ⟨.hbm, 24, rfl⟩
abbrev main_v9 : Ref sig .tc := ⟨.hbm, 25, rfl⟩
abbrev main_cst_6 : Ref sig .tc := ⟨.hbm, 26, rfl⟩
abbrev main_cst_7 : Ref sig .tc := ⟨.hbm, 27, rfl⟩
abbrev main_call2_v0 : Ref sig .tc := ⟨.hbm, 28, rfl⟩
abbrev main_call2_v1 : Ref sig .tc := ⟨.hbm, 29, rfl⟩
abbrev main_v10 : Ref sig .tc := ⟨.hbm, 30, rfl⟩
abbrev main_v11 : Ref sig .tc := ⟨.hbm, 31, rfl⟩
abbrev main_cst_8 : Ref sig .tc := ⟨.hbm, 32, rfl⟩
abbrev main_v12 : Ref sig .tc := ⟨.hbm, 33, rfl⟩
abbrev main_v13 : Ref sig .tc := ⟨.hbm, 34, rfl⟩
abbrev main_cst_9 : Ref sig .tc := ⟨.hbm, 35, rfl⟩
abbrev main_cst_10 : Ref sig .tc := ⟨.hbm, 36, rfl⟩
abbrev main_call3_v0 : Ref sig .tc := ⟨.hbm, 37, rfl⟩
abbrev main_call3_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x4096 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x4096 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x2048 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2x4096 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S256x2 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  bcast_S_S4096x4096 : S_.BroadcastsInDim S4096x4096 (![] : Fin 0 → Fin S4096x4096.rank)
  bitsLt_bf16_f32 : FTy.bits .bf16 < FTy.bits .f32
  bcast_S_S2x4096 : S_.BroadcastsInDim S2x4096 (![] : Fin 0 → Fin S2x4096.rank)
  slices_S4096x4096_S1024x4096_0_0 : S4096x4096.Slices ![0, 0] S1024x4096
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  slices_S4096x4096_S1024x4096_1024_0 : S4096x4096.Slices ![1024, 0] S1024x4096
  slices_S4096x4096_S1024x4096_2048_0 : S4096x4096.Slices ![2048, 0] S1024x4096
  slices_S4096x4096_S1024x4096_3072_0 : S4096x4096.Slices ![3072, 0] S1024x4096
  concatenates_S8192x1024_S8192x1024_S8192x1024_S8192x1024_S8192x4096_d1 : Shape.Concatenates [S8192x1024, S8192x1024, S8192x1024, S8192x1024] S8192x4096 1
  slices_S4096x4096_S2048x4096_0_0 : S4096x4096.Slices ![0, 0] S2048x4096
  shapeCasts_S256x4096_S256x4096 : S256x4096.ShapeCasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  slices_S4096x4096_S2048x4096_2048_0 : S4096x4096.Slices ![2048, 0] S2048x4096
  concatenates_S8192x2048_S8192x2048_S8192x4096_d1 : Shape.Concatenates [S8192x2048, S8192x2048] S8192x4096 1
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  inb_S256x2_S256x2_0_0 : ∀ a, (![0, 0] : Fin 2 → Nat) a + S256x2.size a ≤ S256x2.size a
  h_S256x2 : 0 < S256x2.numel
  dot_S256x4096_S1024x4096_S256x1024_1_1_0_0_n_n_wf : DotDims.WF S256x4096 S1024x4096 S256x1024 [1] [1] [0] [0] [] []
  dot_S256x4096_S2048x4096_S256x2048_1_1_0_0_n_n_wf : DotDims.WF S256x4096 S2048x4096 S256x2048 [1] [1] [0] [0] [] []
  dot_S256x4096_S2x4096_S256x2_1_1_0_0_n_n_wf : DotDims.WF S256x4096 S2x4096 S256x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .bf16 = 32 ∨ (Rect.block (s := S8192x1024) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x1024.size a
  hwx1_2 : ∀ i : grid1.Coords, EltTy.bits .bf16 = 32 ∨ (Rect.block (s := S8192x1024) S256x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S8192x1024.size a
  hwx2_2 : ∀ i : grid2.Coords, EltTy.bits .bf16 = 32 ∨ (Rect.block (s := S8192x1024) S256x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S8192x4096.size a
  hwx3_0 : ∀ i : grid3.Coords, EltTy.bits .f32 = 32 ∨ (Rect.block (s := S8192x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S8192x1024.size a
  hwx3_2 : ∀ i : grid3.Coords, EltTy.bits .bf16 = 32 ∨ (Rect.block (s := S8192x1024) S256x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x4096.size a ≤ S8192x4096.size a
  hwx4_0 : ∀ i : grid4.Coords, EltTy.bits .bf16 = 32 ∨ (Rect.block (s := S8192x4096) S256x4096.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x4096.size a ≤ S2048x4096.size a
  hwx4_1 : ∀ i : grid4.Coords, EltTy.bits .bf16 = 32 ∨ (Rect.block (s := S2048x4096) S2048x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S8192x2048.size a
  hwx4_2 : ∀ i : grid4.Coords, EltTy.bits .bf16 = 32 ∨ (Rect.block (s := S8192x2048) S256x2048.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x4096.size a ≤ S8192x4096.size a
  hwx5_0 : ∀ i : grid5.Coords, EltTy.bits .bf16 = 32 ∨ (Rect.block (s := S8192x4096) S256x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x4096.size a ≤ S2048x4096.size a
  hwx5_1 : ∀ i : grid5.Coords, EltTy.bits .bf16 = 32 ∨ (Rect.block (s := S2048x4096) S2048x4096.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x2048.size a ≤ S8192x2048.size a
  hwx5_2 : ∀ i : grid5.Coords, EltTy.bits .bf16 = 32 ∨ (Rect.block (s := S8192x2048) S256x2048.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x4096.size a ≤ S8192x4096.size a
  hwx6_0 : ∀ i : grid6.Coords, EltTy.bits .bf16 = 32 ∨ (Rect.block (s := S8192x4096) S256x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x4096.size a ≤ S2048x4096.size a
  hwx6_1 : ∀ i : grid6.Coords, EltTy.bits .bf16 = 32 ∨ (Rect.block (s := S2048x4096) S2048x4096.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x2048.size a ≤ S8192x2048.size a
  hwx6_2 : ∀ i : grid6.Coords, EltTy.bits .bf16 = 32 ∨ (Rect.block (s := S8192x2048) S256x2048.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x4096.size a ≤ S8192x4096.size a
  hwx7_0 : ∀ i : grid7.Coords, EltTy.bits .bf16 = 32 ∨ (Rect.block (s := S8192x4096) S256x4096.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x4096.size a ≤ S2048x4096.size a
  hwx7_1 : ∀ i : grid7.Coords, EltTy.bits .bf16 = 32 ∨ (Rect.block (s := S2048x4096) S2048x4096.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x2048.size a ≤ S8192x2048.size a
  hwx7_2 : ∀ i : grid7.Coords, EltTy.bits .bf16 = 32 ∨ (Rect.block (s := S8192x2048) S256x2048.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x4096.size a ≤ S8192x4096.size a
  hwx8_0 : ∀ i : grid8.Coords, EltTy.bits .bf16 = 32 ∨ (Rect.block (s := S8192x4096) S256x4096.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2x4096.size a ≤ S2x4096.size a
  hwx8_1 : ∀ i : grid8.Coords, EltTy.bits .bf16 = 32 ∨ (Rect.block (s := S2x4096) S2x4096.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x2.size a ≤ S8192x2.size a
  hwx8_2 : ∀ i : grid8.Coords, EltTy.bits .f32 = 32 ∨ (Rect.block (s := S8192x2) S256x2.size (cc8_transform_2 i) (hinb8_2 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf
def dot_S256x4096_S2x4096_S256x2_1_1_0_0_n_n : DotDims S256x4096 S2x4096 S256x2 where
  lhsContracting := [1]
  rhsContracting := [1]
  lhsNonContracting := [0]
  rhsNonContracting := [0]
  lhsBatch := []
  rhsBatch := []
  wf := dot_S256x4096_S2x4096_S256x2_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1024x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S256x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v24) S256x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2048x4096.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S256x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v24) S256x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S2048x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S256x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v29) S256x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v30) S2048x4096.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S256x2048.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v29) S256x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S2048x4096.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v33) S256x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v34) S256x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v15) S2x4096.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v35) S256x2.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S2x4096 : Shape := ⟨2, ![2, 4096]⟩
abbrev S_ : Shape := ⟨0, ![]⟩
abbrev S4096x2 : Shape := ⟨2, ![4096, 2]⟩
abbrev S8192x2 : Shape := ⟨2, ![8192, 2]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S2x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .i1⟩
  | .hbm, ⟨25, _⟩ => ⟨S_, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .i1⟩
  | .hbm, ⟨45, _⟩ => ⟨S_, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S8192x4096, .f32⟩
  | .hbm, ⟨62, _⟩ => ⟨S_, .f32⟩
  | .hbm, ⟨63, _⟩ => ⟨S8192x4096, .f32⟩
  | .hbm, ⟨64, _⟩ => ⟨S8192x4096, .i1⟩
  | .hbm, ⟨65, _⟩ => ⟨S_, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S_, .f32⟩
  | .hbm, ⟨72, _⟩ => ⟨S2x4096, .f32⟩
  | .hbm, ⟨73, _⟩ => ⟨S2x4096, .i1⟩
  | .hbm, ⟨74, _⟩ => ⟨S_, .f32⟩
  | .hbm, ⟨75, _⟩ => ⟨S_, .f32⟩
  | .hbm, ⟨76, _⟩ => ⟨S2x4096, .f32⟩
  | .hbm, ⟨77, _⟩ => ⟨S2x4096, .f32⟩
  | .hbm, ⟨78, _⟩ => ⟨S2x4096, .f32⟩
  | .hbm, ⟨79, _⟩ => ⟨S2x4096, .f32⟩
  | .hbm, ⟨80, _⟩ => ⟨S4096x2, .f32⟩
  | .hbm, ⟨81, _⟩ => ⟨S8192x2, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_cst_6 : Ref sig .tc := ⟨.hbm, 26, rfl⟩
abbrev main_call1_v0 : Ref sig .tc := ⟨.hbm, 27, rfl⟩
abbrev main_call1_v1 : Ref sig .tc := ⟨.hbm, 28, rfl⟩
abbrev main_v12 : Ref sig .tc := ⟨.hbm, 29, rfl⟩
abbrev main_v13 : Ref sig .tc := ⟨.hbm, 30, rfl⟩
abbrev main_cst_7 : Ref sig .tc := ⟨.hbm, 31, rfl⟩
abbrev main_v14 : Ref sig .tc := ⟨.hbm, 32, rfl⟩
abbrev main_v15 : Ref sig .tc := ⟨.hbm, 33, rfl⟩
abbrev main_cst_8 : Ref sig .tc := ⟨.hbm, 34, rfl⟩
abbrev main_cst_9 : Ref sig .tc := ⟨.hbm, 35, rfl⟩
abbrev main_call2_v0 : Ref sig .tc := ⟨.hbm, 36, rfl⟩
abbrev main_call2_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_10 : Ref sig .tc := ⟨.hbm, 42, rfl⟩
abbrev main_v20 : Ref sig .tc := ⟨.hbm, 43, rfl⟩
abbrev main_v21 : Ref sig .tc := ⟨.hbm, 44, rfl⟩
abbrev main_cst_11 : Ref sig .tc := ⟨.hbm, 45, rfl⟩
abbrev main_cst_12 : Ref sig .tc := ⟨.hbm, 46, rfl⟩
abbrev main_call3_v0 : Ref sig .tc := ⟨.hbm, 47, rfl⟩
abbrev main_call3_v1 : Ref sig .tc := ⟨.hbm, 48, rfl⟩
abbrev main_v22 : Ref sig .tc := ⟨.hbm, 49, rfl⟩
abbrev main_v23 : Ref sig .tc := ⟨.hbm, 50, rfl⟩
abbrev main_cst_13 : Ref sig .tc := ⟨.hbm, 51, rfl⟩
abbrev main_v24 : Ref sig .tc := ⟨.hbm, 52, rfl⟩
abbrev main_v25 : Ref sig .tc := ⟨.hbm, 53, rfl⟩
abbrev main_cst_14 : Ref sig .tc := ⟨.hbm, 54, rfl⟩
abbrev main_cst_15 : Ref sig .tc := ⟨.hbm, 55, rfl⟩
abbrev main_call4_v0 : Ref sig .tc := ⟨.hbm, 56, rfl⟩
abbrev main_call4_v1 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_16 : Ref sig .tc := ⟨.hbm, 62, rfl⟩
abbrev main_v30 : Ref sig .tc := ⟨.hbm, 63, rfl⟩
abbrev main_v31 : Ref sig .tc := ⟨.hbm, 64, rfl⟩
abbrev main_cst_17 : Ref sig .tc := ⟨.hbm, 65, rfl⟩
abbrev main_cst_18 : Ref sig .tc := ⟨.hbm, 66, rfl⟩
abbrev main_call5_v0 : Ref sig .tc := ⟨.hbm, 67, rfl⟩
abbrev main_call5_v1 : Ref sig .tc := ⟨.hbm, 68, rfl⟩
abbrev main_v32 : Ref sig .tc := ⟨.hbm, 69, rfl⟩
abbrev main_v33 : Ref sig .tc := ⟨.hbm, 70, rfl⟩
abbrev main_cst_19 : Ref sig .tc := ⟨.hbm, 71, rfl⟩
abbrev main_v34 : Ref sig .tc := ⟨.hbm, 72, rfl⟩
abbrev main_v35 : Ref sig .tc := ⟨.hbm, 73, rfl⟩
abbrev main_cst_20 : Ref sig .tc := ⟨.hbm, 74, rfl⟩
abbrev main_cst_21 : Ref sig .tc := ⟨.hbm, 75, rfl⟩
abbrev main_call6_v0 : Ref sig .tc := ⟨.hbm, 76, rfl⟩
abbrev main_call6_v1 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S2x4096 : S_.BroadcastsInDim S2x4096 (![] : Fin 0 → Fin S2x4096.rank)
  transposes_S2x4096_S4096x2_1_0 : S2x4096.Transposes [1, 0] S4096x2
  dot_S8192x4096_S4096x4096_S8192x4096_1_0_0_1_n_n_wf : DotDims.WF S8192x4096 S4096x4096 S8192x4096 [1] [0] [0] [1] [] []
  dot_S8192x4096_S4096x2_S8192x2_1_0_0_1_n_n_wf : DotDims.WF S8192x4096 S4096x2 S8192x2 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x2_S8192x2_1_0_0_1_n_n : DotDims S8192x4096 S4096x2 S8192x2 where
  lhsContracting := [1]
  rhsContracting := [0]
  lhsNonContracting := [0]
  rhsNonContracting := [1]
  lhsBatch := []
  rhsBatch := []
  wf := dot_S8192x4096_S4096x2_S8192x2_1_0_0_1_n_n_wf

class Facts : Prop extends Facts₀ where

variable [Facts]
-- ==== Proof.K_Regions.lean ====
/-
  The nine regions of the program, one pallas_call each over a grid of 32 row blocks: regions 0–3 are layer 1 on the
  four column chunks of its weights, regions 4–5 and 6–7 the two hidden layers on two column chunks each, region 8 the
  output layer. At grid point `t` a region's body is handed rows [256·t, 256·t + 256) of the activations (window 0),
  the whole weight chunk (window 1, the same block at every point, moved in once) and the output's row block
  (window 2); it reads the two inputs whole, computes its payload — layer 1: the rescale, two products against the
  chunk, their sum, the sign quantiser; the hidden layers: one product, sign-quantised; the output layer: one product —
  and overwrites the output block whole, keeping nothing between points. For each region this module states, at any
  entry contents `V` of the core's buffers, what the output block holds after the body (one whole-block store of the
  payload), proves the body's Hoare triple by symbolic execution, and packages the per-point data the pipeline library
  asks for: inputs left in place, the output at the stored payload, nothing owed, the scoped rest untouched.
-/
import proofs.«102262_j38096359916038_2_alg».proof.Proof.Gen.Kernel.Launch
import proofs.«102262_j38096359916038_2_alg».proof.Proof.Gen.Kernel.Skeleton
import proofs.«102262_j38096359916038_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Region 0 -/

/-- Window `w`'s block at grid point `t`, read off the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block, whether it was moved in at this point or not. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- The weight chunk's staging buffer holds the chunk at every point: moved in once, its block index never moves. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- The three rectangles the body touches: each buffer whole. -/
abbrev wholeX0 : Rect S256x4096 := Rect.unit (s := S256x4096) ![0, 0] S256x4096.size inb_S256x4096_S256x4096_0_0
abbrev wholeW0 : Rect S1024x4096 := Rect.unit (s := S1024x4096) ![0, 0] S1024x4096.size inb_S1024x4096_S1024x4096_0_0
abbrev wholeO0 : Rect S256x1024 := Rect.unit (s := S256x1024) ![0, 0] S256x1024.size inb_S256x1024_S256x1024_0_0

/-- What the output's staging buffer holds after the body: the one whole-block store of the body's payload, a
    function of the two input blocks. -/
def stored0 (x0 : Vec F S256x4096 .f32) (x1 : Vec F S1024x4096 .bf16) : Vec F S256x1024 .bf16 :=
  View.canon [⟨wholeO0, k0_pay1 (View.ld x0 wholeX0) (View.ld x1 wholeW0)⟩]

/-- The one store covers the output block. -/
theorem stored0_covers (p0 : Vec F S256x1024 .bf16) (y : S256x1024.Idx) :
    ∃ pc ∈ ([⟨wholeO0, p0⟩] : List (View.Piece (Elt F) S256x1024 .bf16)), y ∈ pc.1.set :=
  View.cover_of_tiled [⟨wholeO0, p0⟩] S256x1024.size (by rfl) y

set_option maxHeartbeats 1000000 in
/-- The body's triple: on whole staging buffers, the inputs at contents `x0`, `x1` and the output at anything, it
    runs to the end, leaves the inputs as they were and the output at `stored0 x0 x1`. -/
theorem body_triple0 (c : Dev nD) (E : Set ℕ) (i : grid0.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__binlinear_split_kernel i arg1 harg1 arg2 harg2 arg3 harg3) K := by
  simp only [cc0__binlinear_split_kernel_eq_skeleton]; unfold cc0__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored0_covers _)

/-- The per-point data of this pipeline on core `c`: its arrays as the region finds them; after the body at point
    `t` each input's buffer still at its block and the output's at the stored payload of the two input blocks; the
    scoped rest and the generator register untouched; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => stored0 (blockAt0 V c 0 t) (blockAt0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after0 (c : Dev nD) (t : Fin cfg0.N) : (data0 V c).after 0 t = blockAt0 V c 0 t := by dsimp only [data0]
theorem data0_after1 (c : Dev nD) (t : Fin cfg0.N) : (data0 V c).after 1 t = blockAt0 V c 1 t := by dsimp only [data0]
theorem data0_after2 (c : Dev nD) (t : Fin cfg0.N) :
    (data0 V c).after 2 t = stored0 (blockAt0 V c 0 t) (blockAt0 V c 1 t) := by dsimp only [data0]

theorem held0_0 (c : Dev nD) (t : Fin cfg0.N) (d) : (data0 V c).before 0 t d = blockAt0 V c 0 t :=
  held0_0_of V (data0 V c) (data0_A V c 0) (data0_after0 V c) t d
theorem held0_1 (c : Dev nD) (t : Fin cfg0.N) (d) : (data0 V c).before 1 t d = blockAt0 V c 1 t :=
  held0_1_of V (data0 V c) (data0_A V c 1) (data0_after1 V c) t d

/-- What the body is called with at point `t`, window by window, -/
def pointPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def pointPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the inputs' buffers hold their blocks, so the body's triple applies; the invariant and the
    core's dues pass through unread. -/
theorem point_sound0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [held0_0, held0_1]
  rw [show (data0 V c).Φ t.succ = (data0 V c).Φ t.castSucc from rfl,
    show (data0 V c).owesAt () t.succ = (data0 V c).owesAt () t.castSucc from rfl,
    data0_after0, data0_after1, data0_after2]
  iintro ⟨HΦ, Ho, ⟨%d0, H0⟩, ⟨%d1, H1⟩, ⟨%d2, H2⟩⟩
  iapply (body_triple0 c Set.univ (grid0.coords t) _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (data0 (F := F) V c) (defs₀ (F := F)) Variants.none () Set.univ := fun t => by
  rw [bigSep_W0, bigSep_W0]
  exact point_sound0 V c t

/-! ## Region 1 -/

/-- Window `w`'s block at grid point `t`, read off the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's row block, whether it was moved in at this point or not. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- The weight chunk's staging buffer holds the chunk at every point: moved in once, its block index never moves. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The three rectangles the body touches: each buffer whole. -/
abbrev wholeX1 : Rect S256x4096 := Rect.unit (s := S256x4096) ![0, 0] S256x4096.size inb_S256x4096_S256x4096_0_0
abbrev wholeW1 : Rect S1024x4096 := Rect.unit (s := S1024x4096) ![0, 0] S1024x4096.size inb_S1024x4096_S1024x4096_0_0
abbrev wholeO1 : Rect S256x1024 := Rect.unit (s := S256x1024) ![0, 0] S256x1024.size inb_S256x1024_S256x1024_0_0

/-- What the output's staging buffer holds after the body: the one whole-block store of the body's payload, a
    function of the two input blocks. -/
def stored1 (x0 : Vec F S256x4096 .f32) (x1 : Vec F S1024x4096 .bf16) : Vec F S256x1024 .bf16 :=
  View.canon [⟨wholeO1, k1_pay1 (View.ld x0 wholeX1) (View.ld x1 wholeW1)⟩]

/-- The one store covers the output block. -/
theorem stored1_covers (p0 : Vec F S256x1024 .bf16) (y : S256x1024.Idx) :
    ∃ pc ∈ ([⟨wholeO1, p0⟩] : List (View.Piece (Elt F) S256x1024 .bf16)), y ∈ pc.1.set :=
  View.cover_of_tiled [⟨wholeO1, p0⟩] S256x1024.size (by rfl) y

set_option maxHeartbeats 1000000 in
/-- The body's triple: on whole staging buffers, the inputs at contents `x0`, `x1` and the output at anything, it
    runs to the end, leaves the inputs as they were and the output at `stored1 x0 x1`. -/
theorem body_triple1 (c : Dev nD) (E : Set ℕ) (i : grid1.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored1 x0 x1)) -∗ K ⟨⟩))
      ⊢ wp frame (wpE (defs₀ (F := F)) Variants.none c none) E (cc1__binlinear_split_kernel i arg1 harg1 arg2 harg2 arg3 harg3) K := by
  simp only [cc1__binlinear_split_kernel_eq_skeleton]; unfold cc1__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The per-point data of this pipeline on core `c`: its arrays as the region finds them; after the body at point
    `t` each input's buffer still at its block and the output's at the stored payload of the two input blocks; the
    scoped rest and the generator register untouched; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => stored1 (blockAt1 V c 0 t) (blockAt1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after0 (c : Dev nD) (t : Fin cfg1.N) : (data1 V c).after 0 t = blockAt1 V c 0 t := by dsimp only [data1]
theorem data1_after1 (c : Dev nD) (t : Fin cfg1.N) : (data1 V c).after 1 t = blockAt1 V c 1 t := by dsimp only [data1]
theorem data1_after2 (c : Dev nD) (t : Fin cfg1.N) :
    (data1 V c).after 2 t = stored1 (blockAt1 V c 0 t) (blockAt1 V c 1 t) := by dsimp only [data1]

theorem held1_0 (c : Dev nD) (t : Fin cfg1.N) (d) : (data1 V c).before 0 t d = blockAt1 V c 0 t :=
  held1_0_of V (data1 V c) (data1_A V c 0) (data1_after0 V c) t d
theorem held1_1 (c : Dev nD) (t : Fin cfg1.N) (d) : (data1 V c).before 1 t d = blockAt1 V c 1 t :=
  held1_1_of V (data1 V c) (data1_A V c 1) (data1_after1 V c) t d

/-- What the body is called with at point `t`, window by window, -/
def pointPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what it returns. -/
def pointPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the inputs' buffers hold their blocks, so the body's triple applies; the invariant and the
    core's dues pass through unread. -/
theorem point_sound1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [held1_0, held1_1]
  rw [show (data1 V c).Φ t.succ = (data1 V c).Φ t.castSucc from rfl,
    show (data1 V c).owesAt () t.succ = (data1 V c).owesAt () t.castSucc from rfl,
    data1_after0, data1_after1, data1_after2]
  iintro ⟨HΦ, Ho, ⟨%d0, H0⟩, ⟨%d1, H1⟩, ⟨%d2, H2⟩⟩
  iapply (body_triple1 c Set.univ (grid1.coords t) _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (data1 (F := F) V c) (defs₀ (F := F)) Variants.none () Set.univ := fun t => by
  rw [bigSep_W1, bigSep_W1]
  exact point_sound1 V c t

/-! ## Region 2 -/

/-- Window `w`'s block at grid point `t`, read off the window's array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's row block, whether it was moved in at this point or not. -/
theorem held2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
/-- The weight chunk's staging buffer holds the chunk at every point: moved in once, its block index never moves. -/
theorem held2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The three rectangles the body touches: each buffer whole. -/
abbrev wholeX2 : Rect S256x4096 := Rect.unit (s := S256x4096) ![0, 0] S256x4096.size inb_S256x4096_S256x4096_0_0
abbrev wholeW2 : Rect S1024x4096 := Rect.unit (s := S1024x4096) ![0, 0] S1024x4096.size inb_S1024x4096_S1024x4096_0_0
abbrev wholeO2 : Rect S256x1024 := Rect.unit (s := S256x1024) ![0, 0] S256x1024.size inb_S256x1024_S256x1024_0_0

/-- What the output's staging buffer holds after the body: the one whole-block store of the body's payload, a
    function of the two input blocks. -/
def stored2 (x0 : Vec F S256x4096 .f32) (x1 : Vec F S1024x4096 .bf16) : Vec F S256x1024 .bf16 :=
  View.canon [⟨wholeO2, k2_pay1 (View.ld x0 wholeX2) (View.ld x1 wholeW2)⟩]

/-- The one store covers the output block. -/
theorem stored2_covers (p0 : Vec F S256x1024 .bf16) (y : S256x1024.Idx) :
    ∃ pc ∈ ([⟨wholeO2, p0⟩] : List (View.Piece (Elt F) S256x1024 .bf16)), y ∈ pc.1.set :=
  View.cover_of_tiled [⟨wholeO2, p0⟩] S256x1024.size (by rfl) y

set_option maxHeartbeats 1000000 in
/-- The body's triple: on whole staging buffers, the inputs at contents `x0`, `x1` and the output at anything, it
    runs to the end, leaves the inputs as they were and the output at `stored2 x0 x1`. -/
theorem body_triple2 (c : Dev nD) (E : Set ℕ) (i : grid2.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored2 x0 x1)) -∗ K ⟨⟩))
      ⊢ wp frame (wpE (defs₀ (F := F)) Variants.none c none) E (cc2__binlinear_split_kernel i arg1 harg1 arg2 harg2 arg3 harg3) K := by
  simp only [cc2__binlinear_split_kernel_eq_skeleton]; unfold cc2__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored2_covers _)

/-- The per-point data of this pipeline on core `c`: its arrays as the region finds them; after the body at point
    `t` each input's buffer still at its block and the output's at the stored payload of the two input blocks; the
    scoped rest and the generator register untouched; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2 (blockAt2 V c 0 t) (blockAt2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after0 (c : Dev nD) (t : Fin cfg2.N) : (data2 V c).after 0 t = blockAt2 V c 0 t := by dsimp only [data2]
theorem data2_after1 (c : Dev nD) (t : Fin cfg2.N) : (data2 V c).after 1 t = blockAt2 V c 1 t := by dsimp only [data2]
theorem data2_after2 (c : Dev nD) (t : Fin cfg2.N) :
    (data2 V c).after 2 t = stored2 (blockAt2 V c 0 t) (blockAt2 V c 1 t) := by dsimp only [data2]

theorem held2_0 (c : Dev nD) (t : Fin cfg2.N) (d) : (data2 V c).before 0 t d = blockAt2 V c 0 t :=
  held2_0_of V (data2 V c) (data2_A V c 0) (data2_after0 V c) t d
theorem held2_1 (c : Dev nD) (t : Fin cfg2.N) (d) : (data2 V c).before 1 t d = blockAt2 V c 1 t :=
  held2_1_of V (data2 V c) (data2_A V c 1) (data2_after1 V c) t d

/-- What the body is called with at point `t`, window by window, -/
def pointPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def pointPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

/-- The body at any point: the inputs' buffers hold their blocks, so the body's triple applies; the invariant and the
    core's dues pass through unread. -/
theorem point_sound2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [held2_0, held2_1]
  rw [show (data2 V c).Φ t.succ = (data2 V c).Φ t.castSucc from rfl,
    show (data2 V c).owesAt () t.succ = (data2 V c).owesAt () t.castSucc from rfl,
    data2_after0, data2_after1, data2_after2]
  iintro ⟨HΦ, Ho, ⟨%d0, H0⟩, ⟨%d1, H1⟩, ⟨%d2, H2⟩⟩
  iapply (body_triple2 c Set.univ (grid2.coords t) _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (data2 (F := F) V c) (defs₀ (F := F)) Variants.none () Set.univ := fun t => by
  rw [bigSep_W2, bigSep_W2]
  exact point_sound2 V c t

/-! ## Region 3 -/

/-- Window `w`'s block at grid point `t`, read off the window's array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the point's row block, whether it was moved in at this point or not. -/
theorem held3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
/-- The weight chunk's staging buffer holds the chunk at every point: moved in once, its block index never moves. -/
theorem held3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- The three rectangles the body touches: each buffer whole. -/
abbrev wholeX3 : Rect S256x4096 := Rect.unit (s := S256x4096) ![0, 0] S256x4096.size inb_S256x4096_S256x4096_0_0
abbrev wholeW3 : Rect S1024x4096 := Rect.unit (s := S1024x4096) ![0, 0] S1024x4096.size inb_S1024x4096_S1024x4096_0_0
abbrev wholeO3 : Rect S256x1024 := Rect.unit (s := S256x1024) ![0, 0] S256x1024.size inb_S256x1024_S256x1024_0_0

/-- What the output's staging buffer holds after the body: the one whole-block store of the body's payload, a
    function of the two input blocks. -/
def stored3 (x0 : Vec F S256x4096 .f32) (x1 : Vec F S1024x4096 .bf16) : Vec F S256x1024 .bf16 :=
  View.canon [⟨wholeO3, k3_pay1 (View.ld x0 wholeX3) (View.ld x1 wholeW3)⟩]

/-- The one store covers the output block. -/
theorem stored3_covers (p0 : Vec F S256x1024 .bf16) (y : S256x1024.Idx) :
    ∃ pc ∈ ([⟨wholeO3, p0⟩] : List (View.Piece (Elt F) S256x1024 .bf16)), y ∈ pc.1.set :=
  View.cover_of_tiled [⟨wholeO3, p0⟩] S256x1024.size (by rfl) y

set_option maxHeartbeats 1000000 in
/-- The body's triple: on whole staging buffers, the inputs at contents `x0`, `x1` and the output at anything, it
    runs to the end, leaves the inputs as they were and the output at `stored3 x0 x1`. -/
theorem body_triple3 (c : Dev nD) (E : Set ℕ) (i : grid3.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored3 x0 x1)) -∗ K ⟨⟩))
      ⊢ wp frame (wpE (defs₀ (F := F)) Variants.none c none) E (cc3__binlinear_split_kernel i arg1 harg1 arg2 harg2 arg3 harg3) K := by
  simp only [cc3__binlinear_split_kernel_eq_skeleton]; unfold cc3__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The per-point data of this pipeline on core `c`: its arrays as the region finds them; after the body at point
    `t` each input's buffer still at its block and the output's at the stored payload of the two input blocks; the
    scoped rest and the generator register untouched; nothing owed; full shares. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => stored3 (blockAt3 V c 0 t) (blockAt3 V c 1 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after0 (c : Dev nD) (t : Fin cfg3.N) : (data3 V c).after 0 t = blockAt3 V c 0 t := by dsimp only [data3]
theorem data3_after1 (c : Dev nD) (t : Fin cfg3.N) : (data3 V c).after 1 t = blockAt3 V c 1 t := by dsimp only [data3]
theorem data3_after2 (c : Dev nD) (t : Fin cfg3.N) :
    (data3 V c).after 2 t = stored3 (blockAt3 V c 0 t) (blockAt3 V c 1 t) := by dsimp only [data3]

theorem held3_0 (c : Dev nD) (t : Fin cfg3.N) (d) : (data3 V c).before 0 t d = blockAt3 V c 0 t :=
  held3_0_of V (data3 V c) (data3_A V c 0) (data3_after0 V c) t d
theorem held3_1 (c : Dev nD) (t : Fin cfg3.N) (d) : (data3 V c).before 1 t d = blockAt3 V c 1 t :=
  held3_1_of V (data3 V c) (data3_A V c 1) (data3_after1 V c) t d

/-- What the body is called with at point `t`, window by window, -/
def pointPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it returns. -/
def pointPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the inputs' buffers hold their blocks, so the body's triple applies; the invariant and the
    core's dues pass through unread. -/
theorem point_sound3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [held3_0, held3_1]
  rw [show (data3 V c).Φ t.succ = (data3 V c).Φ t.castSucc from rfl,
    show (data3 V c).owesAt () t.succ = (data3 V c).owesAt () t.castSucc from rfl,
    data3_after0, data3_after1, data3_after2]
  iintro ⟨HΦ, Ho, ⟨%d0, H0⟩, ⟨%d1, H1⟩, ⟨%d2, H2⟩⟩
  iapply (body_triple3 c Set.univ (grid3.coords t) _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (data3 (F := F) V c) (defs₀ (F := F)) Variants.none () Set.univ := fun t => by
  rw [bigSep_W3, bigSep_W3]
  exact point_sound3 V c t

/-! ## Region 4 -/

/-- Window `w`'s block at grid point `t`, read off the window's array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the point's row block, whether it was moved in at this point or not. -/
theorem held4_0_of {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)
/-- The weight chunk's staging buffer holds the chunk at every point: moved in once, its block index never moves. -/
theorem held4_1_of {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)

/-- The three rectangles the body touches: each buffer whole. -/
abbrev wholeX4 : Rect S256x4096 := Rect.unit (s := S256x4096) ![0, 0] S256x4096.size inb_S256x4096_S256x4096_0_0
abbrev wholeW4 : Rect S2048x4096 := Rect.unit (s := S2048x4096) ![0, 0] S2048x4096.size inb_S2048x4096_S2048x4096_0_0
abbrev wholeO4 : Rect S256x2048 := Rect.unit (s := S256x2048) ![0, 0] S256x2048.size inb_S256x2048_S256x2048_0_0

/-- What the output's staging buffer holds after the body: the one whole-block store of the body's payload, a
    function of the two input blocks. -/
def stored4 (x0 : Vec F S256x4096 .bf16) (x1 : Vec F S2048x4096 .bf16) : Vec F S256x2048 .bf16 :=
  View.canon [⟨wholeO4, k4_pay1 (View.ld x0 wholeX4) (View.ld x1 wholeW4)⟩]

/-- The one store covers the output block. -/
theorem stored4_covers (p0 : Vec F S256x2048 .bf16) (y : S256x2048.Idx) :
    ∃ pc ∈ ([⟨wholeO4, p0⟩] : List (View.Piece (Elt F) S256x2048 .bf16)), y ∈ pc.1.set :=
  View.cover_of_tiled [⟨wholeO4, p0⟩] S256x2048.size (by rfl) y

set_option maxHeartbeats 1000000 in
/-- The body's triple: on whole staging buffers, the inputs at contents `x0`, `x1` and the output at anything, it
    runs to the end, leaves the inputs as they were and the output at `stored4 x0 x1`. -/
theorem body_triple4 (c : Dev nD) (E : Set ℕ) (i : grid4.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored4 x0 x1)) -∗ K ⟨⟩))
      ⊢ wp frame (wpE (defs₀ (F := F)) Variants.none c none) E (cc4__binlinear_kernel i arg1 harg1 arg2 harg2 arg3 harg3) K := by
  simp only [cc4__binlinear_kernel_eq_skeleton]; unfold cc4__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored4_covers _)

/-- The per-point data of this pipeline on core `c`: its arrays as the region finds them; after the body at point
    `t` each input's buffer still at its block and the output's at the stored payload of the two input blocks; the
    scoped rest and the generator register untouched; nothing owed; full shares. -/
def data4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => stored4 (blockAt4 V c 0 t) (blockAt4 V c 1 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after0 (c : Dev nD) (t : Fin cfg4.N) : (data4 V c).after 0 t = blockAt4 V c 0 t := by dsimp only [data4]
theorem data4_after1 (c : Dev nD) (t : Fin cfg4.N) : (data4 V c).after 1 t = blockAt4 V c 1 t := by dsimp only [data4]
theorem data4_after2 (c : Dev nD) (t : Fin cfg4.N) :
    (data4 V c).after 2 t = stored4 (blockAt4 V c 0 t) (blockAt4 V c 1 t) := by dsimp only [data4]

theorem held4_0 (c : Dev nD) (t : Fin cfg4.N) (d) : (data4 V c).before 0 t d = blockAt4 V c 0 t :=
  held4_0_of V (data4 V c) (data4_A V c 0) (data4_after0 V c) t d
theorem held4_1 (c : Dev nD) (t : Fin cfg4.N) (d) : (data4 V c).before 1 t d = blockAt4 V c 1 t :=
  held4_1_of V (data4 V c) (data4_A V c 1) (data4_after1 V c) t d

/-- What the body is called with at point `t`, window by window, -/
def pointPre4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d)))

/-- and what it returns. -/
def pointPost4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t))

/-- The body at any point: the inputs' buffers hold their blocks, so the body's triple applies; the invariant and the
    core's dues pass through unread. -/
theorem point_sound4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [held4_0, held4_1]
  rw [show (data4 V c).Φ t.succ = (data4 V c).Φ t.castSucc from rfl,
    show (data4 V c).owesAt () t.succ = (data4 V c).owesAt () t.castSucc from rfl,
    data4_after0, data4_after1, data4_after2]
  iintro ⟨HΦ, Ho, ⟨%d0, H0⟩, ⟨%d1, H1⟩, ⟨%d2, H2⟩⟩
  iapply (body_triple4 c Set.univ (grid4.coords t) _ _ _ _ _ _ (blockAt4 V c 0 t) (blockAt4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation4 (c : Dev nD) : BodyObligation (data4 (F := F) V c) (defs₀ (F := F)) Variants.none () Set.univ := fun t => by
  rw [bigSep_W4, bigSep_W4]
  exact point_sound4 V c t

/-! ## Region 5 -/

/-- Window `w`'s block at grid point `t`, read off the window's array as the region finds it. -/
def blockAt5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' staging buffer holds the point's row block, whether it was moved in at this point or not. -/
theorem held5_0_of {c : Dev nD} (dat : Dat τ (Elt F) Unit ℕ (UR sig nD τ) ℕ cfg5 c) (hA : dat.A 0 = V c (Pipeline.arrRef spec5 0))
    (hafter : ∀ t, dat.after 0 t = blockAt5 V c 0 t) (t : Fin cfg5.N) (d) : dat.before 0 t d = blockAt5 V c 0 t :=
  (dat.before_in_eq_fetched 0 rfl (fun _ => rfl) (fun _ _ _ => rfl) (fun t => by rw [hafter]; unfold Dat.blockOf blockAt5; rw [hA]; try rfl) t d).trans
    (by unfold Dat.fetched Dat.blockOf blockAt5; rw [hA]; try rfl)
/-- The weight chunk's staging buffer holds the chunk at every point: moved in once, its block index never moves. -/
theorem held5_1_of {c : Dev nD} (dat : Dat τ (Elt F) Unit ℕ (UR sig nD τ) ℕ cfg5 c) (hA : dat.A 1 = V c (Pipeline.arrRef spec5 1))
    (hafter : ∀ t, dat.after 1 t = blockAt5 V c 1 t) (t : Fin cfg5.N) (d) : dat.before 1 t d = blockAt5 V c 1 t :=
  (dat.before_in_eq_fetched 1 rfl (fun _ => rfl) (fun _ _ _ => rfl) (fun t => by rw [hafter]; unfold Dat.blockOf blockAt5; rw [hA]; try rfl) t d).trans
    (by unfold Dat.fetched Dat.blockOf blockAt5; rw [hA]; try rfl)

/-- The three rectangles the body touches: each buffer whole. -/
abbrev wholeX5 : Rect S256x4096 := Rect.unit (s := S256x4096) ![0, 0] S256x4096.size inb_S256x4096_S256x4096_0_0
abbrev wholeW5 : Rect S2048x4096 := Rect.unit (s := S2048x4096) ![0, 0] S2048x4096.size inb_S2048x4096_S2048x4096_0_0
abbrev wholeO5 : Rect S256x2048 := Rect.unit (s := S256x2048) ![0, 0] S256x2048.size inb_S256x2048_S256x2048_0_0

/-- What the output's staging buffer holds after the body: the one whole-block store of the body's payload, a
    function of the two input blocks. -/
def stored5 (x0 : Vec F S256x4096 .bf16) (x1 : Vec F S2048x4096 .bf16) : Vec F S256x2048 .bf16 :=
  View.canon [⟨wholeO5, k5_pay1 (View.ld x0 wholeX5) (View.ld x1 wholeW5)⟩]

/-- The one store covers the output block. -/
theorem stored5_covers (p0 : Vec F S256x2048 .bf16) (y : S256x2048.Idx) :
    ∃ pc ∈ ([⟨wholeO5, p0⟩] : List (View.Piece (Elt F) S256x2048 .bf16)), y ∈ pc.1.set :=
  View.cover_of_tiled [⟨wholeO5, p0⟩] S256x2048.size (by rfl) y

set_option maxHeartbeats 1000000 in
/-- The body's triple: on whole staging buffers, the inputs at contents `x0`, `x1` and the output at anything, it
    runs to the end, leaves the inputs as they were and the output at `stored5 x0 x1`. -/
theorem body_triple5 (c : Dev nD) (E : Set ℕ) (i : grid5.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored5 x0 x1)) -∗ K ⟨⟩))
      ⊢ wp frame (wpE (defs₀ (F := F)) Variants.none c none) E (cc5__binlinear_kernel i arg1 harg1 arg2 harg2 arg3 harg3) K := by
  simp only [cc5__binlinear_kernel_eq_skeleton]; unfold cc5__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The per-point data of this pipeline on core `c`: its arrays as the region finds them; after the body at point
    `t` each input's buffer still at its block and the output's at the stored payload of the two input blocks; the
    scoped rest and the generator register untouched; nothing owed; full shares. -/
def data5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => stored5 (blockAt5 V c 0 t) (blockAt5 V c 1 t)
  Φ _ := Pipeline.ΦA spec5 c
  q _ := fullShare
  owed _ := 0

theorem data5_A (c : Dev nD) (w : Fin cfg5.W) : (data5 V c).A w = V c (Pipeline.arrRef spec5 w) := by
  dsimp only [data5]
theorem data5_after0 (c : Dev nD) (t : Fin cfg5.N) : (data5 V c).after 0 t = blockAt5 V c 0 t := by dsimp only [data5]
theorem data5_after1 (c : Dev nD) (t : Fin cfg5.N) : (data5 V c).after 1 t = blockAt5 V c 1 t := by dsimp only [data5]
theorem data5_after2 (c : Dev nD) (t : Fin cfg5.N) :
    (data5 V c).after 2 t = stored5 (blockAt5 V c 0 t) (blockAt5 V c 1 t) := by dsimp only [data5]

theorem held5_0 (c : Dev nD) (t : Fin cfg5.N) (d) : (data5 V c).before 0 t d = blockAt5 V c 0 t :=
  held5_0_of V (data5 V c) (data5_A V c 0) (data5_after0 V c) t d
theorem held5_1 (c : Dev nD) (t : Fin cfg5.N) (d) : (data5 V c).before 1 t d = blockAt5 V c 1 t :=
  held5_1_of V (data5 V c) (data5_A V c 1) (data5_after1 V c) t d

/-- What the body is called with at point `t`, window by window, -/
def pointPre5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

/-- and what it returns. -/
def pointPost5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

/-- The body at any point: the inputs' buffers hold their blocks, so the body's triple applies; the invariant and the
    core's dues pass through unread. -/
theorem point_sound5 (c : Dev nD) (t : Fin cfg5.N) :
    pointPre5 V c t ⊢ wp frame (wpE (defs₀ (F := F)) Variants.none c none) Set.univ (bodyAt5 t) (fun _ => pointPost5 V c t) := by
  unfold pointPre5 pointPost5 bodyAt5
  simp only [held5_0, held5_1]
  rw [show (data5 V c).Φ t.succ = (data5 V c).Φ t.castSucc from rfl,
    show (data5 V c).owesAt () t.succ = (data5 V c).owesAt () t.castSucc from rfl,
    data5_after0, data5_after1, data5_after2]
  iintro ⟨HΦ, Ho, ⟨%d0, H0⟩, ⟨%d1, H1⟩, ⟨%d2, H2⟩⟩
  iapply (body_triple5 c Set.univ (grid5.coords t) _ _ _ _ _ _ (blockAt5 V c 0 t) (blockAt5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (data5 (F := F) V c) (defs₀ (F := F)) Variants.none () Set.univ := fun t => by
  rw [bigSep_W5, bigSep_W5]
  exact point_sound5 V c t

/-! ## Region 6 -/

/-- Window `w`'s block at grid point `t`, read off the window's array as the region finds it. -/
def blockAt6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds the point's row block, whether it was moved in at this point or not. -/
theorem held6_0_of {c : Dev nD} (dat : Dat τ (Elt F) Unit ℕ (UR sig nD τ) ℕ cfg6 c) (hA : dat.A 0 = V c (Pipeline.arrRef spec6 0))
    (hafter : ∀ t, dat.after 0 t = blockAt6 V c 0 t) (t : Fin cfg6.N) (d) : dat.before 0 t d = blockAt6 V c 0 t :=
  (dat.before_in_eq_fetched 0 rfl (fun _ => rfl) (fun _ _ _ => rfl) (fun t => by rw [hafter]; unfold Dat.blockOf blockAt6; rw [hA]; try rfl) t d).trans
    (by unfold Dat.fetched Dat.blockOf blockAt6; rw [hA]; try rfl)
/-- The weight chunk's staging buffer holds the chunk at every point: moved in once, its block index never moves. -/
theorem held6_1_of {c : Dev nD} (dat : Dat τ (Elt F) Unit ℕ (UR sig nD τ) ℕ cfg6 c) (hA : dat.A 1 = V c (Pipeline.arrRef spec6 1))
    (hafter : ∀ t, dat.after 1 t = blockAt6 V c 1 t) (t : Fin cfg6.N) (d) : dat.before 1 t d = blockAt6 V c 1 t :=
  (dat.before_in_eq_fetched 1 rfl (fun _ => rfl) (fun _ _ _ => rfl) (fun t => by rw [hafter]; unfold Dat.blockOf blockAt6; rw [hA]; try rfl) t d).trans
    (by unfold Dat.fetched Dat.blockOf blockAt6; rw [hA]; try rfl)

/-- The three rectangles the body touches: each buffer whole. -/
abbrev wholeX6 : Rect S256x4096 := Rect.unit (s := S256x4096) ![0, 0] S256x4096.size inb_S256x4096_S256x4096_0_0
abbrev wholeW6 : Rect S2048x4096 := Rect.unit (s := S2048x4096) ![0, 0] S2048x4096.size inb_S2048x4096_S2048x4096_0_0
abbrev wholeO6 : Rect S256x2048 := Rect.unit (s := S256x2048) ![0, 0] S256x2048.size inb_S256x2048_S256x2048_0_0

/-- What the output's staging buffer holds after the body: the one whole-block store of the body's payload, a
    function of the two input blocks. -/
def stored6 (x0 : Vec F S256x4096 .bf16) (x1 : Vec F S2048x4096 .bf16) : Vec F S256x2048 .bf16 :=
  View.canon [⟨wholeO6, k6_pay1 (View.ld x0 wholeX6) (View.ld x1 wholeW6)⟩]

/-- The one store covers the output block. -/
theorem stored6_covers (p0 : Vec F S256x2048 .bf16) (y : S256x2048.Idx) :
    ∃ pc ∈ ([⟨wholeO6, p0⟩] : List (View.Piece (Elt F) S256x2048 .bf16)), y ∈ pc.1.set :=
  View.cover_of_tiled [⟨wholeO6, p0⟩] S256x2048.size (by rfl) y

set_option maxHeartbeats 1000000 in
/-- The body's triple: on whole staging buffers, the inputs at contents `x0`, `x1` and the output at anything, it
    runs to the end, leaves the inputs as they were and the output at `stored6 x0 x1`. -/
theorem body_triple6 (c : Dev nD) (E : Set ℕ) (i : grid6.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored6 x0 x1)) -∗ K ⟨⟩))
      ⊢ wp frame (wpE (defs₀ (F := F)) Variants.none c none) E (cc6__binlinear_kernel i arg1 harg1 arg2 harg2 arg3 harg3) K := by
  simp only [cc6__binlinear_kernel_eq_skeleton]; unfold cc6__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored6_covers _)

/-- The per-point data of this pipeline on core `c`: its arrays as the region finds them; after the body at point
    `t` each input's buffer still at its block and the output's at the stored payload of the two input blocks; the
    scoped rest and the generator register untouched; nothing owed; full shares. -/
def data6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => stored6 (blockAt6 V c 0 t) (blockAt6 V c 1 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after0 (c : Dev nD) (t : Fin cfg6.N) : (data6 V c).after 0 t = blockAt6 V c 0 t := by dsimp only [data6]
theorem data6_after1 (c : Dev nD) (t : Fin cfg6.N) : (data6 V c).after 1 t = blockAt6 V c 1 t := by dsimp only [data6]
theorem data6_after2 (c : Dev nD) (t : Fin cfg6.N) :
    (data6 V c).after 2 t = stored6 (blockAt6 V c 0 t) (blockAt6 V c 1 t) := by dsimp only [data6]

theorem held6_0 (c : Dev nD) (t : Fin cfg6.N) (d) : (data6 V c).before 0 t d = blockAt6 V c 0 t :=
  held6_0_of V (data6 V c) (data6_A V c 0) (data6_after0 V c) t d
theorem held6_1 (c : Dev nD) (t : Fin cfg6.N) (d) : (data6 V c).before 1 t d = blockAt6 V c 1 t :=
  held6_1_of V (data6 V c) (data6_A V c 1) (data6_after1 V c) t d

/-- What the body is called with at point `t`, window by window, -/
def pointPre6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d)))

/-- and what it returns. -/
def pointPost6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t))

/-- The body at any point: the inputs' buffers hold their blocks, so the body's triple applies; the invariant and the
    core's dues pass through unread. -/
theorem point_sound6 (c : Dev nD) (t : Fin cfg6.N) :
    pointPre6 V c t ⊢ wp frame (wpE (defs₀ (F := F)) Variants.none c none) Set.univ (bodyAt6 t) (fun _ => pointPost6 V c t) := by
  unfold pointPre6 pointPost6 bodyAt6
  simp only [held6_0, held6_1]
  rw [show (data6 V c).Φ t.succ = (data6 V c).Φ t.castSucc from rfl,
    show (data6 V c).owesAt () t.succ = (data6 V c).owesAt () t.castSucc from rfl,
    data6_after0, data6_after1, data6_after2]
  iintro ⟨HΦ, Ho, ⟨%d0, H0⟩, ⟨%d1, H1⟩, ⟨%d2, H2⟩⟩
  iapply (body_triple6 c Set.univ (grid6.coords t) _ _ _ _ _ _ (blockAt6 V c 0 t) (blockAt6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation6 (c : Dev nD) : BodyObligation (data6 (F := F) V c) (defs₀ (F := F)) Variants.none () Set.univ := fun t => by
  rw [bigSep_W6, bigSep_W6]
  exact point_sound6 V c t

/-! ## Region 7 -/

/-- Window `w`'s block at grid point `t`, read off the window's array as the region finds it. -/
def blockAt7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The activations' staging buffer holds the point's row block, whether it was moved in at this point or not. -/
theorem held7_0_of {c : Dev nD} (dat : Dat τ (Elt F) Unit ℕ (UR sig nD τ) ℕ cfg7 c) (hA : dat.A 0 = V c (Pipeline.arrRef spec7 0))
    (hafter : ∀ t, dat.after 0 t = blockAt7 V c 0 t) (t : Fin cfg7.N) (d) : dat.before 0 t d = blockAt7 V c 0 t :=
  (dat.before_in_eq_fetched 0 rfl (fun _ => rfl) (fun _ _ _ => rfl) (fun t => by rw [hafter]; unfold Dat.blockOf blockAt7; rw [hA]; try rfl) t d).trans
    (by unfold Dat.fetched Dat.blockOf blockAt7; rw [hA]; try rfl)
/-- The weight chunk's staging buffer holds the chunk at every point: moved in once, its block index never moves. -/
theorem held7_1_of {c : Dev nD} (dat : Dat τ (Elt F) Unit ℕ (UR sig nD τ) ℕ cfg7 c) (hA : dat.A 1 = V c (Pipeline.arrRef spec7 1))
    (hafter : ∀ t, dat.after 1 t = blockAt7 V c 1 t) (t : Fin cfg7.N) (d) : dat.before 1 t d = blockAt7 V c 1 t :=
  (dat.before_in_eq_fetched 1 rfl (fun _ => rfl) (fun _ _ _ => rfl) (fun t => by rw [hafter]; unfold Dat.blockOf blockAt7; rw [hA]; try rfl) t d).trans
    (by unfold Dat.fetched Dat.blockOf blockAt7; rw [hA]; try rfl)

/-- The three rectangles the body touches: each buffer whole. -/
abbrev wholeX7 : Rect S256x4096 := Rect.unit (s := S256x4096) ![0, 0] S256x4096.size inb_S256x4096_S256x4096_0_0
abbrev wholeW7 : Rect S2048x4096 := Rect.unit (s := S2048x4096) ![0, 0] S2048x4096.size inb_S2048x4096_S2048x4096_0_0
abbrev wholeO7 : Rect S256x2048 := Rect.unit (s := S256x2048) ![0, 0] S256x2048.size inb_S256x2048_S256x2048_0_0

/-- What the output's staging buffer holds after the body: the one whole-block store of the body's payload, a
    function of the two input blocks. -/
def stored7 (x0 : Vec F S256x4096 .bf16) (x1 : Vec F S2048x4096 .bf16) : Vec F S256x2048 .bf16 :=
  View.canon [⟨wholeO7, k7_pay1 (View.ld x0 wholeX7) (View.ld x1 wholeW7)⟩]

/-- The one store covers the output block. -/
theorem stored7_covers (p0 : Vec F S256x2048 .bf16) (y : S256x2048.Idx) :
    ∃ pc ∈ ([⟨wholeO7, p0⟩] : List (View.Piece (Elt F) S256x2048 .bf16)), y ∈ pc.1.set :=
  View.cover_of_tiled [⟨wholeO7, p0⟩] S256x2048.size (by rfl) y

set_option maxHeartbeats 1000000 in
/-- The body's triple: on whole staging buffers, the inputs at contents `x0`, `x1` and the output at anything, it
    runs to the end, leaves the inputs as they were and the output at `stored7 x0 x1`. -/
theorem body_triple7 (c : Dev nD) (E : Set ℕ) (i : grid7.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored7 x0 x1)) -∗ K ⟨⟩))
      ⊢ wp frame (wpE (defs₀ (F := F)) Variants.none c none) E (cc7__binlinear_kernel i arg1 harg1 arg2 harg2 arg3 harg3) K := by
  simp only [cc7__binlinear_kernel_eq_skeleton]; unfold cc7__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored7_covers _)

/-- The per-point data of this pipeline on core `c`: its arrays as the region finds them; after the body at point
    `t` each input's buffer still at its block and the output's at the stored payload of the two input blocks; the
    scoped rest and the generator register untouched; nothing owed; full shares. -/
def data7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => stored7 (blockAt7 V c 0 t) (blockAt7 V c 1 t)
  Φ _ := Pipeline.ΦA spec7 c
  q _ := fullShare
  owed _ := 0

theorem data7_A (c : Dev nD) (w : Fin cfg7.W) : (data7 V c).A w = V c (Pipeline.arrRef spec7 w) := by
  dsimp only [data7]
theorem data7_after0 (c : Dev nD) (t : Fin cfg7.N) : (data7 V c).after 0 t = blockAt7 V c 0 t := by dsimp only [data7]
theorem data7_after1 (c : Dev nD) (t : Fin cfg7.N) : (data7 V c).after 1 t = blockAt7 V c 1 t := by dsimp only [data7]
theorem data7_after2 (c : Dev nD) (t : Fin cfg7.N) :
    (data7 V c).after 2 t = stored7 (blockAt7 V c 0 t) (blockAt7 V c 1 t) := by dsimp only [data7]

theorem held7_0 (c : Dev nD) (t : Fin cfg7.N) (d) : (data7 V c).before 0 t d = blockAt7 V c 0 t :=
  held7_0_of V (data7 V c) (data7_A V c 0) (data7_after0 V c) t d
theorem held7_1 (c : Dev nD) (t : Fin cfg7.N) (d) : (data7 V c).before 1 t d = blockAt7 V c 1 t :=
  held7_1_of V (data7 V c) (data7_A V c 1) (data7_after1 V c) t d

/-- What the body is called with at point `t`, window by window, -/
def pointPre7 (c : Dev nD) (t : Fin cfg7.N) : sProp 𝕄 :=
  iprop((data7 V c).Φ t.castSucc ∗ (data7 V c).owesAt () t.castSucc
    ∗ (∃ d, owns (c : Thread nD τ) (st7_0 t) fullShare ((data7 V c).before 0 t d))
    ∗ (∃ d, owns (c : Thread nD τ) (st7_1 t) fullShare ((data7 V c).before 1 t d))
    ∗ (∃ d, owns (c : Thread nD τ) (st7_2 t) fullShare ((data7 V c).before 2 t d)))

/-- and what it returns. -/
def pointPost7 (c : Dev nD) (t : Fin cfg7.N) : sProp 𝕄 :=
  iprop((data7 V c).Φ t.succ ∗ (data7 V c).owesAt () t.succ
    ∗ owns (c : Thread nD τ) (st7_0 t) fullShare ((data7 V c).after 0 t)
    ∗ owns (c : Thread nD τ) (st7_1 t) fullShare ((data7 V c).after 1 t)
    ∗ owns (c : Thread nD τ) (st7_2 t) fullShare ((data7 V c).after 2 t))

/-- The body at any point: the inputs' buffers hold their blocks, so the body's triple applies; the invariant and the
    core's dues pass through unread. -/
theorem point_sound7 (c : Dev nD) (t : Fin cfg7.N) :
    pointPre7 V c t ⊢ wp frame (wpE (defs₀ (F := F)) Variants.none c none) Set.univ (bodyAt7 t) (fun _ => pointPost7 V c t) := by
  unfold pointPre7 pointPost7 bodyAt7
  simp only [held7_0, held7_1]
  rw [show (data7 V c).Φ t.succ = (data7 V c).Φ t.castSucc from rfl,
    show (data7 V c).owesAt () t.succ = (data7 V c).owesAt () t.castSucc from rfl,
    data7_after0, data7_after1, data7_after2]
  iintro ⟨HΦ, Ho, ⟨%d0, H0⟩, ⟨%d1, H1⟩, ⟨%d2, H2⟩⟩
  iapply (body_triple7 c Set.univ (grid7.coords t) _ _ _ _ _ _ (blockAt7 V c 0 t) (blockAt7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation7 (c : Dev nD) : BodyObligation (data7 (F := F) V c) (defs₀ (F := F)) Variants.none () Set.univ := fun t => by
  rw [bigSep_W7, bigSep_W7]
  exact point_sound7 V c t

/-! ## Region 8 -/

/-- Window `w`'s block at grid point `t`, read off the window's array as the region finds it. -/
def blockAt8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds the point's row block, whether it was moved in at this point or not. -/
theorem held8_0_of {c : Dev nD} (dat : Dat τ (Elt F) Unit ℕ (UR sig nD τ) ℕ cfg8 c) (hA : dat.A 0 = V c (Pipeline.arrRef spec8 0))
    (hafter : ∀ t, dat.after 0 t = blockAt8 V c 0 t) (t : Fin cfg8.N) (d) : dat.before 0 t d = blockAt8 V c 0 t :=
  (dat.before_in_eq_fetched 0 rfl (fun _ => rfl) (fun _ _ _ => rfl) (fun t => by rw [hafter]; unfold Dat.blockOf blockAt8; rw [hA]; try rfl) t d).trans
    (by unfold Dat.fetched Dat.blockOf blockAt8; rw [hA]; try rfl)
/-- The weight chunk's staging buffer holds the chunk at every point: moved in once, its block index never moves. -/
theorem held8_1_of {c : Dev nD} (dat : Dat τ (Elt F) Unit ℕ (UR sig nD τ) ℕ cfg8 c) (hA : dat.A 1 = V c (Pipeline.arrRef spec8 1))
    (hafter : ∀ t, dat.after 1 t = blockAt8 V c 1 t) (t : Fin cfg8.N) (d) : dat.before 1 t d = blockAt8 V c 1 t :=
  (dat.before_in_eq_fetched 1 rfl (fun _ => rfl) (fun _ _ _ => rfl) (fun t => by rw [hafter]; unfold Dat.blockOf blockAt8; rw [hA]; try rfl) t d).trans
    (by unfold Dat.fetched Dat.blockOf blockAt8; rw [hA]; try rfl)

/-- The three rectangles the body touches: each buffer whole. -/
abbrev wholeX8 : Rect S256x4096 := Rect.unit (s := S256x4096) ![0, 0] S256x4096.size inb_S256x4096_S256x4096_0_0
abbrev wholeW8 : Rect S2x4096 := Rect.unit (s := S2x4096) ![0, 0] S2x4096.size inb_S2x4096_S2x4096_0_0
abbrev wholeO8 : Rect S256x2 := Rect.unit (s := S256x2) ![0, 0] S256x2.size inb_S256x2_S256x2_0_0

/-- What the output's staging buffer holds after the body: the one whole-block store of the body's payload, a
    function of the two input blocks. -/
def stored8 (x0 : Vec F S256x4096 .bf16) (x1 : Vec F S2x4096 .bf16) : Vec F S256x2 .f32 :=
  View.canon [⟨wholeO8, k8_pay1 (View.ld x0 wholeX8) (View.ld x1 wholeW8)⟩]

/-- The one store covers the output block. -/
theorem stored8_covers (p0 : Vec F S256x2 .f32) (y : S256x2.Idx) :
    ∃ pc ∈ ([⟨wholeO8, p0⟩] : List (View.Piece (Elt F) S256x2 .f32)), y ∈ pc.1.set :=
  View.cover_of_tiled [⟨wholeO8, p0⟩] S256x2.size (by rfl) y

set_option maxHeartbeats 1000000 in
/-- The body's triple: on whole staging buffers, the inputs at contents `x0`, `x1` and the output at anything, it
    runs to the end, leaves the inputs as they were and the output at `stored8 x0 x1`. -/
theorem body_triple8 (c : Dev nD) (E : Set ℕ) (i : grid8.Coords) (arg1 : Memref sig .tc .vmem S256x4096 .bf16) (harg1 : arg1.IsWhole) (arg2 : Memref sig .tc .vmem S2x4096 .bf16) (harg2 : arg2.IsWhole) (arg3 : Memref sig .tc .vmem S256x2 .f32) (harg3 : arg3.IsWhole)
    (x0 : Vec F S256x4096 .bf16) (x1 : Vec F S2x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored8 x0 x1)) -∗ K ⟨⟩))
      ⊢ wp frame (wpE (defs₀ (F := F)) Variants.none c none) E (cc8__binlinear_kernel i arg1 harg1 arg2 harg2 arg3 harg3) K := by
  simp only [cc8__binlinear_kernel_eq_skeleton]; unfold cc8__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored8_covers _)

/-- The per-point data of this pipeline on core `c`: its arrays as the region finds them; after the body at point
    `t` each input's buffer still at its block and the output's at the stored payload of the two input blocks; the
    scoped rest and the generator register untouched; nothing owed; full shares. -/
def data8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => stored8 (blockAt8 V c 0 t) (blockAt8 V c 1 t)
  Φ _ := Pipeline.ΦA spec8 c
  q _ := fullShare
  owed _ := 0

theorem data8_A (c : Dev nD) (w : Fin cfg8.W) : (data8 V c).A w = V c (Pipeline.arrRef spec8 w) := by
  dsimp only [data8]
theorem data8_after0 (c : Dev nD) (t : Fin cfg8.N) : (data8 V c).after 0 t = blockAt8 V c 0 t := by dsimp only [data8]
theorem data8_after1 (c : Dev nD) (t : Fin cfg8.N) : (data8 V c).after 1 t = blockAt8 V c 1 t := by dsimp only [data8]
theorem data8_after2 (c : Dev nD) (t : Fin cfg8.N) :
    (data8 V c).after 2 t = stored8 (blockAt8 V c 0 t) (blockAt8 V c 1 t) := by dsimp only [data8]

theorem held8_0 (c : Dev nD) (t : Fin cfg8.N) (d) : (data8 V c).before 0 t d = blockAt8 V c 0 t :=
  held8_0_of V (data8 V c) (data8_A V c 0) (data8_after0 V c) t d
theorem held8_1 (c : Dev nD) (t : Fin cfg8.N) (d) : (data8 V c).before 1 t d = blockAt8 V c 1 t :=
  held8_1_of V (data8 V c) (data8_A V c 1) (data8_after1 V c) t d

/-- What the body is called with at point `t`, window by window, -/
def pointPre8 (c : Dev nD) (t : Fin cfg8.N) : sProp 𝕄 :=
  iprop((data8 V c).Φ t.castSucc ∗ (data8 V c).owesAt () t.castSucc
    ∗ (∃ d, owns (c : Thread nD τ) (st8_0 t) fullShare ((data8 V c).before 0 t d))
    ∗ (∃ d, owns (c : Thread nD τ) (st8_1 t) fullShare ((data8 V c).before 1 t d))
    ∗ (∃ d, owns (c : Thread nD τ) (st8_2 t) fullShare ((data8 V c).before 2 t d)))

/-- and what it returns. -/
def pointPost8 (c : Dev nD) (t : Fin cfg8.N) : sProp 𝕄 :=
  iprop((data8 V c).Φ t.succ ∗ (data8 V c).owesAt () t.succ
    ∗ owns (c : Thread nD τ) (st8_0 t) fullShare ((data8 V c).after 0 t)
    ∗ owns (c : Thread nD τ) (st8_1 t) fullShare ((data8 V c).after 1 t)
    ∗ owns (c : Thread nD τ) (st8_2 t) fullShare ((data8 V c).after 2 t))

/-- The body at any point: the inputs' buffers hold their blocks, so the body's triple applies; the invariant and the
    core's dues pass through unread. -/
theorem point_sound8 (c : Dev nD) (t : Fin cfg8.N) :
    pointPre8 V c t ⊢ wp frame (wpE (defs₀ (F := F)) Variants.none c none) Set.univ (bodyAt8 t) (fun _ => pointPost8 V c t) := by
  unfold pointPre8 pointPost8 bodyAt8
  simp only [held8_0, held8_1]
  rw [show (data8 V c).Φ t.succ = (data8 V c).Φ t.castSucc from rfl,
    show (data8 V c).owesAt () t.succ = (data8 V c).owesAt () t.castSucc from rfl,
    data8_after0, data8_after1, data8_after2]
  iintro ⟨HΦ, Ho, ⟨%d0, H0⟩, ⟨%d1, H1⟩, ⟨%d2, H2⟩⟩
  iapply (body_triple8 c Set.univ (grid8.coords t) _ _ _ _ _ _ (blockAt8 V c 0 t) (blockAt8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation8 (c : Dev nD) : BodyObligation (data8 (F := F) V c) (defs₀ (F := F)) Variants.none () Set.univ := fun t => by
  rw [bigSep_W8, bigSep_W8]
  exact point_sound8 V c t

end Cert.Kernel.Hand

end
-- ==== Proof.K_Run.lean ====
/-
  The whole program as a chain of 26 items — nine stretches of host operations that sign-quantise the four weight
  matrices and cut the first chunk, then nine regions with a stretch of host operations between consecutive ones (the
  next weight chunk cut out; after regions 3, 5 and 7 also the layer's column chunks concatenated) — run from the
  launch to the return. The contents of the core's buffers at each boundary are a fold from the launch memory: a host
  stretch applies its operations; a region leaves each of its arrays at what its write-backs leave (an input as it was
  entered, the output at the fold of the row blocks written back) and every other buffer as entered. Each region is
  entered with every unscoped buffer at the boundary's contents, the generator register at some state and nothing
  owed, and left the same way at the next boundary's contents. The run theorem says: every weakly fair execution
  terminates and every unscoped buffer ends at the last boundary's contents; no item writes an argument, so each
  argument array reads back through the fold to its launch contents.
-/
import proofs.«102262_j38096359916038_2_alg».proof.Proof.K_Regions
import proofs.«102262_j38096359916038_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the host stretch `hostOps0`. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h
/-- After the host stretch `hostOps0_1`. -/
abbrev B2 : Dev nD → Valuation τ sig (Elt F) := fun c => StableHlo.after hostOps0_1 (B1 m ρ c)
abbrev E2 : (c : Dev nD) → (b : Ref sig .tc) → Buf (Elt F) ((c : Thread nD τ).loc b) := fun c b => B2 m ρ c b
theorem B2_keep (c : Dev nD) (r : Ref sig .tc) (h : r ∉ hostOps0_1_W) : B2 m ρ c (Proc.devRef .tc r) = B1 m ρ c (Proc.devRef .tc r) :=
  StableHlo.after_of_writes_sub hostOps0_1 _ hostOps0_1_writes h
/-- After the host stretch `hostOps0_2`. -/
abbrev B3 : Dev nD → Valuation τ sig (Elt F) := fun c => StableHlo.after hostOps0_2 (B2 m ρ c)
abbrev E3 : (c : Dev nD) → (b : Ref sig .tc) → Buf (Elt F) ((c : Thread nD τ).loc b) := fun c b => B3 m ρ c b
theorem B3_keep (c : Dev nD) (r : Ref sig .tc) (h : r ∉ hostOps0_2_W) : B3 m ρ c (Proc.devRef .tc r) = B2 m ρ c (Proc.devRef .tc r) :=
  StableHlo.after_of_writes_sub hostOps0_2 _ hostOps0_2_writes h
/-- After the host stretch `hostOps0_3`. -/
abbrev B4 : Dev nD → Valuation τ sig (Elt F) := fun c => StableHlo.after hostOps0_3 (B3 m ρ c)
abbrev E4 : (c : Dev nD) → (b : Ref sig .tc) → Buf (Elt F) ((c : Thread nD τ).loc b) := fun c b => B4 m ρ c b
theorem B4_keep (c : Dev nD) (r : Ref sig .tc) (h : r ∉ hostOps0_3_W) : B4 m ρ c (Proc.devRef .tc r) = B3 m ρ c (Proc.devRef .tc r) :=
  StableHlo.after_of_writes_sub hostOps0_3 _ hostOps0_3_writes h
/-- After the host stretch `hostOps0_4`. -/
abbrev B5 : Dev nD → Valuation τ sig (Elt F) := fun c => StableHlo.after hostOps0_4 (B4 m ρ c)
abbrev E5 : (c : Dev nD) → (b : Ref sig .tc) → Buf (Elt F) ((c : Thread nD τ).loc b) := fun c b => B5 m ρ c b
theorem B5_keep (c : Dev nD) (r : Ref sig .tc) (h : r ∉ hostOps0_4_W) : B5 m ρ c (Proc.devRef .tc r) = B4 m ρ c (Proc.devRef .tc r) :=
  StableHlo.after_of_writes_sub hostOps0_4 _ hostOps0_4_writes h
/-- After the host stretch `hostOps0_5`. -/
abbrev B6 : Dev nD → Valuation τ sig (Elt F) := fun c => StableHlo.after hostOps0_5 (B5 m ρ c)
abbrev E6 : (c : Dev nD) → (b : Ref sig .tc) → Buf (Elt F) ((c : Thread nD τ).loc b) := fun c b => B6 m ρ c b
theorem B6_keep (c : Dev nD) (r : Ref sig .tc) (h : r ∉ hostOps0_5_W) : B6 m ρ c (Proc.devRef .tc r) = B5 m ρ c (Proc.devRef .tc r) :=
  StableHlo.after_of_writes_sub hostOps0_5 _ hostOps0_5_writes h
/-- After the host stretch `hostOps0_6`. -/
abbrev B7 : Dev nD → Valuation τ sig (Elt F) := fun c => StableHlo.after hostOps0_6 (B6 m ρ c)
abbrev E7 : (c : Dev nD) → (b : Ref sig .tc) → Buf (Elt F) ((c : Thread nD τ).loc b) := fun c b => B7 m ρ c b
theorem B7_keep (c : Dev nD) (r : Ref sig .tc) (h : r ∉ hostOps0_6_W) : B7 m ρ c (Proc.devRef .tc r) = B6 m ρ c (Proc.devRef .tc r) :=
  StableHlo.after_of_writes_sub hostOps0_6 _ hostOps0_6_writes h
/-- After the host stretch `hostOps0_7`. -/
abbrev B8 : Dev nD → Valuation τ sig (Elt F) := fun c => StableHlo.after hostOps0_7 (B7 m ρ c)
abbrev E8 : (c : Dev nD) → (b : Ref sig .tc) → Buf (Elt F) ((c : Thread nD τ).loc b) := fun c b => B8 m ρ c b
theorem B8_keep (c : Dev nD) (r : Ref sig .tc) (h : r ∉ hostOps0_7_W) : B8 m ρ c (Proc.devRef .tc r) = B7 m ρ c (Proc.devRef .tc r) :=
  StableHlo.after_of_writes_sub hostOps0_7 _ hostOps0_7_writes h
/-- After the host stretch `hostOps0_8`. -/
abbrev B9 : Dev nD → Valuation τ sig (Elt F) := fun c => StableHlo.after hostOps0_8 (B8 m ρ c)
abbrev E9 : (c : Dev nD) → (b : Ref sig .tc) → Buf (Elt F) ((c : Thread nD τ).loc b) := fun c b => B9 m ρ c b
theorem B9_keep (c : Dev nD) (r : Ref sig .tc) (h : r ∉ hostOps0_8_W) : B9 m ρ c (Proc.devRef .tc r) = B8 m ρ c (Proc.devRef .tc r) :=
  StableHlo.after_of_writes_sub hostOps0_8 _ hostOps0_8_writes h
/-- After region 0: its arrays at what the pipeline leaves, every other buffer as entered. -/
def B10 (c : Dev nD) : Valuation τ sig (Elt F) :=
  Pipeline.withArrays spec0 c (B9 m ρ c) fun w => (data0 (E9 m ρ) c).arrAt w cfg0.N
theorem B10_arr (c : Dev nD) (w : Fin cfg0.W) :
    B10 m ρ c (Proc.devRef .tc (Pipeline.arrRef spec0 w)) = (data0 (E9 m ρ) c).arrAt w cfg0.N := by
  unfold B10; exact Pipeline.withArrays_arr spec0 launch0.win.arr_inj c _ _ w
theorem B10_keep (c : Dev nD) (r : Ref sig .tc) (hb : ∀ w, Pipeline.arrRef spec0 w ≠ r) :
    B10 m ρ c (Proc.devRef .tc r) = B9 m ρ c (Proc.devRef .tc r) := by
  unfold B10; exact Pipeline.withArrays_of_ne spec0 c _ _ r hb
abbrev E10 : (c : Dev nD) → (b : Ref sig .tc) → Buf (Elt F) ((c : Thread nD τ).loc b) := fun c b => B10 m ρ c b
theorem exitArr0 (c : Dev nD) (w : Fin cfg0.W) : (data0 (E9 m ρ) c).arrAt w cfg0.N = E10 m ρ c (Pipeline.arrRef spec0 w) :=
  (B10_arr m ρ c w).symm
theorem exitRest0 (c : Dev nD) : ∀ b, b ∉ Finset.univ.image (Pipeline.arrRef spec0) → E10 m ρ c b = E9 m ρ c b :=
  fun b hb => B10_keep m ρ c b fun w e => hb (Finset.mem_image.mpr ⟨w, Finset.mem_univ _, e⟩)
/-- An input window's array leaves the region as it entered. -/
theorem B10_in (c : Dev nD) (w : Fin cfg0.W) (hw : (cfg0.win w).isOut = false) :
    B10 m ρ c (Proc.devRef .tc (Pipeline.arrRef spec0 w)) = E9 m ρ c (Pipeline.arrRef spec0 w) :=
  (B10_arr m ρ c w).trans (((data0 (E9 m ρ) c).arrAt_in w hw _).trans (data0_A (E9 m ρ) c w))
/-- After the host stretch `hostOps1`. -/
abbrev B11 : Dev nD → Valuation τ sig (Elt F) := fun c => StableHlo.after hostOps1 (B10 m ρ c)
abbrev E11 : (c : Dev nD) → (b : Ref sig .tc) → Buf (Elt F) ((c : Thread nD τ).loc b) := fun c b => B11 m ρ c b
theorem B11_keep (c : Dev nD) (r : Ref sig .tc) (h : r ∉ hostOps1_W) : B11 m ρ c (Proc.devRef .tc r) = B10 m ρ c (Proc.devRef .tc r) :=
  StableHlo.after_of_writes_sub hostOps1 _ hostOps1_writes h
/-- After region 1: its arrays at what the pipeline leaves, every other buffer as entered. -/
def B12 (c : Dev nD) : Valuation τ sig (Elt F) :=
  Pipeline.withArrays spec1 c (B11 m ρ c) fun w => (data1 (E11 m ρ) c).arrAt w cfg1.N
theorem B12_arr (c : Dev nD) (w : Fin cfg1.W) :
    B12 m ρ c (Proc.devRef .tc (Pipeline.arrRef spec1 w)) = (data1 (E11 m ρ) c).arrAt w cfg1.N := by
  unfold B12; exact Pipeline.withArrays_arr spec1 launch1.win.arr_inj c _ _ w
theorem B12_keep (c : Dev nD) (r : Ref sig .tc) (hb : ∀ w, Pipeline.arrRef spec1 w ≠ r) :
    B12 m ρ c (Proc.devRef .tc r) = B11 m ρ c (Proc.devRef .tc r) := by
  unfold B12; exact Pipeline.withArrays_of_ne spec1 c _ _ r hb
abbrev E12 : (c : Dev nD) → (b : Ref sig .tc) → Buf (Elt F) ((c : Thread nD τ).loc b) := fun c b => B12 m ρ c b
theorem exitArr1 (c : Dev nD) (w : Fin cfg1.W) : (data1 (E11 m ρ) c).arrAt w cfg1.N = E12 m ρ c (Pipeline.arrRef spec1 w) :=
  (B12_arr m ρ c w).symm
theorem exitRest1 (c : Dev nD) : ∀ b, b ∉ Finset.univ.image (Pipeline.arrRef spec1) → E12 m ρ c b = E11 m ρ c b :=
  fun b hb => B12_keep m ρ c b fun w e => hb (Finset.mem_image.mpr ⟨w, Finset.mem_univ _, e⟩)
/-- An input window's array leaves the region as it entered. -/
theorem B12_in (c : Dev nD) (w : Fin cfg1.W) (hw : (cfg1.win w).isOut = false) :
    B12 m ρ c (Proc.devRef .tc (Pipeline.arrRef spec1 w)) = E11 m ρ c (Pipeline.arrRef spec1 w) :=
  (B12_arr m ρ c w).trans (((data1 (E11 m ρ) c).arrAt_in w hw _).trans (data1_A (E11 m ρ) c w))
/-- After the host stretch `hostOps2`. -/
abbrev B13 : Dev nD → Valuation τ sig (Elt F) := fun c => StableHlo.after hostOps2 (B12 m ρ c)
abbrev E13 : (c : Dev nD) → (b : Ref sig .tc) → Buf (Elt F) ((c : Thread nD τ).loc b) := fun c b => B13 m ρ c b
theorem B13_keep (c : Dev nD) (r : Ref sig .tc) (h : r ∉ hostOps2_W) : B13 m ρ c (Proc.devRef .tc r) = B12 m ρ c (Proc.devRef .tc r) :=
  StableHlo.after_of_writes_sub hostOps2 _ hostOps2_writes h
/-- After region 2: its arrays at what the pipeline leaves, every other buffer as entered. -/
def B14 (c : Dev nD) : Valuation τ sig (Elt F) :=
  Pipeline.withArrays spec2 c (B13 m ρ c) fun w => (data2 (E13 m ρ) c).arrAt w cfg2.N
theorem B14_arr (c : Dev nD) (w : Fin cfg2.W) :
    B14 m ρ c (Proc.devRef .tc (Pipeline.arrRef spec2 w)) = (data2 (E13 m ρ) c).arrAt w cfg2.N := by
  unfold B14; exact Pipeline.withArrays_arr spec2 launch2.win.arr_inj c _ _ w
theorem B14_keep (c : Dev nD) (r : Ref sig .tc) (hb : ∀ w, Pipeline.arrRef spec2 w ≠ r) :
    B14 m ρ c (Proc.devRef .tc r) = B13 m ρ c (Proc.devRef .tc r) := by
  unfold B14; exact Pipeline.withArrays_of_ne spec2 c _ _ r hb
abbrev E14 : (c : Dev nD) → (b : Ref sig .tc) → Buf (Elt F) ((c : Thread nD τ).loc b) := fun c b => B14 m ρ c b
theorem exitArr2 (c : Dev nD) (w : Fin cfg2.W) : (data2 (E13 m ρ) c).arrAt w cfg2.N = E14 m ρ c (Pipeline.arrRef spec2 w) :=
  (B14_arr m ρ c w).symm
theorem exitRest2 (c : Dev nD) : ∀ b, b ∉ Finset.univ.image (Pipeline.arrRef spec2) → E14 m ρ c b = E13 m ρ c b :=
  fun b hb => B14_keep m ρ c b fun w e => hb (Finset.mem_image.mpr ⟨w, Finset.mem_univ _, e⟩)
/-- An input window's array leaves the region as it entered. -/
theorem B14_in (c : Dev nD) (w : Fin cfg2.W) (hw : (cfg2.win w).isOut = false) :
    B14 m ρ c (Proc.devRef .tc (Pipeline.arrRef spec2 w)) = E13 m ρ c (Pipeline.arrRef spec2 w) :=
  (B14_arr m ρ c w).trans (((data2 (E13 m ρ) c).arrAt_in w hw _).trans (data2_A (E13 m ρ) c w))
/-- After the host stretch `hostOps3`. -/
abbrev B15 : Dev nD → Valuation τ sig (Elt F) := fun c => StableHlo.after hostOps3 (B14 m ρ c)
abbrev E15 : (c : Dev nD) → (b : Ref sig .tc) → Buf (Elt F) ((c : Thread nD τ).loc b) := fun c b => B15 m ρ c b
theorem B15_keep (c : Dev nD) (r : Ref sig .tc) (h : r ∉ hostOps3_W) : B15 m ρ c (Proc.devRef .tc r) = B14 m ρ c (Proc.devRef .tc r) :=
  StableHlo.after_of_writes_sub hostOps3 _ hostOps3_writes h
/-- After region 3: its arrays at what the pipeline leaves, every other buffer as entered. -/
def B16 (c : Dev nD) : Valuation τ sig (Elt F) :=
  Pipeline.withArrays spec3 c (B15 m ρ c) fun w => (data3 (E15 m ρ) c).arrAt w cfg3.N
theorem B16_arr (c : Dev nD) (w : Fin cfg3.W) :
    B16 m ρ c (Proc.devRef .tc (Pipeline.arrRef spec3 w)) = (data3 (E15 m ρ) c).arrAt w cfg3.N := by
  unfold B16; exact Pipeline.withArrays_arr spec3 launch3.win.arr_inj c _ _ w
theorem B16_keep (c : Dev nD) (r : Ref sig .tc) (hb : ∀ w, Pipeline.arrRef spec3 w ≠ r) :
    B16 m ρ c (Proc.devRef .tc r) = B15 m ρ c (Proc.devRef .tc r) := by
  unfold B16; exact Pipeline.withArrays_of_ne spec3 c _ _ r hb
abbrev E16 : (c : Dev nD) → (b : Ref sig .tc) → Buf (Elt F) ((c : Thread nD τ).loc b) := fun c b => B16 m ρ c b
theorem exitArr3 (c : Dev nD) (w : Fin cfg3.W) : (data3 (E15 m ρ) c).arrAt w cfg3.N = E16 m ρ c (Pipeline.arrRef spec3 w) :=
  (B16_arr m ρ c w).symm
theorem exitRest3 (c : Dev nD) : ∀ b, b ∉ Finset.univ.image (Pipeline.arrRef spec3) → E16 m ρ c b = E15 m ρ c b :=
  fun b hb => B16_keep m ρ c b fun w e => hb (Finset.mem_image.mpr ⟨w, Finset.mem_univ _, e⟩)
/-- An input window's array leaves the region as it entered. -/
theorem B16_in (c : Dev nD) (w : Fin cfg3.W) (hw : (cfg3.win w).isOut = false) :
    B16 m ρ c (Proc.devRef .tc (Pipeline.arrRef spec3 w)) = E15 m ρ c (Pipeline.arrRef spec3 w) :=
  (B16_arr m ρ c w).trans (((data3 (E15 m ρ) c).arrAt_in w hw _).trans (data3_A (E15 m ρ) c w))
/-- After the host stretch `hostOps4`. -/
abbrev B17 : Dev nD → Valuation τ sig (Elt F) := fun c => StableHlo.after hostOps4 (B16 m ρ c)
abbrev E17 : (c : Dev nD) → (b : Ref sig .tc) → Buf (Elt F) ((c : Thread nD τ).loc b) := fun c b => B17 m ρ c b
theorem B17_keep (c : Dev nD) (r : Ref sig .tc) (h : r ∉ hostOps4_W) : B17 m ρ c (Proc.devRef .tc r) = B16 m ρ c (Proc.devRef .tc r) :=
  StableHlo.after_of_writes_sub hostOps4 _ hostOps4_writes h
/-- After region 4: its arrays at what the pipeline leaves, every other buffer as entered. -/
def B18 (c : Dev nD) : Valuation τ sig (Elt F) :=
  Pipeline.withArrays spec4 c (B17 m ρ c) fun w => (data4 (E17 m ρ) c).arrAt w cfg4.N
theorem B18_arr (c : Dev nD) (w : Fin cfg4.W) :
    B18 m ρ c (Proc.devRef .tc (Pipeline.arrRef spec4 w)) = (data4 (E17 m ρ) c).arrAt w cfg4.N := by
  unfold B18; exact Pipeline.withArrays_arr spec4 launch4.win.arr_inj c _ _ w
theorem B18_keep (c : Dev nD) (r : Ref sig .tc) (hb : ∀ w, Pipeline.arrRef spec4 w ≠ r) :
    B18 m ρ c (Proc.devRef .tc r) = B17 m ρ c (Proc.devRef .tc r) := by
  unfold B18; exact Pipeline.withArrays_of_ne spec4 c _ _ r hb
abbrev E18 : (c : Dev nD) → (b : Ref sig .tc) → Buf (Elt F) ((c : Thread nD τ).loc b) := fun c b => B18 m ρ c b
theorem exitArr4 (c : Dev nD) (w : Fin cfg4.W) : (data4 (E17 m ρ) c).arrAt w cfg4.N = E18 m ρ c (Pipeline.arrRef spec4 w) :=
  (B18_arr m ρ c w).symm
theorem exitRest4 (c : Dev nD) : ∀ b, b ∉ Finset.univ.image (Pipeline.arrRef spec4) → E18 m ρ c b = E17 m ρ c b :=
  fun b hb => B18_keep m ρ c b fun w e => hb (Finset.mem_image.mpr ⟨w, Finset.mem_univ _, e⟩)
/-- An input window's array leaves the region as it entered. -/
theorem B18_in (c : Dev nD) (w : Fin cfg4.W) (hw : (cfg4.win w).isOut = false) :
    B18 m ρ c (Proc.devRef .tc (Pipeline.arrRef spec4 w)) = E17 m ρ c (Pipeline.arrRef spec4 w) :=
  (B18_arr m ρ c w).trans (((data4 (E17 m ρ) c).arrAt_in w hw _).trans (data4_A (E17 m ρ) c w))
/-- After the host stretch `hostOps5`. -/
abbrev B19 : Dev nD → Valuation τ sig (Elt F) := fun c => StableHlo.after hostOps5 (B18 m ρ c)
abbrev E19 : (c : Dev nD) → (b : Ref sig .tc) → Buf (Elt F) ((c : Thread nD τ).loc b) := fun c b => B19 m ρ c b
theorem B19_keep (c : Dev nD) (r : Ref sig .tc) (h : r ∉ hostOps5_W) : B19 m ρ c (Proc.devRef .tc r) = B18 m ρ c (Proc.devRef .tc r) :=
  StableHlo.after_of_writes_sub hostOps5 _ hostOps5_writes h
/-- After region 5: its arrays at what the pipeline leaves, every other buffer as entered. -/
def B20 (c : Dev nD) : Valuation τ sig (Elt F) :=
  Pipeline.withArrays spec5 c (B19 m ρ c) fun w => (data5 (E19 m ρ) c).arrAt w cfg5.N
theorem B20_arr (c : Dev nD) (w : Fin cfg5.W) :
    B20 m ρ c (Proc.devRef .tc (Pipeline.arrRef spec5 w)) = (data5 (E19 m ρ) c).arrAt w cfg5.N := by
  unfold B20; exact Pipeline.withArrays_arr spec5 launch5.win.arr_inj c _ _ w
theorem B20_keep (c : Dev nD) (r : Ref sig .tc) (hb : ∀ w, Pipeline.arrRef spec5 w ≠ r) :
    B20 m ρ c (Proc.devRef .tc r) = B19 m ρ c (Proc.devRef .tc r) := by
  unfold B20; exact Pipeline.withArrays_of_ne spec5 c _ _ r hb
abbrev E20 : (c : Dev nD) → (b : Ref sig .tc) → Buf (Elt F) ((c : Thread nD τ).loc b) := fun c b => B20 m ρ c b
theorem exitArr5 (c : Dev nD) (w : Fin cfg5.W) : (data5 (E19 m ρ) c).arrAt w cfg5.N = E20 m ρ c (Pipeline.arrRef spec5 w) :=
  (B20_arr m ρ c w).symm
theorem exitRest5 (c : Dev nD) : ∀ b, b ∉ Finset.univ.image (Pipeline.arrRef spec5) → E20 m ρ c b = E19 m ρ c b :=
  fun b hb => B20_keep m ρ c b fun w e => hb (Finset.mem_image.mpr ⟨w, Finset.mem_univ _, e⟩)
/-- An input window's array leaves the region as it entered. -/
theorem B20_in (c : Dev nD) (w : Fin cfg5.W) (hw : (cfg5.win w).isOut = false) :
    B20 m ρ c (Proc.devRef .tc (Pipeline.arrRef spec5 w)) = E19 m ρ c (Pipeline.arrRef spec5 w) :=
  (B20_arr m ρ c w).trans (((data5 (E19 m ρ) c).arrAt_in w hw _).trans (data5_A (E19 m ρ) c w))
/-- After the host stretch `hostOps6`. -/
abbrev B21 : Dev nD → Valuation τ sig (Elt F) := fun c => StableHlo.after hostOps6 (B20 m ρ c)
abbrev E21 : (c : Dev nD) → (b : Ref sig .tc) → Buf (Elt F) ((c : Thread nD τ).loc b) := fun c b => B21 m ρ c b
theorem B21_keep (c : Dev nD) (r : Ref sig .tc) (h : r ∉ hostOps6_W) : B21 m ρ c (Proc.devRef .tc r) = B20 m ρ c (Proc.devRef .tc r) :=
  StableHlo.after_of_writes_sub hostOps6 _ hostOps6_writes h
/-- After region 6: its arrays at what the pipeline leaves, every other buffer as entered. -/
def B22 (c : Dev nD) : Valuation τ sig (Elt F) :=
  Pipeline.withArrays spec6 c (B21 m ρ c) fun w => (data6 (E21 m ρ) c).arrAt w cfg6.N
theorem B22_arr (c : Dev nD) (w : Fin cfg6.W) :
    B22 m ρ c (Proc.devRef .tc (Pipeline.arrRef spec6 w)) = (data6 (E21 m ρ) c).arrAt w cfg6.N := by
  unfold B22; exact Pipeline.withArrays_arr spec6 launch6.win.arr_inj c _ _ w
theorem B22_keep (c : Dev nD) (r : Ref sig .tc) (hb : ∀ w, Pipeline.arrRef spec6 w ≠ r) :
    B22 m ρ c (Proc.devRef .tc r) = B21 m ρ c (Proc.devRef .tc r) := by
  unfold B22; exact Pipeline.withArrays_of_ne spec6 c _ _ r hb
abbrev E22 : (c : Dev nD) → (b : Ref sig .tc) → Buf (Elt F) ((c : Thread nD τ).loc b) := fun c b => B22 m ρ c b
theorem exitArr6 (c : Dev nD) (w : Fin cfg6.W) : (data6 (E21 m ρ) c).arrAt w cfg6.N = E22 m ρ c (Pipeline.arrRef spec6 w) :=
  (B22_arr m ρ c w).symm
theorem exitRest6 (c : Dev nD) : ∀ b, b ∉ Finset.univ.image (Pipeline.arrRef spec6) → E22 m ρ c b = E21 m ρ c b :=
  fun b hb => B22_keep m ρ c b fun w e => hb (Finset.mem_image.mpr ⟨w, Finset.mem_univ _, e⟩)
/-- An input window's array leaves the region as it entered. -/
theorem B22_in (c : Dev nD) (w : Fin cfg6.W) (hw : (cfg6.win w).isOut = false) :
    B22 m ρ c (Proc.devRef .tc (Pipeline.arrRef spec6 w)) = E21 m ρ c (Pipeline.arrRef spec6 w) :=
  (B22_arr m ρ c w).trans (((data6 (E21 m ρ) c).arrAt_in w hw _).trans (data6_A (E21 m ρ) c w))
/-- After the host stretch `hostOps7`. -/
abbrev B23 : Dev nD → Valuation τ sig (Elt F) := fun c => StableHlo.after hostOps7 (B22 m ρ c)
abbrev E23 : (c : Dev nD) → (b : Ref sig .tc) → Buf (Elt F) ((c : Thread nD τ).loc b) := fun c b => B23 m ρ c b
theorem B23_keep (c : Dev nD) (r : Ref sig .tc) (h : r ∉ hostOps7_W) : B23 m ρ c (Proc.devRef .tc r) = B22 m ρ c (Proc.devRef .tc r) :=
  StableHlo.after_of_writes_sub hostOps7 _ hostOps7_writes h
/-- After region 7: its arrays at what the pipeline leaves, every other buffer as entered. -/
def B24 (c : Dev nD) : Valuation τ sig (Elt F) :=
  Pipeline.withArrays spec7 c (B23 m ρ c) fun w => (data7 (E23 m ρ) c).arrAt w cfg7.N
theorem B24_arr (c : Dev nD) (w : Fin cfg7.W) :
    B24 m ρ c (Proc.devRef .tc (Pipeline.arrRef spec7 w)) = (data7 (E23 m ρ) c).arrAt w cfg7.N := by
  unfold B24; exact Pipeline.withArrays_arr spec7 launch7.win.arr_inj c _ _ w
theorem B24_keep (c : Dev nD) (r : Ref sig .tc) (hb : ∀ w, Pipeline.arrRef spec7 w ≠ r) :
    B24 m ρ c (Proc.devRef .tc r) = B23 m ρ c (Proc.devRef .tc r) := by
  unfold B24; exact Pipeline.withArrays_of_ne spec7 c _ _ r hb
abbrev E24 : (c : Dev nD) → (b : Ref sig .tc) → Buf (Elt F) ((c : Thread nD τ).loc b) := fun c b => B24 m ρ c b
theorem exitArr7 (c : Dev nD) (w : Fin cfg7.W) : (data7 (E23 m ρ) c).arrAt w cfg7.N = E24 m ρ c (Pipeline.arrRef spec7 w) :=
  (B24_arr m ρ c w).symm
theorem exitRest7 (c : Dev nD) : ∀ b, b ∉ Finset.univ.image (Pipeline.arrRef spec7) → E24 m ρ c b = E23 m ρ c b :=
  fun b hb => B24_keep m ρ c b fun w e => hb (Finset.mem_image.mpr ⟨w, Finset.mem_univ _, e⟩)
/-- An input window's array leaves the region as it entered. -/
theorem B24_in (c : Dev nD) (w : Fin cfg7.W) (hw : (cfg7.win w).isOut = false) :
    B24 m ρ c (Proc.devRef .tc (Pipeline.arrRef spec7 w)) = E23 m ρ c (Pipeline.arrRef spec7 w) :=
  (B24_arr m ρ c w).trans (((data7 (E23 m ρ) c).arrAt_in w hw _).trans (data7_A (E23 m ρ) c w))
/-- After the host stretch `hostOps8`. -/
abbrev B25 : Dev nD → Valuation τ sig (Elt F) := fun c => StableHlo.after hostOps8 (B24 m ρ c)
abbrev E25 : (c : Dev nD) → (b : Ref sig .tc) → Buf (Elt F) ((c : Thread nD τ).loc b) := fun c b => B25 m ρ c b
theorem B25_keep (c : Dev nD) (r : Ref sig .tc) (h : r ∉ hostOps8_W) : B25 m ρ c (Proc.devRef .tc r) = B24 m ρ c (Proc.devRef .tc r) :=
  StableHlo.after_of_writes_sub hostOps8 _ hostOps8_writes h
/-- After region 8: its arrays at what the pipeline leaves, every other buffer as entered. -/
def B26 (c : Dev nD) : Valuation τ sig (Elt F) :=
  Pipeline.withArrays spec8 c (B25 m ρ c) fun w => (data8 (E25 m ρ) c).arrAt w cfg8.N
theorem B26_arr (c : Dev nD) (w : Fin cfg8.W) :
    B26 m ρ c (Proc.devRef .tc (Pipeline.arrRef spec8 w)) = (data8 (E25 m ρ) c).arrAt w cfg8.N := by
  unfold B26; exact Pipeline.withArrays_arr spec8 launch8.win.arr_inj c _ _ w
theorem B26_keep (c : Dev nD) (r : Ref sig .tc) (hb : ∀ w, Pipeline.arrRef spec8 w ≠ r) :
    B26 m ρ c (Proc.devRef .tc r) = B25 m ρ c (Proc.devRef .tc r) := by
  unfold B26; exact Pipeline.withArrays_of_ne spec8 c _ _ r hb
abbrev E26 : (c : Dev nD) → (b : Ref sig .tc) → Buf (Elt F) ((c : Thread nD τ).loc b) := fun c b => B26 m ρ c b
theorem exitArr8 (c : Dev nD) (w : Fin cfg8.W) : (data8 (E25 m ρ) c).arrAt w cfg8.N = E26 m ρ c (Pipeline.arrRef spec8 w) :=
  (B26_arr m ρ c w).symm
theorem exitRest8 (c : Dev nD) : ∀ b, b ∉ Finset.univ.image (Pipeline.arrRef spec8) → E26 m ρ c b = E25 m ρ c b :=
  fun b hb => B26_keep m ρ c b fun w e => hb (Finset.mem_image.mpr ⟨w, Finset.mem_univ _, e⟩)
/-- An input window's array leaves the region as it entered. -/
theorem B26_in (c : Dev nD) (w : Fin cfg8.W) (hw : (cfg8.win w).isOut = false) :
    B26 m ρ c (Proc.devRef .tc (Pipeline.arrRef spec8 w)) = E25 m ρ c (Pipeline.arrRef spec8 w) :=
  (B26_arr m ρ c w).trans (((data8 (E25 m ρ) c).arrAt_in w hw _).trans (data8_A (E25 m ρ) c w))

/-! ## No item writes an argument -/

theorem B26_main_arg0 (c : Dev nD) : B26 m ρ c (Proc.devRef .tc main_arg0) = m ((c : Thread nD τ).loc main_arg0) :=
  (B26_keep m ρ c main_arg0 (by decide)).trans <| (B25_keep m ρ c main_arg0 (by decide)).trans <| (B24_keep m ρ c main_arg0 (by decide)).trans <| (B23_keep m ρ c main_arg0 (by decide)).trans <| (B22_keep m ρ c main_arg0 (by decide)).trans <| (B21_keep m ρ c main_arg0 (by decide)).trans <| (B20_keep m ρ c main_arg0 (by decide)).trans <| (B19_keep m ρ c main_arg0 (by decide)).trans <| (B18_keep m ρ c main_arg0 (by decide)).trans <| (B17_keep m ρ c main_arg0 (by decide)).trans <| (B16_in m ρ c 0 rfl).trans <| (B15_keep m ρ c main_arg0 (by decide)).trans <| (B14_in m ρ c 0 rfl).trans <| (B13_keep m ρ c main_arg0 (by decide)).trans <| (B12_in m ρ c 0 rfl).trans <| (B11_keep m ρ c main_arg0 (by decide)).trans <| (B10_in m ρ c 0 rfl).trans <| (B9_keep m ρ c main_arg0 (by decide)).trans <| (B8_keep m ρ c main_arg0 (by decide)).trans <| (B7_keep m ρ c main_arg0 (by decide)).trans <| (B6_keep m ρ c main_arg0 (by decide)).trans <| (B5_keep m ρ c main_arg0 (by decide)).trans <| (B4_keep m ρ c main_arg0 (by decide)).trans <| (B3_keep m ρ c main_arg0 (by decide)).trans <| (B2_keep m ρ c main_arg0 (by decide)).trans <| (B1_keep m ρ c main_arg0 (by decide)).trans <| rfl
theorem B26_main_arg1 (c : Dev nD) : B26 m ρ c (Proc.devRef .tc main_arg1) = m ((c : Thread nD τ).loc main_arg1) :=
  (B26_keep m ρ c main_arg1 (by decide)).trans <| (B25_keep m ρ c main_arg1 (by decide)).trans <| (B24_keep m ρ c main_arg1 (by decide)).trans <| (B23_keep m ρ c main_arg1 (by decide)).trans <| (B22_keep m ρ c main_arg1 (by decide)).trans <| (B21_keep m ρ c main_arg1 (by decide)).trans <| (B20_keep m ρ c main_arg1 (by decide)).trans <| (B19_keep m ρ c main_arg1 (by decide)).trans <| (B18_keep m ρ c main_arg1 (by decide)).trans <| (B17_keep m ρ c main_arg1 (by decide)).trans <| (B16_keep m ρ c main_arg1 (by decide)).trans <| (B15_keep m ρ c main_arg1 (by decide)).trans <| (B14_keep m ρ c main_arg1 (by decide)).trans <| (B13_keep m ρ c main_arg1 (by decide)).trans <| (B12_keep m ρ c main_arg1 (by decide)).trans <| (B11_keep m ρ c main_arg1 (by decide)).trans <| (B10_keep m ρ c main_arg1 (by decide)).trans <| (B9_keep m ρ c main_arg1 (by decide)).trans <| (B8_keep m ρ c main_arg1 (by decide)).trans <| (B7_keep m ρ c main_arg1 (by decide)).trans <| (B6_keep m ρ c main_arg1 (by decide)).trans <| (B5_keep m ρ c main_arg1 (by decide)).trans <| (B4_keep m ρ c main_arg1 (by decide)).trans <| (B3_keep m ρ c main_arg1 (by decide)).trans <| (B2_keep m ρ c main_arg1 (by decide)).trans <| (B1_keep m ρ c main_arg1 (by decide)).trans <| rfl
theorem B26_main_arg2 (c : Dev nD) : B26 m ρ c (Proc.devRef .tc main_arg2) = m ((c : Thread nD τ).loc main_arg2) :=
  (B26_keep m ρ c main_arg2 (by decide)).trans <| (B25_keep m ρ c main_arg2 (by decide)).trans <| (B24_keep m ρ c main_arg2 (by decide)).trans <| (B23_keep m ρ c main_arg2 (by decide)).trans <| (B22_keep m ρ c main_arg2 (by decide)).trans <| (B21_keep m ρ c main_arg2 (by decide)).trans <| (B20_keep m ρ c main_arg2 (by decide)).trans <| (B19_keep m ρ c main_arg2 (by decide)).trans <| (B18_keep m ρ c main_arg2 (by decide)).trans <| (B17_keep m ρ c main_arg2 (by decide)).trans <| (B16_keep m ρ c main_arg2 (by decide)).trans <| (B15_keep m ρ c main_arg2 (by decide)).trans <| (B14_keep m ρ c main_arg2 (by decide)).trans <| (B13_keep m ρ c main_arg2 (by decide)).trans <| (B12_keep m ρ c main_arg2 (by decide)).trans <| (B11_keep m ρ c main_arg2 (by decide)).trans <| (B10_keep m ρ c main_arg2 (by decide)).trans <| (B9_keep m ρ c main_arg2 (by decide)).trans <| (B8_keep m ρ c main_arg2 (by decide)).trans <| (B7_keep m ρ c main_arg2 (by decide)).trans <| (B6_keep m ρ c main_arg2 (by decide)).trans <| (B5_keep m ρ c main_arg2 (by decide)).trans <| (B4_keep m ρ c main_arg2 (by decide)).trans <| (B3_keep m ρ c main_arg2 (by decide)).trans <| (B2_keep m ρ c main_arg2 (by decide)).trans <| (B1_keep m ρ c main_arg2 (by decide)).trans <| rfl
theorem B26_main_arg3 (c : Dev nD) : B26 m ρ c (Proc.devRef .tc main_arg3) = m ((c : Thread nD τ).loc main_arg3) :=
  (B26_keep m ρ c main_arg3 (by decide)).trans <| (B25_keep m ρ c main_arg3 (by decide)).trans <| (B24_keep m ρ c main_arg3 (by decide)).trans <| (B23_keep m ρ c main_arg3 (by decide)).trans <| (B22_keep m ρ c main_arg3 (by decide)).trans <| (B21_keep m ρ c main_arg3 (by decide)).trans <| (B20_keep m ρ c main_arg3 (by decide)).trans <| (B19_keep m ρ c main_arg3 (by decide)).trans <| (B18_keep m ρ c main_arg3 (by decide)).trans <| (B17_keep m ρ c main_arg3 (by decide)).trans <| (B16_keep m ρ c main_arg3 (by decide)).trans <| (B15_keep m ρ c main_arg3 (by decide)).trans <| (B14_keep m ρ c main_arg3 (by decide)).trans <| (B13_keep m ρ c main_arg3 (by decide)).trans <| (B12_keep m ρ c main_arg3 (by decide)).trans <| (B11_keep m ρ c main_arg3 (by decide)).trans <| (B10_keep m ρ c main_arg3 (by decide)).trans <| (B9_keep m ρ c main_arg3 (by decide)).trans <| (B8_keep m ρ c main_arg3 (by decide)).trans <| (B7_keep m ρ c main_arg3 (by decide)).trans <| (B6_keep m ρ c main_arg3 (by decide)).trans <| (B5_keep m ρ c main_arg3 (by decide)).trans <| (B4_keep m ρ c main_arg3 (by decide)).trans <| (B3_keep m ρ c main_arg3 (by decide)).trans <| (B2_keep m ρ c main_arg3 (by decide)).trans <| (B1_keep m ρ c main_arg3 (by decide)).trans <| rfl
theorem B26_main_arg4 (c : Dev nD) : B26 m ρ c (Proc.devRef .tc main_arg4) = m ((c : Thread nD τ).loc main_arg4) :=
  (B26_keep m ρ c main_arg4 (by decide)).trans <| (B25_keep m ρ c main_arg4 (by decide)).trans <| (B24_keep m ρ c main_arg4 (by decide)).trans <| (B23_keep m ρ c main_arg4 (by decide)).trans <| (B22_keep m ρ c main_arg4 (by decide)).trans <| (B21_keep m ρ c main_arg4 (by decide)).trans <| (B20_keep m ρ c main_arg4 (by decide)).trans <| (B19_keep m ρ c main_arg4 (by decide)).trans <| (B18_keep m ρ c main_arg4 (by decide)).trans <| (B17_keep m ρ c main_arg4 (by decide)).trans <| (B16_keep m ρ c main_arg4 (by decide)).trans <| (B15_keep m ρ c main_arg4 (by decide)).trans <| (B14_keep m ρ c main_arg4 (by decide)).trans <| (B13_keep m ρ c main_arg4 (by decide)).trans <| (B12_keep m ρ c main_arg4 (by decide)).trans <| (B11_keep m ρ c main_arg4 (by decide)).trans <| (B10_keep m ρ c main_arg4 (by decide)).trans <| (B9_keep m ρ c main_arg4 (by decide)).trans <| (B8_keep m ρ c main_arg4 (by decide)).trans <| (B7_keep m ρ c main_arg4 (by decide)).trans <| (B6_keep m ρ c main_arg4 (by decide)).trans <| (B5_keep m ρ c main_arg4 (by decide)).trans <| (B4_keep m ρ c main_arg4 (by decide)).trans <| (B3_keep m ρ c main_arg4 (by decide)).trans <| (B2_keep m ρ c main_arg4 (by decide)).trans <| (B1_keep m ρ c main_arg4 (by decide)).trans <| rfl

/-! ## The proof data family and the thread state -/

/-- No pipeline has a prefetched table. -/
abbrev adm : (p : Fin 9) → (pcfgs (F := F) p).Adm := fun p => (cfgs p).toPCfg_adm
/-- Every pipeline's per-point data, each at its region's entry contents. -/
def pdats : (p : Fin 9) → (c : Dev nD) → Dat τ (Elt F) Unit ℕ (UR sig nD τ) ℕ (Pipeline.pin (pcfgs (F := F)) adm p) c
  | ⟨0, _⟩ => fun c => data0 (E9 m ρ) c
  | ⟨1, _⟩ => fun c => data1 (E11 m ρ) c
  | ⟨2, _⟩ => fun c => data2 (E13 m ρ) c
  | ⟨3, _⟩ => fun c => data3 (E15 m ρ) c
  | ⟨4, _⟩ => fun c => data4 (E17 m ρ) c
  | ⟨5, _⟩ => fun c => data5 (E19 m ρ) c
  | ⟨6, _⟩ => fun c => data6 (E21 m ρ) c
  | ⟨7, _⟩ => fun c => data7 (E23 m ρ) c
  | ⟨8, _⟩ => fun c => data8 (E25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (B26 m ρ c) ∗ ∃ r, prngReg c r)

/-! ## The regions as items -/

set_option backward.isDefEq.respectTransparency.types false in
/-- Region 0: entered with every unscoped buffer at boundary 9's contents, left at boundary 10's. Its arrays are split
    out of the unscoped buffers on entry and put back at the exit contents; the generator register goes into the
    body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E9 m ρ) c).loose
  hwaits := Pipeline.hwaits_of_owed_zero _ _ _ _ L lv 0 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec0 c (E9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E9 m ρ c) (E10 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at boundary 11's contents, left at boundary 12's. Its arrays are split
    out of the unscoped buffers on entry and put back at the exit contents; the generator register goes into the
    body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ L lv 1 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E11 m ρ c) (E12 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at boundary 13's contents, left at boundary 14's. Its arrays are split
    out of the unscoped buffers on entry and put back at the exit contents; the generator register goes into the
    body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E13 m ρ) c).loose
  hwaits := Pipeline.hwaits_of_owed_zero _ _ _ _ L lv 2 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec2 c (E13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E13 m ρ c) (E14 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at boundary 15's contents, left at boundary 16's. Its arrays are split
    out of the unscoped buffers on entry and put back at the exit contents; the generator register goes into the
    body's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E15 m ρ) c).loose
  hwaits := Pipeline.hwaits_of_owed_zero _ _ _ _ L lv 3 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec3 c (E15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E15 m ρ c) (E16 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at boundary 17's contents, left at boundary 18's. Its arrays are split
    out of the unscoped buffers on entry and put back at the exit contents; the generator register goes into the
    body's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E17 m ρ) c).loose
  hwaits := Pipeline.hwaits_of_owed_zero _ _ _ _ L lv 4 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec4 c (E17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E17 m ρ c) (E18 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at boundary 19's contents, left at boundary 20's. Its arrays are split
    out of the unscoped buffers on entry and put back at the exit contents; the generator register goes into the
    body's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E19 m ρ) c).loose
  hwaits := Pipeline.hwaits_of_owed_zero _ _ _ _ L lv 5 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec5 c (E19 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E19 m ρ c) (E20 m ρ c) ((pdats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at boundary 21's contents, left at boundary 22's. Its arrays are split
    out of the unscoped buffers on entry and put back at the exit contents; the generator register goes into the
    body's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E21 m ρ) c).loose
  hwaits := Pipeline.hwaits_of_owed_zero _ _ _ _ L lv 6 fun _ _ => rfl
  pre c := iprop(StableHlo.held (c : Thread nD τ) (Pipeline.ucRefs τ sig) (B21 m ρ c) ∗ R c)
  post c := iprop(StableHlo.held (c : Thread nD τ) (Pipeline.ucRefs τ sig) (B22 m ρ c) ∗ R c)
  X c := iprop(∃ r, prngReg c r)
  Y c := iprop(∃ r, prngReg c r)
  Z c := Pipeline.unscopedRest (Ix := Unit) (Name := ℕ) (U := UR sig nD τ) (Lvl := ℕ) spec6 c (E21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E21 m ρ c) (E22 m ρ c) ((pdats m ρ 6 c).arrAt · cfg6.N) (exitArr6 m ρ c) (exitRest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered with every unscoped buffer at boundary 23's contents, left at boundary 24's. Its arrays are split
    out of the unscoped buffers on entry and put back at the exit contents; the generator register goes into the
    body's invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E23 m ρ) c).loose
  hwaits := Pipeline.hwaits_of_owed_zero _ _ _ _ L lv 7 fun _ _ => rfl
  pre c := iprop(StableHlo.held (c : Thread nD τ) (Pipeline.ucRefs τ sig) (B23 m ρ c) ∗ R c)
  post c := iprop(StableHlo.held (c : Thread nD τ) (Pipeline.ucRefs τ sig) (B24 m ρ c) ∗ R c)
  X c := iprop(∃ r, prngReg c r)
  Y c := iprop(∃ r, prngReg c r)
  Z c := Pipeline.unscopedRest (Ix := Unit) (Name := ℕ) (U := UR sig nD τ) (Lvl := ℕ) spec7 c (E23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E23 m ρ c) (E24 m ρ c) ((pdats m ρ 7 c).arrAt · cfg7.N) (exitArr7 m ρ c) (exitRest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered with every unscoped buffer at boundary 25's contents, left at boundary 26's. Its arrays are split
    out of the unscoped buffers on entry and put back at the exit contents; the generator register goes into the
    body's invariant and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E25 m ρ) c).loose
  hwaits := Pipeline.hwaits_of_owed_zero _ _ _ _ L lv 8 fun _ _ => rfl
  pre c := iprop(StableHlo.held (c : Thread nD τ) (Pipeline.ucRefs τ sig) (B25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E25 m ρ c) (E26 m ρ c) ((pdats m ρ 8 c).arrAt · cfg8.N) (exitArr8 m ρ c) (exitRest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The 26 items in order. -/
abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .host (hseg hostOps0_3 hostOps0_3_sub hostOps0_3_fresh (B3 m ρ)),
    .host (hseg hostOps0_4 hostOps0_4_sub hostOps0_4_fresh (B4 m ρ)),
    .host (hseg hostOps0_5 hostOps0_5_sub hostOps0_5_fresh (B5 m ρ)),
    .host (hseg hostOps0_6 hostOps0_6_sub hostOps0_6_fresh (B6 m ρ)),
    .host (hseg hostOps0_7 hostOps0_7_sub hostOps0_7_fresh (B7 m ρ)),
    .host (hseg hostOps0_8 hostOps0_8_sub hostOps0_8_fresh (B8 m ρ)),
    .region (reg0 m ρ),
    .host (hseg hostOps1 hostOps1_sub hostOps1_fresh (B10 m ρ)),
    .region (reg1 m ρ),
    .host (hseg hostOps2 hostOps2_sub hostOps2_fresh (B12 m ρ)),
    .region (reg2 m ρ),
    .host (hseg hostOps3 hostOps3_sub hostOps3_fresh (B14 m ρ)),
    .region (reg3 m ρ),
    .host (hseg hostOps4 hostOps4_sub hostOps4_fresh (B16 m ρ)),
    .region (reg4 m ρ),
    .host (hseg hostOps5 hostOps5_sub hostOps5_fresh (B18 m ρ)),
    .region (reg5 m ρ),
    .host (hseg hostOps6 hostOps6_sub hostOps6_fresh (B20 m ρ)),
    .region (reg6 m ρ),
    .host (hseg hostOps7 hostOps7_sub hostOps7_fresh (B22 m ρ)),
    .region (reg7 m ρ),
    .host (hseg hostOps8 hostOps8_sub hostOps8_fresh (B24 m ρ)),
    .region (reg8 m ρ) ]
/-- The program is the run of its items. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B26 m ρ c b)
    (hfin := fun c s' => by
      iintro ⟨⟨Hh, -⟩, HSI⟩
      unfold StableHlo.held
      imodintro
      iapply (pointsTo_read_all (Pipeline.ucRefs τ sig) (fun b => (((c : Thread nD τ)).1, b)) (B26 m ρ c) s')
      isplitl [Hh] <;> iassumption)
    (hQ := fun s h c => h c)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c)⟩) (run_all m ρ)

/-- The run with the result named: the result buffer ends at what the last region's write-backs leave, and every
    argument array as launched. -/
theorem run_result : θ_run defs (onTc (τ := τ) (main (F := F))) ⟨m, fun _ => 0, ρ⟩ (fun r => ∀ c : Dev nD,
      r.2.mem ((c.tc : Thread nD τ).loc main_v35) = (data8 (E25 m ρ) c).arrAt 2 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v35 (by decide))).trans (B26_arr m ρ c 2),
     (h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c)⟩) (run_all m ρ)

end Cert.Kernel.Hand

end
-- ==== Proof.KI_Regions.lean ====
/-
  The nine regions of the program, one pallas_call each over a grid of 32 row blocks: regions 0–3 are layer 1 on the
  four column chunks of its weights, regions 4–5 and 6–7 the two hidden layers on two column chunks each, region 8 the
  output layer. At grid point `t` a region's body is handed rows [256·t, 256·t + 256) of the activations (window 0),
  the whole weight chunk (window 1, the same block at every point, moved in once) and the output's row block
  (window 2); it reads the two inputs whole, computes its payload — layer 1: the rescale, two products against the
  chunk, their sum, the sign quantiser; the hidden layers: one product, sign-quantised; the output layer: one product —
  and overwrites the output block whole, keeping nothing between points. For each region this module states, at any
  entry contents `V` of the core's buffers, what the output block holds after the body (one whole-block store of the
  payload), proves the body's Hoare triple by symbolic execution, and packages the per-point data the pipeline library
  asks for: inputs left in place, the output at the stored payload, nothing owed, the scoped rest untouched.
-/
import proofs.«102262_j38096359916038_2_alg».proof.Proof.Gen.KernelIdeal.Launch
import proofs.«102262_j38096359916038_2_alg».proof.Proof.Gen.KernelIdeal.Skeleton
import proofs.«102262_j38096359916038_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## Region 0 -/

/-- Window `w`'s block at grid point `t`, read off the window's array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's row block, whether it was moved in at this point or not. -/
theorem held0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
/-- The weight chunk's staging buffer holds the chunk at every point: moved in once, its block index never moves. -/
theorem held0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- The three rectangles the body touches: each buffer whole. -/
abbrev wholeX0 : Rect S256x4096 := Rect.unit (s := S256x4096) ![0, 0] S256x4096.size inb_S256x4096_S256x4096_0_0
abbrev wholeW0 : Rect S1024x4096 := Rect.unit (s := S1024x4096) ![0, 0] S1024x4096.size inb_S1024x4096_S1024x4096_0_0
abbrev wholeO0 : Rect S256x1024 := Rect.unit (s := S256x1024) ![0, 0] S256x1024.size inb_S256x1024_S256x1024_0_0

/-- What the output's staging buffer holds after the body: the one whole-block store of the body's payload, a
    function of the two input blocks. -/
def stored0 (x0 : Vec F S256x4096 .f32) (x1 : Vec F S1024x4096 .bf16) : Vec F S256x1024 .bf16 :=
  View.canon [⟨wholeO0, k0_pay1 (View.ld x0 wholeX0) (View.ld x1 wholeW0)⟩]

/-- The one store covers the output block. -/
theorem stored0_covers (p0 : Vec F S256x1024 .bf16) (y : S256x1024.Idx) :
    ∃ pc ∈ ([⟨wholeO0, p0⟩] : List (View.Piece (Elt F) S256x1024 .bf16)), y ∈ pc.1.set :=
  View.cover_of_tiled [⟨wholeO0, p0⟩] S256x1024.size (by rfl) y

set_option maxHeartbeats 1000000 in
/-- The body's triple: on whole staging buffers, the inputs at contents `x0`, `x1` and the output at anything, it
    runs to the end, leaves the inputs as they were and the output at `stored0 x0 x1`. -/
theorem body_triple0 (c : Dev nD) (E : Set ℕ) (i : grid0.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored0 x0 x1)) -∗ K ⟨⟩))
      ⊢ wp frame (wpE (defs₀ (F := F)) Variants.none c none) E (cc0__binlinear_split_kernel i arg1 harg1 arg2 harg2 arg3 harg3) K := by
  simp only [cc0__binlinear_split_kernel_eq_skeleton]; unfold cc0__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored0_covers _)

/-- The per-point data of this pipeline on core `c`: its arrays as the region finds them; after the body at point
    `t` each input's buffer still at its block and the output's at the stored payload of the two input blocks; the
    scoped rest and the generator register untouched; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => stored0 (blockAt0 V c 0 t) (blockAt0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after0 (c : Dev nD) (t : Fin cfg0.N) : (data0 V c).after 0 t = blockAt0 V c 0 t := by dsimp only [data0]
theorem data0_after1 (c : Dev nD) (t : Fin cfg0.N) : (data0 V c).after 1 t = blockAt0 V c 1 t := by dsimp only [data0]
theorem data0_after2 (c : Dev nD) (t : Fin cfg0.N) :
    (data0 V c).after 2 t = stored0 (blockAt0 V c 0 t) (blockAt0 V c 1 t) := by dsimp only [data0]

theorem held0_0 (c : Dev nD) (t : Fin cfg0.N) (d) : (data0 V c).before 0 t d = blockAt0 V c 0 t :=
  held0_0_of V (data0 V c) (data0_A V c 0) (data0_after0 V c) t d
theorem held0_1 (c : Dev nD) (t : Fin cfg0.N) (d) : (data0 V c).before 1 t d = blockAt0 V c 1 t :=
  held0_1_of V (data0 V c) (data0_A V c 1) (data0_after1 V c) t d

/-- What the body is called with at point `t`, window by window, -/
def pointPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def pointPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

/-- The body at any point: the inputs' buffers hold their blocks, so the body's triple applies; the invariant and the
    core's dues pass through unread. -/
theorem point_sound0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [held0_0, held0_1]
  rw [show (data0 V c).Φ t.succ = (data0 V c).Φ t.castSucc from rfl,
    show (data0 V c).owesAt () t.succ = (data0 V c).owesAt () t.castSucc from rfl,
    data0_after0, data0_after1, data0_after2]
  iintro ⟨HΦ, Ho, ⟨%d0, H0⟩, ⟨%d1, H1⟩, ⟨%d2, H2⟩⟩
  iapply (body_triple0 c Set.univ (grid0.coords t) _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation0 (c : Dev nD) : BodyObligation (data0 (F := F) V c) (defs₀ (F := F)) Variants.none () Set.univ := fun t => by
  rw [bigSep_W0, bigSep_W0]
  exact point_sound0 V c t

/-! ## Region 1 -/

/-- Window `w`'s block at grid point `t`, read off the window's array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's row block, whether it was moved in at this point or not. -/
theorem held1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
/-- The weight chunk's staging buffer holds the chunk at every point: moved in once, its block index never moves. -/
theorem held1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- The three rectangles the body touches: each buffer whole. -/
abbrev wholeX1 : Rect S256x4096 := Rect.unit (s := S256x4096) ![0, 0] S256x4096.size inb_S256x4096_S256x4096_0_0
abbrev wholeW1 : Rect S1024x4096 := Rect.unit (s := S1024x4096) ![0, 0] S1024x4096.size inb_S1024x4096_S1024x4096_0_0
abbrev wholeO1 : Rect S256x1024 := Rect.unit (s := S256x1024) ![0, 0] S256x1024.size inb_S256x1024_S256x1024_0_0

/-- What the output's staging buffer holds after the body: the one whole-block store of the body's payload, a
    function of the two input blocks. -/
def stored1 (x0 : Vec F S256x4096 .f32) (x1 : Vec F S1024x4096 .bf16) : Vec F S256x1024 .bf16 :=
  View.canon [⟨wholeO1, k1_pay1 (View.ld x0 wholeX1) (View.ld x1 wholeW1)⟩]

/-- The one store covers the output block. -/
theorem stored1_covers (p0 : Vec F S256x1024 .bf16) (y : S256x1024.Idx) :
    ∃ pc ∈ ([⟨wholeO1, p0⟩] : List (View.Piece (Elt F) S256x1024 .bf16)), y ∈ pc.1.set :=
  View.cover_of_tiled [⟨wholeO1, p0⟩] S256x1024.size (by rfl) y

set_option maxHeartbeats 1000000 in
/-- The body's triple: on whole staging buffers, the inputs at contents `x0`, `x1` and the output at anything, it
    runs to the end, leaves the inputs as they were and the output at `stored1 x0 x1`. -/
theorem body_triple1 (c : Dev nD) (E : Set ℕ) (i : grid1.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored1 x0 x1)) -∗ K ⟨⟩))
      ⊢ wp frame (wpE (defs₀ (F := F)) Variants.none c none) E (cc1__binlinear_split_kernel i arg1 harg1 arg2 harg2 arg3 harg3) K := by
  simp only [cc1__binlinear_split_kernel_eq_skeleton]; unfold cc1__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The per-point data of this pipeline on core `c`: its arrays as the region finds them; after the body at point
    `t` each input's buffer still at its block and the output's at the stored payload of the two input blocks; the
    scoped rest and the generator register untouched; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => stored1 (blockAt1 V c 0 t) (blockAt1 V c 1 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after0 (c : Dev nD) (t : Fin cfg1.N) : (data1 V c).after 0 t = blockAt1 V c 0 t := by dsimp only [data1]
theorem data1_after1 (c : Dev nD) (t : Fin cfg1.N) : (data1 V c).after 1 t = blockAt1 V c 1 t := by dsimp only [data1]
theorem data1_after2 (c : Dev nD) (t : Fin cfg1.N) :
    (data1 V c).after 2 t = stored1 (blockAt1 V c 0 t) (blockAt1 V c 1 t) := by dsimp only [data1]

theorem held1_0 (c : Dev nD) (t : Fin cfg1.N) (d) : (data1 V c).before 0 t d = blockAt1 V c 0 t :=
  held1_0_of V (data1 V c) (data1_A V c 0) (data1_after0 V c) t d
theorem held1_1 (c : Dev nD) (t : Fin cfg1.N) (d) : (data1 V c).before 1 t d = blockAt1 V c 1 t :=
  held1_1_of V (data1 V c) (data1_A V c 1) (data1_after1 V c) t d

/-- What the body is called with at point `t`, window by window, -/
def pointPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d)))

/-- and what it returns. -/
def pointPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t))

/-- The body at any point: the inputs' buffers hold their blocks, so the body's triple applies; the invariant and the
    core's dues pass through unread. -/
theorem point_sound1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [held1_0, held1_1]
  rw [show (data1 V c).Φ t.succ = (data1 V c).Φ t.castSucc from rfl,
    show (data1 V c).owesAt () t.succ = (data1 V c).owesAt () t.castSucc from rfl,
    data1_after0, data1_after1, data1_after2]
  iintro ⟨HΦ, Ho, ⟨%d0, H0⟩, ⟨%d1, H1⟩, ⟨%d2, H2⟩⟩
  iapply (body_triple1 c Set.univ (grid1.coords t) _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation1 (c : Dev nD) : BodyObligation (data1 (F := F) V c) (defs₀ (F := F)) Variants.none () Set.univ := fun t => by
  rw [bigSep_W1, bigSep_W1]
  exact point_sound1 V c t

/-! ## Region 2 -/

/-- Window `w`'s block at grid point `t`, read off the window's array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's row block, whether it was moved in at this point or not. -/
theorem held2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
/-- The weight chunk's staging buffer holds the chunk at every point: moved in once, its block index never moves. -/
theorem held2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The three rectangles the body touches: each buffer whole. -/
abbrev wholeX2 : Rect S256x4096 := Rect.unit (s := S256x4096) ![0, 0] S256x4096.size inb_S256x4096_S256x4096_0_0
abbrev wholeW2 : Rect S1024x4096 := Rect.unit (s := S1024x4096) ![0, 0] S1024x4096.size inb_S1024x4096_S1024x4096_0_0
abbrev wholeO2 : Rect S256x1024 := Rect.unit (s := S256x1024) ![0, 0] S256x1024.size inb_S256x1024_S256x1024_0_0

/-- What the output's staging buffer holds after the body: the one whole-block store of the body's payload, a
    function of the two input blocks. -/
def stored2 (x0 : Vec F S256x4096 .f32) (x1 : Vec F S1024x4096 .bf16) : Vec F S256x1024 .bf16 :=
  View.canon [⟨wholeO2, k2_pay1 (View.ld x0 wholeX2) (View.ld x1 wholeW2)⟩]

/-- The one store covers the output block. -/
theorem stored2_covers (p0 : Vec F S256x1024 .bf16) (y : S256x1024.Idx) :
    ∃ pc ∈ ([⟨wholeO2, p0⟩] : List (View.Piece (Elt F) S256x1024 .bf16)), y ∈ pc.1.set :=
  View.cover_of_tiled [⟨wholeO2, p0⟩] S256x1024.size (by rfl) y

set_option maxHeartbeats 1000000 in
/-- The body's triple: on whole staging buffers, the inputs at contents `x0`, `x1` and the output at anything, it
    runs to the end, leaves the inputs as they were and the output at `stored2 x0 x1`. -/
theorem body_triple2 (c : Dev nD) (E : Set ℕ) (i : grid2.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored2 x0 x1)) -∗ K ⟨⟩))
      ⊢ wp frame (wpE (defs₀ (F := F)) Variants.none c none) E (cc2__binlinear_split_kernel i arg1 harg1 arg2 harg2 arg3 harg3) K := by
  simp only [cc2__binlinear_split_kernel_eq_skeleton]; unfold cc2__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored2_covers _)

/-- The per-point data of this pipeline on core `c`: its arrays as the region finds them; after the body at point
    `t` each input's buffer still at its block and the output's at the stored payload of the two input blocks; the
    scoped rest and the generator register untouched; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2 (blockAt2 V c 0 t) (blockAt2 V c 1 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after0 (c : Dev nD) (t : Fin cfg2.N) : (data2 V c).after 0 t = blockAt2 V c 0 t := by dsimp only [data2]
theorem data2_after1 (c : Dev nD) (t : Fin cfg2.N) : (data2 V c).after 1 t = blockAt2 V c 1 t := by dsimp only [data2]
theorem data2_after2 (c : Dev nD) (t : Fin cfg2.N) :
    (data2 V c).after 2 t = stored2 (blockAt2 V c 0 t) (blockAt2 V c 1 t) := by dsimp only [data2]

theorem held2_0 (c : Dev nD) (t : Fin cfg2.N) (d) : (data2 V c).before 0 t d = blockAt2 V c 0 t :=
  held2_0_of V (data2 V c) (data2_A V c 0) (data2_after0 V c) t d
theorem held2_1 (c : Dev nD) (t : Fin cfg2.N) (d) : (data2 V c).before 1 t d = blockAt2 V c 1 t :=
  held2_1_of V (data2 V c) (data2_A V c 1) (data2_after1 V c) t d

/-- What the body is called with at point `t`, window by window, -/
def pointPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d)))

/-- and what it returns. -/
def pointPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t))

/-- The body at any point: the inputs' buffers hold their blocks, so the body's triple applies; the invariant and the
    core's dues pass through unread. -/
theorem point_sound2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [held2_0, held2_1]
  rw [show (data2 V c).Φ t.succ = (data2 V c).Φ t.castSucc from rfl,
    show (data2 V c).owesAt () t.succ = (data2 V c).owesAt () t.castSucc from rfl,
    data2_after0, data2_after1, data2_after2]
  iintro ⟨HΦ, Ho, ⟨%d0, H0⟩, ⟨%d1, H1⟩, ⟨%d2, H2⟩⟩
  iapply (body_triple2 c Set.univ (grid2.coords t) _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation2 (c : Dev nD) : BodyObligation (data2 (F := F) V c) (defs₀ (F := F)) Variants.none () Set.univ := fun t => by
  rw [bigSep_W2, bigSep_W2]
  exact point_sound2 V c t

/-! ## Region 3 -/

/-- Window `w`'s block at grid point `t`, read off the window's array as the region finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activations' staging buffer holds the point's row block, whether it was moved in at this point or not. -/
theorem held3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)
/-- The weight chunk's staging buffer holds the chunk at every point: moved in once, its block index never moves. -/
theorem held3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- The three rectangles the body touches: each buffer whole. -/
abbrev wholeX3 : Rect S256x4096 := Rect.unit (s := S256x4096) ![0, 0] S256x4096.size inb_S256x4096_S256x4096_0_0
abbrev wholeW3 : Rect S1024x4096 := Rect.unit (s := S1024x4096) ![0, 0] S1024x4096.size inb_S1024x4096_S1024x4096_0_0
abbrev wholeO3 : Rect S256x1024 := Rect.unit (s := S256x1024) ![0, 0] S256x1024.size inb_S256x1024_S256x1024_0_0

/-- What the output's staging buffer holds after the body: the one whole-block store of the body's payload, a
    function of the two input blocks. -/
def stored3 (x0 : Vec F S256x4096 .f32) (x1 : Vec F S1024x4096 .bf16) : Vec F S256x1024 .bf16 :=
  View.canon [⟨wholeO3, k3_pay1 (View.ld x0 wholeX3) (View.ld x1 wholeW3)⟩]

/-- The one store covers the output block. -/
theorem stored3_covers (p0 : Vec F S256x1024 .bf16) (y : S256x1024.Idx) :
    ∃ pc ∈ ([⟨wholeO3, p0⟩] : List (View.Piece (Elt F) S256x1024 .bf16)), y ∈ pc.1.set :=
  View.cover_of_tiled [⟨wholeO3, p0⟩] S256x1024.size (by rfl) y

set_option maxHeartbeats 1000000 in
/-- The body's triple: on whole staging buffers, the inputs at contents `x0`, `x1` and the output at anything, it
    runs to the end, leaves the inputs as they were and the output at `stored3 x0 x1`. -/
theorem body_triple3 (c : Dev nD) (E : Set ℕ) (i : grid3.Coords) (arg1 : Memref sig .tc .vmem S256x4096 .f32) (harg1 : arg1.IsWhole) (arg2 : Memref sig .tc .vmem S1024x4096 .bf16) (harg2 : arg2.IsWhole) (arg3 : Memref sig .tc .vmem S256x1024 .bf16) (harg3 : arg3.IsWhole)
    (x0 : Vec F S256x4096 .f32) (x1 : Vec F S1024x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored3 x0 x1)) -∗ K ⟨⟩))
      ⊢ wp frame (wpE (defs₀ (F := F)) Variants.none c none) E (cc3__binlinear_split_kernel i arg1 harg1 arg2 harg2 arg3 harg3) K := by
  simp only [cc3__binlinear_split_kernel_eq_skeleton]; unfold cc3__binlinear_split_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored3_covers _)

/-- The per-point data of this pipeline on core `c`: its arrays as the region finds them; after the body at point
    `t` each input's buffer still at its block and the output's at the stored payload of the two input blocks; the
    scoped rest and the generator register untouched; nothing owed; full shares. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => stored3 (blockAt3 V c 0 t) (blockAt3 V c 1 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after0 (c : Dev nD) (t : Fin cfg3.N) : (data3 V c).after 0 t = blockAt3 V c 0 t := by dsimp only [data3]
theorem data3_after1 (c : Dev nD) (t : Fin cfg3.N) : (data3 V c).after 1 t = blockAt3 V c 1 t := by dsimp only [data3]
theorem data3_after2 (c : Dev nD) (t : Fin cfg3.N) :
    (data3 V c).after 2 t = stored3 (blockAt3 V c 0 t) (blockAt3 V c 1 t) := by dsimp only [data3]

theorem held3_0 (c : Dev nD) (t : Fin cfg3.N) (d) : (data3 V c).before 0 t d = blockAt3 V c 0 t :=
  held3_0_of V (data3 V c) (data3_A V c 0) (data3_after0 V c) t d
theorem held3_1 (c : Dev nD) (t : Fin cfg3.N) (d) : (data3 V c).before 1 t d = blockAt3 V c 1 t :=
  held3_1_of V (data3 V c) (data3_A V c 1) (data3_after1 V c) t d

/-- What the body is called with at point `t`, window by window, -/
def pointPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d)))

/-- and what it returns. -/
def pointPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t))

/-- The body at any point: the inputs' buffers hold their blocks, so the body's triple applies; the invariant and the
    core's dues pass through unread. -/
theorem point_sound3 (c : Dev nD) (t : Fin cfg3.N) :
    pointPre3 V c t ⊢ wp frame (wpE (defs₀ (F := F)) Variants.none c none) Set.univ (bodyAt3 t) (fun _ => pointPost3 V c t) := by
  unfold pointPre3 pointPost3 bodyAt3
  simp only [held3_0, held3_1]
  rw [show (data3 V c).Φ t.succ = (data3 V c).Φ t.castSucc from rfl,
    show (data3 V c).owesAt () t.succ = (data3 V c).owesAt () t.castSucc from rfl,
    data3_after0, data3_after1, data3_after2]
  iintro ⟨HΦ, Ho, ⟨%d0, H0⟩, ⟨%d1, H1⟩, ⟨%d2, H2⟩⟩
  iapply (body_triple3 c Set.univ (grid3.coords t) _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (data3 (F := F) V c) (defs₀ (F := F)) Variants.none () Set.univ := fun t => by
  rw [bigSep_W3, bigSep_W3]
  exact point_sound3 V c t

/-! ## Region 4 -/

/-- Window `w`'s block at grid point `t`, read off the window's array as the region finds it. -/
def blockAt4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds the point's row block, whether it was moved in at this point or not. -/
theorem held4_0_of {c : Dev nD} (dat : Dat τ (Elt F) Unit ℕ (UR sig nD τ) ℕ cfg4 c) (hA : dat.A 0 = V c (Pipeline.arrRef spec4 0))
    (hafter : ∀ t, dat.after 0 t = blockAt4 V c 0 t) (t : Fin cfg4.N) (d) : dat.before 0 t d = blockAt4 V c 0 t :=
  (dat.before_in_eq_fetched 0 rfl (fun _ => rfl) (fun _ _ _ => rfl) (fun t => by rw [hafter]; unfold Dat.blockOf blockAt4; rw [hA]; try rfl) t d).trans
    (by unfold Dat.fetched Dat.blockOf blockAt4; rw [hA]; try rfl)
/-- The weight chunk's staging buffer holds the chunk at every point: moved in once, its block index never moves. -/
theorem held4_1_of {c : Dev nD} (dat : Dat τ (Elt F) Unit ℕ (UR sig nD τ) ℕ cfg4 c) (hA : dat.A 1 = V c (Pipeline.arrRef spec4 1))
    (hafter : ∀ t, dat.after 1 t = blockAt4 V c 1 t) (t : Fin cfg4.N) (d) : dat.before 1 t d = blockAt4 V c 1 t :=
  (dat.before_in_eq_fetched 1 rfl (fun _ => rfl) (fun _ _ _ => rfl) (fun t => by rw [hafter]; unfold Dat.blockOf blockAt4; rw [hA]; try rfl) t d).trans
    (by unfold Dat.fetched Dat.blockOf blockAt4; rw [hA]; try rfl)

/-- The three rectangles the body touches: each buffer whole. -/
abbrev wholeX4 : Rect S256x4096 := Rect.unit (s := S256x4096) ![0, 0] S256x4096.size inb_S256x4096_S256x4096_0_0
abbrev wholeW4 : Rect S2048x4096 := Rect.unit (s := S2048x4096) ![0, 0] S2048x4096.size inb_S2048x4096_S2048x4096_0_0
abbrev wholeO4 : Rect S256x2048 := Rect.unit (s := S256x2048) ![0, 0] S256x2048.size inb_S256x2048_S256x2048_0_0

/-- What the output's staging buffer holds after the body: the one whole-block store of the body's payload, a
    function of the two input blocks. -/
def stored4 (x0 : Vec F S256x4096 .bf16) (x1 : Vec F S2048x4096 .bf16) : Vec F S256x2048 .bf16 :=
  View.canon [⟨wholeO4, k4_pay1 (View.ld x0 wholeX4) (View.ld x1 wholeW4)⟩]

/-- The one store covers the output block. -/
theorem stored4_covers (p0 : Vec F S256x2048 .bf16) (y : S256x2048.Idx) :
    ∃ pc ∈ ([⟨wholeO4, p0⟩] : List (View.Piece (Elt F) S256x2048 .bf16)), y ∈ pc.1.set :=
  View.cover_of_tiled [⟨wholeO4, p0⟩] S256x2048.size (by rfl) y

set_option maxHeartbeats 1000000 in
/-- The body's triple: on whole staging buffers, the inputs at contents `x0`, `x1` and the output at anything, it
    runs to the end, leaves the inputs as they were and the output at `stored4 x0 x1`. -/
theorem body_triple4 (c : Dev nD) (E : Set ℕ) (i : grid4.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored4 x0 x1)) -∗ K ⟨⟩))
      ⊢ wp frame (wpE (defs₀ (F := F)) Variants.none c none) E (cc4__binlinear_kernel i arg1 harg1 arg2 harg2 arg3 harg3) K := by
  simp only [cc4__binlinear_kernel_eq_skeleton]; unfold cc4__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored4_covers _)

/-- The per-point data of this pipeline on core `c`: its arrays as the region finds them; after the body at point
    `t` each input's buffer still at its block and the output's at the stored payload of the two input blocks; the
    scoped rest and the generator register untouched; nothing owed; full shares. -/
def data4 (c : Dev nD) : Dat τ (Elt F) Unit ℕ (UR sig nD τ) ℕ cfg4 c where
  A w := V c (Pipeline.arrRef spec4 w)
  after w t := match w with
    | ⟨0, _⟩ => blockAt4 V c 0 t
    | ⟨1, _⟩ => blockAt4 V c 1 t
    | ⟨2, _⟩ => stored4 (blockAt4 V c 0 t) (blockAt4 V c 1 t)
  Φ _ := Pipeline.ΦA spec4 c
  q _ := fullShare
  owed _ := 0

theorem data4_A (c : Dev nD) (w : Fin cfg4.W) : (data4 V c).A w = V c (Pipeline.arrRef spec4 w) := by
  dsimp only [data4]
theorem data4_after0 (c : Dev nD) (t : Fin cfg4.N) : (data4 V c).after 0 t = blockAt4 V c 0 t := by dsimp only [data4]
theorem data4_after1 (c : Dev nD) (t : Fin cfg4.N) : (data4 V c).after 1 t = blockAt4 V c 1 t := by dsimp only [data4]
theorem data4_after2 (c : Dev nD) (t : Fin cfg4.N) :
    (data4 V c).after 2 t = stored4 (blockAt4 V c 0 t) (blockAt4 V c 1 t) := by dsimp only [data4]

theorem held4_0 (c : Dev nD) (t : Fin cfg4.N) (d) : (data4 V c).before 0 t d = blockAt4 V c 0 t :=
  held4_0_of V (data4 V c) (data4_A V c 0) (data4_after0 V c) t d
theorem held4_1 (c : Dev nD) (t : Fin cfg4.N) (d) : (data4 V c).before 1 t d = blockAt4 V c 1 t :=
  held4_1_of V (data4 V c) (data4_A V c 1) (data4_after1 V c) t d

/-- What the body is called with at point `t`, window by window, -/
def pointPre4 (c : Dev nD) (t : Fin cfg4.N) : sProp 𝕄 :=
  iprop((data4 V c).Φ t.castSucc ∗ (data4 V c).owesAt () t.castSucc
    ∗ (∃ d, owns (c : Thread nD τ) (st4_0 t) fullShare ((data4 V c).before 0 t d))
    ∗ (∃ d, owns (c : Thread nD τ) (st4_1 t) fullShare ((data4 V c).before 1 t d))
    ∗ (∃ d, owns (c : Thread nD τ) (st4_2 t) fullShare ((data4 V c).before 2 t d)))

/-- and what it returns. -/
def pointPost4 (c : Dev nD) (t : Fin cfg4.N) : sProp 𝕄 :=
  iprop((data4 V c).Φ t.succ ∗ (data4 V c).owesAt () t.succ
    ∗ owns (c : Thread nD τ) (st4_0 t) fullShare ((data4 V c).after 0 t)
    ∗ owns (c : Thread nD τ) (st4_1 t) fullShare ((data4 V c).after 1 t)
    ∗ owns (c : Thread nD τ) (st4_2 t) fullShare ((data4 V c).after 2 t))

/-- The body at any point: the inputs' buffers hold their blocks, so the body's triple applies; the invariant and the
    core's dues pass through unread. -/
theorem point_sound4 (c : Dev nD) (t : Fin cfg4.N) :
    pointPre4 V c t ⊢ wp frame (wpE (defs₀ (F := F)) Variants.none c none) Set.univ (bodyAt4 t) (fun _ => pointPost4 V c t) := by
  unfold pointPre4 pointPost4 bodyAt4
  simp only [held4_0, held4_1]
  rw [show (data4 V c).Φ t.succ = (data4 V c).Φ t.castSucc from rfl,
    show (data4 V c).owesAt () t.succ = (data4 V c).owesAt () t.castSucc from rfl,
    data4_after0, data4_after1, data4_after2]
  iintro ⟨HΦ, Ho, ⟨%d0, H0⟩, ⟨%d1, H1⟩, ⟨%d2, H2⟩⟩
  iapply (body_triple4 c Set.univ (grid4.coords t) _ _ _ _ _ _ (blockAt4 V c 0 t) (blockAt4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation4 (c : Dev nD) : BodyObligation (data4 (F := F) V c) (defs₀ (F := F)) Variants.none () Set.univ := fun t => by
  rw [bigSep_W4, bigSep_W4]
  exact point_sound4 V c t

/-! ## Region 5 -/

/-- Window `w`'s block at grid point `t`, read off the window's array as the region finds it. -/
def blockAt5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The activations' staging buffer holds the point's row block, whether it was moved in at this point or not. -/
theorem held5_0_of {c : Dev nD} (dat : Dat τ (Elt F) Unit ℕ (UR sig nD τ) ℕ cfg5 c) (hA : dat.A 0 = V c (Pipeline.arrRef spec5 0))
    (hafter : ∀ t, dat.after 0 t = blockAt5 V c 0 t) (t : Fin cfg5.N) (d) : dat.before 0 t d = blockAt5 V c 0 t :=
  (dat.before_in_eq_fetched 0 rfl (fun _ => rfl) (fun _ _ _ => rfl) (fun t => by rw [hafter]; unfold Dat.blockOf blockAt5; rw [hA]; try rfl) t d).trans
    (by unfold Dat.fetched Dat.blockOf blockAt5; rw [hA]; try rfl)
/-- The weight chunk's staging buffer holds the chunk at every point: moved in once, its block index never moves. -/
theorem held5_1_of {c : Dev nD} (dat : Dat τ (Elt F) Unit ℕ (UR sig nD τ) ℕ cfg5 c) (hA : dat.A 1 = V c (Pipeline.arrRef spec5 1))
    (hafter : ∀ t, dat.after 1 t = blockAt5 V c 1 t) (t : Fin cfg5.N) (d) : dat.before 1 t d = blockAt5 V c 1 t :=
  (dat.before_in_eq_fetched 1 rfl (fun _ => rfl) (fun _ _ _ => rfl) (fun t => by rw [hafter]; unfold Dat.blockOf blockAt5; rw [hA]; try rfl) t d).trans
    (by unfold Dat.fetched Dat.blockOf blockAt5; rw [hA]; try rfl)

/-- The three rectangles the body touches: each buffer whole. -/
abbrev wholeX5 : Rect S256x4096 := Rect.unit (s := S256x4096) ![0, 0] S256x4096.size inb_S256x4096_S256x4096_0_0
abbrev wholeW5 : Rect S2048x4096 := Rect.unit (s := S2048x4096) ![0, 0] S2048x4096.size inb_S2048x4096_S2048x4096_0_0
abbrev wholeO5 : Rect S256x2048 := Rect.unit (s := S256x2048) ![0, 0] S256x2048.size inb_S256x2048_S256x2048_0_0

/-- What the output's staging buffer holds after the body: the one whole-block store of the body's payload, a
    function of the two input blocks. -/
def stored5 (x0 : Vec F S256x4096 .bf16) (x1 : Vec F S2048x4096 .bf16) : Vec F S256x2048 .bf16 :=
  View.canon [⟨wholeO5, k5_pay1 (View.ld x0 wholeX5) (View.ld x1 wholeW5)⟩]

/-- The one store covers the output block. -/
theorem stored5_covers (p0 : Vec F S256x2048 .bf16) (y : S256x2048.Idx) :
    ∃ pc ∈ ([⟨wholeO5, p0⟩] : List (View.Piece (Elt F) S256x2048 .bf16)), y ∈ pc.1.set :=
  View.cover_of_tiled [⟨wholeO5, p0⟩] S256x2048.size (by rfl) y

set_option maxHeartbeats 1000000 in
/-- The body's triple: on whole staging buffers, the inputs at contents `x0`, `x1` and the output at anything, it
    runs to the end, leaves the inputs as they were and the output at `stored5 x0 x1`. -/
theorem body_triple5 (c : Dev nD) (E : Set ℕ) (i : grid5.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored5 x0 x1)) -∗ K ⟨⟩))
      ⊢ wp frame (wpE (defs₀ (F := F)) Variants.none c none) E (cc5__binlinear_kernel i arg1 harg1 arg2 harg2 arg3 harg3) K := by
  simp only [cc5__binlinear_kernel_eq_skeleton]; unfold cc5__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored5_covers _)

/-- The per-point data of this pipeline on core `c`: its arrays as the region finds them; after the body at point
    `t` each input's buffer still at its block and the output's at the stored payload of the two input blocks; the
    scoped rest and the generator register untouched; nothing owed; full shares. -/
def data5 (c : Dev nD) : Dat τ (Elt F) Unit ℕ (UR sig nD τ) ℕ cfg5 c where
  A w := V c (Pipeline.arrRef spec5 w)
  after w t := match w with
    | ⟨0, _⟩ => blockAt5 V c 0 t
    | ⟨1, _⟩ => blockAt5 V c 1 t
    | ⟨2, _⟩ => stored5 (blockAt5 V c 0 t) (blockAt5 V c 1 t)
  Φ _ := Pipeline.ΦA spec5 c
  q _ := fullShare
  owed _ := 0

theorem data5_A (c : Dev nD) (w : Fin cfg5.W) : (data5 V c).A w = V c (Pipeline.arrRef spec5 w) := by
  dsimp only [data5]
theorem data5_after0 (c : Dev nD) (t : Fin cfg5.N) : (data5 V c).after 0 t = blockAt5 V c 0 t := by dsimp only [data5]
theorem data5_after1 (c : Dev nD) (t : Fin cfg5.N) : (data5 V c).after 1 t = blockAt5 V c 1 t := by dsimp only [data5]
theorem data5_after2 (c : Dev nD) (t : Fin cfg5.N) :
    (data5 V c).after 2 t = stored5 (blockAt5 V c 0 t) (blockAt5 V c 1 t) := by dsimp only [data5]

theorem held5_0 (c : Dev nD) (t : Fin cfg5.N) (d) : (data5 V c).before 0 t d = blockAt5 V c 0 t :=
  held5_0_of V (data5 V c) (data5_A V c 0) (data5_after0 V c) t d
theorem held5_1 (c : Dev nD) (t : Fin cfg5.N) (d) : (data5 V c).before 1 t d = blockAt5 V c 1 t :=
  held5_1_of V (data5 V c) (data5_A V c 1) (data5_after1 V c) t d

/-- What the body is called with at point `t`, window by window, -/
def pointPre5 (c : Dev nD) (t : Fin cfg5.N) : sProp 𝕄 :=
  iprop((data5 V c).Φ t.castSucc ∗ (data5 V c).owesAt () t.castSucc
    ∗ (∃ d, owns (c : Thread nD τ) (st5_0 t) fullShare ((data5 V c).before 0 t d))
    ∗ (∃ d, owns (c : Thread nD τ) (st5_1 t) fullShare ((data5 V c).before 1 t d))
    ∗ (∃ d, owns (c : Thread nD τ) (st5_2 t) fullShare ((data5 V c).before 2 t d)))

/-- and what it returns. -/
def pointPost5 (c : Dev nD) (t : Fin cfg5.N) : sProp 𝕄 :=
  iprop((data5 V c).Φ t.succ ∗ (data5 V c).owesAt () t.succ
    ∗ owns (c : Thread nD τ) (st5_0 t) fullShare ((data5 V c).after 0 t)
    ∗ owns (c : Thread nD τ) (st5_1 t) fullShare ((data5 V c).after 1 t)
    ∗ owns (c : Thread nD τ) (st5_2 t) fullShare ((data5 V c).after 2 t))

/-- The body at any point: the inputs' buffers hold their blocks, so the body's triple applies; the invariant and the
    core's dues pass through unread. -/
theorem point_sound5 (c : Dev nD) (t : Fin cfg5.N) :
    pointPre5 V c t ⊢ wp frame (wpE (defs₀ (F := F)) Variants.none c none) Set.univ (bodyAt5 t) (fun _ => pointPost5 V c t) := by
  unfold pointPre5 pointPost5 bodyAt5
  simp only [held5_0, held5_1]
  rw [show (data5 V c).Φ t.succ = (data5 V c).Φ t.castSucc from rfl,
    show (data5 V c).owesAt () t.succ = (data5 V c).owesAt () t.castSucc from rfl,
    data5_after0, data5_after1, data5_after2]
  iintro ⟨HΦ, Ho, ⟨%d0, H0⟩, ⟨%d1, H1⟩, ⟨%d2, H2⟩⟩
  iapply (body_triple5 c Set.univ (grid5.coords t) _ _ _ _ _ _ (blockAt5 V c 0 t) (blockAt5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation5 (c : Dev nD) : BodyObligation (data5 (F := F) V c) (defs₀ (F := F)) Variants.none () Set.univ := fun t => by
  rw [bigSep_W5, bigSep_W5]
  exact point_sound5 V c t

/-! ## Region 6 -/

/-- Window `w`'s block at grid point `t`, read off the window's array as the region finds it. -/
def blockAt6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds the point's row block, whether it was moved in at this point or not. -/
theorem held6_0_of {c : Dev nD} (dat : Dat τ (Elt F) Unit ℕ (UR sig nD τ) ℕ cfg6 c) (hA : dat.A 0 = V c (Pipeline.arrRef spec6 0))
    (hafter : ∀ t, dat.after 0 t = blockAt6 V c 0 t) (t : Fin cfg6.N) (d) : dat.before 0 t d = blockAt6 V c 0 t :=
  (dat.before_in_eq_fetched 0 rfl (fun _ => rfl) (fun _ _ _ => rfl) (fun t => by rw [hafter]; unfold Dat.blockOf blockAt6; rw [hA]; try rfl) t d).trans
    (by unfold Dat.fetched Dat.blockOf blockAt6; rw [hA]; try rfl)
/-- The weight chunk's staging buffer holds the chunk at every point: moved in once, its block index never moves. -/
theorem held6_1_of {c : Dev nD} (dat : Dat τ (Elt F) Unit ℕ (UR sig nD τ) ℕ cfg6 c) (hA : dat.A 1 = V c (Pipeline.arrRef spec6 1))
    (hafter : ∀ t, dat.after 1 t = blockAt6 V c 1 t) (t : Fin cfg6.N) (d) : dat.before 1 t d = blockAt6 V c 1 t :=
  (dat.before_in_eq_fetched 1 rfl (fun _ => rfl) (fun _ _ _ => rfl) (fun t => by rw [hafter]; unfold Dat.blockOf blockAt6; rw [hA]; try rfl) t d).trans
    (by unfold Dat.fetched Dat.blockOf blockAt6; rw [hA]; try rfl)

/-- The three rectangles the body touches: each buffer whole. -/
abbrev wholeX6 : Rect S256x4096 := Rect.unit (s := S256x4096) ![0, 0] S256x4096.size inb_S256x4096_S256x4096_0_0
abbrev wholeW6 : Rect S2048x4096 := Rect.unit (s := S2048x4096) ![0, 0] S2048x4096.size inb_S2048x4096_S2048x4096_0_0
abbrev wholeO6 : Rect S256x2048 := Rect.unit (s := S256x2048) ![0, 0] S256x2048.size inb_S256x2048_S256x2048_0_0

/-- What the output's staging buffer holds after the body: the one whole-block store of the body's payload, a
    function of the two input blocks. -/
def stored6 (x0 : Vec F S256x4096 .bf16) (x1 : Vec F S2048x4096 .bf16) : Vec F S256x2048 .bf16 :=
  View.canon [⟨wholeO6, k6_pay1 (View.ld x0 wholeX6) (View.ld x1 wholeW6)⟩]

/-- The one store covers the output block. -/
theorem stored6_covers (p0 : Vec F S256x2048 .bf16) (y : S256x2048.Idx) :
    ∃ pc ∈ ([⟨wholeO6, p0⟩] : List (View.Piece (Elt F) S256x2048 .bf16)), y ∈ pc.1.set :=
  View.cover_of_tiled [⟨wholeO6, p0⟩] S256x2048.size (by rfl) y

set_option maxHeartbeats 1000000 in
/-- The body's triple: on whole staging buffers, the inputs at contents `x0`, `x1` and the output at anything, it
    runs to the end, leaves the inputs as they were and the output at `stored6 x0 x1`. -/
theorem body_triple6 (c : Dev nD) (E : Set ℕ) (i : grid6.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored6 x0 x1)) -∗ K ⟨⟩))
      ⊢ wp frame (wpE (defs₀ (F := F)) Variants.none c none) E (cc6__binlinear_kernel i arg1 harg1 arg2 harg2 arg3 harg3) K := by
  simp only [cc6__binlinear_kernel_eq_skeleton]; unfold cc6__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored6_covers _)

/-- The per-point data of this pipeline on core `c`: its arrays as the region finds them; after the body at point
    `t` each input's buffer still at its block and the output's at the stored payload of the two input blocks; the
    scoped rest and the generator register untouched; nothing owed; full shares. -/
def data6 (c : Dev nD) : Dat τ (Elt F) Unit ℕ (UR sig nD τ) ℕ cfg6 c where
  A w := V c (Pipeline.arrRef spec6 w)
  after w t := match w with
    | ⟨0, _⟩ => blockAt6 V c 0 t
    | ⟨1, _⟩ => blockAt6 V c 1 t
    | ⟨2, _⟩ => stored6 (blockAt6 V c 0 t) (blockAt6 V c 1 t)
  Φ _ := Pipeline.ΦA spec6 c
  q _ := fullShare
  owed _ := 0

theorem data6_A (c : Dev nD) (w : Fin cfg6.W) : (data6 V c).A w = V c (Pipeline.arrRef spec6 w) := by
  dsimp only [data6]
theorem data6_after0 (c : Dev nD) (t : Fin cfg6.N) : (data6 V c).after 0 t = blockAt6 V c 0 t := by dsimp only [data6]
theorem data6_after1 (c : Dev nD) (t : Fin cfg6.N) : (data6 V c).after 1 t = blockAt6 V c 1 t := by dsimp only [data6]
theorem data6_after2 (c : Dev nD) (t : Fin cfg6.N) :
    (data6 V c).after 2 t = stored6 (blockAt6 V c 0 t) (blockAt6 V c 1 t) := by dsimp only [data6]

theorem held6_0 (c : Dev nD) (t : Fin cfg6.N) (d) : (data6 V c).before 0 t d = blockAt6 V c 0 t :=
  held6_0_of V (data6 V c) (data6_A V c 0) (data6_after0 V c) t d
theorem held6_1 (c : Dev nD) (t : Fin cfg6.N) (d) : (data6 V c).before 1 t d = blockAt6 V c 1 t :=
  held6_1_of V (data6 V c) (data6_A V c 1) (data6_after1 V c) t d

/-- What the body is called with at point `t`, window by window, -/
def pointPre6 (c : Dev nD) (t : Fin cfg6.N) : sProp 𝕄 :=
  iprop((data6 V c).Φ t.castSucc ∗ (data6 V c).owesAt () t.castSucc
    ∗ (∃ d, owns (c : Thread nD τ) (st6_0 t) fullShare ((data6 V c).before 0 t d))
    ∗ (∃ d, owns (c : Thread nD τ) (st6_1 t) fullShare ((data6 V c).before 1 t d))
    ∗ (∃ d, owns (c : Thread nD τ) (st6_2 t) fullShare ((data6 V c).before 2 t d)))

/-- and what it returns. -/
def pointPost6 (c : Dev nD) (t : Fin cfg6.N) : sProp 𝕄 :=
  iprop((data6 V c).Φ t.succ ∗ (data6 V c).owesAt () t.succ
    ∗ owns (c : Thread nD τ) (st6_0 t) fullShare ((data6 V c).after 0 t)
    ∗ owns (c : Thread nD τ) (st6_1 t) fullShare ((data6 V c).after 1 t)
    ∗ owns (c : Thread nD τ) (st6_2 t) fullShare ((data6 V c).after 2 t))

/-- The body at any point: the inputs' buffers hold their blocks, so the body's triple applies; the invariant and the
    core's dues pass through unread. -/
theorem point_sound6 (c : Dev nD) (t : Fin cfg6.N) :
    pointPre6 V c t ⊢ wp frame (wpE (defs₀ (F := F)) Variants.none c none) Set.univ (bodyAt6 t) (fun _ => pointPost6 V c t) := by
  unfold pointPre6 pointPost6 bodyAt6
  simp only [held6_0, held6_1]
  rw [show (data6 V c).Φ t.succ = (data6 V c).Φ t.castSucc from rfl,
    show (data6 V c).owesAt () t.succ = (data6 V c).owesAt () t.castSucc from rfl,
    data6_after0, data6_after1, data6_after2]
  iintro ⟨HΦ, Ho, ⟨%d0, H0⟩, ⟨%d1, H1⟩, ⟨%d2, H2⟩⟩
  iapply (body_triple6 c Set.univ (grid6.coords t) _ _ _ _ _ _ (blockAt6 V c 0 t) (blockAt6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation6 (c : Dev nD) : BodyObligation (data6 (F := F) V c) (defs₀ (F := F)) Variants.none () Set.univ := fun t => by
  rw [bigSep_W6, bigSep_W6]
  exact point_sound6 V c t

/-! ## Region 7 -/

/-- Window `w`'s block at grid point `t`, read off the window's array as the region finds it. -/
def blockAt7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The activations' staging buffer holds the point's row block, whether it was moved in at this point or not. -/
theorem held7_0_of {c : Dev nD} (dat : Dat τ (Elt F) Unit ℕ (UR sig nD τ) ℕ cfg7 c) (hA : dat.A 0 = V c (Pipeline.arrRef spec7 0))
    (hafter : ∀ t, dat.after 0 t = blockAt7 V c 0 t) (t : Fin cfg7.N) (d) : dat.before 0 t d = blockAt7 V c 0 t :=
  (dat.before_in_eq_fetched 0 rfl (fun _ => rfl) (fun _ _ _ => rfl) (fun t => by rw [hafter]; unfold Dat.blockOf blockAt7; rw [hA]; try rfl) t d).trans
    (by unfold Dat.fetched Dat.blockOf blockAt7; rw [hA]; try rfl)
/-- The weight chunk's staging buffer holds the chunk at every point: moved in once, its block index never moves. -/
theorem held7_1_of {c : Dev nD} (dat : Dat τ (Elt F) Unit ℕ (UR sig nD τ) ℕ cfg7 c) (hA : dat.A 1 = V c (Pipeline.arrRef spec7 1))
    (hafter : ∀ t, dat.after 1 t = blockAt7 V c 1 t) (t : Fin cfg7.N) (d) : dat.before 1 t d = blockAt7 V c 1 t :=
  (dat.before_in_eq_fetched 1 rfl (fun _ => rfl) (fun _ _ _ => rfl) (fun t => by rw [hafter]; unfold Dat.blockOf blockAt7; rw [hA]; try rfl) t d).trans
    (by unfold Dat.fetched Dat.blockOf blockAt7; rw [hA]; try rfl)

/-- The three rectangles the body touches: each buffer whole. -/
abbrev wholeX7 : Rect S256x4096 := Rect.unit (s := S256x4096) ![0, 0] S256x4096.size inb_S256x4096_S256x4096_0_0
abbrev wholeW7 : Rect S2048x4096 := Rect.unit (s := S2048x4096) ![0, 0] S2048x4096.size inb_S2048x4096_S2048x4096_0_0
abbrev wholeO7 : Rect S256x2048 := Rect.unit (s := S256x2048) ![0, 0] S256x2048.size inb_S256x2048_S256x2048_0_0

/-- What the output's staging buffer holds after the body: the one whole-block store of the body's payload, a
    function of the two input blocks. -/
def stored7 (x0 : Vec F S256x4096 .bf16) (x1 : Vec F S2048x4096 .bf16) : Vec F S256x2048 .bf16 :=
  View.canon [⟨wholeO7, k7_pay1 (View.ld x0 wholeX7) (View.ld x1 wholeW7)⟩]

/-- The one store covers the output block. -/
theorem stored7_covers (p0 : Vec F S256x2048 .bf16) (y : S256x2048.Idx) :
    ∃ pc ∈ ([⟨wholeO7, p0⟩] : List (View.Piece (Elt F) S256x2048 .bf16)), y ∈ pc.1.set :=
  View.cover_of_tiled [⟨wholeO7, p0⟩] S256x2048.size (by rfl) y

set_option maxHeartbeats 1000000 in
/-- The body's triple: on whole staging buffers, the inputs at contents `x0`, `x1` and the output at anything, it
    runs to the end, leaves the inputs as they were and the output at `stored7 x0 x1`. -/
theorem body_triple7 (c : Dev nD) (E : Set ℕ) (i : grid7.Coords) (arg1 : Memref sig .tc .vmem S256x4096 .bf16) (harg1 : arg1.IsWhole) (arg2 : Memref sig .tc .vmem S2048x4096 .bf16) (harg2 : arg2.IsWhole) (arg3 : Memref sig .tc .vmem S256x2048 .bf16) (harg3 : arg3.IsWhole)
    (x0 : Vec F S256x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored7 x0 x1)) -∗ K ⟨⟩))
      ⊢ wp frame (wpE (defs₀ (F := F)) Variants.none c none) E (cc7__binlinear_kernel i arg1 harg1 arg2 harg2 arg3 harg3) K := by
  simp only [cc7__binlinear_kernel_eq_skeleton]; unfold cc7__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored7_covers _)

/-- The per-point data of this pipeline on core `c`: its arrays as the region finds them; after the body at point
    `t` each input's buffer still at its block and the output's at the stored payload of the two input blocks; the
    scoped rest and the generator register untouched; nothing owed; full shares. -/
def data7 (c : Dev nD) : Dat τ (Elt F) Unit ℕ (UR sig nD τ) ℕ cfg7 c where
  A w := V c (Pipeline.arrRef spec7 w)
  after w t := match w with
    | ⟨0, _⟩ => blockAt7 V c 0 t
    | ⟨1, _⟩ => blockAt7 V c 1 t
    | ⟨2, _⟩ => stored7 (blockAt7 V c 0 t) (blockAt7 V c 1 t)
  Φ _ := Pipeline.ΦA spec7 c
  q _ := fullShare
  owed _ := 0

theorem data7_A (c : Dev nD) (w : Fin cfg7.W) : (data7 V c).A w = V c (Pipeline.arrRef spec7 w) := by
  dsimp only [data7]
theorem data7_after0 (c : Dev nD) (t : Fin cfg7.N) : (data7 V c).after 0 t = blockAt7 V c 0 t := by dsimp only [data7]
theorem data7_after1 (c : Dev nD) (t : Fin cfg7.N) : (data7 V c).after 1 t = blockAt7 V c 1 t := by dsimp only [data7]
theorem data7_after2 (c : Dev nD) (t : Fin cfg7.N) :
    (data7 V c).after 2 t = stored7 (blockAt7 V c 0 t) (blockAt7 V c 1 t) := by dsimp only [data7]

theorem held7_0 (c : Dev nD) (t : Fin cfg7.N) (d) : (data7 V c).before 0 t d = blockAt7 V c 0 t :=
  held7_0_of V (data7 V c) (data7_A V c 0) (data7_after0 V c) t d
theorem held7_1 (c : Dev nD) (t : Fin cfg7.N) (d) : (data7 V c).before 1 t d = blockAt7 V c 1 t :=
  held7_1_of V (data7 V c) (data7_A V c 1) (data7_after1 V c) t d

/-- What the body is called with at point `t`, window by window, -/
def pointPre7 (c : Dev nD) (t : Fin cfg7.N) : sProp 𝕄 :=
  iprop((data7 V c).Φ t.castSucc ∗ (data7 V c).owesAt () t.castSucc
    ∗ (∃ d, owns (c : Thread nD τ) (st7_0 t) fullShare ((data7 V c).before 0 t d))
    ∗ (∃ d, owns (c : Thread nD τ) (st7_1 t) fullShare ((data7 V c).before 1 t d))
    ∗ (∃ d, owns (c : Thread nD τ) (st7_2 t) fullShare ((data7 V c).before 2 t d)))

/-- and what it returns. -/
def pointPost7 (c : Dev nD) (t : Fin cfg7.N) : sProp 𝕄 :=
  iprop((data7 V c).Φ t.succ ∗ (data7 V c).owesAt () t.succ
    ∗ owns (c : Thread nD τ) (st7_0 t) fullShare ((data7 V c).after 0 t)
    ∗ owns (c : Thread nD τ) (st7_1 t) fullShare ((data7 V c).after 1 t)
    ∗ owns (c : Thread nD τ) (st7_2 t) fullShare ((data7 V c).after 2 t))

/-- The body at any point: the inputs' buffers hold their blocks, so the body's triple applies; the invariant and the
    core's dues pass through unread. -/
theorem point_sound7 (c : Dev nD) (t : Fin cfg7.N) :
    pointPre7 V c t ⊢ wp frame (wpE (defs₀ (F := F)) Variants.none c none) Set.univ (bodyAt7 t) (fun _ => pointPost7 V c t) := by
  unfold pointPre7 pointPost7 bodyAt7
  simp only [held7_0, held7_1]
  rw [show (data7 V c).Φ t.succ = (data7 V c).Φ t.castSucc from rfl,
    show (data7 V c).owesAt () t.succ = (data7 V c).owesAt () t.castSucc from rfl,
    data7_after0, data7_after1, data7_after2]
  iintro ⟨HΦ, Ho, ⟨%d0, H0⟩, ⟨%d1, H1⟩, ⟨%d2, H2⟩⟩
  iapply (body_triple7 c Set.univ (grid7.coords t) _ _ _ _ _ _ (blockAt7 V c 0 t) (blockAt7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation7 (c : Dev nD) : BodyObligation (data7 (F := F) V c) (defs₀ (F := F)) Variants.none () Set.univ := fun t => by
  rw [bigSep_W7, bigSep_W7]
  exact point_sound7 V c t

/-! ## Region 8 -/

/-- Window `w`'s block at grid point `t`, read off the window's array as the region finds it. -/
def blockAt8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds the point's row block, whether it was moved in at this point or not. -/
theorem held8_0_of {c : Dev nD} (dat : Dat τ (Elt F) Unit ℕ (UR sig nD τ) ℕ cfg8 c) (hA : dat.A 0 = V c (Pipeline.arrRef spec8 0))
    (hafter : ∀ t, dat.after 0 t = blockAt8 V c 0 t) (t : Fin cfg8.N) (d) : dat.before 0 t d = blockAt8 V c 0 t :=
  (dat.before_in_eq_fetched 0 rfl (fun _ => rfl) (fun _ _ _ => rfl) (fun t => by rw [hafter]; unfold Dat.blockOf blockAt8; rw [hA]; try rfl) t d).trans
    (by unfold Dat.fetched Dat.blockOf blockAt8; rw [hA]; try rfl)
/-- The weight chunk's staging buffer holds the chunk at every point: moved in once, its block index never moves. -/
theorem held8_1_of {c : Dev nD} (dat : Dat τ (Elt F) Unit ℕ (UR sig nD τ) ℕ cfg8 c) (hA : dat.A 1 = V c (Pipeline.arrRef spec8 1))
    (hafter : ∀ t, dat.after 1 t = blockAt8 V c 1 t) (t : Fin cfg8.N) (d) : dat.before 1 t d = blockAt8 V c 1 t :=
  (dat.before_in_eq_fetched 1 rfl (fun _ => rfl) (fun _ _ _ => rfl) (fun t => by rw [hafter]; unfold Dat.blockOf blockAt8; rw [hA]; try rfl) t d).trans
    (by unfold Dat.fetched Dat.blockOf blockAt8; rw [hA]; try rfl)

/-- The three rectangles the body touches: each buffer whole. -/
abbrev wholeX8 : Rect S256x4096 := Rect.unit (s := S256x4096) ![0, 0] S256x4096.size inb_S256x4096_S256x4096_0_0
abbrev wholeW8 : Rect S2x4096 := Rect.unit (s := S2x4096) ![0, 0] S2x4096.size inb_S2x4096_S2x4096_0_0
abbrev wholeO8 : Rect S256x2 := Rect.unit (s := S256x2) ![0, 0] S256x2.size inb_S256x2_S256x2_0_0

/-- What the output's staging buffer holds after the body: the one whole-block store of the body's payload, a
    function of the two input blocks. -/
def stored8 (x0 : Vec F S256x4096 .bf16) (x1 : Vec F S2x4096 .bf16) : Vec F S256x2 .f32 :=
  View.canon [⟨wholeO8, k8_pay1 (View.ld x0 wholeX8) (View.ld x1 wholeW8)⟩]

/-- The one store covers the output block. -/
theorem stored8_covers (p0 : Vec F S256x2 .f32) (y : S256x2.Idx) :
    ∃ pc ∈ ([⟨wholeO8, p0⟩] : List (View.Piece (Elt F) S256x2 .f32)), y ∈ pc.1.set :=
  View.cover_of_tiled [⟨wholeO8, p0⟩] S256x2.size (by rfl) y

set_option maxHeartbeats 1000000 in
/-- The body's triple: on whole staging buffers, the inputs at contents `x0`, `x1` and the output at anything, it
    runs to the end, leaves the inputs as they were and the output at `stored8 x0 x1`. -/
theorem body_triple8 (c : Dev nD) (E : Set ℕ) (i : grid8.Coords) (arg1 : Memref sig .tc .vmem S256x4096 .bf16) (harg1 : arg1.IsWhole) (arg2 : Memref sig .tc .vmem S2x4096 .bf16) (harg2 : arg2.IsWhole) (arg3 : Memref sig .tc .vmem S256x2 .f32) (harg3 : arg3.IsWhole)
    (x0 : Vec F S256x4096 .bf16) (x1 : Vec F S2x4096 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored8 x0 x1)) -∗ K ⟨⟩))
      ⊢ wp frame (wpE (defs₀ (F := F)) Variants.none c none) E (cc8__binlinear_kernel i arg1 harg1 arg2 harg2 arg3 harg3) K := by
  simp only [cc8__binlinear_kernel_eq_skeleton]; unfold cc8__binlinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored8_covers _)

/-- The per-point data of this pipeline on core `c`: its arrays as the region finds them; after the body at point
    `t` each input's buffer still at its block and the output's at the stored payload of the two input blocks; the
    scoped rest and the generator register untouched; nothing owed; full shares. -/
def data8 (c : Dev nD) : Dat τ (Elt F) Unit ℕ (UR sig nD τ) ℕ cfg8 c where
  A w := V c (Pipeline.arrRef spec8 w)
  after w t := match w with
    | ⟨0, _⟩ => blockAt8 V c 0 t
    | ⟨1, _⟩ => blockAt8 V c 1 t
    | ⟨2, _⟩ => stored8 (blockAt8 V c 0 t) (blockAt8 V c 1 t)
  Φ _ := Pipeline.ΦA spec8 c
  q _ := fullShare
  owed _ := 0

theorem data8_A (c : Dev nD) (w : Fin cfg8.W) : (data8 V c).A w = V c (Pipeline.arrRef spec8 w) := by
  dsimp only [data8]
theorem data8_after0 (c : Dev nD) (t : Fin cfg8.N) : (data8 V c).after 0 t = blockAt8 V c 0 t := by dsimp only [data8]
theorem data8_after1 (c : Dev nD) (t : Fin cfg8.N) : (data8 V c).after 1 t = blockAt8 V c 1 t := by dsimp only [data8]
theorem data8_after2 (c : Dev nD) (t : Fin cfg8.N) :
    (data8 V c).after 2 t = stored8 (blockAt8 V c 0 t) (blockAt8 V c 1 t) := by dsimp only [data8]

theorem held8_0 (c : Dev nD) (t : Fin cfg8.N) (d) : (data8 V c).before 0 t d = blockAt8 V c 0 t :=
  held8_0_of V (data8 V c) (data8_A V c 0) (data8_after0 V c) t d
theorem held8_1 (c : Dev nD) (t : Fin cfg8.N) (d) : (data8 V c).before 1 t d = blockAt8 V c 1 t :=
  held8_1_of V (data8 V c) (data8_A V c 1) (data8_after1 V c) t d

/-- What the body is called with at point `t`, window by window, -/
def pointPre8 (c : Dev nD) (t : Fin cfg8.N) : sProp 𝕄 :=
  iprop((data8 V c).Φ t.castSucc ∗ (data8 V c).owesAt () t.castSucc
    ∗ (∃ d, owns (c : Thread nD τ) (st8_0 t) fullShare ((data8 V c).before 0 t d))
    ∗ (∃ d, owns (c : Thread nD τ) (st8_1 t) fullShare ((data8 V c).before 1 t d))
    ∗ (∃ d, owns (c : Thread nD τ) (st8_2 t) fullShare ((data8 V c).before 2 t d)))

/-- and what it returns. -/
def pointPost8 (c : Dev nD) (t : Fin cfg8.N) : sProp 𝕄 :=
  iprop((data8 V c).Φ t.succ ∗ (data8 V c).owesAt () t.succ
    ∗ owns (c : Thread nD τ) (st8_0 t) fullShare ((data8 V c).after 0 t)
    ∗ owns (c : Thread nD τ) (st8_1 t) fullShare ((data8 V c).after 1 t)
    ∗ owns (c : Thread nD τ) (st8_2 t) fullShare ((data8 V c).after 2 t))

/-- The body at any point: the inputs' buffers hold their blocks, so the body's triple applies; the invariant and the
    core's dues pass through unread. -/
theorem point_sound8 (c : Dev nD) (t : Fin cfg8.N) :
    pointPre8 V c t ⊢ wp frame (wpE (defs₀ (F := F)) Variants.none c none) Set.univ (bodyAt8 t) (fun _ => pointPost8 V c t) := by
  unfold pointPre8 pointPost8 bodyAt8
  simp only [held8_0, held8_1]
  rw [show (data8 V c).Φ t.succ = (data8 V c).Φ t.castSucc from rfl,
    show (data8 V c).owesAt () t.succ = (data8 V c).owesAt () t.castSucc from rfl,
    data8_after0, data8_after1, data8_after2]
  iintro ⟨HΦ, Ho, ⟨%d0, H0⟩, ⟨%d1, H1⟩, ⟨%d2, H2⟩⟩
  iapply (body_triple8 c Set.univ (grid8.coords t) _ _ _ _ _ _ (blockAt8 V c 0 t) (blockAt8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation8 (c : Dev nD) : BodyObligation (data8 (F := F) V c) (defs₀ (F := F)) Variants.none () Set.univ := fun t => by
  rw [bigSep_W8, bigSep_W8]
  exact point_sound8 V c t

end Cert.KernelIdeal.Hand

end
-- ==== Proof.KI_Run.lean ====
/-
  The whole program as a chain of 26 items — nine stretches of host operations that sign-quantise the four weight
  matrices and cut the first chunk, then nine regions with a stretch of host operations between consecutive ones (the
  next weight chunk cut out; after regions 3, 5 and 7 also the layer's column chunks concatenated) — run from the
  launch to the return. The contents of the core's buffers at each boundary are a fold from the launch memory: a host
  stretch applies its operations; a region leaves each of its arrays at what its write-backs leave (an input as it was
  entered, the output at the fold of the row blocks written back) and every other buffer as entered. Each region is
  entered with every unscoped buffer at the boundary's contents, the generator register at some state and nothing
  owed, and left the same way at the next boundary's contents. The run theorem says: every weakly fair execution
  terminates and every unscoped buffer ends at the last boundary's contents; no item writes an argument, so each
  argument array reads back through the fold to its launch contents.
-/
import proofs.«102262_j38096359916038_2_alg».proof.Proof.KI_Regions
import proofs.«102262_j38096359916038_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the host stretch `hostOps0`. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
theorem B1_keep (c : Dev nD) (r : Ref sig .tc) (h : r ∉ hostOps0_W) : B1 m ρ c (Proc.devRef .tc r) = B0 m ρ c (Proc.devRef .tc r) :=
  StableHlo.after_of_writes_sub hostOps0 _ hostOps0_writes h
/-- After the host stretch `hostOps0_1`. -/
abbrev B2 : Dev nD → Valuation τ sig (Elt F) := fun c => StableHlo.after hostOps0_1 (B1 m ρ c)
abbrev E2 : (c : Dev nD) → (b : Ref sig .tc) → Buf (Elt F) ((c : Thread nD τ).loc b) := fun c b => B2 m ρ c b
theorem B2_keep (c : Dev nD) (r : Ref sig .tc) (h : r ∉ hostOps0_1_W) : B2 m ρ c (Proc.devRef .tc r) = B1 m ρ c (Proc.devRef .tc r) :=
  StableHlo.after_of_writes_sub hostOps0_1 _ hostOps0_1_writes h
/-- After the host stretch `hostOps0_2`. -/
abbrev B3 : Dev nD → Valuation τ sig (Elt F) := fun c => StableHlo.after hostOps0_2 (B2 m ρ c)
abbrev E3 : (c : Dev nD) → (b : Ref sig .tc) → Buf (Elt F) ((c : Thread nD τ).loc b) := fun c b => B3 m ρ c b
theorem B3_keep (c : Dev nD) (r : Ref sig .tc) (h : r ∉ hostOps0_2_W) : B3 m ρ c (Proc.devRef .tc r) = B2 m ρ c (Proc.devRef .tc r) :=
  StableHlo.after_of_writes_sub hostOps0_2 _ hostOps0_2_writes h
/-- After the host stretch `hostOps0_3`. -/
abbrev B4 : Dev nD → Valuation τ sig (Elt F) := fun c => StableHlo.after hostOps0_3 (B3 m ρ c)
abbrev E4 : (c : Dev nD) → (b : Ref sig .tc) → Buf (Elt F) ((c : Thread nD τ).loc b) := fun c b => B4 m ρ c b
theorem B4_keep (c : Dev nD) (r : Ref sig .tc) (h : r ∉ hostOps0_3_W) : B4 m ρ c (Proc.devRef .tc r) = B3 m ρ c (Proc.devRef .tc r) :=
  StableHlo.after_of_writes_sub hostOps0_3 _ hostOps0_3_writes h
/-- After the host stretch `hostOps0_4`. -/
abbrev B5 : Dev nD → Valuation τ sig (Elt F) := fun c => StableHlo.after hostOps0_4 (B4 m ρ c)
abbrev E5 : (c : Dev nD) → (b : Ref sig .tc) → Buf (Elt F) ((c : Thread nD τ).loc b) := fun c b => B5 m ρ c b
theorem B5_keep (c : Dev nD) (r : Ref sig .tc) (h : r ∉ hostOps0_4_W) : B5 m ρ c (Proc.devRef .tc r) = B4 m ρ c (Proc.devRef .tc r) :=
  StableHlo.after_of_writes_sub hostOps0_4 _ hostOps0_4_writes h
/-- After the host stretch `hostOps0_5`. -/
abbrev B6 : Dev nD → Valuation τ sig (Elt F) := fun c => StableHlo.after hostOps0_5 (B5 m ρ c)
abbrev E6 : (c : Dev nD) → (b : Ref sig .tc) → Buf (Elt F) ((c : Thread nD τ).loc b) := fun c b => B6 m ρ c b
theorem B6_keep (c : Dev nD) (r : Ref sig .tc) (h : r ∉ hostOps0_5_W) : B6 m ρ c (Proc.devRef .tc r) = B5 m ρ c (Proc.devRef .tc r) :=
  StableHlo.after_of_writes_sub hostOps0_5 _ hostOps0_5_writes h
/-- After the host stretch `hostOps0_6`. -/
abbrev B7 : Dev nD → Valuation τ sig (Elt F) := fun c => StableHlo.after hostOps0_6 (B6 m ρ c)
abbrev E7 : (c : Dev nD) → (b : Ref sig .tc) → Buf (Elt F) ((c : Thread nD τ).loc b) := fun c b => B7 m ρ c b
theorem B7_keep (c : Dev nD) (r : Ref sig .tc) (h : r ∉ hostOps0_6_W) : B7 m ρ c (Proc.devRef .tc r) = B6 m ρ c (Proc.devRef .tc r) :=
  StableHlo.after_of_writes_sub hostOps0_6 _ hostOps0_6_writes h
/-- After the host stretch `hostOps0_7`. -/
abbrev B8 : Dev nD → Valuation τ sig (Elt F) := fun c => StableHlo.after hostOps0_7 (B7 m ρ c)
abbrev E8 : (c : Dev nD) → (b : Ref sig .tc) → Buf (Elt F) ((c : Thread nD τ).loc b) := fun c b => B8 m ρ c b
theorem B8_keep (c : Dev nD) (r : Ref sig .tc) (h : r ∉ hostOps0_7_W) : B8 m ρ c (Proc.devRef .tc r) = B7 m ρ c (Proc.devRef .tc r) :=
  StableHlo.after_of_writes_sub hostOps0_7 _ hostOps0_7_writes h
/-- After the host stretch `hostOps0_8`. -/
abbrev B9 : Dev nD → Valuation τ sig (Elt F) := fun c => StableHlo.after hostOps0_8 (B8 m ρ c)
abbrev E9 : (c : Dev nD) → (b : Ref sig .tc) → Buf (Elt F) ((c : Thread nD τ).loc b) := fun c b => B9 m ρ c b
theorem B9_keep (c : Dev nD) (r : Ref sig .tc) (h : r ∉ hostOps0_8_W) : B9 m ρ c (Proc.devRef .tc r) = B8 m ρ c (Proc.devRef .tc r) :=
  StableHlo.after_of_writes_sub hostOps0_8 _ hostOps0_8_writes h
/-- After region 0: its arrays at what the pipeline leaves, every other buffer as entered. -/
def B10 (c : Dev nD) : Valuation τ sig (Elt F) :=
  Pipeline.withArrays spec0 c (B9 m ρ c) fun w => (data0 (E9 m ρ) c).arrAt w cfg0.N
theorem B10_arr (c : Dev nD) (w : Fin cfg0.W) :
    B10 m ρ c (Proc.devRef .tc (Pipeline.arrRef spec0 w)) = (data0 (E9 m ρ) c).arrAt w cfg0.N := by
  unfold B10; exact Pipeline.withArrays_arr spec0 launch0.win.arr_inj c _ _ w
theorem B10_keep (c : Dev nD) (r : Ref sig .tc) (hb : ∀ w, Pipeline.arrRef spec0 w ≠ r) :
    B10 m ρ c (Proc.devRef .tc r) = B9 m ρ c (Proc.devRef .tc r) := by
  unfold B10; exact Pipeline.withArrays_of_ne spec0 c _ _ r hb
abbrev E10 : (c : Dev nD) → (b : Ref sig .tc) → Buf (Elt F) ((c : Thread nD τ).loc b) := fun c b => B10 m ρ c b
theorem exitArr0 (c : Dev nD) (w : Fin cfg0.W) : (data0 (E9 m ρ) c).arrAt w cfg0.N = E10 m ρ c (Pipeline.arrRef spec0 w) :=
  (B10_arr m ρ c w).symm
theorem exitRest0 (c : Dev nD) : ∀ b, b ∉ Finset.univ.image (Pipeline.arrRef spec0) → E10 m ρ c b = E9 m ρ c b :=
  fun b hb => B10_keep m ρ c b fun w e => hb (Finset.mem_image.mpr ⟨w, Finset.mem_univ _, e⟩)
/-- An input window's array leaves the region as it entered. -/
theorem B10_in (c : Dev nD) (w : Fin cfg0.W) (hw : (cfg0.win w).isOut = false) :
    B10 m ρ c (Proc.devRef .tc (Pipeline.arrRef spec0 w)) = E9 m ρ c (Pipeline.arrRef spec0 w) :=
  (B10_arr m ρ c w).trans (((data0 (E9 m ρ) c).arrAt_in w hw _).trans (data0_A (E9 m ρ) c w))
/-- After the host stretch `hostOps1`. -/
abbrev B11 : Dev nD → Valuation τ sig (Elt F) := fun c => StableHlo.after hostOps1 (B10 m ρ c)
abbrev E11 : (c : Dev nD) → (b : Ref sig .tc) → Buf (Elt F) ((c : Thread nD τ).loc b) := fun c b => B11 m ρ c b
theorem B11_keep (c : Dev nD) (r : Ref sig .tc) (h : r ∉ hostOps1_W) : B11 m ρ c (Proc.devRef .tc r) = B10 m ρ c (Proc.devRef .tc r) :=
  StableHlo.after_of_writes_sub hostOps1 _ hostOps1_writes h
/-- After region 1: its arrays at what the pipeline leaves, every other buffer as entered. -/
def B12 (c : Dev nD) : Valuation τ sig (Elt F) :=
  Pipeline.withArrays spec1 c (B11 m ρ c) fun w => (data1 (E11 m ρ) c).arrAt w cfg1.N
theorem B12_arr (c : Dev nD) (w : Fin cfg1.W) :
    B12 m ρ c (Proc.devRef .tc (Pipeline.arrRef spec1 w)) = (data1 (E11 m ρ) c).arrAt w cfg1.N := by
  unfold B12; exact Pipeline.withArrays_arr spec1 launch1.win.arr_inj c _ _ w
theorem B12_keep (c : Dev nD) (r : Ref sig .tc) (hb : ∀ w, Pipeline.arrRef spec1 w ≠ r) :
    B12 m ρ c (Proc.devRef .tc r) = B11 m ρ c (Proc.devRef .tc r) := by
  unfold B12; exact Pipeline.withArrays_of_ne spec1 c _ _ r hb
abbrev E12 : (c : Dev nD) → (b : Ref sig .tc) → Buf (Elt F) ((c : Thread nD τ).loc b) := fun c b => B12 m ρ c b
theorem exitArr1 (c : Dev nD) (w : Fin cfg1.W) : (data1 (E11 m ρ) c).arrAt w cfg1.N = E12 m ρ c (Pipeline.arrRef spec1 w) :=
  (B12_arr m ρ c w).symm
theorem exitRest1 (c : Dev nD) : ∀ b, b ∉ Finset.univ.image (Pipeline.arrRef spec1) → E12 m ρ c b = E11 m ρ c b :=
  fun b hb => B12_keep m ρ c b fun w e => hb (Finset.mem_image.mpr ⟨w, Finset.mem_univ _, e⟩)
/-- An input window's array leaves the region as it entered. -/
theorem B12_in (c : Dev nD) (w : Fin cfg1.W) (hw : (cfg1.win w).isOut = false) :
    B12 m ρ c (Proc.devRef .tc (Pipeline.arrRef spec1 w)) = E11 m ρ c (Pipeline.arrRef spec1 w) :=
  (B12_arr m ρ c w).trans (((data1 (E11 m ρ) c).arrAt_in w hw _).trans (data1_A (E11 m ρ) c w))
/-- After the host stretch `hostOps2`. -/
abbrev B13 : Dev nD → Valuation τ sig (Elt F) := fun c => StableHlo.after hostOps2 (B12 m ρ c)
abbrev E13 : (c : Dev nD) → (b : Ref sig .tc) → Buf (Elt F) ((c : Thread nD τ).loc b) := fun c b => B13 m ρ c b
theorem B13_keep (c : Dev nD) (r : Ref sig .tc) (h : r ∉ hostOps2_W) : B13 m ρ c (Proc.devRef .tc r) = B12 m ρ c (Proc.devRef .tc r) :=
  StableHlo.after_of_writes_sub hostOps2 _ hostOps2_writes h
/-- After region 2: its arrays at what the pipeline leaves, every other buffer as entered. -/
def B14 (c : Dev nD) : Valuation τ sig (Elt F) :=
  Pipeline.withArrays spec2 c (B13 m ρ c) fun w => (data2 (E13 m ρ) c).arrAt w cfg2.N
theorem B14_arr (c : Dev nD) (w : Fin cfg2.W) :
    B14 m ρ c (Proc.devRef .tc (Pipeline.arrRef spec2 w)) = (data2 (E13 m ρ) c).arrAt w cfg2.N := by
  unfold B14; exact Pipeline.withArrays_arr spec2 launch2.win.arr_inj c _ _ w
theorem B14_keep (c : Dev nD) (r : Ref sig .tc) (hb : ∀ w, Pipeline.arrRef spec2 w ≠ r) :
    B14 m ρ c (Proc.devRef .tc r) = B13 m ρ c (Proc.devRef .tc r) := by
  unfold B14; exact Pipeline.withArrays_of_ne spec2 c _ _ r hb
abbrev E14 : (c : Dev nD) → (b : Ref sig .tc) → Buf (Elt F) ((c : Thread nD τ).loc b) := fun c b => B14 m ρ c b
theorem exitArr2 (c : Dev nD) (w : Fin cfg2.W) : (data2 (E13 m ρ) c).arrAt w cfg2.N = E14 m ρ c (Pipeline.arrRef spec2 w) :=
  (B14_arr m ρ c w).symm
theorem exitRest2 (c : Dev nD) : ∀ b, b ∉ Finset.univ.image (Pipeline.arrRef spec2) → E14 m ρ c b = E13 m ρ c b :=
  fun b hb => B14_keep m ρ c b fun w e => hb (Finset.mem_image.mpr ⟨w, Finset.mem_univ _, e⟩)
/-- An input window's array leaves the region as it entered. -/
theorem B14_in (c : Dev nD) (w : Fin cfg2.W) (hw : (cfg2.win w).isOut = false) :
    B14 m ρ c (Proc.devRef .tc (Pipeline.arrRef spec2 w)) = E13 m ρ c (Pipeline.arrRef spec2 w) :=
  (B14_arr m ρ c w).trans (((data2 (E13 m ρ) c).arrAt_in w hw _).trans (data2_A (E13 m ρ) c w))
/-- After the host stretch `hostOps3`. -/
abbrev B15 : Dev nD → Valuation τ sig (Elt F) := fun c => StableHlo.after hostOps3 (B14 m ρ c)
abbrev E15 : (c : Dev nD) → (b : Ref sig .tc) → Buf (Elt F) ((c : Thread nD τ).loc b) := fun c b => B15 m ρ c b
theorem B15_keep (c : Dev nD) (r : Ref sig .tc) (h : r ∉ hostOps3_W) : B15 m ρ c (Proc.devRef .tc r) = B14 m ρ c (Proc.devRef .tc r) :=
  StableHlo.after_of_writes_sub hostOps3 _ hostOps3_writes h
/-- After region 3: its arrays at what the pipeline leaves, every other buffer as entered. -/
def B16 (c : Dev nD) : Valuation τ sig (Elt F) :=
  Pipeline.withArrays spec3 c (B15 m ρ c) fun w => (data3 (E15 m ρ) c).arrAt w cfg3.N
theorem B16_arr (c : Dev nD) (w : Fin cfg3.W) :
    B16 m ρ c (Proc.devRef .tc (Pipeline.arrRef spec3 w)) = (data3 (E15 m ρ) c).arrAt w cfg3.N := by
  unfold B16; exact Pipeline.withArrays_arr spec3 launch3.win.arr_inj c _ _ w
theorem B16_keep (c : Dev nD) (r : Ref sig .tc) (hb : ∀ w, Pipeline.arrRef spec3 w ≠ r) :
    B16 m ρ c (Proc.devRef .tc r) = B15 m ρ c (Proc.devRef .tc r) := by
  unfold B16; exact Pipeline.withArrays_of_ne spec3 c _ _ r hb
abbrev E16 : (c : Dev nD) → (b : Ref sig .tc) → Buf (Elt F) ((c : Thread nD τ).loc b) := fun c b => B16 m ρ c b
theorem exitArr3 (c : Dev nD) (w : Fin cfg3.W) : (data3 (E15 m ρ) c).arrAt w cfg3.N = E16 m ρ c (Pipeline.arrRef spec3 w) :=
  (B16_arr m ρ c w).symm
theorem exitRest3 (c : Dev nD) : ∀ b, b ∉ Finset.univ.image (Pipeline.arrRef spec3) → E16 m ρ c b = E15 m ρ c b :=
  fun b hb => B16_keep m ρ c b fun w e => hb (Finset.mem_image.mpr ⟨w, Finset.mem_univ _, e⟩)
/-- An input window's array leaves the region as it entered. -/
theorem B16_in (c : Dev nD) (w : Fin cfg3.W) (hw : (cfg3.win w).isOut = false) :
    B16 m ρ c (Proc.devRef .tc (Pipeline.arrRef spec3 w)) = E15 m ρ c (Pipeline.arrRef spec3 w) :=
  (B16_arr m ρ c w).trans (((data3 (E15 m ρ) c).arrAt_in w hw _).trans (data3_A (E15 m ρ) c w))
/-- After the host stretch `hostOps4`. -/
abbrev B17 : Dev nD → Valuation τ sig (Elt F) := fun c => StableHlo.after hostOps4 (B16 m ρ c)
abbrev E17 : (c : Dev nD) → (b : Ref sig .tc) → Buf (Elt F) ((c : Thread nD τ).loc b) := fun c b => B17 m ρ c b
theorem B17_keep (c : Dev nD) (r : Ref sig .tc) (h : r ∉ hostOps4_W) : B17 m ρ c (Proc.devRef .tc r) = B16 m ρ c (Proc.devRef .tc r) :=
  StableHlo.after_of_writes_sub hostOps4 _ hostOps4_writes h
/-- After region 4: its arrays at what the pipeline leaves, every other buffer as entered. -/
def B18 (c : Dev nD) : Valuation τ sig (Elt F) :=
  Pipeline.withArrays spec4 c (B17 m ρ c) fun w => (data4 (E17 m ρ) c).arrAt w cfg4.N
theorem B18_arr (c : Dev nD) (w : Fin cfg4.W) :
    B18 m ρ c (Proc.devRef .tc (Pipeline.arrRef spec4 w)) = (data4 (E17 m ρ) c).arrAt w cfg4.N := by
  unfold B18; exact Pipeline.withArrays_arr spec4 launch4.win.arr_inj c _ _ w
theorem B18_keep (c : Dev nD) (r : Ref sig .tc) (hb : ∀ w, Pipeline.arrRef spec4 w ≠ r) :
    B18 m ρ c (Proc.devRef .tc r) = B17 m ρ c (Proc.devRef .tc r) := by
  unfold B18; exact Pipeline.withArrays_of_ne spec4 c _ _ r hb
abbrev E18 : (c : Dev nD) → (b : Ref sig .tc) → Buf (Elt F) ((c : Thread nD τ).loc b) := fun c b => B18 m ρ c b
theorem exitArr4 (c : Dev nD) (w : Fin cfg4.W) : (data4 (E17 m ρ) c).arrAt w cfg4.N = E18 m ρ c (Pipeline.arrRef spec4 w) :=
  (B18_arr m ρ c w).symm
theorem exitRest4 (c : Dev nD) : ∀ b, b ∉ Finset.univ.image (Pipeline.arrRef spec4) → E18 m ρ c b = E17 m ρ c b :=
  fun b hb => B18_keep m ρ c b fun w e => hb (Finset.mem_image.mpr ⟨w, Finset.mem_univ _, e⟩)
/-- An input window's array leaves the region as it entered. -/
theorem B18_in (c : Dev nD) (w : Fin cfg4.W) (hw : (cfg4.win w).isOut = false) :
    B18 m ρ c (Proc.devRef .tc (Pipeline.arrRef spec4 w)) = E17 m ρ c (Pipeline.arrRef spec4 w) :=
  (B18_arr m ρ c w).trans (((data4 (E17 m ρ) c).arrAt_in w hw _).trans (data4_A (E17 m ρ) c w))
/-- After the host stretch `hostOps5`. -/
abbrev B19 : Dev nD → Valuation τ sig (Elt F) := fun c => StableHlo.after hostOps5 (B18 m ρ c)
abbrev E19 : (c : Dev nD) → (b : Ref sig .tc) → Buf (Elt F) ((c : Thread nD τ).loc b) := fun c b => B19 m ρ c b
theorem B19_keep (c : Dev nD) (r : Ref sig .tc) (h : r ∉ hostOps5_W) : B19 m ρ c (Proc.devRef .tc r) = B18 m ρ c (Proc.devRef .tc r) :=
  StableHlo.after_of_writes_sub hostOps5 _ hostOps5_writes h
/-- After region 5: its arrays at what the pipeline leaves, every other buffer as entered. -/
def B20 (c : Dev nD) : Valuation τ sig (Elt F) :=
  Pipeline.withArrays spec5 c (B19 m ρ c) fun w => (data5 (E19 m ρ) c).arrAt w cfg5.N
theorem B20_arr (c : Dev nD) (w : Fin cfg5.W) :
    B20 m ρ c (Proc.devRef .tc (Pipeline.arrRef spec5 w)) = (data5 (E19 m ρ) c).arrAt w cfg5.N := by
  unfold B20; exact Pipeline.withArrays_arr spec5 launch5.win.arr_inj c _ _ w
theorem B20_keep (c : Dev nD) (r : Ref sig .tc) (hb : ∀ w, Pipeline.arrRef spec5 w ≠ r) :
    B20 m ρ c (Proc.devRef .tc r) = B19 m ρ c (Proc.devRef .tc r) := by
  unfold B20; exact Pipeline.withArrays_of_ne spec5 c _ _ r hb
abbrev E20 : (c : Dev nD) → (b : Ref sig .tc) → Buf (Elt F) ((c : Thread nD τ).loc b) := fun c b => B20 m ρ c b
theorem exitArr5 (c : Dev nD) (w : Fin cfg5.W) : (data5 (E19 m ρ) c).arrAt w cfg5.N = E20 m ρ c (Pipeline.arrRef spec5 w) :=
  (B20_arr m ρ c w).symm
theorem exitRest5 (c : Dev nD) : ∀ b, b ∉ Finset.univ.image (Pipeline.arrRef spec5) → E20 m ρ c b = E19 m ρ c b :=
  fun b hb => B20_keep m ρ c b fun w e => hb (Finset.mem_image.mpr ⟨w, Finset.mem_univ _, e⟩)
/-- An input window's array leaves the region as it entered. -/
theorem B20_in (c : Dev nD) (w : Fin cfg5.W) (hw : (cfg5.win w).isOut = false) :
    B20 m ρ c (Proc.devRef .tc (Pipeline.arrRef spec5 w)) = E19 m ρ c (Pipeline.arrRef spec5 w) :=
  (B20_arr m ρ c w).trans (((data5 (E19 m ρ) c).arrAt_in w hw _).trans (data5_A (E19 m ρ) c w))
/-- After the host stretch `hostOps6`. -/
abbrev B21 : Dev nD → Valuation τ sig (Elt F) := fun c => StableHlo.after hostOps6 (B20 m ρ c)
abbrev E21 : (c : Dev nD) → (b : Ref sig .tc) → Buf (Elt F) ((c : Thread nD τ).loc b) := fun c b => B21 m ρ c b
theorem B21_keep (c : Dev nD) (r : Ref sig .tc) (h : r ∉ hostOps6_W) : B21 m ρ c (Proc.devRef .tc r) = B20 m ρ c (Proc.devRef .tc r) :=
  StableHlo.after_of_writes_sub hostOps6 _ hostOps6_writes h
/-- After region 6: its arrays at what the pipeline leaves, every other buffer as entered. -/
def B22 (c : Dev nD) : Valuation τ sig (Elt F) :=
  Pipeline.withArrays spec6 c (B21 m ρ c) fun w => (data6 (E21 m ρ) c).arrAt w cfg6.N
theorem B22_arr (c : Dev nD) (w : Fin cfg6.W) :
    B22 m ρ c (Proc.devRef .tc (Pipeline.arrRef spec6 w)) = (data6 (E21 m ρ) c).arrAt w cfg6.N := by
  unfold B22; exact Pipeline.withArrays_arr spec6 launch6.win.arr_inj c _ _ w
theorem B22_keep (c : Dev nD) (r : Ref sig .tc) (hb : ∀ w, Pipeline.arrRef spec6 w ≠ r) :
    B22 m ρ c (Proc.devRef .tc r) = B21 m ρ c (Proc.devRef .tc r) := by
  unfold B22; exact Pipeline.withArrays_of_ne spec6 c _ _ r hb
abbrev E22 : (c : Dev nD) → (b : Ref sig .tc) → Buf (Elt F) ((c : Thread nD τ).loc b) := fun c b => B22 m ρ c b
theorem exitArr6 (c : Dev nD) (w : Fin cfg6.W) : (data6 (E21 m ρ) c).arrAt w cfg6.N = E22 m ρ c (Pipeline.arrRef spec6 w) :=
  (B22_arr m ρ c w).symm
theorem exitRest6 (c : Dev nD) : ∀ b, b ∉ Finset.univ.image (Pipeline.arrRef spec6) → E22 m ρ c b = E21 m ρ c b :=
  fun b hb => B22_keep m ρ c b fun w e => hb (Finset.mem_image.mpr ⟨w, Finset.mem_univ _, e⟩)
/-- An input window's array leaves the region as it entered. -/
theorem B22_in (c : Dev nD) (w : Fin cfg6.W) (hw : (cfg6.win w).isOut = false) :
    B22 m ρ c (Proc.devRef .tc (Pipeline.arrRef spec6 w)) = E21 m ρ c (Pipeline.arrRef spec6 w) :=
  (B22_arr m ρ c w).trans (((data6 (E21 m ρ) c).arrAt_in w hw _).trans (data6_A (E21 m ρ) c w))
/-- After the host stretch `hostOps7`. -/
abbrev B23 : Dev nD → Valuation τ sig (Elt F) := fun c => StableHlo.after hostOps7 (B22 m ρ c)
abbrev E23 : (c : Dev nD) → (b : Ref sig .tc) → Buf (Elt F) ((c : Thread nD τ).loc b) := fun c b => B23 m ρ c b
theorem B23_keep (c : Dev nD) (r : Ref sig .tc) (h : r ∉ hostOps7_W) : B23 m ρ c (Proc.devRef .tc r) = B22 m ρ c (Proc.devRef .tc r) :=
  StableHlo.after_of_writes_sub hostOps7 _ hostOps7_writes h
/-- After region 7: its arrays at what the pipeline leaves, every other buffer as entered. -/
def B24 (c : Dev nD) : Valuation τ sig (Elt F) :=
  Pipeline.withArrays spec7 c (B23 m ρ c) fun w => (data7 (E23 m ρ) c).arrAt w cfg7.N
theorem B24_arr (c : Dev nD) (w : Fin cfg7.W) :
    B24 m ρ c (Proc.devRef .tc (Pipeline.arrRef spec7 w)) = (data7 (E23 m ρ) c).arrAt w cfg7.N := by
  unfold B24; exact Pipeline.withArrays_arr spec7 launch7.win.arr_inj c _ _ w
theorem B24_keep (c : Dev nD) (r : Ref sig .tc) (hb : ∀ w, Pipeline.arrRef spec7 w ≠ r) :
    B24 m ρ c (Proc.devRef .tc r) = B23 m ρ c (Proc.devRef .tc r) := by
  unfold B24; exact Pipeline.withArrays_of_ne spec7 c _ _ r hb
abbrev E24 : (c : Dev nD) → (b : Ref sig .tc) → Buf (Elt F) ((c : Thread nD τ).loc b) := fun c b => B24 m ρ c b
theorem exitArr7 (c : Dev nD) (w : Fin cfg7.W) : (data7 (E23 m ρ) c).arrAt w cfg7.N = E24 m ρ c (Pipeline.arrRef spec7 w) :=
  (B24_arr m ρ c w).symm
theorem exitRest7 (c : Dev nD) : ∀ b, b ∉ Finset.univ.image (Pipeline.arrRef spec7) → E24 m ρ c b = E23 m ρ c b :=
  fun b hb => B24_keep m ρ c b fun w e => hb (Finset.mem_image.mpr ⟨w, Finset.mem_univ _, e⟩)
/-- An input window's array leaves the region as it entered. -/
theorem B24_in (c : Dev nD) (w : Fin cfg7.W) (hw : (cfg7.win w).isOut = false) :
    B24 m ρ c (Proc.devRef .tc (Pipeline.arrRef spec7 w)) = E23 m ρ c (Pipeline.arrRef spec7 w) :=
  (B24_arr m ρ c w).trans (((data7 (E23 m ρ) c).arrAt_in w hw _).trans (data7_A (E23 m ρ) c w))
/-- After the host stretch `hostOps8`. -/
abbrev B25 : Dev nD → Valuation τ sig (Elt F) := fun c => StableHlo.after hostOps8 (B24 m ρ c)
abbrev E25 : (c : Dev nD) → (b : Ref sig .tc) → Buf (Elt F) ((c : Thread nD τ).loc b) := fun c b => B25 m ρ c b
theorem B25_keep (c : Dev nD) (r : Ref sig .tc) (h : r ∉ hostOps8_W) : B25 m ρ c (Proc.devRef .tc r) = B24 m ρ c (Proc.devRef .tc r) :=
  StableHlo.after_of_writes_sub hostOps8 _ hostOps8_writes h
/-- After region 8: its arrays at what the pipeline leaves, every other buffer as entered. -/
def B26 (c : Dev nD) : Valuation τ sig (Elt F) :=
  Pipeline.withArrays spec8 c (B25 m ρ c) fun w => (data8 (E25 m ρ) c).arrAt w cfg8.N
theorem B26_arr (c : Dev nD) (w : Fin cfg8.W) :
    B26 m ρ c (Proc.devRef .tc (Pipeline.arrRef spec8 w)) = (data8 (E25 m ρ) c).arrAt w cfg8.N := by
  unfold B26; exact Pipeline.withArrays_arr spec8 launch8.win.arr_inj c _ _ w
theorem B26_keep (c : Dev nD) (r : Ref sig .tc) (hb : ∀ w, Pipeline.arrRef spec8 w ≠ r) :
    B26 m ρ c (Proc.devRef .tc r) = B25 m ρ c (Proc.devRef .tc r) := by
  unfold B26; exact Pipeline.withArrays_of_ne spec8 c _ _ r hb
abbrev E26 : (c : Dev nD) → (b : Ref sig .tc) → Buf (Elt F) ((c : Thread nD τ).loc b) := fun c b => B26 m ρ c b
theorem exitArr8 (c : Dev nD) (w : Fin cfg8.W) : (data8 (E25 m ρ) c).arrAt w cfg8.N = E26 m ρ c (Pipeline.arrRef spec8 w) :=
  (B26_arr m ρ c w).symm
theorem exitRest8 (c : Dev nD) : ∀ b, b ∉ Finset.univ.image (Pipeline.arrRef spec8) → E26 m ρ c b = E25 m ρ c b :=
  fun b hb => B26_keep m ρ c b fun w e => hb (Finset.mem_image.mpr ⟨w, Finset.mem_univ _, e⟩)
/-- An input window's array leaves the region as it entered. -/
theorem B26_in (c : Dev nD) (w : Fin cfg8.W) (hw : (cfg8.win w).isOut = false) :
    B26 m ρ c (Proc.devRef .tc (Pipeline.arrRef spec8 w)) = E25 m ρ c (Pipeline.arrRef spec8 w) :=
  (B26_arr m ρ c w).trans (((data8 (E25 m ρ) c).arrAt_in w hw _).trans (data8_A (E25 m ρ) c w))

/-! ## No item writes an argument -/

theorem B26_main_arg0 (c : Dev nD) : B26 m ρ c (Proc.devRef .tc main_arg0) = m ((c : Thread nD τ).loc main_arg0) :=
  (B26_keep m ρ c main_arg0 (by decide)).trans <| (B25_keep m ρ c main_arg0 (by decide)).trans <| (B24_keep m ρ c main_arg0 (by decide)).trans <| (B23_keep m ρ c main_arg0 (by decide)).trans <| (B22_keep m ρ c main_arg0 (by decide)).trans <| (B21_keep m ρ c main_arg0 (by decide)).trans <| (B20_keep m ρ c main_arg0 (by decide)).trans <| (B19_keep m ρ c main_arg0 (by decide)).trans <| (B18_keep m ρ c main_arg0 (by decide)).trans <| (B17_keep m ρ c main_arg0 (by decide)).trans <| (B16_in m ρ c 0 rfl).trans <| (B15_keep m ρ c main_arg0 (by decide)).trans <| (B14_in m ρ c 0 rfl).trans <| (B13_keep m ρ c main_arg0 (by decide)).trans <| (B12_in m ρ c 0 rfl).trans <| (B11_keep m ρ c main_arg0 (by decide)).trans <| (B10_in m ρ c 0 rfl).trans <| (B9_keep m ρ c main_arg0 (by decide)).trans <| (B8_keep m ρ c main_arg0 (by decide)).trans <| (B7_keep m ρ c main_arg0 (by decide)).trans <| (B6_keep m ρ c main_arg0 (by decide)).trans <| (B5_keep m ρ c main_arg0 (by decide)).trans <| (B4_keep m ρ c main_arg0 (by decide)).trans <| (B3_keep m ρ c main_arg0 (by decide)).trans <| (B2_keep m ρ c main_arg0 (by decide)).trans <| (B1_keep m ρ c main_arg0 (by decide)).trans <| rfl
theorem B26_main_arg1 (c : Dev nD) : B26 m ρ c (Proc.devRef .tc main_arg1) = m ((c : Thread nD τ).loc main_arg1) :=
  (B26_keep m ρ c main_arg1 (by decide)).trans <| (B25_keep m ρ c main_arg1 (by decide)).trans <| (B24_keep m ρ c main_arg1 (by decide)).trans <| (B23_keep m ρ c main_arg1 (by decide)).trans <| (B22_keep m ρ c main_arg1 (by decide)).trans <| (B21_keep m ρ c main_arg1 (by decide)).trans <| (B20_keep m ρ c main_arg1 (by decide)).trans <| (B19_keep m ρ c main_arg1 (by decide)).trans <| (B18_keep m ρ c main_arg1 (by decide)).trans <| (B17_keep m ρ c main_arg1 (by decide)).trans <| (B16_keep m ρ c main_arg1 (by decide)).trans <| (B15_keep m ρ c main_arg1 (by decide)).trans <| (B14_keep m ρ c main_arg1 (by decide)).trans <| (B13_keep m ρ c main_arg1 (by decide)).trans <| (B12_keep m ρ c main_arg1 (by decide)).trans <| (B11_keep m ρ c main_arg1 (by decide)).trans <| (B10_keep m ρ c main_arg1 (by decide)).trans <| (B9_keep m ρ c main_arg1 (by decide)).trans <| (B8_keep m ρ c main_arg1 (by decide)).trans <| (B7_keep m ρ c main_arg1 (by decide)).trans <| (B6_keep m ρ c main_arg1 (by decide)).trans <| (B5_keep m ρ c main_arg1 (by decide)).trans <| (B4_keep m ρ c main_arg1 (by decide)).trans <| (B3_keep m ρ c main_arg1 (by decide)).trans <| (B2_keep m ρ c main_arg1 (by decide)).trans <| (B1_keep m ρ c main_arg1 (by decide)).trans <| rfl
theorem B26_main_arg2 (c : Dev nD) : B26 m ρ c (Proc.devRef .tc main_arg2) = m ((c : Thread nD τ).loc main_arg2) :=
  (B26_keep m ρ c main_arg2 (by decide)).trans <| (B25_keep m ρ c main_arg2 (by decide)).trans <| (B24_keep m ρ c main_arg2 (by decide)).trans <| (B23_keep m ρ c main_arg2 (by decide)).trans <| (B22_keep m ρ c main_arg2 (by decide)).trans <| (B21_keep m ρ c main_arg2 (by decide)).trans <| (B20_keep m ρ c main_arg2 (by decide)).trans <| (B19_keep m ρ c main_arg2 (by decide)).trans <| (B18_keep m ρ c main_arg2 (by decide)).trans <| (B17_keep m ρ c main_arg2 (by decide)).trans <| (B16_keep m ρ c main_arg2 (by decide)).trans <| (B15_keep m ρ c main_arg2 (by decide)).trans <| (B14_keep m ρ c main_arg2 (by decide)).trans <| (B13_keep m ρ c main_arg2 (by decide)).trans <| (B12_keep m ρ c main_arg2 (by decide)).trans <| (B11_keep m ρ c main_arg2 (by decide)).trans <| (B10_keep m ρ c main_arg2 (by decide)).trans <| (B9_keep m ρ c main_arg2 (by decide)).trans <| (B8_keep m ρ c main_arg2 (by decide)).trans <| (B7_keep m ρ c main_arg2 (by decide)).trans <| (B6_keep m ρ c main_arg2 (by decide)).trans <| (B5_keep m ρ c main_arg2 (by decide)).trans <| (B4_keep m ρ c main_arg2 (by decide)).trans <| (B3_keep m ρ c main_arg2 (by decide)).trans <| (B2_keep m ρ c main_arg2 (by decide)).trans <| (B1_keep m ρ c main_arg2 (by decide)).trans <| rfl
theorem B26_main_arg3 (c : Dev nD) : B26 m ρ c (Proc.devRef .tc main_arg3) = m ((c : Thread nD τ).loc main_arg3) :=
  (B26_keep m ρ c main_arg3 (by decide)).trans <| (B25_keep m ρ c main_arg3 (by decide)).trans <| (B24_keep m ρ c main_arg3 (by decide)).trans <| (B23_keep m ρ c main_arg3 (by decide)).trans <| (B22_keep m ρ c main_arg3 (by decide)).trans <| (B21_keep m ρ c main_arg3 (by decide)).trans <| (B20_keep m ρ c main_arg3 (by decide)).trans <| (B19_keep m ρ c main_arg3 (by decide)).trans <| (B18_keep m ρ c main_arg3 (by decide)).trans <| (B17_keep m ρ c main_arg3 (by decide)).trans <| (B16_keep m ρ c main_arg3 (by decide)).trans <| (B15_keep m ρ c main_arg3 (by decide)).trans <| (B14_keep m ρ c main_arg3 (by decide)).trans <| (B13_keep m ρ c main_arg3 (by decide)).trans <| (B12_keep m ρ c main_arg3 (by decide)).trans <| (B11_keep m ρ c main_arg3 (by decide)).trans <| (B10_keep m ρ c main_arg3 (by decide)).trans <| (B9_keep m ρ c main_arg3 (by decide)).trans <| (B8_keep m ρ c main_arg3 (by decide)).trans <| (B7_keep m ρ c main_arg3 (by decide)).trans <| (B6_keep m ρ c main_arg3 (by decide)).trans <| (B5_keep m ρ c main_arg3 (by decide)).trans <| (B4_keep m ρ c main_arg3 (by decide)).trans <| (B3_keep m ρ c main_arg3 (by decide)).trans <| (B2_keep m ρ c main_arg3 (by decide)).trans <| (B1_keep m ρ c main_arg3 (by decide)).trans <| rfl
theorem B26_main_arg4 (c : Dev nD) : B26 m ρ c (Proc.devRef .tc main_arg4) = m ((c : Thread nD τ).loc main_arg4) :=
  (B26_keep m ρ c main_arg4 (by decide)).trans <| (B25_keep m ρ c main_arg4 (by decide)).trans <| (B24_keep m ρ c main_arg4 (by decide)).trans <| (B23_keep m ρ c main_arg4 (by decide)).trans <| (B22_keep m ρ c main_arg4 (by decide)).trans <| (B21_keep m ρ c main_arg4 (by decide)).trans <| (B20_keep m ρ c main_arg4 (by decide)).trans <| (B19_keep m ρ c main_arg4 (by decide)).trans <| (B18_keep m ρ c main_arg4 (by decide)).trans <| (B17_keep m ρ c main_arg4 (by decide)).trans <| (B16_keep m ρ c main_arg4 (by decide)).trans <| (B15_keep m ρ c main_arg4 (by decide)).trans <| (B14_keep m ρ c main_arg4 (by decide)).trans <| (B13_keep m ρ c main_arg4 (by decide)).trans <| (B12_keep m ρ c main_arg4 (by decide)).trans <| (B11_keep m ρ c main_arg4 (by decide)).trans <| (B10_keep m ρ c main_arg4 (by decide)).trans <| (B9_keep m ρ c main_arg4 (by decide)).trans <| (B8_keep m ρ c main_arg4 (by decide)).trans <| (B7_keep m ρ c main_arg4 (by decide)).trans <| (B6_keep m ρ c main_arg4 (by decide)).trans <| (B5_keep m ρ c main_arg4 (by decide)).trans <| (B4_keep m ρ c main_arg4 (by decide)).trans <| (B3_keep m ρ c main_arg4 (by decide)).trans <| (B2_keep m ρ c main_arg4 (by decide)).trans <| (B1_keep m ρ c main_arg4 (by decide)).trans <| rfl

/-! ## The proof data family and the thread state -/

/-- No pipeline has a prefetched table. -/
abbrev adm : (p : Fin 9) → (pcfgs (F := F) p).Adm := fun p => (cfgs p).toPCfg_adm
/-- Every pipeline's per-point data, each at its region's entry contents. -/
def pdats : (p : Fin 9) → (c : Dev nD) → Dat τ (Elt F) Unit ℕ (UR sig nD τ) ℕ (Pipeline.pin (pcfgs (F := F)) adm p) c
  | ⟨0, _⟩ => fun c => data0 (E9 m ρ) c
  | ⟨1, _⟩ => fun c => data1 (E11 m ρ) c
  | ⟨2, _⟩ => fun c => data2 (E13 m ρ) c
  | ⟨3, _⟩ => fun c => data3 (E15 m ρ) c
  | ⟨4, _⟩ => fun c => data4 (E17 m ρ) c
  | ⟨5, _⟩ => fun c => data5 (E19 m ρ) c
  | ⟨6, _⟩ => fun c => data6 (E21 m ρ) c
  | ⟨7, _⟩ => fun c => data7 (E23 m ρ) c
  | ⟨8, _⟩ => fun c => data8 (E25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (B26 m ρ c) ∗ ∃ r, prngReg c r)

/-! ## The regions as items -/

set_option backward.isDefEq.respectTransparency.types false in
/-- Region 0: entered with every unscoped buffer at boundary 9's contents, left at boundary 10's. Its arrays are split
    out of the unscoped buffers on entry and put back at the exit contents; the generator register goes into the
    body's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E9 m ρ) c).loose
  hwaits := Pipeline.hwaits_of_owed_zero _ _ _ _ L lv 0 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec0 c (E9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E9 m ρ c) (E10 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at boundary 11's contents, left at boundary 12's. Its arrays are split
    out of the unscoped buffers on entry and put back at the exit contents; the generator register goes into the
    body's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ L lv 1 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E11 m ρ c) (E12 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at boundary 13's contents, left at boundary 14's. Its arrays are split
    out of the unscoped buffers on entry and put back at the exit contents; the generator register goes into the
    body's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E13 m ρ) c).loose
  hwaits := Pipeline.hwaits_of_owed_zero _ _ _ _ L lv 2 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec2 c (E13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E13 m ρ c) (E14 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at boundary 15's contents, left at boundary 16's. Its arrays are split
    out of the unscoped buffers on entry and put back at the exit contents; the generator register goes into the
    body's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E15 m ρ) c).loose
  hwaits := Pipeline.hwaits_of_owed_zero _ _ _ _ L lv 3 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec3 c (E15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E15 m ρ c) (E16 m ρ c) ((pdats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at boundary 17's contents, left at boundary 18's. Its arrays are split
    out of the unscoped buffers on entry and put back at the exit contents; the generator register goes into the
    body's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E17 m ρ) c).loose
  hwaits := Pipeline.hwaits_of_owed_zero _ _ _ _ L lv 4 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec4 c (E17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E17 m ρ c) (E18 m ρ c) ((pdats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at boundary 19's contents, left at boundary 20's. Its arrays are split
    out of the unscoped buffers on entry and put back at the exit contents; the generator register goes into the
    body's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E19 m ρ) c).loose
  hwaits := Pipeline.hwaits_of_owed_zero _ _ _ _ L lv 5 fun _ _ => rfl
  pre c := iprop(StableHlo.held (c : Thread nD τ) (Pipeline.ucRefs τ sig) (B19 m ρ c) ∗ R c)
  post c := iprop(StableHlo.held (c : Thread nD τ) (Pipeline.ucRefs τ sig) (B20 m ρ c) ∗ R c)
  X c := iprop(∃ r, prngReg c r)
  Y c := iprop(∃ r, prngReg c r)
  Z c := Pipeline.unscopedRest (Ix := Unit) (Name := ℕ) (U := UR sig nD τ) (Lvl := ℕ) spec5 c (E19 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (E19 m ρ c) (E20 m ρ c) ((pdats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at boundary 21's contents, left at boundary 22's. Its arrays are split
    out of the unscoped buffers on entry and put back at the exit contents; the generator register goes into the
    body's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E21 m ρ) c).loose
  hwaits := Pipeline.hwaits_of_owed_zero _ _ _ _ L lv 6 fun _ _ => rfl
  pre c := iprop(StableHlo.held (c : Thread nD τ) (Pipeline.ucRefs τ sig) (B21 m ρ c) ∗ R c)
  post c := iprop(StableHlo.held (c : Thread nD τ) (Pipeline.ucRefs τ sig) (B22 m ρ c) ∗ R c)
  X c := iprop(∃ r, prngReg c r)
  Y c := iprop(∃ r, prngReg c r)
  Z c := Pipeline.unscopedRest (Ix := Unit) (Name := ℕ) (U := UR sig nD τ) (Lvl := ℕ) spec6 c (E21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (E21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (E21 m ρ c) (E22 m ρ c) ((pdats m ρ 6 c).arrAt · cfg6.N) (exitArr6 m ρ c) (exitRest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered with every unscoped buffer at boundary 23's contents, left at boundary 24's. Its arrays are split
    out of the unscoped buffers on entry and put back at the exit contents; the generator register goes into the
    body's invariant and comes back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E23 m ρ) c).loose
  hwaits := Pipeline.hwaits_of_owed_zero _ _ _ _ L lv 7 fun _ _ => rfl
  pre c := iprop(StableHlo.held (c : Thread nD τ) (Pipeline.ucRefs τ sig) (B23 m ρ c) ∗ R c)
  post c := iprop(StableHlo.held (c : Thread nD τ) (Pipeline.ucRefs τ sig) (B24 m ρ c) ∗ R c)
  X c := iprop(∃ r, prngReg c r)
  Y c := iprop(∃ r, prngReg c r)
  Z c := Pipeline.unscopedRest (Ix := Unit) (Name := ℕ) (U := UR sig nD τ) (Lvl := ℕ) spec7 c (E23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (E23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (E23 m ρ c) (E24 m ρ c) ((pdats m ρ 7 c).arrAt · cfg7.N) (exitArr7 m ρ c) (exitRest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered with every unscoped buffer at boundary 25's contents, left at boundary 26's. Its arrays are split
    out of the unscoped buffers on entry and put back at the exit contents; the generator register goes into the
    body's invariant and comes back; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E25 m ρ) c).loose
  hwaits := Pipeline.hwaits_of_owed_zero _ _ _ _ L lv 8 fun _ _ => rfl
  pre c := iprop(StableHlo.held (c : Thread nD τ) (Pipeline.ucRefs τ sig) (B25 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E25 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (E25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (E25 m ρ c) (E26 m ρ c) ((pdats m ρ 8 c).arrAt · cfg8.N) (exitArr8 m ρ c) (exitRest8 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The 26 items in order. -/
abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .host (hseg hostOps0_3 hostOps0_3_sub hostOps0_3_fresh (B3 m ρ)),
    .host (hseg hostOps0_4 hostOps0_4_sub hostOps0_4_fresh (B4 m ρ)),
    .host (hseg hostOps0_5 hostOps0_5_sub hostOps0_5_fresh (B5 m ρ)),
    .host (hseg hostOps0_6 hostOps0_6_sub hostOps0_6_fresh (B6 m ρ)),
    .host (hseg hostOps0_7 hostOps0_7_sub hostOps0_7_fresh (B7 m ρ)),
    .host (hseg hostOps0_8 hostOps0_8_sub hostOps0_8_fresh (B8 m ρ)),
    .region (reg0 m ρ),
    .host (hseg hostOps1 hostOps1_sub hostOps1_fresh (B10 m ρ)),
    .region (reg1 m ρ),
    .host (hseg hostOps2 hostOps2_sub hostOps2_fresh (B12 m ρ)),
    .region (reg2 m ρ),
    .host (hseg hostOps3 hostOps3_sub hostOps3_fresh (B14 m ρ)),
    .region (reg3 m ρ),
    .host (hseg hostOps4 hostOps4_sub hostOps4_fresh (B16 m ρ)),
    .region (reg4 m ρ),
    .host (hseg hostOps5 hostOps5_sub hostOps5_fresh (B18 m ρ)),
    .region (reg5 m ρ),
    .host (hseg hostOps6 hostOps6_sub hostOps6_fresh (B20 m ρ)),
    .region (reg6 m ρ),
    .host (hseg hostOps7 hostOps7_sub hostOps7_fresh (B22 m ρ)),
    .region (reg7 m ρ),
    .host (hseg hostOps8 hostOps8_sub hostOps8_fresh (B24 m ρ)),
    .region (reg8 m ρ) ]
/-- The program is the run of its items. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B26 m ρ c b)
    (hfin := fun c s' => by
      iintro ⟨⟨Hh, -⟩, HSI⟩
      unfold StableHlo.held
      imodintro
      iapply (pointsTo_read_all (Pipeline.ucRefs τ sig) (fun b => (((c : Thread nD τ)).1, b)) (B26 m ρ c) s')
      isplitl [Hh] <;> iassumption)
    (hQ := fun s h c => h c)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c)⟩) (run_all m ρ)

/-- The run with the result named: the result buffer ends at what the last region's write-backs leave, and every
    argument array as launched. -/
theorem run_result : θ_run defs (onTc (τ := τ) (main (F := F))) ⟨m, fun _ => 0, ρ⟩ (fun r => ∀ c : Dev nD,
      r.2.mem ((c.tc : Thread nD τ).loc main_v35) = (data8 (E25 m ρ) c).arrAt 2 cfg8.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v35 (by decide))).trans (B26_arr m ρ c 2),
     (h c _ (mem_uc main_arg0 (by decide))).trans (B26_main_arg0 m ρ c),
     (h c _ (mem_uc main_arg1 (by decide))).trans (B26_main_arg1 m ρ c),
     (h c _ (mem_uc main_arg2 (by decide))).trans (B26_main_arg2 m ρ c),
     (h c _ (mem_uc main_arg3 (by decide))).trans (B26_main_arg3 m ρ c),
     (h c _ (mem_uc main_arg4 (by decide))).trans (B26_main_arg4 m ρ c)⟩) (run_all m ρ)

end Cert.KernelIdeal.Hand

end
-- ==== Proof.Spec.lean ====
/-
  The network both programs compute, entry by entry on the extended reals.

  A sign quantiser `sgn` sends an entry that is at least zero to +1 and every other entry to −1. The input is
  rescaled to `2·x − 1`. Each of the three hidden layers multiplies the activations by the transpose of the
  sign-quantised weight matrix, `(h · sgn(W)ᵀ)[b, n] = Σ_k h[b, k] · sgn(W[n, k])`, and quantises the result; the last
  layer is the same product with the output weights and no quantiser. The four float literals stay as their
  binary words: the same word stands on both sides of every equation and is never evaluated.
-/
import Idealize.ShloMosaic.PureOps.Ideal
import Idealize.ShloMosaic.Lib.ValueIdx

noncomputable section

namespace Cert.Spec

open Idealize.ShloMosaic

/-- The literals 0, 1, −1 and 2 as the programs spell them. -/
abbrev zero : EReal := Ideal.ofBits .f32 0x00000000#32
abbrev one : EReal := Ideal.ofBits .f32 0x3F800000#32
abbrev negOne : EReal := Ideal.ofBits .f32 0xBF800000#32
abbrev two : EReal := Ideal.ofBits .f32 0x40000000#32

/-- The sign quantiser: +1 where the entry is at least zero, −1 elsewhere. -/
def sgn (v : EReal) : EReal := Scalar.select (Ideal.cmp .oge v zero) one negOne

/-- The input rescale `2·x − 1`. -/
def pre (x : EReal) : EReal := x * two - one

/-- Activations times the transposed weights: `(h · wᵀ)[b, n] = Σ_k h[b, k] · w[n, k]`. -/
def lin {B N : ℕ} (h : Fin B → Fin 4096 → EReal) (w : Fin N → Fin 4096 → EReal) (b : Fin B) (n : Fin N) : EReal :=
  ∑ k : Fin 4096, h b k * w n k

/-- One hidden layer: the product with the sign-quantised weights, quantised. -/
def hidden {B N : ℕ} (h : Fin B → Fin 4096 → EReal) (W : Fin N → Fin 4096 → EReal) (b : Fin B) (n : Fin N) : EReal :=
  sgn (lin h (fun n k => sgn (W n k)) b n)

/-- The whole network: rescale, three hidden layers, the output product. -/
def out (x : Fin 8192 → Fin 4096 → EReal) (W1 W2 W3 : Fin 4096 → Fin 4096 → EReal) (W4 : Fin 2 → Fin 4096 → EReal) :
    Fin 8192 → Fin 2 → EReal :=
  lin (hidden (hidden (hidden (fun b k => pre (x b k)) W1) W2) W3) (fun n k => sgn (W4 n k))

end Cert.Spec

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LayerFns.lean ====
/-
  One layer on one chunk of weight rows, as a function of the whole activation array and the chunk, entry by entry:
  layer 1 rescales the input (`2·x − 1`) before the product and sign-quantises after it; a hidden layer multiplies and
  sign-quantises; the output layer only multiplies. The product is activations times the transposed chunk:
  entry (b, n) is `Σ_k X[b, k] · Wc[n, k]`.
-/
import proofs.«102262_j38096359916038_2_alg».proof.Proof.Spec
import Idealize.ShloMosaic.Lib.ValueIdx

noncomputable section

namespace Cert.LayerFns

open Idealize.ShloMosaic Idealize.ShloMosaic.ValueIdx

/-- Layer 1 on one chunk of N weight rows. -/
def layer1G {N : ℕ} (X : (⟨2, ![8192, 4096]⟩ : Shape).Idx → EReal) (Wc : (⟨2, ![N, 4096]⟩ : Shape).Idx → EReal) :
    (⟨2, ![8192, N]⟩ : Shape).Idx → EReal :=
  fun i => Cert.Spec.sgn (∑ k : Fin 4096, Cert.Spec.pre (X (ix2 (i 0) k)) * Wc (ix2 (i 1) k))
/-- A hidden layer on one chunk of N weight rows. -/
def hiddenG {N : ℕ} (X : (⟨2, ![8192, 4096]⟩ : Shape).Idx → EReal) (Wc : (⟨2, ![N, 4096]⟩ : Shape).Idx → EReal) :
    (⟨2, ![8192, N]⟩ : Shape).Idx → EReal :=
  fun i => Cert.Spec.sgn (∑ k : Fin 4096, X (ix2 (i 0) k) * Wc (ix2 (i 1) k))
/-- The output layer. -/
def outG {N : ℕ} (X : (⟨2, ![8192, 4096]⟩ : Shape).Idx → EReal) (Wc : (⟨2, ![N, 4096]⟩ : Shape).Idx → EReal) :
    (⟨2, ![8192, N]⟩ : Shape).Idx → EReal :=
  fun i => ∑ k : Fin 4096, X (ix2 (i 0) k) * Wc (ix2 (i 1) k)

theorem layer1G_apply {N : ℕ} (X : (⟨2, ![8192, 4096]⟩ : Shape).Idx → EReal) (Wc : (⟨2, ![N, 4096]⟩ : Shape).Idx → EReal) (b : Fin 8192) (n : Fin N) :
    layer1G X Wc (ix2 b n) = Cert.Spec.sgn (∑ k : Fin 4096, Cert.Spec.pre (X (ix2 b k)) * Wc (ix2 n k)) := rfl
theorem hiddenG_apply {N : ℕ} (X : (⟨2, ![8192, 4096]⟩ : Shape).Idx → EReal) (Wc : (⟨2, ![N, 4096]⟩ : Shape).Idx → EReal) (b : Fin 8192) (n : Fin N) :
    hiddenG X Wc (ix2 b n) = Cert.Spec.sgn (∑ k : Fin 4096, X (ix2 b k) * Wc (ix2 n k)) := rfl
theorem outG_apply {N : ℕ} (X : (⟨2, ![8192, 4096]⟩ : Shape).Idx → EReal) (Wc : (⟨2, ![N, 4096]⟩ : Shape).Idx → EReal) (b : Fin 8192) (n : Fin N) :
    outG X Wc (ix2 b n) = ∑ k : Fin 4096, X (ix2 b k) * Wc (ix2 n k) := rfl

end Cert.LayerFns

end
-- ==== Proof.SplitCancel.lean ====
/-
  The hi + lo split of the first layer cancels on finite entries.

  The first layer writes its left operand as a "hi" part plus a "lo" residual. At the ideal values the hi part is
  the operand itself, so the residual is `a - a`. On the extended reals `a - a` is `0` exactly when `a` is a real
  number (`⊤ - ⊤ = ⊥`), so finiteness of the operand is what makes the residual product vanish:
  `Σ_k a k * w k + Σ_k (a k - a k) * w k = Σ_k a k * w k`. The weights `w k` may be infinite: `0 * w = 0` for every
  extended real `w`. The rescale `2·x − 1` of a finite entry is finite because the two literals are real numbers.
-/
import proofs.«102262_j38096359916038_2_alg».proof.Proof.Spec
import proofs.«102262_j38096359916038_2_alg».proof.Proof.LibFinite

noncomputable section

namespace Cert.SplitCancel

open Idealize.ShloMosaic
open Cert.LibFinite

/-- A real number minus itself is zero (false at `⊤` and `⊥`). -/
theorem sub_self_of_fin {a : EReal} (ha : IsFin a) : a - a = 0 := by
  obtain ⟨r, rfl⟩ := ha
  rw [← EReal.coe_sub, sub_self, EReal.coe_zero]

/-- The difference of two real numbers is a real number. -/
theorem sub_fin {x y : EReal} (hx : IsFin x) (hy : IsFin y) : IsFin (x - y) := by
  obtain ⟨a, rfl⟩ := hx; obtain ⟨b, rfl⟩ := hy
  exact ⟨a - b, (EReal.coe_sub a b).symm⟩

/-- The residual product vanishes: the row `a` against `w`, plus the residual row `a - a` against `w`, is the row
    `a` against `w`. Only the row `a` has to be finite. -/
theorem split_sum (a w : Fin 4096 → EReal) (ha : ∀ k, IsFin (a k)) :
    (∑ k : Fin 4096, a k * w k) + (∑ k : Fin 4096, (a k - a k) * w k) = ∑ k : Fin 4096, a k * w k := by
  have h0 : (∑ k : Fin 4096, (a k - a k) * w k) = 0 :=
    Finset.sum_eq_zero fun k _ => by rw [sub_self_of_fin (ha k), zero_mul]
  rw [h0, add_zero]

/-- The word `0x40000000` denotes the real number two. -/
theorem two_fin : IsFin Cert.Spec.two := by
  refine ⟨2, ?_⟩
  simp [Ideal.ofBits, Ideal.ieee, -EReal.coe_mul]
  norm_num

/-- The word `0x3F800000` denotes the real number one. -/
theorem one_fin : IsFin Cert.Spec.one := by
  refine ⟨1, ?_⟩
  simp [Ideal.ofBits, Ideal.ieee, -EReal.coe_mul]
  norm_num

/-- The rescale `2·x − 1` of a real number is a real number. -/
theorem pre_fin {x : EReal} (hx : IsFin x) : IsFin (Cert.Spec.pre x) :=
  sub_fin (IsFin.mul hx two_fin) one_fin

end Cert.SplitCancel

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.KI_Payload.lean ====
/-
  What each kernel body stores, read at one entry, on the extended reals.

  Every body multiplies a block of 256 rows of activations by the transpose of a block of weight rows, accumulating
  into zeros: the entry at `(a, n)` of such a product is `Σ_k A[a, k] · B[n, k]`. Rounding to the narrower float
  format is the identity at the ideal values, and a shape cast to the same shape is the identity.

  * The four first-layer bodies rescale the input to `v = 2·x − 1`, split it as `v = hi + lo` with `hi = v` and
    `lo = v − v`, add the two products and apply the sign quantiser. On finite inputs `lo = 0`, so the entry is
    `sgn (Σ_k (2·x[a, k] − 1) · w[n, k])`.
  * The four bodies of the second and third layers apply the sign quantiser to one product: `sgn (Σ_k x[a, k] · w[n, k])`.
  * The body of the last layer stores the product itself: `Σ_k x[a, k] · w[n, k]`.
-/
import proofs.«102262_j38096359916038_2_alg».proof.Proof.Gen.KernelIdeal.Skeleton
import proofs.«102262_j38096359916038_2_alg».proof.Proof.Spec
import proofs.«102262_j38096359916038_2_alg».proof.Proof.SplitCancel
import proofs.«102262_j38096359916038_2_alg».proof.Proof.LibFinite
import proofs.«102262_j38096359916038_2_alg».proof.Proof.LibMatmulT
import Idealize.ShloMosaic.Lib.Pipeline.Value

noncomputable section

namespace Cert.KernelIdeal.Payload

open Cert.KernelIdeal Cert.KernelIdeal.Gen Idealize.ShloMosaic Idealize.ShloMosaic.ValueIdx Cert.LibFinite

/-! ## The first layer: 256 input rows against 1024 weight rows, hi + lo split -/

/-- The first layer's stored entry at `(a, n)`, as the body numbered 0 computes it: with `v k = 2·x[a, k] − 1`, the
    sign quantiser of `Σ_k v k · w[n, k] + Σ_k (v k − v k) · w[n, k]`. Each `v k` is a real number because `x[a, k]` is,
    so the residual sum vanishes and the entry is `sgn (Σ_k (2·x[a, k] − 1) · w[n, k])`. -/
theorem pay0_apply (x : Vec Ideal S256x4096 .f32) (w : Vec Ideal S1024x4096 .bf16) (hx : ∀ i, IsFin (x i)) (a : Fin 256) (n : Fin 1024) :
    k0_pay1 (F := Ideal) x w (ix2 a n) = Cert.Spec.sgn (∑ k : Fin 4096, Cert.Spec.pre (x (ix2 a k)) * w (ix2 n k)) := by
  unfold k0_pay1
  -- the cast of the weights to their own shape is the identity
  rw [shapeCast_self]
  -- the "hi" product: row `a` of `2·x − 1` against row `n` of the weights
  have k1 := MatmulT.matmul_zero_apply dot_S256x4096_S1024x4096_S256x1024_1_1_0_0_n_n.wf none
    (φ₁ := .bf16) (φ₂ := .bf16) (fun i => Cert.Spec.pre (x i)) w a n
  -- the "lo" product: row `a` of the residual `(2·x − 1) − (2·x − 1)` against the same row of the weights
  have k2 := MatmulT.matmul_zero_apply dot_S256x4096_S1024x4096_S256x1024_1_1_0_0_n_n.wf none
    (φ₁ := .bf16) (φ₂ := .bf16) (fun i => Cert.Spec.pre (x i) - Cert.Spec.pre (x i)) w a n
  -- the quantiser is applied to the sum of the two products, and the residual product is zero on finite entries
  refine congrArg Cert.Spec.sgn (?_ : _ + _ = _)
  refine (congrArg₂ (· + ·) k1 k2).trans ?_
  exact Cert.SplitCancel.split_sum _ _ (fun k => Cert.SplitCancel.pre_fin (hx _))

/-- The first layer's stored entry at `(a, n)`, as the body numbered 1 computes it: with `v k = 2·x[a, k] − 1`, the
    sign quantiser of `Σ_k v k · w[n, k] + Σ_k (v k − v k) · w[n, k]`. Each `v k` is a real number because `x[a, k]` is,
    so the residual sum vanishes and the entry is `sgn (Σ_k (2·x[a, k] − 1) · w[n, k])`. -/
theorem pay1_apply (x : Vec Ideal S256x4096 .f32) (w : Vec Ideal S1024x4096 .bf16) (hx : ∀ i, IsFin (x i)) (a : Fin 256) (n : Fin 1024) :
    k1_pay1 (F := Ideal) x w (ix2 a n) = Cert.Spec.sgn (∑ k : Fin 4096, Cert.Spec.pre (x (ix2 a k)) * w (ix2 n k)) := by
  unfold k1_pay1
  -- the cast of the weights to their own shape is the identity
  rw [shapeCast_self]
  -- the "hi" product: row `a` of `2·x − 1` against row `n` of the weights
  have k1 := MatmulT.matmul_zero_apply dot_S256x4096_S1024x4096_S256x1024_1_1_0_0_n_n.wf none
    (φ₁ := .bf16) (φ₂ := .bf16) (fun i => Cert.Spec.pre (x i)) w a n
  -- the "lo" product: row `a` of the residual `(2·x − 1) − (2·x − 1)` against the same row of the weights
  have k2 := MatmulT.matmul_zero_apply dot_S256x4096_S1024x4096_S256x1024_1_1_0_0_n_n.wf none
    (φ₁ := .bf16) (φ₂ := .bf16) (fun i => Cert.Spec.pre (x i) - Cert.Spec.pre (x i)) w a n
  -- the quantiser is applied to the sum of the two products, and the residual product is zero on finite entries
  refine congrArg Cert.Spec.sgn (?_ : _ + _ = _)
  refine (congrArg₂ (· + ·) k1 k2).trans ?_
  exact Cert.SplitCancel.split_sum _ _ (fun k => Cert.SplitCancel.pre_fin (hx _))

/-- The first layer's stored entry at `(a, n)`, as the body numbered 2 computes it: with `v k = 2·x[a, k] − 1`, the
    sign quantiser of `Σ_k v k · w[n, k] + Σ_k (v k − v k) · w[n, k]`. Each `v k` is a real number because `x[a, k]` is,
    so the residual sum vanishes and the entry is `sgn (Σ_k (2·x[a, k] − 1) · w[n, k])`. -/
theorem pay2_apply (x : Vec Ideal S256x4096 .f32) (w : Vec Ideal S1024x4096 .bf16) (hx : ∀ i, IsFin (x i)) (a : Fin 256) (n : Fin 1024) :
    k2_pay1 (F := Ideal) x w (ix2 a n) = Cert.Spec.sgn (∑ k : Fin 4096, Cert.Spec.pre (x (ix2 a k)) * w (ix2 n k)) := by
  unfold k2_pay1
  -- the cast of the weights to their own shape is the identity
  rw [shapeCast_self]
  -- the "hi" product: row `a` of `2·x − 1` against row `n` of the weights
  have k1 := MatmulT.matmul_zero_apply dot_S256x4096_S1024x4096_S256x1024_1_1_0_0_n_n.wf none
    (φ₁ := .bf16) (φ₂ := .bf16) (fun i => Cert.Spec.pre (x i)) w a n
  -- the "lo" product: row `a` of the residual `(2·x − 1) − (2·x − 1)` against the same row of the weights
  have k2 := MatmulT.matmul_zero_apply dot_S256x4096_S1024x4096_S256x1024_1_1_0_0_n_n.wf none
    (φ₁ := .bf16) (φ₂ := .bf16) (fun i => Cert.Spec.pre (x i) - Cert.Spec.pre (x i)) w a n
  -- the quantiser is applied to the sum of the two products, and the residual product is zero on finite entries
  refine congrArg Cert.Spec.sgn (?_ : _ + _ = _)
  refine (congrArg₂ (· + ·) k1 k2).trans ?_
  exact Cert.SplitCancel.split_sum _ _ (fun k => Cert.SplitCancel.pre_fin (hx _))

/-- The first layer's stored entry at `(a, n)`, as the body numbered 3 computes it: with `v k = 2·x[a, k] − 1`, the
    sign quantiser of `Σ_k v k · w[n, k] + Σ_k (v k − v k) · w[n, k]`. Each `v k` is a real number because `x[a, k]` is,
    so the residual sum vanishes and the entry is `sgn (Σ_k (2·x[a, k] − 1) · w[n, k])`. -/
theorem pay3_apply (x : Vec Ideal S256x4096 .f32) (w : Vec Ideal S1024x4096 .bf16) (hx : ∀ i, IsFin (x i)) (a : Fin 256) (n : Fin 1024) :
    k3_pay1 (F := Ideal) x w (ix2 a n) = Cert.Spec.sgn (∑ k : Fin 4096, Cert.Spec.pre (x (ix2 a k)) * w (ix2 n k)) := by
  unfold k3_pay1
  -- the cast of the weights to their own shape is the identity
  rw [shapeCast_self]
  -- the "hi" product: row `a` of `2·x − 1` against row `n` of the weights
  have k1 := MatmulT.matmul_zero_apply dot_S256x4096_S1024x4096_S256x1024_1_1_0_0_n_n.wf none
    (φ₁ := .bf16) (φ₂ := .bf16) (fun i => Cert.Spec.pre (x i)) w a n
  -- the "lo" product: row `a` of the residual `(2·x − 1) − (2·x − 1)` against the same row of the weights
  have k2 := MatmulT.matmul_zero_apply dot_S256x4096_S1024x4096_S256x1024_1_1_0_0_n_n.wf none
    (φ₁ := .bf16) (φ₂ := .bf16) (fun i => Cert.Spec.pre (x i) - Cert.Spec.pre (x i)) w a n
  -- the quantiser is applied to the sum of the two products, and the residual product is zero on finite entries
  refine congrArg Cert.Spec.sgn (?_ : _ + _ = _)
  refine (congrArg₂ (· + ·) k1 k2).trans ?_
  exact Cert.SplitCancel.split_sum _ _ (fun k => Cert.SplitCancel.pre_fin (hx _))

/-! ## The second and third layers: 256 activation rows against 2048 weight rows -/

/-- A later hidden layer's stored entry at `(a, n)`, as the body numbered 4 computes it: the sign quantiser of
    `Σ_k x[a, k] · w[n, k]`. No finiteness is needed: there is one product and nothing cancels. -/
theorem pay4_apply (x : Vec Ideal S256x4096 .bf16) (w : Vec Ideal S2048x4096 .bf16) (a : Fin 256) (n : Fin 2048) :
    k4_pay1 (F := Ideal) x w (ix2 a n) = Cert.Spec.sgn (∑ k : Fin 4096, x (ix2 a k) * w (ix2 n k)) := by
  unfold k4_pay1
  -- the casts of both operands to their own shapes are the identity
  rw [shapeCast_self, shapeCast_self]
  exact congrArg Cert.Spec.sgn (MatmulT.matmul_zero_apply _ none x w a n)

/-- A later hidden layer's stored entry at `(a, n)`, as the body numbered 5 computes it: the sign quantiser of
    `Σ_k x[a, k] · w[n, k]`. No finiteness is needed: there is one product and nothing cancels. -/
theorem pay5_apply (x : Vec Ideal S256x4096 .bf16) (w : Vec Ideal S2048x4096 .bf16) (a : Fin 256) (n : Fin 2048) :
    k5_pay1 (F := Ideal) x w (ix2 a n) = Cert.Spec.sgn (∑ k : Fin 4096, x (ix2 a k) * w (ix2 n k)) := by
  unfold k5_pay1
  -- the casts of both operands to their own shapes are the identity
  rw [shapeCast_self, shapeCast_self]
  exact congrArg Cert.Spec.sgn (MatmulT.matmul_zero_apply _ none x w a n)

/-- A later hidden layer's stored entry at `(a, n)`, as the body numbered 6 computes it: the sign quantiser of
    `Σ_k x[a, k] · w[n, k]`. No finiteness is needed: there is one product and nothing cancels. -/
theorem pay6_apply (x : Vec Ideal S256x4096 .bf16) (w : Vec Ideal S2048x4096 .bf16) (a : Fin 256) (n : Fin 2048) :
    k6_pay1 (F := Ideal) x w (ix2 a n) = Cert.Spec.sgn (∑ k : Fin 4096, x (ix2 a k) * w (ix2 n k)) := by
  unfold k6_pay1
  -- the casts of both operands to their own shapes are the identity
  rw [shapeCast_self, shapeCast_self]
  exact congrArg Cert.Spec.sgn (MatmulT.matmul_zero_apply _ none x w a n)

/-- A later hidden layer's stored entry at `(a, n)`, as the body numbered 7 computes it: the sign quantiser of
    `Σ_k x[a, k] · w[n, k]`. No finiteness is needed: there is one product and nothing cancels. -/
theorem pay7_apply (x : Vec Ideal S256x4096 .bf16) (w : Vec Ideal S2048x4096 .bf16) (a : Fin 256) (n : Fin 2048) :
    k7_pay1 (F := Ideal) x w (ix2 a n) = Cert.Spec.sgn (∑ k : Fin 4096, x (ix2 a k) * w (ix2 n k)) := by
  unfold k7_pay1
  -- the casts of both operands to their own shapes are the identity
  rw [shapeCast_self, shapeCast_self]
  exact congrArg Cert.Spec.sgn (MatmulT.matmul_zero_apply _ none x w a n)

/-! ## The last layer: 256 activation rows against the two output weight rows -/

/-- The last layer's stored entry at `(a, n)`: the product `Σ_k x[a, k] · w[n, k]`, with no quantiser. -/
theorem pay8_apply (x : Vec Ideal S256x4096 .bf16) (w : Vec Ideal S2x4096 .bf16) (a : Fin 256) (n : Fin 2) :
    k8_pay1 (F := Ideal) x w (ix2 a n) = ∑ k : Fin 4096, x (ix2 a k) * w (ix2 n k) := by
  unfold k8_pay1
  -- the casts of both operands to their own shapes are the identity
  rw [shapeCast_self, shapeCast_self]
  exact MatmulT.matmul_zero_apply _ none x w a n

end Cert.KernelIdeal.Payload

end
-- ==== Proof.KI_Final.lean ====
/-
  From row blocks to whole arrays, for each of the nine regions at the ideal values. A region's output array is written
  back one row block per grid point. Point `t` writes the body's payload of the activations' row block `t` and the whole
  weight chunk; read at (a, n) that payload is the layer's entry for row 256·t + a and chunk row n, so what point `t`
  writes is row block `t` of ONE function of the region's two input arrays — the layer on that chunk. The 32 blocks
  cover the array (row r lies in block r / 256), hence after the run the output array IS that function of the two
  input arrays as the region found them. Layer 1 needs the input entries to be real numbers (its residual term is
  `v − v`, zero only for a real `v`); the other layers need nothing.
-/
import proofs.«102262_j38096359916038_2_alg».proof.Proof.KI_Regions
import proofs.«102262_j38096359916038_2_alg».proof.Proof.Spec
import proofs.«102262_j38096359916038_2_alg».proof.Proof.LibFinite
import proofs.«102262_j38096359916038_2_alg».proof.Proof.LayerFns
import proofs.«102262_j38096359916038_2_alg».proof.Proof.KI_Payload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.LibFinite Cert.LayerFns

variable (V : (c : Dev nD) → (b : Ref sig .tc) → Buf (Elt Ideal) ((c : Thread nD τ).loc b))

theorem offsets_zero : (![0, 0] : Fin 2 → Nat) = fun _ => 0 := funext fun a => by fin_cases a <;> rfl

/-! ## Region 0 -/

/-- Where the three windows' blocks sit at grid point `t`: the activations' and the output's row block `t`, the weight
    chunk whole, every column offset zero. -/
theorem block_places0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the layer's function of the region's two input arrays: the payload
    at (a, n) is the layer's entry, the activation block's row a is row 256·t + a of the array, the chunk is read whole. -/
theorem written0_eq (c : Dev nD)
    (hX : ∀ i, IsFin (V c main_arg0 i)) (t : Fin cfg0.N) :
    (data0 V c).flushed 2 t = ((cfg0.win 2).blk t).view.read (Elt Ideal) (layer1G (V c main_arg0) (V c main_v16)) := by
  show (cfg0.win 2).cut (grid0.coords t) ((data0 V c).after 2 t) = _
  rw [data0_after2]
  unfold stored0
  rw [View.canon_unit_zero offsets_zero]
  simp only [View.ld_unit_zero (S := S256x4096) offsets_zero, View.ld_unit_zero (S := S1024x4096) offsets_zero]
  obtain ⟨e0, e1, e2, e3, e4, e5⟩ := block_places0 t
  funext j
  obtain ⟨a, n, rfl⟩ : ∃ (a : Fin 256) (n : Fin 1024), j = ix2 a n := ⟨j 0, j 1, eq_ix2 j⟩
  refine (Cert.KernelIdeal.Payload.pay0_apply (blockAt0 V c 0 t) (blockAt0 V c 1 t) (fun i => hX _) a n).trans ?_
  show _ = layer1G (V c main_arg0) (V c main_v16) (((cfg0.win 2).blk t).view.emb (ix2 a n))
  unfold layer1G
  refine congrArg Cert.Spec.sgn (Finset.sum_congr rfl fun k _ => ?_)
  have hA : blockAt0 V c 0 t (ix2 a k) = V c main_arg0 (ix2 ((((cfg0.win 2).blk t).view.emb (ix2 a n)) 0) k) := by
    show V c main_arg0 (((cfg0.win 0).blk t).view.emb (ix2 a k)) = _
    refine congrArg (V c main_arg0) ?_
    funext ax; apply Fin.ext
    match ax with
    | ⟨0, _⟩ => show win0_0.index t (0 : Fin 2) * 256 + 1 * a.val = win0_2.index t (0 : Fin 2) * 256 + 1 * a.val; omega
    | ⟨1, _⟩ => show win0_0.index t (1 : Fin 2) * 4096 + 1 * k.val = k.val; omega
  have hB : blockAt0 V c 1 t (ix2 n k) = V c main_v16 (ix2 ((((cfg0.win 2).blk t).view.emb (ix2 a n)) 1) k) := by
    show V c main_v16 (((cfg0.win 1).blk t).view.emb (ix2 n k)) = _
    refine congrArg (V c main_v16) ?_
    funext ax; apply Fin.ext
    match ax with
    | ⟨0, _⟩ => show win0_1.index t (0 : Fin 2) * 1024 + 1 * n.val = win0_2.index t (1 : Fin 2) * 1024 + 1 * n.val; omega
    | ⟨1, _⟩ => show win0_1.index t (1 : Fin 2) * 4096 + 1 * k.val = k.val; omega
  rw [hA, hB]

/-- An index of the output array lies in point `t`'s block iff each coordinate lies in the block's range. -/
theorem in_block0 (t : Fin cfg0.N) (i : S8192x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v17).slice (win0_2.rect t)).set ↔ _
  rw [View.set_slice_whole, Rect.mem_set_unit]
  exact Iff.rfl

/-- The 32 row blocks cover the output array: row r lies in block r / 256. -/
theorem covered0 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  have hN : grid0.N = 32 := N_0
  have ht : (i 0).val / 256 < grid0.N := by omega
  obtain ⟨e0, e1, e2, e3, e4, e5⟩ := block_places0 ⟨(i 0).val / 256, ht⟩
  refine ⟨⟨(i 0).val / 256, ht⟩, flush0_2 _, ?_⟩
  rw [in_block0]
  intro a
  match a with
  | ⟨0, _⟩ =>
    show win0_2.index ⟨(i 0).val / 256, ht⟩ (0 : Fin 2) * 256 ≤ (i 0).val ∧ (i 0).val < win0_2.index ⟨(i 0).val / 256, ht⟩ (0 : Fin 2) * 256 + 256
    have e4' : win0_2.index ⟨(i 0).val / 256, ht⟩ (0 : Fin 2) = (i 0).val / 256 := e4
    omega
  | ⟨1, _⟩ =>
    show win0_2.index ⟨(i 0).val / 256, ht⟩ (1 : Fin 2) * 1024 ≤ (i 1).val ∧ (i 1).val < win0_2.index ⟨(i 0).val / 256, ht⟩ (1 : Fin 2) * 1024 + 1024
    omega

/-- The region's output array after the run: the layer's function of its two input arrays as the region found them. -/
theorem result0 (c : Dev nD)
    (hX : ∀ i, IsFin (V c main_arg0 i)) :
    (data0 V c).arrAt 2 cfg0.N = layer1G (V c main_arg0) (V c main_v16) :=
  (data0 V c).arrAt_eq_of_cover 2 _ (fun t _ => written0_eq V c hX t) covered0

/-! ## Region 1 -/

/-- Where the three windows' blocks sit at grid point `t`: the activations' and the output's row block `t`, the weight
    chunk whole, every column offset zero. -/
theorem block_places1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the layer's function of the region's two input arrays: the payload
    at (a, n) is the layer's entry, the activation block's row a is row 256·t + a of the array, the chunk is read whole. -/
theorem written1_eq (c : Dev nD)
    (hX : ∀ i, IsFin (V c main_arg0 i)) (t : Fin cfg1.N) :
    (data1 V c).flushed 2 t = ((cfg1.win 2).blk t).view.read (Elt Ideal) (layer1G (V c main_arg0) (V c main_v18)) := by
  show (cfg1.win 2).cut (grid1.coords t) ((data1 V c).after 2 t) = _
  rw [data1_after2]
  unfold stored1
  rw [View.canon_unit_zero offsets_zero]
  simp only [View.ld_unit_zero (S := S256x4096) offsets_zero, View.ld_unit_zero (S := S1024x4096) offsets_zero]
  obtain ⟨e0, e1, e2, e3, e4, e5⟩ := block_places1 t
  funext j
  obtain ⟨a, n, rfl⟩ : ∃ (a : Fin 256) (n : Fin 1024), j = ix2 a n := ⟨j 0, j 1, eq_ix2 j⟩
  refine (Cert.KernelIdeal.Payload.pay1_apply (blockAt1 V c 0 t) (blockAt1 V c 1 t) (fun i => hX _) a n).trans ?_
  show _ = layer1G (V c main_arg0) (V c main_v18) (((cfg1.win 2).blk t).view.emb (ix2 a n))
  unfold layer1G
  refine congrArg Cert.Spec.sgn (Finset.sum_congr rfl fun k _ => ?_)
  have hA : blockAt1 V c 0 t (ix2 a k) = V c main_arg0 (ix2 ((((cfg1.win 2).blk t).view.emb (ix2 a n)) 0) k) := by
    show V c main_arg0 (((cfg1.win 0).blk t).view.emb (ix2 a k)) = _
    refine congrArg (V c main_arg0) ?_
    funext ax; apply Fin.ext
    match ax with
    | ⟨0, _⟩ => show win1_0.index t (0 : Fin 2) * 256 + 1 * a.val = win1_2.index t (0 : Fin 2) * 256 + 1 * a.val; omega
    | ⟨1, _⟩ => show win1_0.index t (1 : Fin 2) * 4096 + 1 * k.val = k.val; omega
  have hB : blockAt1 V c 1 t (ix2 n k) = V c main_v18 (ix2 ((((cfg1.win 2).blk t).view.emb (ix2 a n)) 1) k) := by
    show V c main_v18 (((cfg1.win 1).blk t).view.emb (ix2 n k)) = _
    refine congrArg (V c main_v18) ?_
    funext ax; apply Fin.ext
    match ax with
    | ⟨0, _⟩ => show win1_1.index t (0 : Fin 2) * 1024 + 1 * n.val = win1_2.index t (1 : Fin 2) * 1024 + 1 * n.val; omega
    | ⟨1, _⟩ => show win1_1.index t (1 : Fin 2) * 4096 + 1 * k.val = k.val; omega
  rw [hA, hB]

/-- An index of the output array lies in point `t`'s block iff each coordinate lies in the block's range. -/
theorem in_block1 (t : Fin cfg1.N) (i : S8192x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v19).slice (win1_2.rect t)).set ↔ _
  rw [View.set_slice_whole, Rect.mem_set_unit]
  exact Iff.rfl

/-- The 32 row blocks cover the output array: row r lies in block r / 256. -/
theorem covered1 (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  have hN : grid1.N = 32 := N_1
  have ht : (i 0).val / 256 < grid1.N := by omega
  obtain ⟨e0, e1, e2, e3, e4, e5⟩ := block_places1 ⟨(i 0).val / 256, ht⟩
  refine ⟨⟨(i 0).val / 256, ht⟩, flush1_2 _, ?_⟩
  rw [in_block1]
  intro a
  match a with
  | ⟨0, _⟩ =>
    show win1_2.index ⟨(i 0).val / 256, ht⟩ (0 : Fin 2) * 256 ≤ (i 0).val ∧ (i 0).val < win1_2.index ⟨(i 0).val / 256, ht⟩ (0 : Fin 2) * 256 + 256
    have e4' : win1_2.index ⟨(i 0).val / 256, ht⟩ (0 : Fin 2) = (i 0).val / 256 := e4
    omega
  | ⟨1, _⟩ =>
    show win1_2.index ⟨(i 0).val / 256, ht⟩ (1 : Fin 2) * 1024 ≤ (i 1).val ∧ (i 1).val < win1_2.index ⟨(i 0).val / 256, ht⟩ (1 : Fin 2) * 1024 + 1024
    omega

/-- The region's output array after the run: the layer's function of its two input arrays as the region found them. -/
theorem result1 (c : Dev nD)
    (hX : ∀ i, IsFin (V c main_arg0 i)) :
    (data1 V c).arrAt 2 cfg1.N = layer1G (V c main_arg0) (V c main_v18) :=
  (data1 V c).arrAt_eq_of_cover 2 _ (fun t _ => written1_eq V c hX t) covered1

/-! ## Region 2 -/

/-- Where the three windows' blocks sit at grid point `t`: the activations' and the output's row block `t`, the weight
    chunk whole, every column offset zero. -/
theorem block_places2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the layer's function of the region's two input arrays: the payload
    at (a, n) is the layer's entry, the activation block's row a is row 256·t + a of the array, the chunk is read whole. -/
theorem written2_eq (c : Dev nD)
    (hX : ∀ i, IsFin (V c main_arg0 i)) (t : Fin cfg2.N) :
    (data2 V c).flushed 2 t = ((cfg2.win 2).blk t).view.read (Elt Ideal) (layer1G (V c main_arg0) (V c main_v20)) := by
  show (cfg2.win 2).cut (grid2.coords t) ((data2 V c).after 2 t) = _
  rw [data2_after2]
  unfold stored2
  rw [View.canon_unit_zero offsets_zero]
  simp only [View.ld_unit_zero (S := S256x4096) offsets_zero, View.ld_unit_zero (S := S1024x4096) offsets_zero]
  obtain ⟨e0, e1, e2, e3, e4, e5⟩ := block_places2 t
  funext j
  obtain ⟨a, n, rfl⟩ : ∃ (a : Fin 256) (n : Fin 1024), j = ix2 a n := ⟨j 0, j 1, eq_ix2 j⟩
  refine (Cert.KernelIdeal.Payload.pay2_apply (blockAt2 V c 0 t) (blockAt2 V c 1 t) (fun i => hX _) a n).trans ?_
  show _ = layer1G (V c main_arg0) (V c main_v20) (((cfg2.win 2).blk t).view.emb (ix2 a n))
  unfold layer1G
  refine congrArg Cert.Spec.sgn (Finset.sum_congr rfl fun k _ => ?_)
  have hA : blockAt2 V c 0 t (ix2 a k) = V c main_arg0 (ix2 ((((cfg2.win 2).blk t).view.emb (ix2 a n)) 0) k) := by
    show V c main_arg0 (((cfg2.win 0).blk t).view.emb (ix2 a k)) = _
    refine congrArg (V c main_arg0) ?_
    funext ax; apply Fin.ext
    match ax with
    | ⟨0, _⟩ => show win2_0.index t (0 : Fin 2) * 256 + 1 * a.val = win2_2.index t (0 : Fin 2) * 256 + 1 * a.val; omega
    | ⟨1, _⟩ => show win2_0.index t (1 : Fin 2) * 4096 + 1 * k.val = k.val; omega
  have hB : blockAt2 V c 1 t (ix2 n k) = V c main_v20 (ix2 ((((cfg2.win 2).blk t).view.emb (ix2 a n)) 1) k) := by
    show V c main_v20 (((cfg2.win 1).blk t).view.emb (ix2 n k)) = _
    refine congrArg (V c main_v20) ?_
    funext ax; apply Fin.ext
    match ax with
    | ⟨0, _⟩ => show win2_1.index t (0 : Fin 2) * 1024 + 1 * n.val = win2_2.index t (1 : Fin 2) * 1024 + 1 * n.val; omega
    | ⟨1, _⟩ => show win2_1.index t (1 : Fin 2) * 4096 + 1 * k.val = k.val; omega
  rw [hA, hB]

/-- An index of the output array lies in point `t`'s block iff each coordinate lies in the block's range. -/
theorem in_block2 (t : Fin cfg2.N) (i : S8192x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v21).slice (win2_2.rect t)).set ↔ _
  rw [View.set_slice_whole, Rect.mem_set_unit]
  exact Iff.rfl

/-- The 32 row blocks cover the output array: row r lies in block r / 256. -/
theorem covered2 (i : S8192x1024.Idx) : ∃ t : Fin cfg2.N, (cfg2.win 2).flush t = true ∧ i ∈ ((cfg2.win 2).blk t).view.set := by
  have hi0 : (i 0).val < 8192 := (i 0).isLt
  have hi1 : (i 1).val < 1024 := (i 1).isLt
  have hN : grid2.N = 32 := N_2
  have ht : (i 0).val / 256 < grid2.N := by omega
  obtain ⟨e0, e1, e2, e3, e4, e5⟩ := block_places2 ⟨(i 0).val / 256, ht⟩
  refine ⟨⟨(i 0).val / 256, ht⟩, flush2_2 _, ?_⟩
  rw [in_block2]
  intro a
  match a with
  | ⟨0, _⟩ =>
    show win2_2.index ⟨(i 0).val / 256, ht⟩ (0 : Fin 2) * 256 ≤ (i 0).val ∧ (i 0).val < win2_2.index ⟨(i 0).val / 256, ht⟩ (0 : Fin 2) * 256 + 256
    have e4' : win2_2.index ⟨(i 0).val / 256, ht⟩ (0 : Fin 2) = (i 0).val / 256 := e4
    omega
  | ⟨1, _⟩ =>
    show win2_2.index ⟨(i 0).val / 256, ht⟩ (1 : Fin 2) * 1024 ≤ (i 1).val ∧ (i 1).val < win2_2.index ⟨(i 0).val / 256, ht⟩ (1 : Fin 2) * 1024 + 1024
    omega

/-- The region's output array after the run: the layer's function of its two input arrays as the region found them. -/
theorem result2 (c : Dev nD)
    (hX : ∀ i, IsFin (V c main_arg0 i)) :
    (data2 V c).arrAt 2 cfg2.N = layer1G (V c main_arg0) (V c main_v20) :=
  (data2 V c).arrAt_eq_of_cover 2 _ (fun t _ => written2_eq V c hX t) covered2

/-! ## Region 3 -/

/-- Where the three windows' blocks sit at grid point `t`: the activations' and the output's row block `t`, the weight
    chunk whole, every column offset zero. -/
theorem block_places3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is row block `t` of the layer's function of the region's two input arrays: the payload
    at (a, n) is the layer's entry, the activation block's row a is row 256·t + a of the array, the chunk is read whole. -/
theorem written3_eq (c : Dev nD)
    (hX : ∀ i, IsFin (V c main_arg0 i)) (t : Fin cfg3.N) :
    (data3 V c).flushed 2 t = ((cfg3.win 2).blk t).view.read (Elt Ideal) (layer1G (V c main_arg0) (V c main_v22)) := by
  show (cfg3.win 2).cut (grid3.coords t) ((data3 V c).after 2 t) = _
  rw [data3_after2]
  unfold stored3
  rw [View.canon_unit_zero offsets_zero]
  simp only [View.ld_unit_zero (S := S256x4096) offsets_zero, View.ld_unit_zero (S := S1024x4096) offsets_zero]
  obtain ⟨e0, e1, e2, e3, e4, e5⟩ := block_places3 t
  funext j
  obtain ⟨a, n, rfl⟩ : ∃ (a : Fin 256) (n : Fin 1024), j = ix2 a n := ⟨j 0, j 1, eq_ix2 j⟩
  refine (Cert.KernelIdeal.Payload.pay3_apply (blockAt3 V c 0 t) (blockAt3 V c 1 t) (fun i => hX _) a n).trans ?_
  show _ = layer1G (V c main_arg0) (V c main_v22) (((cfg3.win 2).blk t).view.emb (ix2 a n))
  unfold layer1G
  refine congrArg Cert.Spec.sgn (Finset.sum_congr rfl fun k _ => ?_)
  have hA : blockAt3 V c 0 t (ix2 a k) = V c main_arg0 (ix2 ((((cfg3.win 2).blk t).view.emb (ix2 a n)) 0) k) := by
    show V c main_arg0 (((cfg3.win 0).blk t).view.emb (ix2 a k)) = _
    refine congrArg (V c main_arg0) ?_
    funext ax; apply Fin.ext
    match ax with
    | ⟨0, _⟩ => show win3_0.index t (0 : Fin 2) * 256 + 1 * a.val = win3_2.index t (0 : Fin 2) * 256 + 1 * a.val; omega
    | ⟨1, _⟩ => show win3_0.index t (1 : Fin 2) * 4096 + 1 * k.val = k.val; omega
  have hB : blockAt3 V c 1 t (ix2 n k) = V c main_v22 (ix2 ((((cfg3.win 2).blk t).view.emb (ix2 a n)) 1) k) := by
    show V c main_v22 (((cfg3.win 1).blk t).view.emb (ix2 n k)) = _
    refine congrArg (V c main_v22) ?_
    funext ax; apply Fin.ext
    match ax with
    | ⟨0, _⟩ => show win3_1.index t (0 : Fin 2) * 1024 + 1 * n.val = win3_2.index t (1 : Fin 2) * 1024 + 1 * n.val; omega
    | ⟨1, _⟩ => show win3_1.index t (1 : Fin 2) * 4096 + 1 * k.val = k.val; omega
  rw [hA, hB]

/-- An index of the output array lies in point `t`'s block iff each coordinate lies in the block's range. -/
theorem in_block3 (t : Fin cfg3.N) (i : S8192x1024.Idx) :
    i ∈ ((cfg3.win 2).blk t).view.set ↔ ∀ a : Fin 2, win3_2.index t a * S256x1024.size a ≤ (i a).val ∧ (i a).val < win3_2.index t a * S256x1024.size a + S256x1024.size a := by
  show i ∈ ((View.whole main_v23).slice (win3_2.rect t)).set ↔ _
  rw [View.set_slice_whole, Rect.mem_set_unit]
  exact Iff.rfl

/-- The 32 row blocks cover the output array: row r lies in block r / 256. -/
theorem covered3 (i : S8192x1024.Idx) : ∃ t : Fin cfg3.N, (cfg3.win 2).flush t = true ∧ i ∈ ((cfg3.win 2).blk t).view.set := by
  have hi0 : (i 0).val < 8192 := (i 0).isLt
  have hi1 : (i 1).val < 1024 := (i 1).isLt
  have hN : grid3.N = 32 := N_3
  have ht : (i 0).val / 256 < grid3.N := by omega
  obtain ⟨e0, e1, e2, e3, e4, e5⟩ := block_places3 ⟨(i 0).val / 256, ht⟩
  refine ⟨⟨(i 0).val / 256, ht⟩, flush3_2 _, ?_⟩
  rw [in_block3]
  intro a
  match a with
  | ⟨0, _⟩ =>
    show win3_2.index ⟨(i 0).val / 256, ht⟩ (0 : Fin 2) * 256 ≤ (i 0).val ∧ (i 0).val < win3_2.index ⟨(i 0).val / 256, ht⟩ (0 : Fin 2) * 256 + 256
    have e4' : win3_2.index ⟨(i 0).val / 256, ht⟩ (0 : Fin 2) = (i 0).val / 256 := e4
    omega
  | ⟨1, _⟩ =>
    show win3_2.index ⟨(i 0).val / 256, ht⟩ (1 : Fin 2) * 1024 ≤ (i 1).val ∧ (i 1).val < win3_2.index ⟨(i 0).val / 256, ht⟩ (1 : Fin 2) * 1024 + 1024
    omega

/-- The region's output array after the run: the layer's function of its two input arrays as the region found them. -/
theorem result3 (c : Dev nD)
    (hX : ∀ i, IsFin (V c main_arg0 i)) :
    (data3 V c).arrAt 2 cfg3.N = layer1G (V c main_arg0) (V c main_v22) :=
  (data3 V c).arrAt_eq_of_cover 2 _ (fun t _ => written3_eq V c hX t) covered3

/-! ## Region 4 -/

/-- Where the three windows' blocks sit at grid point `t`: the activations' and the output's row block `t`, the weight
    chunk whole, every column offset zero. -/
theorem block_places4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is row block `t` of the layer's function of the region's two input arrays: the payload
    at (a, n) is the layer's entry, the activation block's row a is row 256·t + a of the array, the chunk is read whole. -/
theorem written4_eq (c : Dev nD) (t : Fin cfg4.N) :
    (data4 V c).flushed 2 t = ((cfg4.win 2).blk t).view.read (Elt Ideal) (hiddenG (V c main_v24) (V c main_v25)) := by
  show (cfg4.win 2).cut (grid4.coords t) ((data4 V c).after 2 t) = _
  rw [data4_after2]
  unfold stored4
  rw [View.canon_unit_zero offsets_zero]
  simp only [View.ld_unit_zero (S := S256x4096) offsets_zero, View.ld_unit_zero (S := S2048x4096) offsets_zero]
  obtain ⟨e0, e1, e2, e3, e4, e5⟩ := block_places4 t
  funext j
  obtain ⟨a, n, rfl⟩ : ∃ (a : Fin 256) (n : Fin 2048), j = ix2 a n := ⟨j 0, j 1, eq_ix2 j⟩
  refine (Cert.KernelIdeal.Payload.pay4_apply (blockAt4 V c 0 t) (blockAt4 V c 1 t) a n).trans ?_
  show _ = hiddenG (V c main_v24) (V c main_v25) (((cfg4.win 2).blk t).view.emb (ix2 a n))
  unfold hiddenG
  refine congrArg Cert.Spec.sgn (Finset.sum_congr rfl fun k _ => ?_)
  have hA : blockAt4 V c 0 t (ix2 a k) = V c main_v24 (ix2 ((((cfg4.win 2).blk t).view.emb (ix2 a n)) 0) k) := by
    show V c main_v24 (((cfg4.win 0).blk t).view.emb (ix2 a k)) = _
    refine congrArg (V c main_v24) ?_
    funext ax; apply Fin.ext
    match ax with
    | ⟨0, _⟩ => show win4_0.index t (0 : Fin 2) * 256 + 1 * a.val = win4_2.index t (0 : Fin 2) * 256 + 1 * a.val; omega
    | ⟨1, _⟩ => show win4_0.index t (1 : Fin 2) * 4096 + 1 * k.val = k.val; omega
  have hB : blockAt4 V c 1 t (ix2 n k) = V c main_v25 (ix2 ((((cfg4.win 2).blk t).view.emb (ix2 a n)) 1) k) := by
    show V c main_v25 (((cfg4.win 1).blk t).view.emb (ix2 n k)) = _
    refine congrArg (V c main_v25) ?_
    funext ax; apply Fin.ext
    match ax with
    | ⟨0, _⟩ => show win4_1.index t (0 : Fin 2) * 2048 + 1 * n.val = win4_2.index t (1 : Fin 2) * 2048 + 1 * n.val; omega
    | ⟨1, _⟩ => show win4_1.index t (1 : Fin 2) * 4096 + 1 * k.val = k.val; omega
  rw [hA, hB]

/-- An index of the output array lies in point `t`'s block iff each coordinate lies in the block's range. -/
theorem in_block4 (t : Fin cfg4.N) (i : S8192x2048.Idx) :
    i ∈ ((cfg4.win 2).blk t).view.set ↔ ∀ a : Fin 2, win4_2.index t a * S256x2048.size a ≤ (i a).val ∧ (i a).val < win4_2.index t a * S256x2048.size a + S256x2048.size a := by
  show i ∈ ((View.whole main_v26).slice (win4_2.rect t)).set ↔ _
  rw [View.set_slice_whole, Rect.mem_set_unit]
  exact Iff.rfl

/-- The 32 row blocks cover the output array: row r lies in block r / 256. -/
theorem covered4 (i : S8192x2048.Idx) : ∃ t : Fin cfg4.N, (cfg4.win 2).flush t = true ∧ i ∈ ((cfg4.win 2).blk t).view.set := by
  have hi0 : (i 0).val < 8192 := (i 0).isLt
  have hi1 : (i 1).val < 2048 := (i 1).isLt
  have hN : grid4.N = 32 := N_4
  have ht : (i 0).val / 256 < grid4.N := by omega
  obtain ⟨e0, e1, e2, e3, e4, e5⟩ := block_places4 ⟨(i 0).val / 256, ht⟩
  refine ⟨⟨(i 0).val / 256, ht⟩, flush4_2 _, ?_⟩
  rw [in_block4]
  intro a
  match a with
  | ⟨0, _⟩ =>
    show win4_2.index ⟨(i 0).val / 256, ht⟩ (0 : Fin 2) * 256 ≤ (i 0).val ∧ (i 0).val < win4_2.index ⟨(i 0).val / 256, ht⟩ (0 : Fin 2) * 256 + 256
    have e4' : win4_2.index ⟨(i 0).val / 256, ht⟩ (0 : Fin 2) = (i 0).val / 256 := e4
    omega
  | ⟨1, _⟩ =>
    show win4_2.index ⟨(i 0).val / 256, ht⟩ (1 : Fin 2) * 2048 ≤ (i 1).val ∧ (i 1).val < win4_2.index ⟨(i 0).val / 256, ht⟩ (1 : Fin 2) * 2048 + 2048
    omega

/-- The region's output array after the run: the layer's function of its two input arrays as the region found them. -/
theorem result4 (c : Dev nD) :
    (data4 V c).arrAt 2 cfg4.N = hiddenG (V c main_v24) (V c main_v25) :=
  (data4 V c).arrAt_eq_of_cover 2 _ (fun t _ => written4_eq V c t) covered4

/-! ## Region 5 -/

/-- Where the three windows' blocks sit at grid point `t`: the activations' and the output's row block `t`, the weight
    chunk whole, every column offset zero. -/
theorem block_places5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is row block `t` of the layer's function of the region's two input arrays: the payload
    at (a, n) is the layer's entry, the activation block's row a is row 256·t + a of the array, the chunk is read whole. -/
theorem written5_eq (c : Dev nD) (t : Fin cfg5.N) :
    (data5 V c).flushed 2 t = ((cfg5.win 2).blk t).view.read (Elt Ideal) (hiddenG (V c main_v24) (V c main_v27)) := by
  show (cfg5.win 2).cut (grid5.coords t) ((data5 V c).after 2 t) = _
  rw [data5_after2]
  unfold stored5
  rw [View.canon_unit_zero offsets_zero]
  simp only [View.ld_unit_zero (S := S256x4096) offsets_zero, View.ld_unit_zero (S := S2048x4096) offsets_zero]
  obtain ⟨e0, e1, e2, e3, e4, e5⟩ := block_places5 t
  funext j
  obtain ⟨a, n, rfl⟩ : ∃ (a : Fin 256) (n : Fin 2048), j = ix2 a n := ⟨j 0, j 1, eq_ix2 j⟩
  refine (Cert.KernelIdeal.Payload.pay5_apply (blockAt5 V c 0 t) (blockAt5 V c 1 t) a n).trans ?_
  show _ = hiddenG (V c main_v24) (V c main_v27) (((cfg5.win 2).blk t).view.emb (ix2 a n))
  unfold hiddenG
  refine congrArg Cert.Spec.sgn (Finset.sum_congr rfl fun k _ => ?_)
  have hA : blockAt5 V c 0 t (ix2 a k) = V c main_v24 (ix2 ((((cfg5.win 2).blk t).view.emb (ix2 a n)) 0) k) := by
    show V c main_v24 (((cfg5.win 0).blk t).view.emb (ix2 a k)) = _
    refine congrArg (V c main_v24) ?_
    funext ax; apply Fin.ext
    match ax with
    | ⟨0, _⟩ => show win5_0.index t (0 : Fin 2) * 256 + 1 * a.val = win5_2.index t (0 : Fin 2) * 256 + 1 * a.val; omega
    | ⟨1, _⟩ => show win5_0.index t (1 : Fin 2) * 4096 + 1 * k.val = k.val; omega
  have hB : blockAt5 V c 1 t (ix2 n k) = V c main_v27 (ix2 ((((cfg5.win 2).blk t).view.emb (ix2 a n)) 1) k) := by
    show V c main_v27 (((cfg5.win 1).blk t).view.emb (ix2 n k)) = _
    refine congrArg (V c main_v27) ?_
    funext ax; apply Fin.ext
    match ax with
    | ⟨0, _⟩ => show win5_1.index t (0 : Fin 2) * 2048 + 1 * n.val = win5_2.index t (1 : Fin 2) * 2048 + 1 * n.val; omega
    | ⟨1, _⟩ => show win5_1.index t (1 : Fin 2) * 4096 + 1 * k.val = k.val; omega
  rw [hA, hB]

/-- An index of the output array lies in point `t`'s block iff each coordinate lies in the block's range. -/
theorem in_block5 (t : Fin cfg5.N) (i : S8192x2048.Idx) :
    i ∈ ((cfg5.win 2).blk t).view.set ↔ ∀ a : Fin 2, win5_2.index t a * S256x2048.size a ≤ (i a).val ∧ (i a).val < win5_2.index t a * S256x2048.size a + S256x2048.size a := by
  show i ∈ ((View.whole main_v28).slice (win5_2.rect t)).set ↔ _
  rw [View.set_slice_whole, Rect.mem_set_unit]
  exact Iff.rfl

/-- The 32 row blocks cover the output array: row r lies in block r / 256. -/
theorem covered5 (i : S8192x2048.Idx) : ∃ t : Fin cfg5.N, (cfg5.win 2).flush t = true ∧ i ∈ ((cfg5.win 2).blk t).view.set := by
  have hi0 : (i 0).val < 8192 := (i 0).isLt
  have hi1 : (i 1).val < 2048 := (i 1).isLt
  have hN : grid5.N = 32 := N_5
  have ht : (i 0).val / 256 < grid5.N := by omega
  obtain ⟨e0, e1, e2, e3, e4, e5⟩ := block_places5 ⟨(i 0).val / 256, ht⟩
  refine ⟨⟨(i 0).val / 256, ht⟩, flush5_2 _, ?_⟩
  rw [in_block5]
  intro a
  match a with
  | ⟨0, _⟩ =>
    show win5_2.index ⟨(i 0).val / 256, ht⟩ (0 : Fin 2) * 256 ≤ (i 0).val ∧ (i 0).val < win5_2.index ⟨(i 0).val / 256, ht⟩ (0 : Fin 2) * 256 + 256
    have e4' : win5_2.index ⟨(i 0).val / 256, ht⟩ (0 : Fin 2) = (i 0).val / 256 := e4
    omega
  | ⟨1, _⟩ =>
    show win5_2.index ⟨(i 0).val / 256, ht⟩ (1 : Fin 2) * 2048 ≤ (i 1).val ∧ (i 1).val < win5_2.index ⟨(i 0).val / 256, ht⟩ (1 : Fin 2) * 2048 + 2048
    omega

/-- The region's output array after the run: the layer's function of its two input arrays as the region found them. -/
theorem result5 (c : Dev nD) :
    (data5 V c).arrAt 2 cfg5.N = hiddenG (V c main_v24) (V c main_v27) :=
  (data5 V c).arrAt_eq_of_cover 2 _ (fun t _ => written5_eq V c t) covered5

/-! ## Region 6 -/

/-- Where the three windows' blocks sit at grid point `t`: the activations' and the output's row block `t`, the weight
    chunk whole, every column offset zero. -/
theorem block_places6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is row block `t` of the layer's function of the region's two input arrays: the payload
    at (a, n) is the layer's entry, the activation block's row a is row 256·t + a of the array, the chunk is read whole. -/
theorem written6_eq (c : Dev nD) (t : Fin cfg6.N) :
    (data6 V c).flushed 2 t = ((cfg6.win 2).blk t).view.read (Elt Ideal) (hiddenG (V c main_v29) (V c main_v30)) := by
  show (cfg6.win 2).cut (grid6.coords t) ((data6 V c).after 2 t) = _
  rw [data6_after2]
  unfold stored6
  rw [View.canon_unit_zero offsets_zero]
  simp only [View.ld_unit_zero (S := S256x4096) offsets_zero, View.ld_unit_zero (S := S2048x4096) offsets_zero]
  obtain ⟨e0, e1, e2, e3, e4, e5⟩ := block_places6 t
  funext j
  obtain ⟨a, n, rfl⟩ : ∃ (a : Fin 256) (n : Fin 2048), j = ix2 a n := ⟨j 0, j 1, eq_ix2 j⟩
  refine (Cert.KernelIdeal.Payload.pay6_apply (blockAt6 V c 0 t) (blockAt6 V c 1 t) a n).trans ?_
  show _ = hiddenG (V c main_v29) (V c main_v30) (((cfg6.win 2).blk t).view.emb (ix2 a n))
  unfold hiddenG
  refine congrArg Cert.Spec.sgn (Finset.sum_congr rfl fun k _ => ?_)
  have hA : blockAt6 V c 0 t (ix2 a k) = V c main_v29 (ix2 ((((cfg6.win 2).blk t).view.emb (ix2 a n)) 0) k) := by
    show V c main_v29 (((cfg6.win 0).blk t).view.emb (ix2 a k)) = _
    refine congrArg (V c main_v29) ?_
    funext ax; apply Fin.ext
    match ax with
    | ⟨0, _⟩ => show win6_0.index t (0 : Fin 2) * 256 + 1 * a.val = win6_2.index t (0 : Fin 2) * 256 + 1 * a.val; omega
    | ⟨1, _⟩ => show win6_0.index t (1 : Fin 2) * 4096 + 1 * k.val = k.val; omega
  have hB : blockAt6 V c 1 t (ix2 n k) = V c main_v30 (ix2 ((((cfg6.win 2).blk t).view.emb (ix2 a n)) 1) k) := by
    show V c main_v30 (((cfg6.win 1).blk t).view.emb (ix2 n k)) = _
    refine congrArg (V c main_v30) ?_
    funext ax; apply Fin.ext
    match ax with
    | ⟨0, _⟩ => show win6_1.index t (0 : Fin 2) * 2048 + 1 * n.val = win6_2.index t (1 : Fin 2) * 2048 + 1 * n.val; omega
    | ⟨1, _⟩ => show win6_1.index t (1 : Fin 2) * 4096 + 1 * k.val = k.val; omega
  rw [hA, hB]

/-- An index of the output array lies in point `t`'s block iff each coordinate lies in the block's range. -/
theorem in_block6 (t : Fin cfg6.N) (i : S8192x2048.Idx) :
    i ∈ ((cfg6.win 2).blk t).view.set ↔ ∀ a : Fin 2, win6_2.index t a * S256x2048.size a ≤ (i a).val ∧ (i a).val < win6_2.index t a * S256x2048.size a + S256x2048.size a := by
  show i ∈ ((View.whole main_v31).slice (win6_2.rect t)).set ↔ _
  rw [View.set_slice_whole, Rect.mem_set_unit]
  exact Iff.rfl

/-- The 32 row blocks cover the output array: row r lies in block r / 256. -/
theorem covered6 (i : S8192x2048.Idx) : ∃ t : Fin cfg6.N, (cfg6.win 2).flush t = true ∧ i ∈ ((cfg6.win 2).blk t).view.set := by
  have hi0 : (i 0).val < 8192 := (i 0).isLt
  have hi1 : (i 1).val < 2048 := (i 1).isLt
  have hN : grid6.N = 32 := N_6
  have ht : (i 0).val / 256 < grid6.N := by omega
  obtain ⟨e0, e1, e2, e3, e4, e5⟩ := block_places6 ⟨(i 0).val / 256, ht⟩
  refine ⟨⟨(i 0).val / 256, ht⟩, flush6_2 _, ?_⟩
  rw [in_block6]
  intro a
  match a with
  | ⟨0, _⟩ =>
    show win6_2.index ⟨(i 0).val / 256, ht⟩ (0 : Fin 2) * 256 ≤ (i 0).val ∧ (i 0).val < win6_2.index ⟨(i 0).val / 256, ht⟩ (0 : Fin 2) * 256 + 256
    have e4' : win6_2.index ⟨(i 0).val / 256, ht⟩ (0 : Fin 2) = (i 0).val / 256 := e4
    omega
  | ⟨1, _⟩ =>
    show win6_2.index ⟨(i 0).val / 256, ht⟩ (1 : Fin 2) * 2048 ≤ (i 1).val ∧ (i 1).val < win6_2.index ⟨(i 0).val / 256, ht⟩ (1 : Fin 2) * 2048 + 2048
    omega

/-- The region's output array after the run: the layer's function of its two input arrays as the region found them. -/
theorem result6 (c : Dev nD) :
    (data6 V c).arrAt 2 cfg6.N = hiddenG (V c main_v29) (V c main_v30) :=
  (data6 V c).arrAt_eq_of_cover 2 _ (fun t _ => written6_eq V c t) covered6

/-! ## Region 7 -/

/-- Where the three windows' blocks sit at grid point `t`: the activations' and the output's row block `t`, the weight
    chunk whole, every column offset zero. -/
theorem block_places7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is row block `t` of the layer's function of the region's two input arrays: the payload
    at (a, n) is the layer's entry, the activation block's row a is row 256·t + a of the array, the chunk is read whole. -/
theorem written7_eq (c : Dev nD) (t : Fin cfg7.N) :
    (data7 V c).flushed 2 t = ((cfg7.win 2).blk t).view.read (Elt Ideal) (hiddenG (V c main_v29) (V c main_v32)) := by
  show (cfg7.win 2).cut (grid7.coords t) ((data7 V c).after 2 t) = _
  rw [data7_after2]
  unfold stored7
  rw [View.canon_unit_zero offsets_zero]
  simp only [View.ld_unit_zero (S := S256x4096) offsets_zero, View.ld_unit_zero (S := S2048x4096) offsets_zero]
  obtain ⟨e0, e1, e2, e3, e4, e5⟩ := block_places7 t
  funext j
  obtain ⟨a, n, rfl⟩ : ∃ (a : Fin 256) (n : Fin 2048), j = ix2 a n := ⟨j 0, j 1, eq_ix2 j⟩
  refine (Cert.KernelIdeal.Payload.pay7_apply (blockAt7 V c 0 t) (blockAt7 V c 1 t) a n).trans ?_
  show _ = hiddenG (V c main_v29) (V c main_v32) (((cfg7.win 2).blk t).view.emb (ix2 a n))
  unfold hiddenG
  refine congrArg Cert.Spec.sgn (Finset.sum_congr rfl fun k _ => ?_)
  have hA : blockAt7 V c 0 t (ix2 a k) = V c main_v29 (ix2 ((((cfg7.win 2).blk t).view.emb (ix2 a n)) 0) k) := by
    show V c main_v29 (((cfg7.win 0).blk t).view.emb (ix2 a k)) = _
    refine congrArg (V c main_v29) ?_
    funext ax; apply Fin.ext
    match ax with
    | ⟨0, _⟩ => show win7_0.index t (0 : Fin 2) * 256 + 1 * a.val = win7_2.index t (0 : Fin 2) * 256 + 1 * a.val; omega
    | ⟨1, _⟩ => show win7_0.index t (1 : Fin 2) * 4096 + 1 * k.val = k.val; omega
  have hB : blockAt7 V c 1 t (ix2 n k) = V c main_v32 (ix2 ((((cfg7.win 2).blk t).view.emb (ix2 a n)) 1) k) := by
    show V c main_v32 (((cfg7.win 1).blk t).view.emb (ix2 n k)) = _
    refine congrArg (V c main_v32) ?_
    funext ax; apply Fin.ext
    match ax with
    | ⟨0, _⟩ => show win7_1.index t (0 : Fin 2) * 2048 + 1 * n.val = win7_2.index t (1 : Fin 2) * 2048 + 1 * n.val; omega
    | ⟨1, _⟩ => show win7_1.index t (1 : Fin 2) * 4096 + 1 * k.val = k.val; omega
  rw [hA, hB]

/-- An index of the output array lies in point `t`'s block iff each coordinate lies in the block's range. -/
theorem in_block7 (t : Fin cfg7.N) (i : S8192x2048.Idx) :
    i ∈ ((cfg7.win 2).blk t).view.set ↔ ∀ a : Fin 2, win7_2.index t a * S256x2048.size a ≤ (i a).val ∧ (i a).val < win7_2.index t a * S256x2048.size a + S256x2048.size a := by
  show i ∈ ((View.whole main_v33).slice (win7_2.rect t)).set ↔ _
  rw [View.set_slice_whole, Rect.mem_set_unit]
  exact Iff.rfl

/-- The 32 row blocks cover the output array: row r lies in block r / 256. -/
theorem covered7 (i : S8192x2048.Idx) : ∃ t : Fin cfg7.N, (cfg7.win 2).flush t = true ∧ i ∈ ((cfg7.win 2).blk t).view.set := by
  have hi0 : (i 0).val < 8192 := (i 0).isLt
  have hi1 : (i 1).val < 2048 := (i 1).isLt
  have hN : grid7.N = 32 := N_7
  have ht : (i 0).val / 256 < grid7.N := by omega
  obtain ⟨e0, e1, e2, e3, e4, e5⟩ := block_places7 ⟨(i 0).val / 256, ht⟩
  refine ⟨⟨(i 0).val / 256, ht⟩, flush7_2 _, ?_⟩
  rw [in_block7]
  intro a
  match a with
  | ⟨0, _⟩ =>
    show win7_2.index ⟨(i 0).val / 256, ht⟩ (0 : Fin 2) * 256 ≤ (i 0).val ∧ (i 0).val < win7_2.index ⟨(i 0).val / 256, ht⟩ (0 : Fin 2) * 256 + 256
    have e4' : win7_2.index ⟨(i 0).val / 256, ht⟩ (0 : Fin 2) = (i 0).val / 256 := e4
    omega
  | ⟨1, _⟩ =>
    show win7_2.index ⟨(i 0).val / 256, ht⟩ (1 : Fin 2) * 2048 ≤ (i 1).val ∧ (i 1).val < win7_2.index ⟨(i 0).val / 256, ht⟩ (1 : Fin 2) * 2048 + 2048
    omega

/-- The region's output array after the run: the layer's function of its two input arrays as the region found them. -/
theorem result7 (c : Dev nD) :
    (data7 V c).arrAt 2 cfg7.N = hiddenG (V c main_v29) (V c main_v32) :=
  (data7 V c).arrAt_eq_of_cover 2 _ (fun t _ => written7_eq V c t) covered7

/-! ## Region 8 -/

/-- Where the three windows' blocks sit at grid point `t`: the activations' and the output's row block `t`, the weight
    chunk whole, every column offset zero. -/
theorem block_places8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is row block `t` of the layer's function of the region's two input arrays: the payload
    at (a, n) is the layer's entry, the activation block's row a is row 256·t + a of the array, the chunk is read whole. -/
theorem written8_eq (c : Dev nD) (t : Fin cfg8.N) :
    (data8 V c).flushed 2 t = ((cfg8.win 2).blk t).view.read (Elt Ideal) (outG (V c main_v34) (V c main_v15)) := by
  show (cfg8.win 2).cut (grid8.coords t) ((data8 V c).after 2 t) = _
  rw [data8_after2]
  unfold stored8
  rw [View.canon_unit_zero offsets_zero]
  simp only [View.ld_unit_zero (S := S256x4096) offsets_zero, View.ld_unit_zero (S := S2x4096) offsets_zero]
  obtain ⟨e0, e1, e2, e3, e4, e5⟩ := block_places8 t
  funext j
  obtain ⟨a, n, rfl⟩ : ∃ (a : Fin 256) (n : Fin 2), j = ix2 a n := ⟨j 0, j 1, eq_ix2 j⟩
  refine (Cert.KernelIdeal.Payload.pay8_apply (blockAt8 V c 0 t) (blockAt8 V c 1 t) a n).trans ?_
  show _ = outG (V c main_v34) (V c main_v15) (((cfg8.win 2).blk t).view.emb (ix2 a n))
  unfold outG
  refine (Finset.sum_congr rfl fun k _ => ?_)
  have hA : blockAt8 V c 0 t (ix2 a k) = V c main_v34 (ix2 ((((cfg8.win 2).blk t).view.emb (ix2 a n)) 0) k) := by
    show V c main_v34 (((cfg8.win 0).blk t).view.emb (ix2 a k)) = _
    refine congrArg (V c main_v34) ?_
    funext ax; apply Fin.ext
    match ax with
    | ⟨0, _⟩ => show win8_0.index t (0 : Fin 2) * 256 + 1 * a.val = win8_2.index t (0 : Fin 2) * 256 + 1 * a.val; omega
    | ⟨1, _⟩ => show win8_0.index t (1 : Fin 2) * 4096 + 1 * k.val = k.val; omega
  have hB : blockAt8 V c 1 t (ix2 n k) = V c main_v15 (ix2 ((((cfg8.win 2).blk t).view.emb (ix2 a n)) 1) k) := by
    show V c main_v15 (((cfg8.win 1).blk t).view.emb (ix2 n k)) = _
    refine congrArg (V c main_v15) ?_
    funext ax; apply Fin.ext
    match ax with
    | ⟨0, _⟩ => show win8_1.index t (0 : Fin 2) * 2 + 1 * n.val = win8_2.index t (1 : Fin 2) * 2 + 1 * n.val; omega
    | ⟨1, _⟩ => show win8_1.index t (1 : Fin 2) * 4096 + 1 * k.val = k.val; omega
  rw [hA, hB]

/-- An index of the output array lies in point `t`'s block iff each coordinate lies in the block's range. -/
theorem in_block8 (t : Fin cfg8.N) (i : S8192x2.Idx) :
    i ∈ ((cfg8.win 2).blk t).view.set ↔ ∀ a : Fin 2, win8_2.index t a * S256x2.size a ≤ (i a).val ∧ (i a).val < win8_2.index t a * S256x2.size a + S256x2.size a := by
  show i ∈ ((View.whole main_v35).slice (win8_2.rect t)).set ↔ _
  rw [View.set_slice_whole, Rect.mem_set_unit]
  exact Iff.rfl

/-- The 32 row blocks cover the output array: row r lies in block r / 256. -/
theorem covered8 (i : S8192x2.Idx) : ∃ t : Fin cfg8.N, (cfg8.win 2).flush t = true ∧ i ∈ ((cfg8.win 2).blk t).view.set := by
  have hi0 : (i 0).val < 8192 := (i 0).isLt
  have hi1 : (i 1).val < 2 := (i 1).isLt
  have hN : grid8.N = 32 := N_8
  have ht : (i 0).val / 256 < grid8.N := by omega
  obtain ⟨e0, e1, e2, e3, e4, e5⟩ := block_places8 ⟨(i 0).val / 256, ht⟩
  refine ⟨⟨(i 0).val / 256, ht⟩, flush8_2 _, ?_⟩
  rw [in_block8]
  intro a
  match a with
  | ⟨0, _⟩ =>
    show win8_2.index ⟨(i 0).val / 256, ht⟩ (0 : Fin 2) * 256 ≤ (i 0).val ∧ (i 0).val < win8_2.index ⟨(i 0).val / 256, ht⟩ (0 : Fin 2) * 256 + 256
    have e4' : win8_2.index ⟨(i 0).val / 256, ht⟩ (0 : Fin 2) = (i 0).val / 256 := e4
    omega
  | ⟨1, _⟩ =>
    show win8_2.index ⟨(i 0).val / 256, ht⟩ (1 : Fin 2) * 2 ≤ (i 1).val ∧ (i 1).val < win8_2.index ⟨(i 0).val / 256, ht⟩ (1 : Fin 2) * 2 + 2
    omega

/-- The region's output array after the run: the layer's function of its two input arrays as the region found them. -/
theorem result8 (c : Dev nD) :
    (data8 V c).arrAt 2 cfg8.N = outG (V c main_v34) (V c main_v15) :=
  (data8 V c).arrAt_eq_of_cover 2 _ (fun t _ => written8_eq V c t) covered8

end Cert.KernelIdeal.Hand

end
-- ==== Proof.Compose.lean ====
/-
  The chunked network is the network.

  The kernel computes each layer's output columns in chunks (four chunks of 1024 columns for the first layer, two
  chunks of 2048 columns for the second and the third) and writes each chunk at its column offset. A column `n'` of
  a layer's output lies in exactly one chunk: `n' = n + q·C` with `n` below the chunk width `C`. The entry of a chunk
  at `(b, n)` is the layer's formula with the chunk's weight rows, and the chunk's weight row `n` is the sign-quantised
  row `n + q·C` of the layer's weights, so the entry at `(b, n')` of the assembled output is the layer's formula at
  column `n'`: the summands agree factor by factor. Composing the three hidden layers and the output product gives
  the whole network.
-/
import proofs.«102262_j38096359916038_2_alg».proof.Proof.Spec
import proofs.«102262_j38096359916038_2_alg».proof.Proof.LayerFns
import Idealize.ShloMosaic.Lib.ValueIdx

noncomputable section

namespace Cert.Compose

open Idealize.ShloMosaic Idealize.ShloMosaic.ValueIdx

/-- An activation array: 8192 rows of 4096 entries. -/
abbrev A : Type := (⟨2, ![8192, 4096]⟩ : Shape).Idx → EReal
/-- A square weight array: 4096 rows of 4096 entries. -/
abbrev Wt : Type := (⟨2, ![4096, 4096]⟩ : Shape).Idx → EReal

/-! ## A column lies in exactly one chunk -/

/-- A property of the columns below 4096 that holds on each of the four ranges `n + 1024·q`, `q = 0, 1, 2, 3`,
    `n < 1024`, holds at every column. -/
theorem col_cases4 (P : Fin 4096 → Prop)
    (p0 : ∀ n : Fin 1024, P ⟨n.val, by omega⟩) (p1 : ∀ n : Fin 1024, P ⟨n.val + 1024, by omega⟩)
    (p2 : ∀ n : Fin 1024, P ⟨n.val + 2048, by omega⟩) (p3 : ∀ n : Fin 1024, P ⟨n.val + 3072, by omega⟩) :
    ∀ n' : Fin 4096, P n' := by
  intro n'
  by_cases c0 : n'.val < 1024
  · exact p0 ⟨n'.val, c0⟩
  by_cases c1 : n'.val < 2048
  · have e : (⟨(n'.val - 1024) + 1024, by omega⟩ : Fin 4096) = n' :=
      Fin.ext (show n'.val - 1024 + 1024 = n'.val by omega)
    exact e ▸ p1 ⟨n'.val - 1024, by omega⟩
  by_cases c2 : n'.val < 3072
  · have e : (⟨(n'.val - 2048) + 2048, by omega⟩ : Fin 4096) = n' :=
      Fin.ext (show n'.val - 2048 + 2048 = n'.val by omega)
    exact e ▸ p2 ⟨n'.val - 2048, by omega⟩
  · have e : (⟨(n'.val - 3072) + 3072, by omega⟩ : Fin 4096) = n' :=
      Fin.ext (show n'.val - 3072 + 3072 = n'.val by omega)
    exact e ▸ p3 ⟨n'.val - 3072, by omega⟩

/-- A property of the columns below 4096 that holds on each of the two ranges `n` and `n + 2048`, `n < 2048`, holds
    at every column. -/
theorem col_cases2 (P : Fin 4096 → Prop)
    (p0 : ∀ n : Fin 2048, P ⟨n.val, by omega⟩) (p1 : ∀ n : Fin 2048, P ⟨n.val + 2048, by omega⟩) :
    ∀ n' : Fin 4096, P n' := by
  intro n'
  by_cases c0 : n'.val < 2048
  · exact p0 ⟨n'.val, c0⟩
  · have e : (⟨(n'.val - 2048) + 2048, by omega⟩ : Fin 4096) = n' :=
      Fin.ext (show n'.val - 2048 + 2048 = n'.val by omega)
    exact e ▸ p1 ⟨n'.val - 2048, by omega⟩

/-! ## One chunk of one layer -/

/-- The first layer on a chunk whose weight rows are the sign-quantised rows `n + off` of `W`: its entry at `(b, n)` is
    the first hidden layer of the network at column `n + off`. -/
theorem layer1_chunk {N : ℕ} (off : ℕ) (hoff : N + off ≤ 4096) (x : A) (W : Wt)
    (c : (⟨2, ![N, 4096]⟩ : Shape).Idx → EReal)
    (hc : ∀ (n : Fin N) (k : Fin 4096), c (ix2 n k) = Cert.Spec.sgn (W (ix2 ⟨n.val + off, by omega⟩ k)))
    (b : Fin 8192) (n : Fin N) :
    Cert.LayerFns.layer1G x c (ix2 b n)
      = Cert.Spec.hidden (fun b k => Cert.Spec.pre (x (ix2 b k))) (fun n k => W (ix2 n k)) b ⟨n.val + off, by omega⟩ := by
  rw [Cert.LayerFns.layer1G_apply]
  unfold Cert.Spec.hidden Cert.Spec.lin
  exact congrArg Cert.Spec.sgn (Finset.sum_congr rfl fun k _ => by rw [hc n k])

/-- A hidden layer on a chunk whose weight rows are the sign-quantised rows `n + off` of `W`: its entry at `(b, n)` is
    the hidden layer of the network at column `n + off`. -/
theorem hidden_chunk {N : ℕ} (off : ℕ) (hoff : N + off ≤ 4096) (X : A) (W : Wt)
    (c : (⟨2, ![N, 4096]⟩ : Shape).Idx → EReal)
    (hc : ∀ (n : Fin N) (k : Fin 4096), c (ix2 n k) = Cert.Spec.sgn (W (ix2 ⟨n.val + off, by omega⟩ k)))
    (b : Fin 8192) (n : Fin N) :
    Cert.LayerFns.hiddenG X c (ix2 b n)
      = Cert.Spec.hidden (fun b k => X (ix2 b k)) (fun n k => W (ix2 n k)) b ⟨n.val + off, by omega⟩ := by
  rw [Cert.LayerFns.hiddenG_apply]
  unfold Cert.Spec.hidden Cert.Spec.lin
  exact congrArg Cert.Spec.sgn (Finset.sum_congr rfl fun k _ => by rw [hc n k])

/-! ## One layer assembled from its chunks -/

/-- The first layer assembled from four chunks of 1024 columns is the first hidden layer of the network. -/
theorem layer1_chunks (x : A) (W1 : Wt)
    (c0 c1 c2 c3 : (⟨2, ![1024, 4096]⟩ : Shape).Idx → EReal)
    (hc0 : ∀ (n : Fin 1024) (k : Fin 4096), c0 (ix2 n k) = Cert.Spec.sgn (W1 (ix2 ⟨n.val, by omega⟩ k)))
    (hc1 : ∀ (n : Fin 1024) (k : Fin 4096), c1 (ix2 n k) = Cert.Spec.sgn (W1 (ix2 ⟨n.val + 1024, by omega⟩ k)))
    (hc2 : ∀ (n : Fin 1024) (k : Fin 4096), c2 (ix2 n k) = Cert.Spec.sgn (W1 (ix2 ⟨n.val + 2048, by omega⟩ k)))
    (hc3 : ∀ (n : Fin 1024) (k : Fin 4096), c3 (ix2 n k) = Cert.Spec.sgn (W1 (ix2 ⟨n.val + 3072, by omega⟩ k)))
    (h1 : A)
    (hh1_0 : ∀ (b : Fin 8192) (n : Fin 1024), h1 (ix2 b ⟨n.val, by omega⟩) = Cert.LayerFns.layer1G x c0 (ix2 b n))
    (hh1_1 : ∀ (b : Fin 8192) (n : Fin 1024), h1 (ix2 b ⟨n.val + 1024, by omega⟩) = Cert.LayerFns.layer1G x c1 (ix2 b n))
    (hh1_2 : ∀ (b : Fin 8192) (n : Fin 1024), h1 (ix2 b ⟨n.val + 2048, by omega⟩) = Cert.LayerFns.layer1G x c2 (ix2 b n))
    (hh1_3 : ∀ (b : Fin 8192) (n : Fin 1024), h1 (ix2 b ⟨n.val + 3072, by omega⟩) = Cert.LayerFns.layer1G x c3 (ix2 b n))
    (b : Fin 8192) :
    ∀ n' : Fin 4096, h1 (ix2 b n')
      = Cert.Spec.hidden (fun b k => Cert.Spec.pre (x (ix2 b k))) (fun n k => W1 (ix2 n k)) b n' := by
  refine col_cases4 _ (fun n => ?_) (fun n => ?_) (fun n => ?_) (fun n => ?_)
  · exact (hh1_0 b n).trans (layer1_chunk 0 (by omega) x W1 c0 hc0 b n)
  · exact (hh1_1 b n).trans (layer1_chunk 1024 (by omega) x W1 c1 hc1 b n)
  · exact (hh1_2 b n).trans (layer1_chunk 2048 (by omega) x W1 c2 hc2 b n)
  · exact (hh1_3 b n).trans (layer1_chunk 3072 (by omega) x W1 c3 hc3 b n)

/-- A hidden layer assembled from two chunks of 2048 columns is the hidden layer of the network. -/
theorem hidden_chunks (X : A) (W : Wt)
    (d0 d1 : (⟨2, ![2048, 4096]⟩ : Shape).Idx → EReal)
    (hd0 : ∀ (n : Fin 2048) (k : Fin 4096), d0 (ix2 n k) = Cert.Spec.sgn (W (ix2 ⟨n.val, by omega⟩ k)))
    (hd1 : ∀ (n : Fin 2048) (k : Fin 4096), d1 (ix2 n k) = Cert.Spec.sgn (W (ix2 ⟨n.val + 2048, by omega⟩ k)))
    (H : A)
    (hh0 : ∀ (b : Fin 8192) (n : Fin 2048), H (ix2 b ⟨n.val, by omega⟩) = Cert.LayerFns.hiddenG X d0 (ix2 b n))
    (hh1 : ∀ (b : Fin 8192) (n : Fin 2048), H (ix2 b ⟨n.val + 2048, by omega⟩) = Cert.LayerFns.hiddenG X d1 (ix2 b n))
    (b : Fin 8192) :
    ∀ n' : Fin 4096, H (ix2 b n') = Cert.Spec.hidden (fun b k => X (ix2 b k)) (fun n k => W (ix2 n k)) b n' := by
  refine col_cases2 _ (fun n => ?_) (fun n => ?_)
  · exact (hh0 b n).trans (hidden_chunk 0 (by omega) X W d0 hd0 b n)
  · exact (hh1 b n).trans (hidden_chunk 2048 (by omega) X W d1 hd1 b n)

/-! ## The whole network -/

/-- The output product over the three assembled hidden layers is the network: each assembled layer is the network's
    layer of the one before it, and the output weights are the sign-quantised output weights. -/
theorem network
    (x : A) (W1 W2 W3 : Wt) (W4 : (⟨2, ![2, 4096]⟩ : Shape).Idx → EReal)
    (c0 c1 c2 c3 : (⟨2, ![1024, 4096]⟩ : Shape).Idx → EReal)
    (hc0 : ∀ (n : Fin 1024) (k : Fin 4096), c0 (ix2 n k) = Cert.Spec.sgn (W1 (ix2 ⟨n.val, by omega⟩ k)))
    (hc1 : ∀ (n : Fin 1024) (k : Fin 4096), c1 (ix2 n k) = Cert.Spec.sgn (W1 (ix2 ⟨n.val + 1024, by omega⟩ k)))
    (hc2 : ∀ (n : Fin 1024) (k : Fin 4096), c2 (ix2 n k) = Cert.Spec.sgn (W1 (ix2 ⟨n.val + 2048, by omega⟩ k)))
    (hc3 : ∀ (n : Fin 1024) (k : Fin 4096), c3 (ix2 n k) = Cert.Spec.sgn (W1 (ix2 ⟨n.val + 3072, by omega⟩ k)))
    (h1 : A)
    (hh1_0 : ∀ (b : Fin 8192) (n : Fin 1024), h1 (ix2 b ⟨n.val, by omega⟩) = Cert.LayerFns.layer1G x c0 (ix2 b n))
    (hh1_1 : ∀ (b : Fin 8192) (n : Fin 1024), h1 (ix2 b ⟨n.val + 1024, by omega⟩) = Cert.LayerFns.layer1G x c1 (ix2 b n))
    (hh1_2 : ∀ (b : Fin 8192) (n : Fin 1024), h1 (ix2 b ⟨n.val + 2048, by omega⟩) = Cert.LayerFns.layer1G x c2 (ix2 b n))
    (hh1_3 : ∀ (b : Fin 8192) (n : Fin 1024), h1 (ix2 b ⟨n.val + 3072, by omega⟩) = Cert.LayerFns.layer1G x c3 (ix2 b n))
    (d0 d1 : (⟨2, ![2048, 4096]⟩ : Shape).Idx → EReal)
    (hd0 : ∀ (n : Fin 2048) (k : Fin 4096), d0 (ix2 n k) = Cert.Spec.sgn (W2 (ix2 ⟨n.val, by omega⟩ k)))
    (hd1 : ∀ (n : Fin 2048) (k : Fin 4096), d1 (ix2 n k) = Cert.Spec.sgn (W2 (ix2 ⟨n.val + 2048, by omega⟩ k)))
    (h2 : A)
    (hh2_0 : ∀ (b : Fin 8192) (n : Fin 2048), h2 (ix2 b ⟨n.val, by omega⟩) = Cert.LayerFns.hiddenG h1 d0 (ix2 b n))
    (hh2_1 : ∀ (b : Fin 8192) (n : Fin 2048), h2 (ix2 b ⟨n.val + 2048, by omega⟩) = Cert.LayerFns.hiddenG h1 d1 (ix2 b n))
    (f0 f1 : (⟨2, ![2048, 4096]⟩ : Shape).Idx → EReal)
    (hf0 : ∀ (n : Fin 2048) (k : Fin 4096), f0 (ix2 n k) = Cert.Spec.sgn (W3 (ix2 ⟨n.val, by omega⟩ k)))
    (hf1 : ∀ (n : Fin 2048) (k : Fin 4096), f1 (ix2 n k) = Cert.Spec.sgn (W3 (ix2 ⟨n.val + 2048, by omega⟩ k)))
    (h3 : A)
    (hh3_0 : ∀ (b : Fin 8192) (n : Fin 2048), h3 (ix2 b ⟨n.val, by omega⟩) = Cert.LayerFns.hiddenG h2 f0 (ix2 b n))
    (hh3_1 : ∀ (b : Fin 8192) (n : Fin 2048), h3 (ix2 b ⟨n.val + 2048, by omega⟩) = Cert.LayerFns.hiddenG h2 f1 (ix2 b n))
    (w4 : (⟨2, ![2, 4096]⟩ : Shape).Idx → EReal)
    (hw4 : ∀ (n : Fin 2) (k : Fin 4096), w4 (ix2 n k) = Cert.Spec.sgn (W4 (ix2 n k)))
    (b : Fin 8192) (j : Fin 2) :
    Cert.LayerFns.outG h3 w4 (ix2 b j)
      = Cert.Spec.out (fun b k => x (ix2 b k)) (fun n k => W1 (ix2 n k)) (fun n k => W2 (ix2 n k))
          (fun n k => W3 (ix2 n k)) (fun n k => W4 (ix2 n k)) b j := by
  -- each assembled layer, as a function of row and column, is the network's layer of the one before it
  have e1 : (fun b k => h1 (ix2 b k))
      = Cert.Spec.hidden (fun b k => Cert.Spec.pre (x (ix2 b k))) (fun n k => W1 (ix2 n k)) :=
    funext fun b => funext fun k =>
      layer1_chunks x W1 c0 c1 c2 c3 hc0 hc1 hc2 hc3 h1 hh1_0 hh1_1 hh1_2 hh1_3 b k
  have e2 : (fun b k => h2 (ix2 b k)) = Cert.Spec.hidden (fun b k => h1 (ix2 b k)) (fun n k => W2 (ix2 n k)) :=
    funext fun b => funext fun k => hidden_chunks h1 W2 d0 d1 hd0 hd1 h2 hh2_0 hh2_1 b k
  have e3 : (fun b k => h3 (ix2 b k)) = Cert.Spec.hidden (fun b k => h2 (ix2 b k)) (fun n k => W3 (ix2 n k)) :=
    funext fun b => funext fun k => hidden_chunks h2 W3 f0 f1 hf0 hf1 h3 hh3_0 hh3_1 b k
  -- the output product over the third assembled layer
  have eo : Cert.LayerFns.outG h3 w4 (ix2 b j)
      = Cert.Spec.lin (fun b k => h3 (ix2 b k)) (fun n k => Cert.Spec.sgn (W4 (ix2 n k))) b j := by
    rw [Cert.LayerFns.outG_apply]
    unfold Cert.Spec.lin
    exact Finset.sum_congr rfl fun k _ => by rw [hw4 j k]
  rw [eo, e3, e2, e1]
  rfl

end Cert.Compose

end
-- ==== Proof.FiniteInput.lean ====
/-
  The input entries are real numbers.

  The precondition says that a conjunction of five tests, one per input array, is true on every device; the test of
  an array `a` is "for every index `i`, `|a i| < +∞`", written as a reduction by `and` over all indices of the
  entrywise comparison of `max (a i) (-(a i))` against the word `0x7F800000`, which denotes `⊤`. A conjunction that
  is true has every conjunct true; a reduction by `and` over all indices that is true has a true entry at every
  index; and an extended real `x` with `max x (-x) < ⊤` is neither `⊤` (then `max x (-x) = ⊤`) nor `⊥` (then
  `-x = ⊤`), so it is a real number. Only the first conjunct, the one of the input `x`, is read here.
-/
import proofs.«102262_j38096359916038_2_alg».proof.Defs
import proofs.«102262_j38096359916038_2_alg».proof.Proof.Gen.Pre_finite_inputs
import proofs.«102262_j38096359916038_2_alg».proof.Proof.LibFinite
import Idealize.ShloMosaic.Lib.ReduceAll
import Idealize.ShloMosaic.Lib.ValueIdx

noncomputable section

namespace Cert.FiniteInput

open Idealize.ShloMosaic Idealize.SL.Sem
open Cert.LibFinite

/-- The shape of rank zero has exactly one index. -/
instance subsingleton_S_ : Subsingleton Cert.Pre_finite_inputs.S_.Idx := ⟨fun a b => funext fun d => d.elim0⟩

/-- An extended real whose absolute value `max x (-x)` tests below the word `0x7F800000` (which denotes `⊤`) is a
    real number: at `⊤` the maximum is `⊤`, and at `⊥` its second argument `-⊥` is `⊤`. -/
theorem isFin_of_abs_lt_top {x : EReal}
    (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of the input `x` is a real number, on every device: the first of the five
    conjuncts is the reduction by `and` of the entrywise test `|x i| < +∞`, so the test holds at each index `i`. -/
theorem x_fin [Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (i : Cert.KernelIdeal.S8192x4096.Idx) :
    Cert.LibFinite.IsFin (m ((c.tc : Thread Cert.KernelIdeal.nD Cert.KernelIdeal.τ).loc Cert.KernelIdeal.main_arg0) i) := by
  -- the predicate's one result entry is the word 1
  have h0 := congrFun (h c) ValueIdx.ix0
  -- it is the conjunction "(((t₀ ∧ t₁) ∧ t₂) ∧ t₃) ∧ t₄" of the five tests
  dsimp only [Cert.Pre_finite_inputs.fn, Cert.Pre_finite_inputs.fn_part1, andi] at h0
  simp only [IntOp.andi_eq_one] at h0
  -- the first test is a reduction by `and` over all indices: its entry at `i` is the word 1
  have h1 := Host.reduce_andi_all _ _ _ _ _ h0.1.1.1.1 i
  -- that entry is the comparison `max (x i) (-(x i)) < ⊤`
  exact isFin_of_abs_lt_top h1

end Cert.FiniteInput

end
-- ==== Proof.KI_Host.lean ====
/-
  The kernel program's host operations, read entry by entry on the extended reals.

  Before the first region the program sign-quantises each weight matrix: a comparison with zero selects between the
  broadcast literals +1 and −1, and the result is narrowed to the 16-bit format, which on the extended reals is the
  identity. So every entry of a quantised matrix is the sign quantiser of the specification applied to the weight's
  entry. A row chunk cut out of such a matrix at row offset `o` has, at `(n, k)`, the matrix's entry `(o + n, k)`.
  Between regions the program concatenates the regions' column chunks along the second axis: the entry `(b, o + n)`
  of the concatenation is the entry `(b, n)` of the piece that starts at column `o`. No stretch and no region writes
  an argument or a finished quantised matrix, so each reads back, through every boundary in between, to where it was
  written.
-/
import proofs.«102262_j38096359916038_2_alg».proof.Proof.KI_Run
import proofs.«102262_j38096359916038_2_alg».proof.Proof.Spec
import Idealize.ShloMosaic.Lib.Pipeline.Value
import Idealize.ShloMosaic.Lib.ValueIdx

set_option maxRecDepth 16384

noncomputable section

namespace Cert.KernelIdeal.HostRead

open Cert.KernelIdeal Cert.KernelIdeal.Gen Cert.KernelIdeal.Hand Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-! ## The sign quantiser as the program spells it -/

/-- A comparison with zero, a select between the broadcast literals +1 and −1 and a narrowing, read at one entry, is
    the sign quantiser of that entry. -/
theorem sgn_read {t : Shape} (hb : S_.BroadcastsInDim t (![] : Fin S_.rank → Fin t.rank)) (x : FVec Ideal t .f32) (i : t.Idx) :
    truncf .bf16 (select (cmpf .oge x (broadcastInDim t ![] hb (constant (F := Ideal) S_ .f32 0x00000000#32)))
        (broadcastInDim t ![] hb (constant (F := Ideal) S_ .f32 0x3F800000#32))
        (broadcastInDim t ![] hb (constant (F := Ideal) S_ .f32 0xBF800000#32))) bitsLt_bf16_f32 i
      = Cert.Spec.sgn (x i) := by
  have h0 := broadcastInDim_apply (![] : Fin S_.rank → Fin t.rank) hb (constant (F := Ideal) S_ .f32 0x00000000#32) i ix0 (fun a => a.elim0)
  have h1 := broadcastInDim_apply (![] : Fin S_.rank → Fin t.rank) hb (constant (F := Ideal) S_ .f32 0x3F800000#32) i ix0 (fun a => a.elim0)
  have h2 := broadcastInDim_apply (![] : Fin S_.rank → Fin t.rank) hb (constant (F := Ideal) S_ .f32 0xBF800000#32) i ix0 (fun a => a.elim0)
  rw [truncf_apply, select_apply, cmpf_apply, h0, h1, h2]
  rfl

/-! ## What each stretch before the first region leaves, over any earlier contents -/

/-- Layer 1's weights compared with zero. -/
theorem ops_main_v1 (V : Valuation τ sig (Elt Ideal)) :
    (StableHlo.after hostOps0 V (Proc.devRef .tc main_v1) : S4096x4096.Idx → BitVec 1)
      = cmpf .oge (V (Proc.devRef .tc main_arg1) : S4096x4096.Idx → EReal) (broadcastInDim S4096x4096 ![] bcast_S_S4096x4096 (constant (F := Ideal) S_ .f32 0x00000000#32)) := by
  after_results <;> rfl
theorem ops_main_cst_0 (V : Valuation τ sig (Elt Ideal)) :
    (StableHlo.after hostOps0 V (Proc.devRef .tc main_cst_0) : S_.Idx → EReal) = constant (F := Ideal) S_ .f32 0x3F800000#32 := by
  after_results <;> rfl
theorem ops_main_cst_1 (V : Valuation τ sig (Elt Ideal)) :
    (StableHlo.after hostOps0 V (Proc.devRef .tc main_cst_1) : S_.Idx → EReal) = constant (F := Ideal) S_ .f32 0xBF800000#32 := by
  after_results <;> rfl
/-- The select between the two broadcast literals. -/
theorem ops_main_v2 (V : Valuation τ sig (Elt Ideal)) :
    (StableHlo.after hostOps0_1 V (Proc.devRef .tc main_v2) : S4096x4096.Idx → EReal)
      = select (V (Proc.devRef .tc main_v1) : S4096x4096.Idx → BitVec 1) (broadcastInDim S4096x4096 ![] bcast_S_S4096x4096 (V (Proc.devRef .tc main_cst_0) : S_.Idx → EReal))
          (broadcastInDim S4096x4096 ![] bcast_S_S4096x4096 (V (Proc.devRef .tc main_cst_1) : S_.Idx → EReal)) := by
  after_results <;> rfl
/-- The narrowing to the 16-bit format. -/
theorem ops_main_v3 (V : Valuation τ sig (Elt Ideal)) :
    (StableHlo.after hostOps0_2 V (Proc.devRef .tc main_v3) : S4096x4096.Idx → EReal)
      = truncf (F := Ideal) (s := S4096x4096) (φ := .f32) .bf16 (V (Proc.devRef .tc main_v2)) bitsLt_bf16_f32 := by
  after_results <;> rfl

/-- Layer 2's weights compared with zero. -/
theorem ops_main_v5 (V : Valuation τ sig (Elt Ideal)) :
    (StableHlo.after hostOps0_2 V (Proc.devRef .tc main_v5) : S4096x4096.Idx → BitVec 1)
      = cmpf .oge (V (Proc.devRef .tc main_arg2) : S4096x4096.Idx → EReal) (broadcastInDim S4096x4096 ![] bcast_S_S4096x4096 (constant (F := Ideal) S_ .f32 0x00000000#32)) := by
  after_results <;> rfl
theorem ops_main_cst_3 (V : Valuation τ sig (Elt Ideal)) :
    (StableHlo.after hostOps0_2 V (Proc.devRef .tc main_cst_3) : S_.Idx → EReal) = constant (F := Ideal) S_ .f32 0x3F800000#32 := by
  after_results <;> rfl
theorem ops_main_cst_4 (V : Valuation τ sig (Elt Ideal)) :
    (StableHlo.after hostOps0_2 V (Proc.devRef .tc main_cst_4) : S_.Idx → EReal) = constant (F := Ideal) S_ .f32 0xBF800000#32 := by
  after_results <;> rfl
/-- The select between the two broadcast literals. -/
theorem ops_main_v6 (V : Valuation τ sig (Elt Ideal)) :
    (StableHlo.after hostOps0_3 V (Proc.devRef .tc main_v6) : S4096x4096.Idx → EReal)
      = select (V (Proc.devRef .tc main_v5) : S4096x4096.Idx → BitVec 1) (broadcastInDim S4096x4096 ![] bcast_S_S4096x4096 (V (Proc.devRef .tc main_cst_3) : S_.Idx → EReal))
          (broadcastInDim S4096x4096 ![] bcast_S_S4096x4096 (V (Proc.devRef .tc main_cst_4) : S_.Idx → EReal)) := by
  after_results <;> rfl
/-- The narrowing to the 16-bit format. -/
theorem ops_main_v7 (V : Valuation τ sig (Elt Ideal)) :
    (StableHlo.after hostOps0_4 V (Proc.devRef .tc main_v7) : S4096x4096.Idx → EReal)
      = truncf (F := Ideal) (s := S4096x4096) (φ := .f32) .bf16 (V (Proc.devRef .tc main_v6)) bitsLt_bf16_f32 := by
  after_results <;> rfl

/-- Layer 3's weights compared with zero. -/
theorem ops_main_v9 (V : Valuation τ sig (Elt Ideal)) :
    (StableHlo.after hostOps0_4 V (Proc.devRef .tc main_v9) : S4096x4096.Idx → BitVec 1)
      = cmpf .oge (V (Proc.devRef .tc main_arg3) : S4096x4096.Idx → EReal) (broadcastInDim S4096x4096 ![] bcast_S_S4096x4096 (constant (F := Ideal) S_ .f32 0x00000000#32)) := by
  after_results <;> rfl
theorem ops_main_cst_6 (V : Valuation τ sig (Elt Ideal)) :
    (StableHlo.after hostOps0_4 V (Proc.devRef .tc main_cst_6) : S_.Idx → EReal) = constant (F := Ideal) S_ .f32 0x3F800000#32 := by
  after_results <;> rfl
theorem ops_main_cst_7 (V : Valuation τ sig (Elt Ideal)) :
    (StableHlo.after hostOps0_4 V (Proc.devRef .tc main_cst_7) : S_.Idx → EReal) = constant (F := Ideal) S_ .f32 0xBF800000#32 := by
  after_results <;> rfl
/-- The select between the two broadcast literals. -/
theorem ops_main_v10 (V : Valuation τ sig (Elt Ideal)) :
    (StableHlo.after hostOps0_5 V (Proc.devRef .tc main_v10) : S4096x4096.Idx → EReal)
      = select (V (Proc.devRef .tc main_v9) : S4096x4096.Idx → BitVec 1) (broadcastInDim S4096x4096 ![] bcast_S_S4096x4096 (V (Proc.devRef .tc main_cst_6) : S_.Idx → EReal))
          (broadcastInDim S4096x4096 ![] bcast_S_S4096x4096 (V (Proc.devRef .tc main_cst_7) : S_.Idx → EReal)) := by
  after_results <;> rfl
/-- The narrowing to the 16-bit format. -/
theorem ops_main_v11 (V : Valuation τ sig (Elt Ideal)) :
    (StableHlo.after hostOps0_6 V (Proc.devRef .tc main_v11) : S4096x4096.Idx → EReal)
      = truncf (F := Ideal) (s := S4096x4096) (φ := .f32) .bf16 (V (Proc.devRef .tc main_v10)) bitsLt_bf16_f32 := by
  after_results <;> rfl

/-- Layer 4's weights compared with zero. -/
theorem ops_main_v13 (V : Valuation τ sig (Elt Ideal)) :
    (StableHlo.after hostOps0_6 V (Proc.devRef .tc main_v13) : S2x4096.Idx → BitVec 1)
      = cmpf .oge (V (Proc.devRef .tc main_arg4) : S2x4096.Idx → EReal) (broadcastInDim S2x4096 ![] bcast_S_S2x4096 (constant (F := Ideal) S_ .f32 0x00000000#32)) := by
  after_results <;> rfl
theorem ops_main_cst_9 (V : Valuation τ sig (Elt Ideal)) :
    (StableHlo.after hostOps0_6 V (Proc.devRef .tc main_cst_9) : S_.Idx → EReal) = constant (F := Ideal) S_ .f32 0x3F800000#32 := by
  after_results <;> rfl
theorem ops_main_cst_10 (V : Valuation τ sig (Elt Ideal)) :
    (StableHlo.after hostOps0_6 V (Proc.devRef .tc main_cst_10) : S_.Idx → EReal) = constant (F := Ideal) S_ .f32 0xBF800000#32 := by
  after_results <;> rfl
/-- The select between the two broadcast literals. -/
theorem ops_main_v14 (V : Valuation τ sig (Elt Ideal)) :
    (StableHlo.after hostOps0_7 V (Proc.devRef .tc main_v14) : S2x4096.Idx → EReal)
      = select (V (Proc.devRef .tc main_v13) : S2x4096.Idx → BitVec 1) (broadcastInDim S2x4096 ![] bcast_S_S2x4096 (V (Proc.devRef .tc main_cst_9) : S_.Idx → EReal))
          (broadcastInDim S2x4096 ![] bcast_S_S2x4096 (V (Proc.devRef .tc main_cst_10) : S_.Idx → EReal)) := by
  after_results <;> rfl
/-- The narrowing to the 16-bit format. -/
theorem ops_main_v15 (V : Valuation τ sig (Elt Ideal)) :
    (StableHlo.after hostOps0_8 V (Proc.devRef .tc main_v15) : S2x4096.Idx → EReal)
      = truncf (F := Ideal) (s := S2x4096) (φ := .f32) .bf16 (V (Proc.devRef .tc main_v14)) bitsLt_bf16_f32 := by
  after_results <;> rfl

/-! ## The quantised matrices, entry by entry -/

/-- Layer 1's quantised weight matrix at `(n, k)` is the sign of the weight there. -/
theorem sgnW1 (n : Fin 4096) (k : Fin 4096) :
    (B3 m ρ c (Proc.devRef .tc main_v3) : S4096x4096.Idx → EReal) (ix2 n k) = Cert.Spec.sgn (m ((c : Thread nD τ).loc main_arg1) (ix2 n k)) := by
  have e3 : (B3 m ρ c (Proc.devRef .tc main_v3) : S4096x4096.Idx → EReal) = _ := ops_main_v3 (B2 m ρ c)
  have e2 : (B2 m ρ c (Proc.devRef .tc main_v2) : S4096x4096.Idx → EReal) = _ := ops_main_v2 (B1 m ρ c)
  have e1 : (B1 m ρ c (Proc.devRef .tc main_v1) : S4096x4096.Idx → BitVec 1) = _ := ops_main_v1 (B0 m ρ c)
  have ep : (B1 m ρ c (Proc.devRef .tc main_cst_0) : S_.Idx → EReal) = _ := ops_main_cst_0 (B0 m ρ c)
  have em : (B1 m ρ c (Proc.devRef .tc main_cst_1) : S_.Idx → EReal) = _ := ops_main_cst_1 (B0 m ρ c)
  have ea : (B0 m ρ c (Proc.devRef .tc main_arg1) : S4096x4096.Idx → EReal) = m ((c : Thread nD τ).loc main_arg1) :=
    rfl
  rw [e3, e2, e1, ep, em, ea]
  exact sgn_read bcast_S_S4096x4096 _ _

/-- Layer 2's quantised weight matrix at `(n, k)` is the sign of the weight there. -/
theorem sgnW2 (n : Fin 4096) (k : Fin 4096) :
    (B5 m ρ c (Proc.devRef .tc main_v7) : S4096x4096.Idx → EReal) (ix2 n k) = Cert.Spec.sgn (m ((c : Thread nD τ).loc main_arg2) (ix2 n k)) := by
  have e3 : (B5 m ρ c (Proc.devRef .tc main_v7) : S4096x4096.Idx → EReal) = _ := ops_main_v7 (B4 m ρ c)
  have e2 : (B4 m ρ c (Proc.devRef .tc main_v6) : S4096x4096.Idx → EReal) = _ := ops_main_v6 (B3 m ρ c)
  have e1 : (B3 m ρ c (Proc.devRef .tc main_v5) : S4096x4096.Idx → BitVec 1) = _ := ops_main_v5 (B2 m ρ c)
  have ep : (B3 m ρ c (Proc.devRef .tc main_cst_3) : S_.Idx → EReal) = _ := ops_main_cst_3 (B2 m ρ c)
  have em : (B3 m ρ c (Proc.devRef .tc main_cst_4) : S_.Idx → EReal) = _ := ops_main_cst_4 (B2 m ρ c)
  have ea : (B2 m ρ c (Proc.devRef .tc main_arg2) : S4096x4096.Idx → EReal) = m ((c : Thread nD τ).loc main_arg2) :=
    (B2_keep m ρ c main_arg2 (by decide)).trans <| (B1_keep m ρ c main_arg2 (by decide)).trans <| rfl
  rw [e3, e2, e1, ep, em, ea]
  exact sgn_read bcast_S_S4096x4096 _ _

/-- Layer 3's quantised weight matrix at `(n, k)` is the sign of the weight there. -/
theorem sgnW3 (n : Fin 4096) (k : Fin 4096) :
    (B7 m ρ c (Proc.devRef .tc main_v11) : S4096x4096.Idx → EReal) (ix2 n k) = Cert.Spec.sgn (m ((c : Thread nD τ).loc main_arg3) (ix2 n k)) := by
  have e3 : (B7 m ρ c (Proc.devRef .tc main_v11) : S4096x4096.Idx → EReal) = _ := ops_main_v11 (B6 m ρ c)
  have e2 : (B6 m ρ c (Proc.devRef .tc main_v10) : S4096x4096.Idx → EReal) = _ := ops_main_v10 (B5 m ρ c)
  have e1 : (B5 m ρ c (Proc.devRef .tc main_v9) : S4096x4096.Idx → BitVec 1) = _ := ops_main_v9 (B4 m ρ c)
  have ep : (B5 m ρ c (Proc.devRef .tc main_cst_6) : S_.Idx → EReal) = _ := ops_main_cst_6 (B4 m ρ c)
  have em : (B5 m ρ c (Proc.devRef .tc main_cst_7) : S_.Idx → EReal) = _ := ops_main_cst_7 (B4 m ρ c)
  have ea : (B4 m ρ c (Proc.devRef .tc main_arg3) : S4096x4096.Idx → EReal) = m ((c : Thread nD τ).loc main_arg3) :=
    (B4_keep m ρ c main_arg3 (by decide)).trans <| (B3_keep m ρ c main_arg3 (by decide)).trans <| (B2_keep m ρ c main_arg3 (by decide)).trans <| (B1_keep m ρ c main_arg3 (by decide)).trans <| rfl
  rw [e3, e2, e1, ep, em, ea]
  exact sgn_read bcast_S_S4096x4096 _ _

/-- Layer 4's quantised weight matrix at `(n, k)` is the sign of the weight there. -/
theorem sgnW4 (n : Fin 2) (k : Fin 4096) :
    (B9 m ρ c (Proc.devRef .tc main_v15) : S2x4096.Idx → EReal) (ix2 n k) = Cert.Spec.sgn (m ((c : Thread nD τ).loc main_arg4) (ix2 n k)) := by
  have e3 : (B9 m ρ c (Proc.devRef .tc main_v15) : S2x4096.Idx → EReal) = _ := ops_main_v15 (B8 m ρ c)
  have e2 : (B8 m ρ c (Proc.devRef .tc main_v14) : S2x4096.Idx → EReal) = _ := ops_main_v14 (B7 m ρ c)
  have e1 : (B7 m ρ c (Proc.devRef .tc main_v13) : S2x4096.Idx → BitVec 1) = _ := ops_main_v13 (B6 m ρ c)
  have ep : (B7 m ρ c (Proc.devRef .tc main_cst_9) : S_.Idx → EReal) = _ := ops_main_cst_9 (B6 m ρ c)
  have em : (B7 m ρ c (Proc.devRef .tc main_cst_10) : S_.Idx → EReal) = _ := ops_main_cst_10 (B6 m ρ c)
  have ea : (B6 m ρ c (Proc.devRef .tc main_arg4) : S2x4096.Idx → EReal) = m ((c : Thread nD τ).loc main_arg4) :=
    (B6_keep m ρ c main_arg4 (by decide)).trans <| (B5_keep m ρ c main_arg4 (by decide)).trans <| (B4_keep m ρ c main_arg4 (by decide)).trans <| (B3_keep m ρ c main_arg4 (by decide)).trans <| (B2_keep m ρ c main_arg4 (by decide)).trans <| (B1_keep m ρ c main_arg4 (by decide)).trans <| rfl
  rw [e3, e2, e1, ep, em, ea]
  exact sgn_read bcast_S_S2x4096 _ _

/-! ## The row chunks cut out of the quantised matrices -/

/-- The chunk of layer 1's quantised matrix that region 0 reads: rows `0 … 1023`. -/
theorem ops_main_v16 (V : Valuation τ sig (Elt Ideal)) :
    (StableHlo.after hostOps0_8 V (Proc.devRef .tc main_v16) : S1024x4096.Idx → EReal)
      = extractStridedSlice S1024x4096 ![0, 0] (V (Proc.devRef .tc main_v3) : S4096x4096.Idx → EReal) slices_S4096x4096_S1024x4096_0_0 := by
  after_results <;> rfl
theorem chunk0 (n : Fin 1024) (k : Fin 4096) :
    E9 m ρ c main_v16 (ix2 n k) = Cert.Spec.sgn (m ((c : Thread nD τ).loc main_arg1) (ix2 ⟨n.val, by omega⟩ k)) := by
  have ek : (B8 m ρ c (Proc.devRef .tc main_v3) : S4096x4096.Idx → EReal) = B3 m ρ c (Proc.devRef .tc main_v3) :=
    (B8_keep m ρ c main_v3 (by decide)).trans <| (B7_keep m ρ c main_v3 (by decide)).trans <| (B6_keep m ρ c main_v3 (by decide)).trans <| (B5_keep m ρ c main_v3 (by decide)).trans <| (B4_keep m ρ c main_v3 (by decide)).trans <| rfl
  exact (congrFun (ops_main_v16 (B8 m ρ c)) (ix2 n k)).trans <|
    (extractStridedSlice_apply _ _ slices_S4096x4096_S1024x4096_0_0 (ix2 n k) (ix2 ⟨n.val, by omega⟩ k) (fun a => by
      match a with
      | ⟨0, _⟩ => show n.val = 0 + n.val; omega
      | ⟨1, _⟩ => show k.val = 0 + k.val; omega)).trans <|
    (congrFun ek _).trans <| sgnW1 m ρ c _ k

/-- The chunk of layer 1's quantised matrix that region 1 reads: rows `1024 … 2047`. -/
theorem ops_main_v18 (V : Valuation τ sig (Elt Ideal)) :
    (StableHlo.after hostOps1 V (Proc.devRef .tc main_v18) : S1024x4096.Idx → EReal)
      = extractStridedSlice S1024x4096 ![1024, 0] (V (Proc.devRef .tc main_v3) : S4096x4096.Idx → EReal) slices_S4096x4096_S1024x4096_1024_0 := by
  after_results <;> rfl
theorem chunk1 (n : Fin 1024) (k : Fin 4096) :
    E11 m ρ c main_v18 (ix2 n k) = Cert.Spec.sgn (m ((c : Thread nD τ).loc main_arg1) (ix2 ⟨n.val + 1024, by omega⟩ k)) := by
  have ek : (B10 m ρ c (Proc.devRef .tc main_v3) : S4096x4096.Idx → EReal) = B3 m ρ c (Proc.devRef .tc main_v3) :=
    (B10_keep m ρ c main_v3 (by decide)).trans <| (B9_keep m ρ c main_v3 (by decide)).trans <| (B8_keep m ρ c main_v3 (by decide)).trans <| (B7_keep m ρ c main_v3 (by decide)).trans <| (B6_keep m ρ c main_v3 (by decide)).trans <| (B5_keep m ρ c main_v3 (by decide)).trans <| (B4_keep m ρ c main_v3 (by decide)).trans <| rfl
  exact (congrFun (ops_main_v18 (B10 m ρ c)) (ix2 n k)).trans <|
    (extractStridedSlice_apply _ _ slices_S4096x4096_S1024x4096_1024_0 (ix2 n k) (ix2 ⟨n.val + 1024, by omega⟩ k) (fun a => by
      match a with
      | ⟨0, _⟩ => show n.val + 1024 = 1024 + n.val; omega
      | ⟨1, _⟩ => show k.val = 0 + k.val; omega)).trans <|
    (congrFun ek _).trans <| sgnW1 m ρ c _ k

/-- The chunk of layer 1's quantised matrix that region 2 reads: rows `2048 … 3071`. -/
theorem ops_main_v20 (V : Valuation τ sig (Elt Ideal)) :
    (StableHlo.after hostOps2 V (Proc.devRef .tc main_v20) : S1024x4096.Idx → EReal)
      = extractStridedSlice S1024x4096 ![2048, 0] (V (Proc.devRef .tc main_v3) : S4096x4096.Idx → EReal) slices_S4096x4096_S1024x4096_2048_0 := by
  after_results <;> rfl
theorem chunk2 (n : Fin 1024) (k : Fin 4096) :
    E13 m ρ c main_v20 (ix2 n k) = Cert.Spec.sgn (m ((c : Thread nD τ).loc main_arg1) (ix2 ⟨n.val + 2048, by omega⟩ k)) := by
  have ek : (B12 m ρ c (Proc.devRef .tc main_v3) : S4096x4096.Idx → EReal) = B3 m ρ c (Proc.devRef .tc main_v3) :=
    (B12_keep m ρ c main_v3 (by decide)).trans <| (B11_keep m ρ c main_v3 (by decide)).trans <| (B10_keep m ρ c main_v3 (by decide)).trans <| (B9_keep m ρ c main_v3 (by decide)).trans <| (B8_keep m ρ c main_v3 (by decide)).trans <| (B7_keep m ρ c main_v3 (by decide)).trans <| (B6_keep m ρ c main_v3 (by decide)).trans <| (B5_keep m ρ c main_v3 (by decide)).trans <| (B4_keep m ρ c main_v3 (by decide)).trans <| rfl
  exact (congrFun (ops_main_v20 (B12 m ρ c)) (ix2 n k)).trans <|
    (extractStridedSlice_apply _ _ slices_S4096x4096_S1024x4096_2048_0 (ix2 n k) (ix2 ⟨n.val + 2048, by omega⟩ k) (fun a => by
      match a with
      | ⟨0, _⟩ => show n.val + 2048 = 2048 + n.val; omega
      | ⟨1, _⟩ => show k.val = 0 + k.val; omega)).trans <|
    (congrFun ek _).trans <| sgnW1 m ρ c _ k

/-- The chunk of layer 1's quantised matrix that region 3 reads: rows `3072 … 4095`. -/
theorem ops_main_v22 (V : Valuation τ sig (Elt Ideal)) :
    (StableHlo.after hostOps3 V (Proc.devRef .tc main_v22) : S1024x4096.Idx → EReal)
      = extractStridedSlice S1024x4096 ![3072, 0] (V (Proc.devRef .tc main_v3) : S4096x4096.Idx → EReal) slices_S4096x4096_S1024x4096_3072_0 := by
  after_results <;> rfl
theorem chunk3 (n : Fin 1024) (k : Fin 4096) :
    E15 m ρ c main_v22 (ix2 n k) = Cert.Spec.sgn (m ((c : Thread nD τ).loc main_arg1) (ix2 ⟨n.val + 3072, by omega⟩ k)) := by
  have ek : (B14 m ρ c (Proc.devRef .tc main_v3) : S4096x4096.Idx → EReal) = B3 m ρ c (Proc.devRef .tc main_v3) :=
    (B14_keep m ρ c main_v3 (by decide)).trans <| (B13_keep m ρ c main_v3 (by decide)).trans <| (B12_keep m ρ c main_v3 (by decide)).trans <| (B11_keep m ρ c main_v3 (by decide)).trans <| (B10_keep m ρ c main_v3 (by decide)).trans <| (B9_keep m ρ c main_v3 (by decide)).trans <| (B8_keep m ρ c main_v3 (by decide)).trans <| (B7_keep m ρ c main_v3 (by decide)).trans <| (B6_keep m ρ c main_v3 (by decide)).trans <| (B5_keep m ρ c main_v3 (by decide)).trans <| (B4_keep m ρ c main_v3 (by decide)).trans <| rfl
  exact (congrFun (ops_main_v22 (B14 m ρ c)) (ix2 n k)).trans <|
    (extractStridedSlice_apply _ _ slices_S4096x4096_S1024x4096_3072_0 (ix2 n k) (ix2 ⟨n.val + 3072, by omega⟩ k) (fun a => by
      match a with
      | ⟨0, _⟩ => show n.val + 3072 = 3072 + n.val; omega
      | ⟨1, _⟩ => show k.val = 0 + k.val; omega)).trans <|
    (congrFun ek _).trans <| sgnW1 m ρ c _ k

/-- The chunk of layer 2's quantised matrix that region 4 reads: rows `0 … 2047`. -/
theorem ops_main_v25 (V : Valuation τ sig (Elt Ideal)) :
    (StableHlo.after hostOps4 V (Proc.devRef .tc main_v25) : S2048x4096.Idx → EReal)
      = extractStridedSlice S2048x4096 ![0, 0] (V (Proc.devRef .tc main_v7) : S4096x4096.Idx → EReal) slices_S4096x4096_S2048x4096_0_0 := by
  after_results <;> rfl
theorem chunk4 (n : Fin 2048) (k : Fin 4096) :
    E17 m ρ c main_v25 (ix2 n k) = Cert.Spec.sgn (m ((c : Thread nD τ).loc main_arg2) (ix2 ⟨n.val, by omega⟩ k)) := by
  have ek : (B16 m ρ c (Proc.devRef .tc main_v7) : S4096x4096.Idx → EReal) = B5 m ρ c (Proc.devRef .tc main_v7) :=
    (B16_keep m ρ c main_v7 (by decide)).trans <| (B15_keep m ρ c main_v7 (by decide)).trans <| (B14_keep m ρ c main_v7 (by decide)).trans <| (B13_keep m ρ c main_v7 (by decide)).trans <| (B12_keep m ρ c main_v7 (by decide)).trans <| (B11_keep m ρ c main_v7 (by decide)).trans <| (B10_keep m ρ c main_v7 (by decide)).trans <| (B9_keep m ρ c main_v7 (by decide)).trans <| (B8_keep m ρ c main_v7 (by decide)).trans <| (B7_keep m ρ c main_v7 (by decide)).trans <| (B6_keep m ρ c main_v7 (by decide)).trans <| rfl
  exact (congrFun (ops_main_v25 (B16 m ρ c)) (ix2 n k)).trans <|
    (extractStridedSlice_apply _ _ slices_S4096x4096_S2048x4096_0_0 (ix2 n k) (ix2 ⟨n.val, by omega⟩ k) (fun a => by
      match a with
      | ⟨0, _⟩ => show n.val = 0 + n.val; omega
      | ⟨1, _⟩ => show k.val = 0 + k.val; omega)).trans <|
    (congrFun ek _).trans <| sgnW2 m ρ c _ k

/-- The chunk of layer 2's quantised matrix that region 5 reads: rows `2048 … 4095`. -/
theorem ops_main_v27 (V : Valuation τ sig (Elt Ideal)) :
    (StableHlo.after hostOps5 V (Proc.devRef .tc main_v27) : S2048x4096.Idx → EReal)
      = extractStridedSlice S2048x4096 ![2048, 0] (V (Proc.devRef .tc main_v7) : S4096x4096.Idx → EReal) slices_S4096x4096_S2048x4096_2048_0 := by
  after_results <;> rfl
theorem chunk5 (n : Fin 2048) (k : Fin 4096) :
    E19 m ρ c main_v27 (ix2 n k) = Cert.Spec.sgn (m ((c : Thread nD τ).loc main_arg2) (ix2 ⟨n.val + 2048, by omega⟩ k)) := by
  have ek : (B18 m ρ c (Proc.devRef .tc main_v7) : S4096x4096.Idx → EReal) = B5 m ρ c (Proc.devRef .tc main_v7) :=
    (B18_keep m ρ c main_v7 (by decide)).trans <| (B17_keep m ρ c main_v7 (by decide)).trans <| (B16_keep m ρ c main_v7 (by decide)).trans <| (B15_keep m ρ c main_v7 (by decide)).trans <| (B14_keep m ρ c main_v7 (by decide)).trans <| (B13_keep m ρ c main_v7 (by decide)).trans <| (B12_keep m ρ c main_v7 (by decide)).trans <| (B11_keep m ρ c main_v7 (by decide)).trans <| (B10_keep m ρ c main_v7 (by decide)).trans <| (B9_keep m ρ c main_v7 (by decide)).trans <| (B8_keep m ρ c main_v7 (by decide)).trans <| (B7_keep m ρ c main_v7 (by decide)).trans <| (B6_keep m ρ c main_v7 (by decide)).trans <| rfl
  exact (congrFun (ops_main_v27 (B18 m ρ c)) (ix2 n k)).trans <|
    (extractStridedSlice_apply _ _ slices_S4096x4096_S2048x4096_2048_0 (ix2 n k) (ix2 ⟨n.val + 2048, by omega⟩ k) (fun a => by
      match a with
      | ⟨0, _⟩ => show n.val + 2048 = 2048 + n.val; omega
      | ⟨1, _⟩ => show k.val = 0 + k.val; omega)).trans <|
    (congrFun ek _).trans <| sgnW2 m ρ c _ k

/-- The chunk of layer 3's quantised matrix that region 6 reads: rows `0 … 2047`. -/
theorem ops_main_v30 (V : Valuation τ sig (Elt Ideal)) :
    (StableHlo.after hostOps6 V (Proc.devRef .tc main_v30) : S2048x4096.Idx → EReal)
      = extractStridedSlice S2048x4096 ![0, 0] (V (Proc.devRef .tc main_v11) : S4096x4096.Idx → EReal) slices_S4096x4096_S2048x4096_0_0 := by
  after_results <;> rfl
theorem chunk6 (n : Fin 2048) (k : Fin 4096) :
    E21 m ρ c main_v30 (ix2 n k) = Cert.Spec.sgn (m ((c : Thread nD τ).loc main_arg3) (ix2 ⟨n.val, by omega⟩ k)) := by
  have ek : (B20 m ρ c (Proc.devRef .tc main_v11) : S4096x4096.Idx → EReal) = B7 m ρ c (Proc.devRef .tc main_v11) :=
    (B20_keep m ρ c main_v11 (by decide)).trans <| (B19_keep m ρ c main_v11 (by decide)).trans <| (B18_keep m ρ c main_v11 (by decide)).trans <| (B17_keep m ρ c main_v11 (by decide)).trans <| (B16_keep m ρ c main_v11 (by decide)).trans <| (B15_keep m ρ c main_v11 (by decide)).trans <| (B14_keep m ρ c main_v11 (by decide)).trans <| (B13_keep m ρ c main_v11 (by decide)).trans <| (B12_keep m ρ c main_v11 (by decide)).trans <| (B11_keep m ρ c main_v11 (by decide)).trans <| (B10_keep m ρ c main_v11 (by decide)).trans <| (B9_keep m ρ c main_v11 (by decide)).trans <| (B8_keep m ρ c main_v11 (by decide)).trans <| rfl
  exact (congrFun (ops_main_v30 (B20 m ρ c)) (ix2 n k)).trans <|
    (extractStridedSlice_apply _ _ slices_S4096x4096_S2048x4096_0_0 (ix2 n k) (ix2 ⟨n.val, by omega⟩ k) (fun a => by
      match a with
      | ⟨0, _⟩ => show n.val = 0 + n.val; omega
      | ⟨1, _⟩ => show k.val = 0 + k.val; omega)).trans <|
    (congrFun ek _).trans <| sgnW3 m ρ c _ k

/-- The chunk of layer 3's quantised matrix that region 7 reads: rows `2048 … 4095`. -/
theorem ops_main_v32 (V : Valuation τ sig (Elt Ideal)) :
    (StableHlo.after hostOps7 V (Proc.devRef .tc main_v32) : S2048x4096.Idx → EReal)
      = extractStridedSlice S2048x4096 ![2048, 0] (V (Proc.devRef .tc main_v11) : S4096x4096.Idx → EReal) slices_S4096x4096_S2048x4096_2048_0 := by
  after_results <;> rfl
theorem chunk7 (n : Fin 2048) (k : Fin 4096) :
    E23 m ρ c main_v32 (ix2 n k) = Cert.Spec.sgn (m ((c : Thread nD τ).loc main_arg3) (ix2 ⟨n.val + 2048, by omega⟩ k)) := by
  have ek : (B22 m ρ c (Proc.devRef .tc main_v11) : S4096x4096.Idx → EReal) = B7 m ρ c (Proc.devRef .tc main_v11) :=
    (B22_keep m ρ c main_v11 (by decide)).trans <| (B21_keep m ρ c main_v11 (by decide)).trans <| (B20_keep m ρ c main_v11 (by decide)).trans <| (B19_keep m ρ c main_v11 (by decide)).trans <| (B18_keep m ρ c main_v11 (by decide)).trans <| (B17_keep m ρ c main_v11 (by decide)).trans <| (B16_keep m ρ c main_v11 (by decide)).trans <| (B15_keep m ρ c main_v11 (by decide)).trans <| (B14_keep m ρ c main_v11 (by decide)).trans <| (B13_keep m ρ c main_v11 (by decide)).trans <| (B12_keep m ρ c main_v11 (by decide)).trans <| (B11_keep m ρ c main_v11 (by decide)).trans <| (B10_keep m ρ c main_v11 (by decide)).trans <| (B9_keep m ρ c main_v11 (by decide)).trans <| (B8_keep m ρ c main_v11 (by decide)).trans <| rfl
  exact (congrFun (ops_main_v32 (B22 m ρ c)) (ix2 n k)).trans <|
    (extractStridedSlice_apply _ _ slices_S4096x4096_S2048x4096_2048_0 (ix2 n k) (ix2 ⟨n.val + 2048, by omega⟩ k) (fun a => by
      match a with
      | ⟨0, _⟩ => show n.val + 2048 = 2048 + n.val; omega
      | ⟨1, _⟩ => show k.val = 0 + k.val; omega)).trans <|
    (congrFun ek _).trans <| sgnW3 m ρ c _ k

/-- The output layer's quantised matrix is read whole by the last region. -/
theorem chunk8 (n : Fin 2) (k : Fin 4096) :
    E25 m ρ c main_v15 (ix2 n k) = Cert.Spec.sgn (m ((c : Thread nD τ).loc main_arg4) (ix2 n k)) := by
  have ek : (B25 m ρ c (Proc.devRef .tc main_v15) : S2x4096.Idx → EReal) = B9 m ρ c (Proc.devRef .tc main_v15) :=
    (B25_keep m ρ c main_v15 (by decide)).trans <| (B24_keep m ρ c main_v15 (by decide)).trans <| (B23_keep m ρ c main_v15 (by decide)).trans <| (B22_keep m ρ c main_v15 (by decide)).trans <| (B21_keep m ρ c main_v15 (by decide)).trans <| (B20_keep m ρ c main_v15 (by decide)).trans <| (B19_keep m ρ c main_v15 (by decide)).trans <| (B18_keep m ρ c main_v15 (by decide)).trans <| (B17_keep m ρ c main_v15 (by decide)).trans <| (B16_keep m ρ c main_v15 (by decide)).trans <| (B15_keep m ρ c main_v15 (by decide)).trans <| (B14_keep m ρ c main_v15 (by decide)).trans <| (B13_keep m ρ c main_v15 (by decide)).trans <| (B12_keep m ρ c main_v15 (by decide)).trans <| (B11_keep m ρ c main_v15 (by decide)).trans <| (B10_keep m ρ c main_v15 (by decide)).trans <| rfl
  exact (congrFun ek _).trans <| sgnW4 m ρ c n k

end Cert.KernelIdeal.HostRead

end
-- ==== Proof.KI_HostCat.lean ====
/-
  The second and third layers' column chunks side by side, and the input read back, in the kernel's program.

  The contents of the core's buffers at each boundary of the program are a fold from the launch memory. Three facts
  are read off that fold here.

  * No host stretch and no region up to the fourth one writes the input array, so at the entry of each of the first
    four regions it still holds the launch contents.
  * After the second layer's two regions a host operation writes the concatenation, along the columns, of the two
    regions' outputs (2048 columns each). Column `n` below 2048 of the result is column `n` of the first region's
    output, and column `n + 2048` is column `n` of the second region's output; each output is what its region's
    write-backs leave, which later stretches and the other region do not touch. The third layer's two regions read
    the concatenation as an input, so it is the same at the entry of both.
  * The same for the third layer's two outputs and the array the last region reads.
-/
import proofs.«102262_j38096359916038_2_alg».proof.Proof.KI_Run
import Idealize.ShloMosaic.Lib.Pipeline.Value
import Idealize.ShloMosaic.Lib.ValueIdx

set_option maxRecDepth 16384

noncomputable section

namespace Cert.KernelIdeal.HostCat

open Idealize.ShloMosaic Idealize.ShloMosaic.TcCoe Idealize.ShloMosaic.ValueIdx
open Idealize.SL.Sem
open Cert.KernelIdeal Cert.KernelIdeal.Gen Cert.KernelIdeal.Hand

variable (m : (ℓ : Loc nD τ sig) → Buf (Elt Ideal) ℓ) (ρ : Dev nD → PrngReg) (c : Dev nD)

/-! ## The input array at the entry of the first four regions -/

/-- None of the nine opening host stretches writes the input: at the first region's entry it is as launched. -/
theorem x0_9 : E9 m ρ c main_arg0 = m ((c : Thread nD τ).loc main_arg0) :=
  (B9_keep m ρ c main_arg0 (by decide)).trans <| (B8_keep m ρ c main_arg0 (by decide)).trans <| (B7_keep m ρ c main_arg0 (by decide)).trans <| (B6_keep m ρ c main_arg0 (by decide)).trans <| (B5_keep m ρ c main_arg0 (by decide)).trans <| (B4_keep m ρ c main_arg0 (by decide)).trans <| (B3_keep m ρ c main_arg0 (by decide)).trans <| (B2_keep m ρ c main_arg0 (by decide)).trans <| (B1_keep m ρ c main_arg0 (by decide)).trans <| rfl
/-- The first region reads the input and leaves it as entered, and the next stretch does not write it. -/
theorem x0_11 : E11 m ρ c main_arg0 = m ((c : Thread nD τ).loc main_arg0) :=
  (B11_keep m ρ c main_arg0 (by decide)).trans <| (B10_in m ρ c 0 rfl).trans <| x0_9 m ρ c
/-- Likewise through the second region. -/
theorem x0_13 : E13 m ρ c main_arg0 = m ((c : Thread nD τ).loc main_arg0) :=
  (B13_keep m ρ c main_arg0 (by decide)).trans <| (B12_in m ρ c 0 rfl).trans <| x0_11 m ρ c
/-- Likewise through the third region. -/
theorem x0_15 : E15 m ρ c main_arg0 = m ((c : Thread nD τ).loc main_arg0) :=
  (B15_keep m ρ c main_arg0 (by decide)).trans <| (B14_in m ρ c 0 rfl).trans <| x0_13 m ρ c

/-! ## Two pieces of 2048 columns side by side, read at an entry -/

/-- A column below 2048 reads the first piece at the same row and column. -/
theorem cat_pair_left (p q : S8192x2048.Idx → EReal) (b : Fin 8192) (n : Fin 2048) :
    concatenate S8192x4096 1 [⟨S8192x2048, p⟩, ⟨S8192x2048, q⟩] concatenates_S8192x2048_S8192x2048_S8192x4096_d1
      (ix2 b ⟨n.val, by omega⟩) = p (ix2 b n) := by
  refine concatenate_pair_apply_left (t := S8192x4096) (s₁ := S8192x2048) (s₂ := S8192x2048) 1 p q _
    (ix2 b ⟨n.val, by omega⟩) rfl (ix2 b n) ?_
  intro a
  match a with
  | ⟨0, _⟩ => rfl
  | ⟨1, _⟩ => rfl

/-- A column `n + 2048` reads the second piece at the same row and column `n`. -/
theorem cat_pair_right (p q : S8192x2048.Idx → EReal) (b : Fin 8192) (n : Fin 2048) :
    concatenate S8192x4096 1 [⟨S8192x2048, p⟩, ⟨S8192x2048, q⟩] concatenates_S8192x2048_S8192x2048_S8192x4096_d1
      (ix2 b ⟨n.val + 2048, by omega⟩) = q (ix2 b n) := by
  refine concatenate_pair_apply_right (t := S8192x4096) (s₁ := S8192x2048) (s₂ := S8192x2048) 1 p q _
    (ix2 b ⟨n.val + 2048, by omega⟩) rfl rfl (ix2 b n) ?_ ?_
  · intro a ha
    match a, ha with
    | ⟨0, _⟩, _ => rfl
    | ⟨1, _⟩, ha => exact (ha (Fin.ext rfl)).elim
  · rfl

/-! ## The second layer's output -/

/-- The stretch after the second layer's second region writes the two regions' outputs side by side. -/
theorem main_v29_eq : (B21 m ρ c (Proc.devRef .tc main_v29) : S8192x4096.Idx → EReal)
    = concatenate S8192x4096 1 [⟨S8192x2048, (B20 m ρ c (Proc.devRef .tc main_v26) : S8192x2048.Idx → EReal)⟩,
        ⟨S8192x2048, (B20 m ρ c (Proc.devRef .tc main_v28) : S8192x2048.Idx → EReal)⟩]
        concatenates_S8192x2048_S8192x2048_S8192x4096_d1 := by
  show StableHlo.after hostOps6 _ (Proc.devRef .tc main_v29) = _
  after_results

/-- The first piece is what the layer's first region left: the stretch and the region in between do not write it. -/
theorem main_v26_eq : B20 m ρ c (Proc.devRef .tc main_v26) = (data4 (E17 m ρ) c).arrAt 2 cfg4.N :=
  (B20_keep m ρ c main_v26 (by decide)).trans <| (B19_keep m ρ c main_v26 (by decide)).trans <| B18_arr m ρ c 2
/-- The second piece is what the layer's second region left. -/
theorem main_v28_eq : B20 m ρ c (Proc.devRef .tc main_v28) = (data5 (E19 m ρ) c).arrAt 2 cfg5.N := B20_arr m ρ c 2

/-- Column `n` below 2048 of the second layer's output is column `n` of what its first region left. -/
theorem cat2_0 (b : Fin 8192) (n : Fin 2048) :
    E21 m ρ c main_v29 (ix2 b ⟨n.val, by omega⟩) = (data4 (E17 m ρ) c).arrAt 2 cfg4.N (ix2 b n) := by
  refine (congrFun (main_v29_eq m ρ c) _).trans ?_
  refine (cat_pair_left _ _ b n).trans ?_
  exact congrFun (main_v26_eq m ρ c) _
/-- Column `n + 2048` of the second layer's output is column `n` of what its second region left. -/
theorem cat2_1 (b : Fin 8192) (n : Fin 2048) :
    E21 m ρ c main_v29 (ix2 b ⟨n.val + 2048, by omega⟩) = (data5 (E19 m ρ) c).arrAt 2 cfg5.N (ix2 b n) := by
  refine (congrFun (main_v29_eq m ρ c) _).trans ?_
  refine (cat_pair_right _ _ b n).trans ?_
  exact congrFun (main_v28_eq m ρ c) _
/-- The third layer's first region reads the second layer's output and leaves it as entered, and the stretch after it
    does not write it: the layer's second region is entered with the same array. -/
theorem keep2 : E23 m ρ c main_v29 = E21 m ρ c main_v29 :=
  (B23_keep m ρ c main_v29 (by decide)).trans <| B22_in m ρ c 0 rfl

/-! ## The third layer's output -/

/-- The stretch after the third layer's second region writes the two regions' outputs side by side. -/
theorem main_v34_eq : (B25 m ρ c (Proc.devRef .tc main_v34) : S8192x4096.Idx → EReal)
    = concatenate S8192x4096 1 [⟨S8192x2048, (B24 m ρ c (Proc.devRef .tc main_v31) : S8192x2048.Idx → EReal)⟩,
        ⟨S8192x2048, (B24 m ρ c (Proc.devRef .tc main_v33) : S8192x2048.Idx → EReal)⟩]
        concatenates_S8192x2048_S8192x2048_S8192x4096_d1 := by
  show StableHlo.after hostOps8 _ (Proc.devRef .tc main_v34) = _
  after_results

/-- The first piece is what the layer's first region left: the stretch and the region in between do not write it. -/
theorem main_v31_eq : B24 m ρ c (Proc.devRef .tc main_v31) = (data6 (E21 m ρ) c).arrAt 2 cfg6.N :=
  (B24_keep m ρ c main_v31 (by decide)).trans <| (B23_keep m ρ c main_v31 (by decide)).trans <| B22_arr m ρ c 2
/-- The second piece is what the layer's second region left. -/
theorem main_v33_eq : B24 m ρ c (Proc.devRef .tc main_v33) = (data7 (E23 m ρ) c).arrAt 2 cfg7.N := B24_arr m ρ c 2

/-- Column `n` below 2048 of the third layer's output is column `n` of what its first region left. -/
theorem cat3_0 (b : Fin 8192) (n : Fin 2048) :
    E25 m ρ c main_v34 (ix2 b ⟨n.val, by omega⟩) = (data6 (E21 m ρ) c).arrAt 2 cfg6.N (ix2 b n) := by
  refine (congrFun (main_v34_eq m ρ c) _).trans ?_
  refine (cat_pair_left _ _ b n).trans ?_
  exact congrFun (main_v31_eq m ρ c) _
/-- Column `n + 2048` of the third layer's output is column `n` of what its second region left. -/
theorem cat3_1 (b : Fin 8192) (n : Fin 2048) :
    E25 m ρ c main_v34 (ix2 b ⟨n.val + 2048, by omega⟩) = (data7 (E23 m ρ) c).arrAt 2 cfg7.N (ix2 b n) := by
  refine (congrFun (main_v34_eq m ρ c) _).trans ?_
  refine (cat_pair_right _ _ b n).trans ?_
  exact congrFun (main_v33_eq m ρ c) _

end Cert.KernelIdeal.HostCat

end
-- ==== Proof.KI_HostCat1.lean ====
/-
  The first layer's four column chunks, concatenated.

  After the fourth region the program concatenates, along the second axis, the four arrays of 1024 columns that regions
  0 … 3 left. The entry `(b, q · 1024 + n)` of the concatenation is the entry `(b, n)` of the piece that starts at
  column `q · 1024`, and that piece stands, from its region's exit to the concatenation, at what the region's write-backs
  left: no stretch or region in between writes it. The concatenated array is an input of both regions of the second
  layer, so the second of them enters with the same array as the first.
-/
import proofs.«102262_j38096359916038_2_alg».proof.Proof.KI_Run
import Idealize.ShloMosaic.Lib.Pipeline.Value
import Idealize.ShloMosaic.Lib.ValueIdx

set_option maxRecDepth 16384

noncomputable section

namespace Cert.KernelIdeal.HostCat

open Cert.KernelIdeal Cert.KernelIdeal.Gen Cert.KernelIdeal.Hand Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- A column of chunk `q` is a column of the whole. -/
theorem c1_lt (q : Fin 4) (n : Fin 1024) : q.val * 1024 + n.val < 4096 := by omega

/-- The concatenation along the second axis of the four column chunks, over any earlier contents. -/
theorem c1_ops_main_v24 (V : Valuation τ sig (Elt Ideal)) :
    (StableHlo.after hostOps4 V (Proc.devRef .tc main_v24) : S8192x4096.Idx → EReal)
      = concatenate S8192x4096 1 [⟨S8192x1024, (V (Proc.devRef .tc main_v17) : S8192x1024.Idx → EReal)⟩, ⟨S8192x1024, (V (Proc.devRef .tc main_v19) : S8192x1024.Idx → EReal)⟩, ⟨S8192x1024, (V (Proc.devRef .tc main_v21) : S8192x1024.Idx → EReal)⟩, ⟨S8192x1024, (V (Proc.devRef .tc main_v23) : S8192x1024.Idx → EReal)⟩] concatenates_S8192x1024_S8192x1024_S8192x1024_S8192x1024_S8192x4096_d1 := by
  after_results <;> rfl

/-- Region 0's output is untouched from its exit to the concatenation. -/
theorem c1_out0_stands : (B16 m ρ c (Proc.devRef .tc main_v17) : S8192x1024.Idx → EReal) = (data0 (E9 m ρ) c).arrAt 2 cfg0.N :=
  (B16_keep m ρ c main_v17 (by decide)).trans <| (B15_keep m ρ c main_v17 (by decide)).trans <| (B14_keep m ρ c main_v17 (by decide)).trans <| (B13_keep m ρ c main_v17 (by decide)).trans <| (B12_keep m ρ c main_v17 (by decide)).trans <| (B11_keep m ρ c main_v17 (by decide)).trans <| (B10_arr m ρ c 2)
/-- Region 1's output is untouched from its exit to the concatenation. -/
theorem c1_out1_stands : (B16 m ρ c (Proc.devRef .tc main_v19) : S8192x1024.Idx → EReal) = (data1 (E11 m ρ) c).arrAt 2 cfg1.N :=
  (B16_keep m ρ c main_v19 (by decide)).trans <| (B15_keep m ρ c main_v19 (by decide)).trans <| (B14_keep m ρ c main_v19 (by decide)).trans <| (B13_keep m ρ c main_v19 (by decide)).trans <| (B12_arr m ρ c 2)
/-- Region 2's output is untouched from its exit to the concatenation. -/
theorem c1_out2_stands : (B16 m ρ c (Proc.devRef .tc main_v21) : S8192x1024.Idx → EReal) = (data2 (E13 m ρ) c).arrAt 2 cfg2.N :=
  (B16_keep m ρ c main_v21 (by decide)).trans <| (B15_keep m ρ c main_v21 (by decide)).trans <| (B14_arr m ρ c 2)
/-- Region 3's output is untouched from its exit to the concatenation. -/
theorem c1_out3_stands : (B16 m ρ c (Proc.devRef .tc main_v23) : S8192x1024.Idx → EReal) = (data3 (E15 m ρ) c).arrAt 2 cfg3.N :=
  (B16_arr m ρ c 2)

/-- Columns `0 … 1023` of the concatenation are region 0's output: at any column `j` with `j = 0 + n`. -/
theorem c1_cat1_0_at (b : Fin 8192) (n : Fin 1024) (j : Fin 4096) (hj : j.val = 0 + n.val) :
    E17 m ρ c main_v24 (ix2 b j) = (data0 (E9 m ρ) c).arrAt 2 cfg0.N (ix2 b n) :=
  (congrFun (c1_ops_main_v24 (B16 m ρ c)) (ix2 b j)).trans <|
    (concatenate_apply_piece (1 : Fin S8192x4096.rank)
      [⟨S8192x1024, (B16 m ρ c (Proc.devRef .tc main_v17) : S8192x1024.Idx → EReal)⟩,
        ⟨S8192x1024, (B16 m ρ c (Proc.devRef .tc main_v19) : S8192x1024.Idx → EReal)⟩,
        ⟨S8192x1024, (B16 m ρ c (Proc.devRef .tc main_v21) : S8192x1024.Idx → EReal)⟩,
        ⟨S8192x1024, (B16 m ρ c (Proc.devRef .tc main_v23) : S8192x1024.Idx → EReal)⟩]
      concatenates_S8192x1024_S8192x1024_S8192x1024_S8192x1024_S8192x4096_d1 (ix2 b j) 0 (by simp) S8192x1024 (B16 m ρ c (Proc.devRef .tc main_v17) : S8192x1024.Idx → EReal) rfl rfl 0 rfl (ix2 b n)
      (fun a ha => by
        match a with
        | ⟨0, _⟩ => rfl
        | ⟨1, _⟩ => exact absurd rfl ha)
      (by show 0 + n.val = j.val; omega)).trans <|
    congrFun (c1_out0_stands m ρ c) (ix2 b n)
/-- The same with the column written as `q · 1024 + n` at `q = 0`. -/
theorem cat1_0 (b : Fin 8192) (n : Fin 1024) :
    E17 m ρ c main_v24 (ix2 b ⟨(0 : Fin 4).val * 1024 + n.val, c1_lt 0 n⟩) = (data0 (E9 m ρ) c).arrAt 2 cfg0.N (ix2 b n) :=
  c1_cat1_0_at m ρ c b n _ rfl

/-- Columns `1024 … 2047` of the concatenation are region 1's output: at any column `j` with `j = 1024 + n`. -/
theorem c1_cat1_1_at (b : Fin 8192) (n : Fin 1024) (j : Fin 4096) (hj : j.val = 1024 + n.val) :
    E17 m ρ c main_v24 (ix2 b j) = (data1 (E11 m ρ) c).arrAt 2 cfg1.N (ix2 b n) :=
  (congrFun (c1_ops_main_v24 (B16 m ρ c)) (ix2 b j)).trans <|
    (concatenate_apply_piece (1 : Fin S8192x4096.rank)
      [⟨S8192x1024, (B16 m ρ c (Proc.devRef .tc main_v17) : S8192x1024.Idx → EReal)⟩,
        ⟨S8192x1024, (B16 m ρ c (Proc.devRef .tc main_v19) : S8192x1024.Idx → EReal)⟩,
        ⟨S8192x1024, (B16 m ρ c (Proc.devRef .tc main_v21) : S8192x1024.Idx → EReal)⟩,
        ⟨S8192x1024, (B16 m ρ c (Proc.devRef .tc main_v23) : S8192x1024.Idx → EReal)⟩]
      concatenates_S8192x1024_S8192x1024_S8192x1024_S8192x1024_S8192x4096_d1 (ix2 b j) 1 (by simp) S8192x1024 (B16 m ρ c (Proc.devRef .tc main_v19) : S8192x1024.Idx → EReal) rfl rfl 1024 rfl (ix2 b n)
      (fun a ha => by
        match a with
        | ⟨0, _⟩ => rfl
        | ⟨1, _⟩ => exact absurd rfl ha)
      (by show 1024 + n.val = j.val; omega)).trans <|
    congrFun (c1_out1_stands m ρ c) (ix2 b n)
/-- The same with the column written as `q · 1024 + n` at `q = 1`. -/
theorem cat1_1 (b : Fin 8192) (n : Fin 1024) :
    E17 m ρ c main_v24 (ix2 b ⟨(1 : Fin 4).val * 1024 + n.val, c1_lt 1 n⟩) = (data1 (E11 m ρ) c).arrAt 2 cfg1.N (ix2 b n) :=
  c1_cat1_1_at m ρ c b n _ rfl

/-- Columns `2048 … 3071` of the concatenation are region 2's output: at any column `j` with `j = 2048 + n`. -/
theorem c1_cat1_2_at (b : Fin 8192) (n : Fin 1024) (j : Fin 4096) (hj : j.val = 2048 + n.val) :
    E17 m ρ c main_v24 (ix2 b j) = (data2 (E13 m ρ) c).arrAt 2 cfg2.N (ix2 b n) :=
  (congrFun (c1_ops_main_v24 (B16 m ρ c)) (ix2 b j)).trans <|
    (concatenate_apply_piece (1 : Fin S8192x4096.rank)
      [⟨S8192x1024, (B16 m ρ c (Proc.devRef .tc main_v17) : S8192x1024.Idx → EReal)⟩,
        ⟨S8192x1024, (B16 m ρ c (Proc.devRef .tc main_v19) : S8192x1024.Idx → EReal)⟩,
        ⟨S8192x1024, (B16 m ρ c (Proc.devRef .tc main_v21) : S8192x1024.Idx → EReal)⟩,
        ⟨S8192x1024, (B16 m ρ c (Proc.devRef .tc main_v23) : S8192x1024.Idx → EReal)⟩]
      concatenates_S8192x1024_S8192x1024_S8192x1024_S8192x1024_S8192x4096_d1 (ix2 b j) 2 (by simp) S8192x1024 (B16 m ρ c (Proc.devRef .tc main_v21) : S8192x1024.Idx → EReal) rfl rfl 2048 rfl (ix2 b n)
      (fun a ha => by
        match a with
        | ⟨0, _⟩ => rfl
        | ⟨1, _⟩ => exact absurd rfl ha)
      (by show 2048 + n.val = j.val; omega)).trans <|
    congrFun (c1_out2_stands m ρ c) (ix2 b n)
/-- The same with the column written as `q · 1024 + n` at `q = 2`. -/
theorem cat1_2 (b : Fin 8192) (n : Fin 1024) :
    E17 m ρ c main_v24 (ix2 b ⟨(2 : Fin 4).val * 1024 + n.val, c1_lt 2 n⟩) = (data2 (E13 m ρ) c).arrAt 2 cfg2.N (ix2 b n) :=
  c1_cat1_2_at m ρ c b n _ rfl

/-- Columns `3072 … 4095` of the concatenation are region 3's output: at any column `j` with `j = 3072 + n`. -/
theorem c1_cat1_3_at (b : Fin 8192) (n : Fin 1024) (j : Fin 4096) (hj : j.val = 3072 + n.val) :
    E17 m ρ c main_v24 (ix2 b j) = (data3 (E15 m ρ) c).arrAt 2 cfg3.N (ix2 b n) :=
  (congrFun (c1_ops_main_v24 (B16 m ρ c)) (ix2 b j)).trans <|
    (concatenate_apply_piece (1 : Fin S8192x4096.rank)
      [⟨S8192x1024, (B16 m ρ c (Proc.devRef .tc main_v17) : S8192x1024.Idx → EReal)⟩,
        ⟨S8192x1024, (B16 m ρ c (Proc.devRef .tc main_v19) : S8192x1024.Idx → EReal)⟩,
        ⟨S8192x1024, (B16 m ρ c (Proc.devRef .tc main_v21) : S8192x1024.Idx → EReal)⟩,
        ⟨S8192x1024, (B16 m ρ c (Proc.devRef .tc main_v23) : S8192x1024.Idx → EReal)⟩]
      concatenates_S8192x1024_S8192x1024_S8192x1024_S8192x1024_S8192x4096_d1 (ix2 b j) 3 (by simp) S8192x1024 (B16 m ρ c (Proc.devRef .tc main_v23) : S8192x1024.Idx → EReal) rfl rfl 3072 rfl (ix2 b n)
      (fun a ha => by
        match a with
        | ⟨0, _⟩ => rfl
        | ⟨1, _⟩ => exact absurd rfl ha)
      (by show 3072 + n.val = j.val; omega)).trans <|
    congrFun (c1_out3_stands m ρ c) (ix2 b n)
/-- The same with the column written as `q · 1024 + n` at `q = 3`. -/
theorem cat1_3 (b : Fin 8192) (n : Fin 1024) :
    E17 m ρ c main_v24 (ix2 b ⟨(3 : Fin 4).val * 1024 + n.val, c1_lt 3 n⟩) = (data3 (E15 m ρ) c).arrAt 2 cfg3.N (ix2 b n) :=
  c1_cat1_3_at m ρ c b n _ rfl

/-- The concatenated activations at the entry of the second layer's second region are those at the entry of its first:
    the stretch in between does not write them and the first region only reads them. -/
theorem keep1 : E19 m ρ c main_v24 = E17 m ρ c main_v24 :=
  (B19_keep m ρ c main_v24 (by decide)).trans <| B18_in m ρ c 0 rfl

end Cert.KernelIdeal.HostCat

end
-- ==== Proof.KI_Value.lean ====
/-
  The kernel's result, entry by entry, is the network of the launch arrays. The last region leaves the output layer of
  its two input arrays; those are the concatenation of the third hidden layer's two column chunks and the sign-quantised
  output weights; each hidden chunk is a hidden layer of the previous concatenation and a chunk of sign-quantised
  weight rows; the four layer-1 chunks read the launch input, whose every entry is a real number under the
  precondition, so layer 1's residual product vanishes. The chunked layers recombine into the whole ones.
-/
import proofs.«102262_j38096359916038_2_alg».proof.Proof.KI_Run
import proofs.«102262_j38096359916038_2_alg».proof.Proof.KI_Final
import proofs.«102262_j38096359916038_2_alg».proof.Proof.Compose
import proofs.«102262_j38096359916038_2_alg».proof.Proof.FiniteInput
import proofs.«102262_j38096359916038_2_alg».proof.Proof.KI_Host
import proofs.«102262_j38096359916038_2_alg».proof.Proof.KI_HostCat
import proofs.«102262_j38096359916038_2_alg».proof.Proof.KI_HostCat1

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.LibFinite Cert.LayerFns
open Cert.KernelIdeal.HostRead Cert.KernelIdeal.HostCat

variable (m : (ℓ : Loc nD τ sig) → Buf (Elt Ideal) ℓ) (ρ : Dev nD → PrngReg)

/-- The kernel's result array, entry by entry, is the network of the launch arrays: the last region leaves the output
    layer of its two input arrays; those are the concatenated third hidden layer and the sign-quantised output
    weights; and so on down to the four layer-1 regions, which read the launch input — every entry a real number under
    the precondition — and the four chunks of the sign-quantised first weight matrix. -/
theorem result_entry [Cert.Pre_finite_inputs.Facts] (hpre : Cert.Pre_KernelIdeal m) (c : Dev nD) (b : Fin 8192) (j : Fin 2) :
    (data8 (E25 m ρ) c).arrAt 2 cfg8.N (ix2 b j)
      = Cert.Spec.out (fun b k => m ((c : Thread nD τ).loc main_arg0) (ix2 b k)) (fun n k => m ((c : Thread nD τ).loc main_arg1) (ix2 n k))
          (fun n k => m ((c : Thread nD τ).loc main_arg2) (ix2 n k)) (fun n k => m ((c : Thread nD τ).loc main_arg3) (ix2 n k))
          (fun n k => m ((c : Thread nD τ).loc main_arg4) (ix2 n k)) b j := by
  have hX : ∀ i, IsFin (m ((c : Thread nD τ).loc main_arg0) i) := fun i => Cert.FiniteInput.x_fin m hpre c i
  have r0 := result0 (E9 m ρ) c (by rw [x0_9 m ρ c]; exact hX)
  have r1 := result1 (E11 m ρ) c (by rw [x0_11 m ρ c]; exact hX)
  have r2 := result2 (E13 m ρ) c (by rw [x0_13 m ρ c]; exact hX)
  have r3 := result3 (E15 m ρ) c (by rw [x0_15 m ρ c]; exact hX)
  rw [x0_9 m ρ c] at r0; rw [x0_11 m ρ c] at r1; rw [x0_13 m ρ c] at r2; rw [x0_15 m ρ c] at r3
  have r4 := result4 (E17 m ρ) c
  have r5 := result5 (E19 m ρ) c
  rw [keep1 m ρ c] at r5
  have r6 := result6 (E21 m ρ) c
  have r7 := result7 (E23 m ρ) c
  rw [keep2 m ρ c] at r7
  rw [result8 (E25 m ρ) c]
  exact Cert.Compose.network (m ((c : Thread nD τ).loc main_arg0)) (m ((c : Thread nD τ).loc main_arg1)) (m ((c : Thread nD τ).loc main_arg2))
    (m ((c : Thread nD τ).loc main_arg3)) (m ((c : Thread nD τ).loc main_arg4))
    (E9 m ρ c main_v16) (E11 m ρ c main_v18) (E13 m ρ c main_v20) (E15 m ρ c main_v22)
    (chunk0 m ρ c) (chunk1 m ρ c) (chunk2 m ρ c) (chunk3 m ρ c)
    (E17 m ρ c main_v24)
    (fun b n => (c1_cat1_0_at m ρ c b n ⟨n.val, by omega⟩ (by show n.val = 0 + n.val; omega)).trans (congrFun r0 _))
    (fun b n => (c1_cat1_1_at m ρ c b n ⟨n.val + 1024, by omega⟩ (by show n.val + 1024 = 1024 + n.val; omega)).trans (congrFun r1 _))
    (fun b n => (c1_cat1_2_at m ρ c b n ⟨n.val + 2048, by omega⟩ (by show n.val + 2048 = 2048 + n.val; omega)).trans (congrFun r2 _))
    (fun b n => (c1_cat1_3_at m ρ c b n ⟨n.val + 3072, by omega⟩ (by show n.val + 3072 = 3072 + n.val; omega)).trans (congrFun r3 _))
    (E17 m ρ c main_v25) (E19 m ρ c main_v27) (chunk4 m ρ c) (chunk5 m ρ c)
    (E21 m ρ c main_v29)
    (fun b n => (cat2_0 m ρ c b n).trans (congrFun r4 _)) (fun b n => (cat2_1 m ρ c b n).trans (congrFun r5 _))
    (E21 m ρ c main_v30) (E23 m ρ c main_v32) (chunk6 m ρ c) (chunk7 m ρ c)
    (E25 m ρ c main_v34)
    (fun b n => (cat3_0 m ρ c b n).trans (congrFun r6 _)) (fun b n => (cat3_1 m ρ c b n).trans (congrFun r7 _))
    (E25 m ρ c main_v15) (chunk8 m ρ c) b j

end Cert.KernelIdeal.Hand

end
-- ==== Proof.RefSpec.lean ====
/-
  The reference program, read entry by entry, is the network of `Cert.Spec`.

  The reference rescales the input as `2 · x − 1` (a product with the literal on the left, where the specification
  writes it on the right: the two agree because multiplication on the extended reals commutes). Each weight matrix is
  sign-quantised by a comparison with zero selecting between the literals +1 and −1, and then transposed, so that its
  entry at `(k, n)` is the sign of the weight at `(n, k)`. Each product contracts the second axis of the activations
  with the first axis of that transposed matrix: its entry at `(b, n)` is `Σ_k h[b, k] · sgn(W[n, k])`. The three
  hidden layers quantise their product by the same comparison and select; a conversion between equal formats is the
  identity. One lemma per stage, each at an index built from its two coordinates; no finiteness is needed.
-/
import proofs.«102262_j38096359916038_2_alg».proof.Proof.RefRead
import proofs.«102262_j38096359916038_2_alg».proof.Proof.Spec

noncomputable section

namespace Cert.RefSpec

open Idealize.ShloMosaic Idealize.ShloMosaic.ValueIdx Cert.ReferenceIdeal Cert.ReferenceIdeal.ReadP
open scoped BigOperators

/-- The rescaled input at `(b, k)`: `2 · x − 1` is `x · 2 − 1`. -/
theorem pre0 (x0 : (⟨S8192x4096, .f32⟩ : BufTy).Contents (Elt Ideal)) (b : Fin 8192) (k : Fin 4096) :
    val_main_v3 (F := Ideal) x0 (ix2 b k) = Spec.pre (x0 (ix2 b k)) := by
  rw [val_main_v3_apply, val_main_v1_apply, val_main_v0_apply, val_main_cst_apply, val_main_v2_apply, val_main_cst_0_apply]
  exact congrArg (· - Spec.one) (mul_comm Spec.two (x0 (ix2 b k)))

/-- The transposed sign matrix of layer 1 at `(k, n)` is the sign of the weight at `(n, k)`. -/
theorem sgnT1 (x1 : (⟨S4096x4096, .f32⟩ : BufTy).Contents (Elt Ideal)) (k : Fin 4096) (n : Fin 4096) :
    val_main_v8 (F := Ideal) x1 (ix2 k n) = Spec.sgn (x1 (ix2 n k)) := by
  have e : idx_main_v8 (ix2 k n) = ix2 n k := funext fun a => by
    match a with
    | ⟨0, _⟩ => rfl
    | ⟨1, _⟩ => rfl
  rw [val_main_v8_apply, e, val_main_v7_apply, val_main_v6_apply, val_main_v5_apply, val_main_v4_apply, val_main_cst_1_apply,
    val_main_call0_v0_apply, val_main_cst_2_apply, val_main_call0_v1_apply, val_main_cst_3_apply]
  rfl

/-- Layer 1's product at `(b, n)`: the sum over `k` of the incoming activation at `(b, k)` times the weight's sign at `(n, k)`. -/
theorem dot1 (x0 : (⟨S8192x4096, .f32⟩ : BufTy).Contents (Elt Ideal)) (x1 : (⟨S4096x4096, .f32⟩ : BufTy).Contents (Elt Ideal)) (b : Fin 8192) (n : Fin 4096) :
    val_main_v9 (F := Ideal) x0 x1 (ix2 b n)
      = Spec.lin (fun b k => Spec.pre (x0 (ix2 b k))) (fun n k => Spec.sgn (x1 (ix2 n k))) b n := by
  rw [val_main_v9_apply]
  unfold Spec.lin
  refine Finset.sum_congr rfl fun k _ => ?_
  have el : lidx_main_v9 (ix2 b n) k = ix2 b k := funext fun a => by
    match a with
    | ⟨0, _⟩ => rfl
    | ⟨1, _⟩ => rfl
  have er : ridx_main_v9 (ix2 b n) k = ix2 k n := funext fun a => by
    match a with
    | ⟨0, _⟩ => rfl
    | ⟨1, _⟩ => rfl
  rw [el, er, pre0, sgnT1]

/-- Layer 1's activation at `(b, n)`: the sign of its product. -/
theorem act1 (x0 : (⟨S8192x4096, .f32⟩ : BufTy).Contents (Elt Ideal)) (x1 : (⟨S4096x4096, .f32⟩ : BufTy).Contents (Elt Ideal)) (b : Fin 8192) (n : Fin 4096) :
    val_main_v13 (F := Ideal) x0 x1 (ix2 b n) = Spec.hidden (fun b k => Spec.pre (x0 (ix2 b k))) (fun n k => x1 (ix2 n k)) b n := by
  rw [val_main_v13_apply, val_main_v12_apply, val_main_v11_apply, val_main_v10_apply, val_main_cst_4_apply,
    val_main_call1_v0_apply, val_main_cst_5_apply, val_main_call1_v1_apply, val_main_cst_6_apply, dot1]
  rfl

/-- The transposed sign matrix of layer 2 at `(k, n)` is the sign of the weight at `(n, k)`. -/
theorem sgnT2 (x2 : (⟨S4096x4096, .f32⟩ : BufTy).Contents (Elt Ideal)) (k : Fin 4096) (n : Fin 4096) :
    val_main_v18 (F := Ideal) x2 (ix2 k n) = Spec.sgn (x2 (ix2 n k)) := by
  have e : idx_main_v18 (ix2 k n) = ix2 n k := funext fun a => by
    match a with
    | ⟨0, _⟩ => rfl
    | ⟨1, _⟩ => rfl
  rw [val_main_v18_apply, e, val_main_v17_apply, val_main_v16_apply, val_main_v15_apply, val_main_v14_apply, val_main_cst_7_apply,
    val_main_call2_v0_apply, val_main_cst_8_apply, val_main_call2_v1_apply, val_main_cst_9_apply]
  rfl

/-- Layer 2's product at `(b, n)`: the sum over `k` of the incoming activation at `(b, k)` times the weight's sign at `(n, k)`. -/
theorem dot2 (x0 : (⟨S8192x4096, .f32⟩ : BufTy).Contents (Elt Ideal)) (x1 x2 : (⟨S4096x4096, .f32⟩ : BufTy).Contents (Elt Ideal)) (b : Fin 8192) (n : Fin 4096) :
    val_main_v19 (F := Ideal) x0 x1 x2 (ix2 b n)
      = Spec.lin (Spec.hidden (fun b k => Spec.pre (x0 (ix2 b k))) (fun n k => x1 (ix2 n k))) (fun n k => Spec.sgn (x2 (ix2 n k))) b n := by
  rw [val_main_v19_apply]
  unfold Spec.lin
  refine Finset.sum_congr rfl fun k _ => ?_
  have el : lidx_main_v19 (ix2 b n) k = ix2 b k := funext fun a => by
    match a with
    | ⟨0, _⟩ => rfl
    | ⟨1, _⟩ => rfl
  have er : ridx_main_v19 (ix2 b n) k = ix2 k n := funext fun a => by
    match a with
    | ⟨0, _⟩ => rfl
    | ⟨1, _⟩ => rfl
  rw [el, er, act1, sgnT2]

/-- Layer 2's activation at `(b, n)`: the sign of its product. -/
theorem act2 (x0 : (⟨S8192x4096, .f32⟩ : BufTy).Contents (Elt Ideal)) (x1 x2 : (⟨S4096x4096, .f32⟩ : BufTy).Contents (Elt Ideal)) (b : Fin 8192) (n : Fin 4096) :
    val_main_v23 (F := Ideal) x0 x1 x2 (ix2 b n) = Spec.hidden (Spec.hidden (fun b k => Spec.pre (x0 (ix2 b k))) (fun n k => x1 (ix2 n k))) (fun n k => x2 (ix2 n k)) b n := by
  rw [val_main_v23_apply, val_main_v22_apply, val_main_v21_apply, val_main_v20_apply, val_main_cst_10_apply,
    val_main_call3_v0_apply, val_main_cst_11_apply, val_main_call3_v1_apply, val_main_cst_12_apply, dot2]
  rfl

/-- The transposed sign matrix of layer 3 at `(k, n)` is the sign of the weight at `(n, k)`. -/
theorem sgnT3 (x3 : (⟨S4096x4096, .f32⟩ : BufTy).Contents (Elt Ideal)) (k : Fin 4096) (n : Fin 4096) :
    val_main_v28 (F := Ideal) x3 (ix2 k n) = Spec.sgn (x3 (ix2 n k)) := by
  have e : idx_main_v28 (ix2 k n) = ix2 n k := funext fun a => by
    match a with
    | ⟨0, _⟩ => rfl
    | ⟨1, _⟩ => rfl
  rw [val_main_v28_apply, e, val_main_v27_apply, val_main_v26_apply, val_main_v25_apply, val_main_v24_apply, val_main_cst_13_apply,
    val_main_call4_v0_apply, val_main_cst_14_apply, val_main_call4_v1_apply, val_main_cst_15_apply]
  rfl

/-- Layer 3's product at `(b, n)`: the sum over `k` of the incoming activation at `(b, k)` times the weight's sign at `(n, k)`. -/
theorem dot3 (x0 : (⟨S8192x4096, .f32⟩ : BufTy).Contents (Elt Ideal)) (x1 x2 x3 : (⟨S4096x4096, .f32⟩ : BufTy).Contents (Elt Ideal)) (b : Fin 8192) (n : Fin 4096) :
    val_main_v29 (F := Ideal) x0 x1 x2 x3 (ix2 b n)
      = Spec.lin (Spec.hidden (Spec.hidden (fun b k => Spec.pre (x0 (ix2 b k))) (fun n k => x1 (ix2 n k))) (fun n k => x2 (ix2 n k))) (fun n k => Spec.sgn (x3 (ix2 n k))) b n := by
  rw [val_main_v29_apply]
  unfold Spec.lin
  refine Finset.sum_congr rfl fun k _ => ?_
  have el : lidx_main_v29 (ix2 b n) k = ix2 b k := funext fun a => by
    match a with
    | ⟨0, _⟩ => rfl
    | ⟨1, _⟩ => rfl
  have er : ridx_main_v29 (ix2 b n) k = ix2 k n := funext fun a => by
    match a with
    | ⟨0, _⟩ => rfl
    | ⟨1, _⟩ => rfl
  rw [el, er, act2, sgnT3]

/-- Layer 3's activation at `(b, n)`: the sign of its product. -/
theorem act3 (x0 : (⟨S8192x4096, .f32⟩ : BufTy).Contents (Elt Ideal)) (x1 x2 x3 : (⟨S4096x4096, .f32⟩ : BufTy).Contents (Elt Ideal)) (b : Fin 8192) (n : Fin 4096) :
    val_main_v33 (F := Ideal) x0 x1 x2 x3 (ix2 b n) = Spec.hidden (Spec.hidden (Spec.hidden (fun b k => Spec.pre (x0 (ix2 b k))) (fun n k => x1 (ix2 n k))) (fun n k => x2 (ix2 n k))) (fun n k => x3 (ix2 n k)) b n := by
  rw [val_main_v33_apply, val_main_v32_apply, val_main_v31_apply, val_main_v30_apply, val_main_cst_16_apply,
    val_main_call5_v0_apply, val_main_cst_17_apply, val_main_call5_v1_apply, val_main_cst_18_apply, dot3]
  rfl

/-- The transposed sign matrix of layer 4 (the output layer) at `(k, n)` is the sign of the weight at `(n, k)`. -/
theorem sgnT4 (x4 : (⟨S2x4096, .f32⟩ : BufTy).Contents (Elt Ideal)) (k : Fin 4096) (n : Fin 2) :
    val_main_v38 (F := Ideal) x4 (ix2 k n) = Spec.sgn (x4 (ix2 n k)) := by
  have e : idx_main_v38 (ix2 k n) = ix2 n k := funext fun a => by
    match a with
    | ⟨0, _⟩ => rfl
    | ⟨1, _⟩ => rfl
  rw [val_main_v38_apply, e, val_main_v37_apply, val_main_v36_apply, val_main_v35_apply, val_main_v34_apply, val_main_cst_19_apply,
    val_main_call6_v0_apply, val_main_cst_20_apply, val_main_call6_v1_apply, val_main_cst_21_apply]
  rfl

/-- Layer 4's product at `(b, n)`: the sum over `k` of the incoming activation at `(b, k)` times the weight's sign at `(n, k)`. -/
theorem dot4 (x0 : (⟨S8192x4096, .f32⟩ : BufTy).Contents (Elt Ideal)) (x1 x2 x3 : (⟨S4096x4096, .f32⟩ : BufTy).Contents (Elt Ideal)) (x4 : (⟨S2x4096, .f32⟩ : BufTy).Contents (Elt Ideal)) (b : Fin 8192) (n : Fin 2) :
    val_main_v39 (F := Ideal) x0 x1 x2 x3 x4 (ix2 b n)
      = Spec.lin (Spec.hidden (Spec.hidden (Spec.hidden (fun b k => Spec.pre (x0 (ix2 b k))) (fun n k => x1 (ix2 n k))) (fun n k => x2 (ix2 n k))) (fun n k => x3 (ix2 n k))) (fun n k => Spec.sgn (x4 (ix2 n k))) b n := by
  rw [val_main_v39_apply]
  unfold Spec.lin
  refine Finset.sum_congr rfl fun k _ => ?_
  have el : lidx_main_v39 (ix2 b n) k = ix2 b k := funext fun a => by
    match a with
    | ⟨0, _⟩ => rfl
    | ⟨1, _⟩ => rfl
  have er : ridx_main_v39 (ix2 b n) k = ix2 k n := funext fun a => by
    match a with
    | ⟨0, _⟩ => rfl
    | ⟨1, _⟩ => rfl
  rw [el, er, act3, sgnT4]

/-- The reference's result at `(b, j)` is the specified network's output there. -/
theorem ref_out (x0 : (⟨S8192x4096, .f32⟩ : BufTy).Contents (Elt Ideal)) (x1 x2 x3 : (⟨S4096x4096, .f32⟩ : BufTy).Contents (Elt Ideal)) (x4 : (⟨S2x4096, .f32⟩ : BufTy).Contents (Elt Ideal)) (b : Fin 8192) (j : Fin 2) :
    val_main_v39 (F := Ideal) x0 x1 x2 x3 x4 (ix2 b j)
      = Spec.out (fun b k => x0 (ix2 b k)) (fun n k => x1 (ix2 n k)) (fun n k => x2 (ix2 n k)) (fun n k => x3 (ix2 n k)) (fun n k => x4 (ix2 n k)) b j := by
  rw [dot4]
  rfl

end Cert.RefSpec

end
-- ==== Proof.lean ====
/-
  The certificate of a four-layer sign-quantised network. Both programs compute, on the extended reals,
  `out = sgn(sgn(sgn((2x − 1)·sgn(W1)ᵀ)·sgn(W2)ᵀ)·sgn(W3)ᵀ)·sgn(Wout)ᵀ` with `sgn` sending an entry ≥ 0 to +1 and every
  other entry to −1 (the specification, Proof/Spec.lean). The reference does it with four whole matrix products. The
  kernel computes each layer's output columns in chunks, one region per chunk over 32 row blocks, and concatenates;
  layer 1 splits its left operand `v = 2x − 1` into `v` and the residual `v − v` and adds the two products, which is the
  one product exactly when every input entry is a real number — the precondition. The frames: each kernel program is a
  chain of host operations and nine regions, each region's body run symbolically (Proof/K_Regions.lean,
  Proof/KI_Regions.lean) and the chain run from launch to return (Proof/K_Run.lean, Proof/KI_Run.lean); the reference
  is a line of host operations. The idealisation removed four bf16 round trips of the residual's subtrahend, each the
  identity at the ideal values.
-/
import proofs.«102262_j38096359916038_2_alg».proof.Defs
import proofs.«102262_j38096359916038_2_alg».proof.Proof.Gen.Kernel
import proofs.«102262_j38096359916038_2_alg».proof.Proof.Gen.KernelIdeal
import proofs.«102262_j38096359916038_2_alg».proof.Proof.Gen.ReferenceIdeal
import proofs.«102262_j38096359916038_2_alg».proof.Proof.Gen.Pre_finite_inputs
import proofs.«102262_j38096359916038_2_alg».proof.Proof.K_Run
import proofs.«102262_j38096359916038_2_alg».proof.Proof.KI_Run
import proofs.«102262_j38096359916038_2_alg».proof.Proof.RefRun
import proofs.«102262_j38096359916038_2_alg».proof.Proof.KI_Value
import proofs.«102262_j38096359916038_2_alg».proof.Proof.RefRead
import proofs.«102262_j38096359916038_2_alg».proof.Proof.RefSpec
import Idealize.ShloMosaic.Adequacy
import Idealize.ShloMosaic.Init

noncomputable section

namespace Cert.Proof

open Idealize.ShloMosaic Idealize.SL.Sem

/-- The word-level kernel runs to the end and leaves its five arguments as launched. -/
theorem frame_kernel [Cert.Kernel.Facts] [Cert.Pre_finite_inputs.Facts] : Cert.frame_Kernel :=
  fun m ρ _ => Cert.Kernel.Hand.frame m ρ

/-- So does the idealised kernel. -/
theorem frame_kernelIdeal [Cert.KernelIdeal.Facts] [Cert.Pre_finite_inputs.Facts] : Cert.frame_KernelIdeal :=
  fun m ρ _ => Cert.KernelIdeal.Hand.frame m ρ

/-- The reference is a line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The four rewrites of the idealisation: a round trip f32 → bf16 → f32 is the identity at the ideal values. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- At the ideal values both programs end with the network of the launch arrays in their result buffer: the kernel's
    last region leaves it there (the chunked layers recombined, layer 1's residual product vanishing because every
    input entry is a real number), the reference's four whole products are it term by term; the arguments agree. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => fun i => Cert.Spec.out
      (fun b k => m ((c.tc : Thread Cert.KernelIdeal.nD Cert.KernelIdeal.τ).loc Cert.KernelIdeal.main_arg0) (ValueIdx.ix2 b k))
      (fun n k => m ((c.tc : Thread Cert.KernelIdeal.nD Cert.KernelIdeal.τ).loc Cert.KernelIdeal.main_arg1) (ValueIdx.ix2 n k))
      (fun n k => m ((c.tc : Thread Cert.KernelIdeal.nD Cert.KernelIdeal.τ).loc Cert.KernelIdeal.main_arg2) (ValueIdx.ix2 n k))
      (fun n k => m ((c.tc : Thread Cert.KernelIdeal.nD Cert.KernelIdeal.τ).loc Cert.KernelIdeal.main_arg3) (ValueIdx.ix2 n k))
      (fun n k => m ((c.tc : Thread Cert.KernelIdeal.nD Cert.KernelIdeal.τ).loc Cert.KernelIdeal.main_arg4) (ValueIdx.ix2 n k))
      (i 0) (i 1), ?_, ?_⟩
  · refine (θ_run Cert.KernelIdeal.defs _ _).mono (fun _ h c => ⟨(h c).1.trans ?_, (h c).2⟩) (Cert.KernelIdeal.Hand.run_result m ρ)
    funext i
    obtain ⟨b, j, rfl⟩ : ∃ (b : Fin 8192) (j : Fin 2), i = ValueIdx.ix2 b j := ⟨i 0, i 1, ValueIdx.eq_ix2 i⟩
    exact Cert.KernelIdeal.Hand.result_entry m ρ hpre c b j
  · refine (θ_run Cert.ReferenceIdeal.defs _ _).mono
      (fun _ h c => ⟨(h c).1.trans ((Cert.ReferenceIdeal.ReadP.val_main_v39_eq _ _ _ _ _).trans ?_), (h c).2⟩)
      (Cert.ReferenceIdeal.ValueP.run (F := Ideal) m' ρ')
    funext i
    obtain ⟨b, j, rfl⟩ : ∃ (b : Fin 8192) (j : Fin 2), i = ValueIdx.ix2 b j := ⟨i 0, i 1, ValueIdx.eq_ix2 i⟩
    rw [Cert.RefSpec.ref_out, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
   frame_kernel, frame_kernelIdeal, frame_reference, preserves, algebraic⟩

end Cert.Proof

end
